-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S4096 : Shape := ⟨1, ![4096]⟩
abbrev S8192x4096 : Shape := ⟨2, ![8192, 4096]⟩
abbrev S128x64 : Shape := ⟨2, ![128, 64]⟩
abbrev S64x1 : Shape := ⟨2, ![64, 1]⟩
abbrev S64 : Shape := ⟨1, ![64]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192 : S_.BroadcastsInDim S8192 (![] : Fin 0 → Fin S8192.rank)
  reducesTo_S8192_S_d0 : S8192.ReducesTo [0] S_
  bcast_S_S4096 : S_.BroadcastsInDim S4096 (![] : Fin 0 → Fin S4096.rank)
  reducesTo_S4096_S_d0 : S4096.ReducesTo [0] S_
  bcast_S_S8192x4096 : S_.BroadcastsInDim S8192x4096 (![] : Fin 0 → Fin S8192x4096.rank)
  reducesTo_S8192x4096_S_d0_1 : S8192x4096.ReducesTo [0, 1] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S4096 .f32) (main_arg5 : FVec F S128x64 .f32) (main_arg6 : FVec F S64x1 .f32) (main_arg7 : FVec F S64 .f32) (main_arg8 : FVec F S64 .f32) (main_v13 : IVec S_ 1) (main_v16 : IVec S8192x4096 1) : IVec S_ 1 :=
  let main_c_5 : IVec S_ 1 := constantI S_ 1 1#1
  let main_v17 : IVec S_ 1 := (fun x v => Host.reduce IntOp.andi x v reducesTo_S8192x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg7 main_arg8 main_v33

def fn {F : FTy → Type} [FloatOps F] (main_arg0 : FVec F S8192x128 .f32) (main_arg1 : FVec F S8192 .f32) (main_arg2 : FVec F S4096 .f32) (main_arg3 : FVec F S8192x4096 .f32) (main_arg4 : FVec F S4096 .f32) (main_arg5 : FVec F S128x64 .f32) (main_arg6 : FVec F S64x1 .f32) (main_arg7 : FVec F S64 .f32) (main_arg8 : FVec F S64 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8192x4096 .f32 := Host.absf main_arg3
  let main_cst_4 : FVec F S_ .f32 := constant S_ .f32 0x7F800000#32
  let main_v15 : FVec F S8192x4096 .f32 := broadcastInDim S8192x4096 ![] bcast_S_S8192x4096 main_cst_4
  let main_v16 : IVec S8192x4096 1 := cmpf .olt main_v14 main_v15
  fn_part1 (F := F) main_arg4 main_arg5 main_arg6 main_arg7 main_arg8 main_v13 main_v16
-- ==== Kernel.lean ====
abbrev S8192x128 : Shape := ⟨2, ![8192, 128]⟩
abbrev S8192 : Shape := ⟨1, ![8192]⟩
abbrev S4096 : Shape := ⟨1, ![4096]⟩
abbrev S8192x4096 : Shape := ⟨2, ![8192, 4096]⟩
abbrev S128x64 : Shape := ⟨2, ![128, 64]⟩
abbrev S64x1 : Shape := ⟨2, ![64, 1]⟩
abbrev S64 : Shape := ⟨1, ![64]⟩
abbrev S8192x1 : Shape := ⟨2, ![8192, 1]⟩
abbrev S1x4096 : Shape := ⟨2, ![1, 4096]⟩
abbrev S8192x64 : Shape := ⟨2, ![8192, 64]⟩
abbrev S4096x64 : Shape := ⟨2, ![4096, 64]⟩
abbrev S2048x2048 : Shape := ⟨2, ![2048, 2048]⟩
abbrev S2048x1 : Shape := ⟨2, ![2048, 1]⟩
abbrev S2048x64 : Shape := ⟨2, ![2048, 64]⟩
abbrev S2048x1024 : Shape := ⟨2, ![2048, 1024]⟩
abbrev S1x1024 : Shape := ⟨2, ![1, 1024]⟩
abbrev S1024x64 : Shape := ⟨2, ![1024, 64]⟩
abbrev S_ : Shape := ⟨0, ![]⟩
abbrev S1x64 : Shape := ⟨2, ![1, 64]⟩
abbrev S4096x1 : Shape := ⟨2, ![4096, 1]⟩
abbrev S1024x1 : Shape := ⟨2, ![1024, 1]⟩

abbrev nBuf : Space → Nat
  | .hbm => 80
  | .vmem => 40
  | .smem => 0
  | _ => 0

abbrev bufTy : (tb : Table) → Fin (tcTables nBuf tb) → BufTy
  | .hbm, ⟨0, _⟩ => ⟨S8192x128, .f32⟩
  | .hbm, ⟨1, _⟩ => ⟨S8192, .f32⟩
  | .hbm, ⟨2, _⟩ => ⟨S4096, .f32⟩
  | .hbm, ⟨3, _⟩ => ⟨S8192x4096, .f32⟩
  | .hbm, ⟨4, _⟩ => ⟨S4096, .f32⟩
  | .hbm, ⟨5, _⟩ => ⟨S128x64, .f32⟩
  | .hbm, ⟨6, _⟩ => ⟨S64x1, .f32⟩
  | .hbm, ⟨7, _⟩ => ⟨S64, .f32⟩
  | .hbm, ⟨8, _⟩ => ⟨S64, .f32⟩
  | .hbm, ⟨9, _⟩ => ⟨S8192x4096, .bf16⟩
  | .hbm, ⟨10, _⟩ => ⟨S8192x1, .f32⟩
  | .hbm, ⟨11, _⟩ => ⟨S4096, .f32⟩
  | .hbm, ⟨12, _⟩ => ⟨S1x4096, .f32⟩
  | .hbm, ⟨13, _⟩ => ⟨S8192x64, .f32⟩
  | .hbm, ⟨14, _⟩ => ⟨S4096x64, .f32⟩
  | .hbm, ⟨15, _⟩ => ⟨S8192x64, .f32⟩
  | .hbm, ⟨16, _⟩ => ⟨S_, .f32⟩
  | .hbm, ⟨17, _⟩ => ⟨S_, .f32⟩
  | .hbm, ⟨18, _⟩ => ⟨S8192x64, .f32⟩
  | .hbm, ⟨19, _⟩ => ⟨S8192x64, .i1⟩
  | .hbm, ⟨20, _⟩ => ⟨S_, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S_, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .i32⟩
  | .hbm, ⟨30, _⟩ => ⟨S_, .f32⟩
  | .hbm, ⟨31, _⟩ => ⟨S64, .f32⟩
  | .hbm, ⟨32, _⟩ => ⟨S1x64, .f32⟩
  | .hbm, ⟨33, _⟩ => ⟨S_, .f32⟩
  | .hbm, ⟨34, _⟩ => ⟨S1x64, .f32⟩
  | .hbm, ⟨35, _⟩ => ⟨S1x64, .f32⟩
  | .hbm, ⟨36, _⟩ => ⟨S8192x64, .f32⟩
  | .hbm, ⟨37, _⟩ => ⟨S8192x64, .f32⟩
  | .hbm, ⟨38, _⟩ => ⟨S8192x64, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S_, .i1⟩
  | .hbm, ⟨48, _⟩ => ⟨S_, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S1x64, .f32⟩
  | .hbm, ⟨53, _⟩ => ⟨S8192x64, .f32⟩
  | .hbm, ⟨54, _⟩ => ⟨S8192x64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S1x64, .f32⟩
  | .hbm, ⟨60, _⟩ => ⟨S8192x64, .f32⟩
  | .hbm, ⟨61, _⟩ => ⟨S8192x64, .f32⟩
  | .hbm, ⟨62, _⟩ => ⟨S1x64, .f32⟩
  | .hbm, ⟨63, _⟩ => ⟨S8192x64, .f32⟩
  | .hbm, ⟨64, _⟩ => ⟨S8192x64, .f32⟩
  | .hbm, ⟨65, _⟩ => ⟨S1x64, .f32⟩
  | .hbm, ⟨66, _⟩ => ⟨S8192x64, .f32⟩
  | .hbm, ⟨67, _⟩ => ⟨S8192x64, .f32⟩
  | .hbm, ⟨68, _⟩ => ⟨S8192x1, .f32⟩
  | .hbm, ⟨69, _⟩ => ⟨S4096x1, .f32⟩
  | .hbm, ⟨70, _⟩ => ⟨S8192x1, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S8192, .f32⟩
  | .local _ .vmem, ⟨0, _⟩ => ⟨S2048x2048, .bf16⟩
  | .local _ .vmem, ⟨1, _⟩ => ⟨S2048x2048, .bf16⟩
  | .local _ .vmem, ⟨2, _⟩ => ⟨S2048x1, .f32⟩
  | .local _ .vmem, ⟨3, _⟩ => ⟨S2048x1, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S2048x1024, .bf16⟩
  | .local _ .vmem, ⟨10, _⟩ => ⟨S2048x1024, .bf16⟩
  | .local _ .vmem, ⟨11, _⟩ => ⟨S2048x1, .f32⟩
  | .local _ .vmem, ⟨12, _⟩ => ⟨S2048x1, .f32⟩
  | .local _ .vmem, ⟨13, _⟩ => ⟨S1x1024, .f32⟩
  | .local _ .vmem, ⟨14, _⟩ => ⟨S1x1024, .f32⟩
  | .local _ .vmem, ⟨15, _⟩ => ⟨S1024x64, .f32⟩
  | .local _ .vmem, ⟨16, _⟩ => ⟨S1024x64, .f32⟩
  | .local _ .vmem, ⟨17, _⟩ => ⟨S2048x64, .f32⟩
  | .local _ .vmem, ⟨18, _⟩ => ⟨S2048x64, .f32⟩
  | .local _ .vmem, ⟨19, _⟩ => ⟨S2048x64, .f32⟩
  | .local _ .vmem, ⟨20, _⟩ => ⟨S2048x2048, .bf16⟩
  | .local _ .vmem, ⟨21, _⟩ => ⟨S2048x2048, .bf16⟩
  | .local _ .vmem, ⟨22, _⟩ => ⟨S2048x1, .f32⟩
  | .local _ .vmem, ⟨23, _⟩ => ⟨S2048x1, .f32⟩
  | .local _ .vmem, ⟨24, _⟩ => ⟨S2048x1, .f32⟩
  | .local _ .vmem, ⟨25, _⟩ => ⟨S2048x1, .f32⟩
  | .local _ .vmem, ⟨26, _⟩ => ⟨S2048x1, .f32⟩
  | .local _ .vmem, ⟨27, _⟩ => ⟨S2048x1, .f32⟩
  | .local _ .vmem, ⟨28, _⟩ => ⟨S2048x1, .f32⟩
  | .local _ .vmem, ⟨29, _⟩ => ⟨S2048x1024, .bf16⟩
  | .local _ .vmem, ⟨30, _⟩ => ⟨S2048x1024, .bf16⟩
  | .local _ .vmem, ⟨31, _⟩ => ⟨S2048x1, .f32⟩
  | .local _ .vmem, ⟨32, _⟩ => ⟨S2048x1, .f32⟩
  | .local _ .vmem, ⟨33, _⟩ => ⟨S1x1024, .f32⟩
  | .local _ .vmem, ⟨34, _⟩ => ⟨S1x1024, .f32⟩
  | .local _ .vmem, ⟨35, _⟩ => ⟨S1024x1, .f32⟩
  | .local _ .vmem, ⟨36, _⟩ => ⟨S1024x1, .f32⟩
  | .local _ .vmem, ⟨37, _⟩ => ⟨S2048x1, .f32⟩
  | .local _ .vmem, ⟨38, _⟩ => ⟨S2048x1, .f32⟩
  | .local _ .vmem, ⟨39, _⟩ => ⟨S2048x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_call1_cst : Ref sig .tc := ⟨.hbm, 30, rfl⟩
abbrev main_call1_v0 : Ref sig .tc := ⟨.hbm, 31, rfl⟩
abbrev main_call1_v1 : Ref sig .tc := ⟨.hbm, 32, rfl⟩
abbrev main_call1_cst_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_cst_1 : Ref sig .tc := ⟨.hbm, 40, rfl⟩
abbrev main_call1_v8 : Ref sig .tc := ⟨.hbm, 41, rfl⟩
abbrev main_call1_cst_2 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_cst_3 : Ref sig .tc := ⟨.hbm, 46, rfl⟩
abbrev main_call1_v12 : Ref sig .tc := ⟨.hbm, 47, rfl⟩
abbrev main_call1_cst_4 : Ref sig .tc := ⟨.hbm, 48, rfl⟩
abbrev main_call1_call0_v0 : Ref sig .tc := ⟨.hbm, 49, rfl⟩
abbrev main_call1_call0_v1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_2 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_cst_3 : Ref sig .tc := ⟨.hbm, 73, rfl⟩
abbrev main_v32 : Ref sig .tc := ⟨.hbm, 74, rfl⟩
abbrev main_v33 : Ref sig .tc := ⟨.hbm, 75, rfl⟩
abbrev main_cst_4 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_scratch0 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_stg4_1 : Ref sig .tc := ⟨.vmem, 38, rfl⟩
abbrev cc3_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S2048x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2048x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S2048x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

class Facts₀ : Prop where
  bitsLt_bf16_f32 : FTy.bits .bf16 < FTy.bits .f32
  bcast_S8192_S8192x1_0 : S8192.BroadcastsInDim S8192x1 (![0] : Fin 1 → Fin S8192x1.rank)
  bcast_S4096_S1x4096_1 : S4096.BroadcastsInDim S1x4096 (![1] : Fin 1 → Fin S1x4096.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x64 : S2048x1.Broadcasts S2048x64
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  broadcasts_S2048x1_S2048x1024 : S2048x1.Broadcasts S2048x1024
  broadcasts_S1x1024_S2048x1024 : S1x1024.Broadcasts S2048x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bcast_S_S8192x64 : S_.BroadcastsInDim S8192x64 (![] : Fin 0 → Fin S8192x64.rank)
  reducesTo_S8192x64_S64_d0 : S8192x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S8192x64_0_1 : S1x64.BroadcastsInDim S8192x64 (![0, 1] : Fin 2 → Fin S8192x64.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  bcast_S_S8192x1 : S_.BroadcastsInDim S8192x1 (![] : Fin 0 → Fin S8192x1.rank)
  shapeCasts_S8192x1_S8192 : S8192x1.ShapeCasts S8192
  dot_S8192x128_S128x64_S8192x64_1_0_0_1_n_n_wf : DotDims.WF S8192x128 S128x64 S8192x64 [1] [0] [0] [1] [] []
  dot_S2048x2048_S2048x64_S2048x64_0_0_1_1_n_n_wf : DotDims.WF S2048x2048 S2048x64 S2048x64 [0] [0] [1] [1] [] []
  dot_S2048x1024_S1024x64_S2048x64_1_0_0_1_n_n_wf : DotDims.WF S2048x1024 S1024x64 S2048x64 [1] [0] [0] [1] [] []
  dot_S8192x64_S64x1_S8192x1_1_0_0_1_n_n_wf : DotDims.WF S8192x64 S64x1 S8192x1 [1] [0] [0] [1] [] []
  dot_S2048x2048_S2048x1_S2048x1_0_0_1_1_n_n_wf : DotDims.WF S2048x2048 S2048x1 S2048x1 [0] [0] [1] [1] [] []
  dot_S2048x1024_S1024x1_S2048x1_1_0_0_1_n_n_wf : DotDims.WF S2048x1024 S1024x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x4096.size a
  hwx0_0 : ∀ i : grid0.Coords, EltTy.bits .bf16 = 32 ∨ (Rect.block (s := S8192x4096) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S8192x1.size a
  hwx0_1 : ∀ i : grid0.Coords, EltTy.bits .f32 = 32 ∨ (Rect.block (s := S8192x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S8192x64.size a
  hwx0_2 : ∀ i : grid0.Coords, EltTy.bits .f32 = 32 ∨ (Rect.block (s := S8192x64) S2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S4096x64.size a
  hwx0_3 : ∀ i : grid0.Coords, EltTy.bits .f32 = 32 ∨ (Rect.block (s := S4096x64) S2048x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x4096.size a
  hwx1_0 : ∀ i : grid1.Coords, EltTy.bits .bf16 = 32 ∨ (Rect.block (s := S8192x4096) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S8192x1.size a
  hwx1_1 : ∀ i : grid1.Coords, EltTy.bits .f32 = 32 ∨ (Rect.block (s := S8192x1) S2048x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S4096x64.size a
  hwx1_3 : ∀ i : grid1.Coords, EltTy.bits .f32 = 32 ∨ (Rect.block (s := S4096x64) S1024x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x64.size a ≤ S8192x64.size a
  hwx1_4 : ∀ i : grid1.Coords, EltTy.bits .f32 = 32 ∨ (Rect.block (s := S8192x64) S2048x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S8192x4096.size a
  hwx2_0 : ∀ i : grid2.Coords, EltTy.bits .bf16 = 32 ∨ (Rect.block (s := S8192x4096) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S8192x1.size a
  hwx2_1 : ∀ i : grid2.Coords, EltTy.bits .f32 = 32 ∨ (Rect.block (s := S8192x1) S2048x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S8192x1.size a
  hwx2_2 : ∀ i : grid2.Coords, EltTy.bits .f32 = 32 ∨ (Rect.block (s := S8192x1) S2048x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1.size a ≤ S4096x1.size a
  hwx2_3 : ∀ i : grid2.Coords, EltTy.bits .f32 = 32 ∨ (Rect.block (s := S4096x1) S2048x1.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S8192x4096.size a
  hwx3_0 : ∀ i : grid3.Coords, EltTy.bits .bf16 = 32 ∨ (Rect.block (s := S8192x4096) S2048x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x1.size a ≤ S8192x1.size a
  hwx3_1 : ∀ i : grid3.Coords, EltTy.bits .f32 = 32 ∨ (Rect.block (s := S8192x1) S2048x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x4096.size a
  hwx3_2 : ∀ i : grid3.Coords, EltTy.bits .f32 = 32 ∨ (Rect.block (s := S1x4096) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1.size a ≤ S4096x1.size a
  hwx3_3 : ∀ i : grid3.Coords, EltTy.bits .f32 = 32 ∨ (Rect.block (s := S4096x1) S1024x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x1.size a ≤ S8192x1.size a
  hwx3_4 : ∀ i : grid3.Coords, EltTy.bits .f32 = 32 ∨ (Rect.block (s := S8192x1) S2048x1.size (cc3_transform_4 i) (hinb3_4 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S2048x2048_S2048x64_S2048x64_0_0_1_1_n_n : DotDims S2048x2048 S2048x64 S2048x64 where
  lhsContracting := [0]
  rhsContracting := [0]
  lhsNonContracting := [1]
  rhsNonContracting := [1]
  lhsBatch := []
  rhsBatch := []
  wf := dot_S2048x2048_S2048x64_S2048x64_0_0_1_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S2048x2048_S2048x1_S2048x1_0_0_1_1_n_n : DotDims S2048x2048 S2048x1 S2048x1 where
  lhsContracting := [0]
  rhsContracting := [0]
  lhsNonContracting := [1]
  rhsNonContracting := [1]
  lhsBatch := []
  rhsBatch := []
  wf := dot_S2048x2048_S2048x1_S2048x1_0_0_1_1_n_n_wf
def dot_S2048x1024_S1024x1_S2048x1_1_0_0_1_n_n : DotDims S2048x1024 S1024x1 S2048x1 where
  lhsContracting := [1]
  rhsContracting := [0]
  lhsNonContracting := [0]
  rhsNonContracting := [1]
  lhsBatch := []
  rhsBatch := []
  wf := dot_S2048x1024_S1024x1_S2048x1_1_0_0_1_n_n_wf

abbrev win0_0 : Pipeline.Window sig grid0 :=
  Pipeline.Window.ofSpec (Memref.whole main_v0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S2048x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v0) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2048x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S2048x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v0) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S2048x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v28) S1024x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v29) S2048x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S8192x128 : Shape := ⟨2, ![8192, 128]⟩
abbrev S8192 : Shape := ⟨1, ![8192]⟩
abbrev S4096 : Shape := ⟨1, ![4096]⟩
abbrev S8192x4096 : Shape := ⟨2, ![8192, 4096]⟩
abbrev S128x64 : Shape := ⟨2, ![128, 64]⟩
abbrev S64x1 : Shape := ⟨2, ![64, 1]⟩
abbrev S64 : Shape := ⟨1, ![64]⟩
abbrev S8192x1 : Shape := ⟨2, ![8192, 1]⟩
abbrev S1x4096 : Shape := ⟨2, ![1, 4096]⟩
abbrev S8192x64 : Shape := ⟨2, ![8192, 64]⟩
abbrev S4096x8192 : Shape := ⟨2, ![4096, 8192]⟩
abbrev S4096x64 : Shape := ⟨2, ![4096, 64]⟩
abbrev S_ : Shape := ⟨0, ![]⟩
abbrev S1x64 : Shape := ⟨2, ![1, 64]⟩
abbrev S4096x1 : Shape := ⟨2, ![4096, 1]⟩

abbrev nBuf : Space → Nat
  | .hbm => 90
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .f32⟩
  | .hbm, ⟨2, _⟩ => ⟨S4096, .f32⟩
  | .hbm, ⟨3, _⟩ => ⟨S8192x4096, .f32⟩
  | .hbm, ⟨4, _⟩ => ⟨S4096, .f32⟩
  | .hbm, ⟨5, _⟩ => ⟨S128x64, .f32⟩
  | .hbm, ⟨6, _⟩ => ⟨S64x1, .f32⟩
  | .hbm, ⟨7, _⟩ => ⟨S64, .f32⟩
  | .hbm, ⟨8, _⟩ => ⟨S64, .f32⟩
  | .hbm, ⟨9, _⟩ => ⟨S8192x1, .f32⟩
  | .hbm, ⟨10, _⟩ => ⟨S8192x4096, .f32⟩
  | .hbm, ⟨11, _⟩ => ⟨S8192x4096, .f32⟩
  | .hbm, ⟨12, _⟩ => ⟨S4096, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S8192x64, .f32⟩
  | .hbm, ⟨17, _⟩ => ⟨S4096x8192, .f32⟩
  | .hbm, ⟨18, _⟩ => ⟨S8192x1, .f32⟩
  | .hbm, ⟨19, _⟩ => ⟨S8192x64, .f32⟩
  | .hbm, ⟨20, _⟩ => ⟨S8192x64, .f32⟩
  | .hbm, ⟨21, _⟩ => ⟨S4096x64, .f32⟩
  | .hbm, ⟨22, _⟩ => ⟨S8192x64, .f32⟩
  | .hbm, ⟨23, _⟩ => ⟨S_, .f32⟩
  | .hbm, ⟨24, _⟩ => ⟨S_, .f32⟩
  | .hbm, ⟨25, _⟩ => ⟨S8192x64, .f32⟩
  | .hbm, ⟨26, _⟩ => ⟨S8192x64, .i1⟩
  | .hbm, ⟨27, _⟩ => ⟨S_, .f32⟩
  | .hbm, ⟨28, _⟩ => ⟨S8192x64, .f32⟩
  | .hbm, ⟨29, _⟩ => ⟨S8192x64, .f32⟩
  | .hbm, ⟨30, _⟩ => ⟨S8192x64, .f32⟩
  | .hbm, ⟨31, _⟩ => ⟨S_, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S_, .i32⟩
  | .hbm, ⟨37, _⟩ => ⟨S_, .f32⟩
  | .hbm, ⟨38, _⟩ => ⟨S64, .f32⟩
  | .hbm, ⟨39, _⟩ => ⟨S1x64, .f32⟩
  | .hbm, ⟨40, _⟩ => ⟨S_, .f32⟩
  | .hbm, ⟨41, _⟩ => ⟨S1x64, .f32⟩
  | .hbm, ⟨42, _⟩ => ⟨S1x64, .f32⟩
  | .hbm, ⟨43, _⟩ => ⟨S8192x64, .f32⟩
  | .hbm, ⟨44, _⟩ => ⟨S8192x64, .f32⟩
  | .hbm, ⟨45, _⟩ => ⟨S8192x64, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S64, .f32⟩
  | .hbm, ⟨53, _⟩ => ⟨S_, .f32⟩
  | .hbm, ⟨54, _⟩ => ⟨S_, .i1⟩
  | .hbm, ⟨55, _⟩ => ⟨S_, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S1x64, .f32⟩
  | .hbm, ⟨60, _⟩ => ⟨S8192x64, .f32⟩
  | .hbm, ⟨61, _⟩ => ⟨S8192x64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S1x64, .f32⟩
  | .hbm, ⟨67, _⟩ => ⟨S8192x64, .f32⟩
  | .hbm, ⟨68, _⟩ => ⟨S8192x64, .f32⟩
  | .hbm, ⟨69, _⟩ => ⟨S1x64, .f32⟩
  | .hbm, ⟨70, _⟩ => ⟨S8192x64, .f32⟩
  | .hbm, ⟨71, _⟩ => ⟨S8192x64, .f32⟩
  | .hbm, ⟨72, _⟩ => ⟨S1x64, .f32⟩
  | .hbm, ⟨73, _⟩ => ⟨S8192x64, .f32⟩
  | .hbm, ⟨74, _⟩ => ⟨S8192x64, .f32⟩
  | .hbm, ⟨75, _⟩ => ⟨S8192x1, .f32⟩
  | .hbm, ⟨76, _⟩ => ⟨S4096x8192, .f32⟩
  | .hbm, ⟨77, _⟩ => ⟨S8192x1, .f32⟩
  | .hbm, ⟨78, _⟩ => ⟨S8192x1, .f32⟩
  | .hbm, ⟨79, _⟩ => ⟨S4096x1, .f32⟩
  | .hbm, ⟨80, _⟩ => ⟨S8192x1, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_cst_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_cst_1 : Ref sig .tc := ⟨.hbm, 47, rfl⟩
abbrev main_call1_v8 : Ref sig .tc := ⟨.hbm, 48, rfl⟩
abbrev main_call1_cst_2 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_cst_3 : Ref sig .tc := ⟨.hbm, 53, rfl⟩
abbrev main_call1_v12 : Ref sig .tc := ⟨.hbm, 54, rfl⟩
abbrev main_call1_cst_4 : Ref sig .tc := ⟨.hbm, 55, rfl⟩
abbrev main_call1_call0_v0 : Ref sig .tc := ⟨.hbm, 56, rfl⟩
abbrev main_call1_call0_v1 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_2 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_3 : Ref sig .tc := ⟨.hbm, 83, rfl⟩
abbrev main_v42 : Ref sig .tc := ⟨.hbm, 84, rfl⟩
abbrev main_v43 : Ref sig .tc := ⟨.hbm, 85, rfl⟩
abbrev main_cst_4 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  transposes_S8192x4096_S4096x8192_1_0 : S8192x4096.Transposes [1, 0] S4096x8192
  bcast_S8192x1_S8192x64_0_1 : S8192x1.BroadcastsInDim S8192x64 (![0, 1] : Fin 2 → Fin S8192x64.rank)
  bcast_S_S8192x64 : S_.BroadcastsInDim S8192x64 (![] : Fin 0 → Fin S8192x64.rank)
  reducesTo_S8192x64_S64_d0 : S8192x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S8192x64_0_1 : S1x64.BroadcastsInDim S8192x64 (![0, 1] : Fin 2 → Fin S8192x64.rank)
  bcast_S_S8192x1 : S_.BroadcastsInDim S8192x1 (![] : Fin 0 → Fin S8192x1.rank)
  shapeCasts_S8192x1_S8192 : S8192x1.ShapeCasts S8192
  dot_S8192x128_S128x64_S8192x64_1_0_0_1_n_n_wf : DotDims.WF S8192x128 S128x64 S8192x64 [1] [0] [0] [1] [] []
  dot_S4096x8192_S8192x64_S4096x64_1_0_0_1_n_n_wf : DotDims.WF S4096x8192 S8192x64 S4096x64 [1] [0] [0] [1] [] []
  dot_S8192x4096_S4096x64_S8192x64_1_0_0_1_n_n_wf : DotDims.WF S8192x4096 S4096x64 S8192x64 [1] [0] [0] [1] [] []
  dot_S8192x64_S64x1_S8192x1_1_0_0_1_n_n_wf : DotDims.WF S8192x64 S64x1 S8192x1 [1] [0] [0] [1] [] []
  dot_S4096x8192_S8192x1_S4096x1_1_0_0_1_n_n_wf : DotDims.WF S4096x8192 S8192x1 S4096x1 [1] [0] [0] [1] [] []
  dot_S8192x4096_S4096x1_S8192x1_1_0_0_1_n_n_wf : DotDims.WF S8192x4096 S4096x1 S8192x1 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S4096x8192_S8192x64_S4096x64_1_0_0_1_n_n : DotDims S4096x8192 S8192x64 S4096x64 where
  lhsContracting := [1]
  rhsContracting := [0]
  lhsNonContracting := [0]
  rhsNonContracting := [1]
  lhsBatch := []
  rhsBatch := []
  wf := dot_S4096x8192_S8192x64_S4096x64_1_0_0_1_n_n_wf
def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S4096x8192_S8192x1_S4096x1_1_0_0_1_n_n : DotDims S4096x8192 S8192x1 S4096x1 where
  lhsContracting := [1]
  rhsContracting := [0]
  lhsNonContracting := [0]
  rhsNonContracting := [1]
  lhsBatch := []
  rhsBatch := []
  wf := dot_S4096x8192_S8192x1_S4096x1_1_0_0_1_n_n_wf
def dot_S8192x4096_S4096x1_S8192x1_1_0_0_1_n_n : DotDims S8192x4096 S4096x1 S8192x1 where
  lhsContracting := [1]
  rhsContracting := [0]
  lhsNonContracting := [0]
  rhsNonContracting := [1]
  lhsBatch := []
  rhsBatch := []
  wf := dot_S8192x4096_S4096x1_S8192x1_1_0_0_1_n_n_wf

class Facts : Prop extends Facts₀ where

variable [Facts]
-- ==== Proof.KReg0.lean ====
/-
  Region 0: the first matrix product of the first propagation, M = Hᵀ · (Dv ⊙ I), computed block by block.
  The grid is 2 × 4: coordinate 0 picks a block of 2048 columns of H (rows of M), coordinate 1 runs over the four
  blocks of 2048 rows of H, the contracted axis. A scratch accumulator of the block's shape is carried between
  points: at coordinate 1 = 0 it is zeroed, at every point the product of the point's blocks is added to it, and
  the output window's buffer is overwritten with the accumulator. This module states what the accumulator and the
  output buffer hold after each point (by recursion on the point) and proves the body obligation of the pipeline
  against it, for any contents `V` the region is entered from and at any float instance.
-/
import proofs.«179498_j53352083751414_2_alg».proof.Proof.Gen.Kernel.Launch
import proofs.«179498_j53352083751414_2_alg».proof.Proof.Gen.Kernel.Skeleton
import proofs.«179498_j53352083751414_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's one branch: is the contracted axis at its first block? -/

/-- The body's branch condition, from the grid coordinates. -/
abbrev cond0_0 (i : grid0.Coords) : Prop := (Scalar.cmpi .ne (Scalar.extui (Scalar.cmpi .eq (BitVec.ofNat 32 (i 1).val) 0#32)) 0#32) = 1#1
/-- It holds exactly at the points whose position is a multiple of 4 (coordinate 1 is the position modulo 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- No window is ever idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The memrefs the body is called with -/

abbrev VO0_3 : View sig .tc .vmem S2048x64 .f32 := (Memref.whole cc0_stg3_0 : Memref sig .tc .vmem S2048x64 .f32).view
abbrev ms0_0 (t : Fin cfg0.N) : Memref sig .tc .vmem S2048x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x64 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S2048x64 .f32 := Memref.whole cc0_scratch0
abbrev VS0_0 : View sig .tc .vmem S2048x64 .f32 := scM0_0.view

/-- The class invariant with the accumulator split out of the scoped rest. -/
theorem PhiA0_eq (c : Dev nD) :
    (Pipeline.ΦA spec0 c : sProp 𝕄)
      = iprop(iprop((∃ d, owns (c : Thread nD τ) scM0_0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; rfl

/-! ## The body's triple, case by case -/

set_option maxHeartbeats 1000000 in
/-- FIRST BLOCK of the contracted axis: the accumulator, at anything, is zeroed and the product added; the pieces the
    stores leave in the output buffer and in the accumulator are the witness the run finds. -/
noncomputable def kernelRun0_A (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hc0 : cond0_0 i)
    (x0 : Vec F S2048x2048 .bf16) (x1 : Vec F S2048x1 .f32) (x2 : Vec F S2048x64 .f32) :
    Σ' (L3 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc0__matmulT_kernel i arg2 harg2 arg3 harg3 arg4 harg4 arg5 harg5 arg6 harg6) K } := by
  refine ⟨?_, ?_, fun E K => ?run⟩
  case run =>
    simp only [cc0__matmulT_kernel_eq_skeleton]; unfold cc0__matmulT_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

set_option maxHeartbeats 1000000 in
/-- A LATER BLOCK: the accumulator at what the point before left (`xs0`) has the product added. -/
noncomputable def kernelRun0_B (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i)
    (x0 : Vec F S2048x2048 .bf16) (x1 : Vec F S2048x1 .f32) (x2 : Vec F S2048x64 .f32) (xs0 : Vec F S2048x64 .f32) :
    Σ' (L3 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc0__matmulT_kernel i arg2 harg2 arg3 harg3 arg4 harg4 arg5 harg5 arg6 harg6) K } := by
  refine ⟨?_, ?_, fun E K => ?run⟩
  case run =>
    simp only [cc0__matmulT_kernel_eq_skeleton]; unfold cc0__matmulT_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KReg0Dat.lean ====
/-
  Region 0, continued: what the accumulator and the output buffer hold after each grid point, by recursion on the
  point (zeroed and restarted at every first block of the contracted axis, added to at the later blocks); the
  pipeline's proof data built on it; and the body obligation at every point.
-/
import proofs.«179498_j53352083751414_2_alg».proof.Proof.KReg0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves: its pieces cover the buffers, and are read back -/

/-- At a first block the stores into the output buffer cover it. -/
theorem cover0_A_3 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (x0 : Vec F S2048x2048 .bf16) (x1 : Vec F S2048x1 .f32) (x2 : Vec F S2048x64 .f32) (y : S2048x64.Idx) :
    ∃ pc ∈ (kernelRun0_A c i arg2 harg2 arg3 harg3 arg4 harg4 arg5 harg5 arg6 harg6 hc0 x0 x1 x2).1, y ∈ pc.1.set :=
  View.cover_of_tiledL (kernelRun0_A c i arg2 harg2 arg3 harg3 arg4 harg4 arg5 harg5 arg6 harg6 hc0 x0 x1 x2).1 S2048x64.size (by sl_kernel_rfl) y
/-- What a first block leaves in the output buffer. -/
def out0_A_3 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (x0 : Vec F S2048x2048 .bf16) (x1 : Vec F S2048x1 .f32) (x2 : Vec F S2048x64 .f32) : Vec F S2048x64 .f32 :=
  VO0_3.read (Elt F) (VO0_3.writes (Elt F) VO0_3.junk (kernelRun0_A c i arg2 harg2 arg3 harg3 arg4 harg4 arg5 harg5 arg6 harg6 hc0 x0 x1 x2).1)
/-- At a first block the stores into the accumulator cover it. -/
theorem scover0_A_0 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (x0 : Vec F S2048x2048 .bf16) (x1 : Vec F S2048x1 .f32) (x2 : Vec F S2048x64 .f32) (y : S2048x64.Idx) :
    ∃ pc ∈ (kernelRun0_A c i arg2 harg2 arg3 harg3 arg4 harg4 arg5 harg5 arg6 harg6 hc0 x0 x1 x2).2.1, y ∈ pc.1.set :=
  View.cover_of_tiledL (kernelRun0_A c i arg2 harg2 arg3 harg3 arg4 harg4 arg5 harg5 arg6 harg6 hc0 x0 x1 x2).2.1 S2048x64.size (by sl_kernel_rfl) y
/-- What a first block leaves in the accumulator. -/
def sout0_A_0 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (x0 : Vec F S2048x2048 .bf16) (x1 : Vec F S2048x1 .f32) (x2 : Vec F S2048x64 .f32) : Vec F S2048x64 .f32 :=
  VS0_0.read (Elt F) (VS0_0.writes (Elt F) VS0_0.junk (kernelRun0_A c i arg2 harg2 arg3 harg3 arg4 harg4 arg5 harg5 arg6 harg6 hc0 x0 x1 x2).2.1)

theorem cover0_B_3 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (x0 : Vec F S2048x2048 .bf16) (x1 : Vec F S2048x1 .f32) (x2 : Vec F S2048x64 .f32) (xs0 : Vec F S2048x64 .f32) (y : S2048x64.Idx) :
    ∃ pc ∈ (kernelRun0_B c i arg2 harg2 arg3 harg3 arg4 harg4 arg5 harg5 arg6 harg6 hc0 x0 x1 x2 xs0).1, y ∈ pc.1.set :=
  View.cover_of_tiledL (kernelRun0_B c i arg2 harg2 arg3 harg3 arg4 harg4 arg5 harg5 arg6 harg6 hc0 x0 x1 x2 xs0).1 S2048x64.size (by sl_kernel_rfl) y
/-- What a later block leaves in the output buffer. -/
def out0_B_3 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (x0 : Vec F S2048x2048 .bf16) (x1 : Vec F S2048x1 .f32) (x2 : Vec F S2048x64 .f32) (xs0 : Vec F S2048x64 .f32) : Vec F S2048x64 .f32 :=
  VO0_3.read (Elt F) (VO0_3.writes (Elt F) VO0_3.junk (kernelRun0_B c i arg2 harg2 arg3 harg3 arg4 harg4 arg5 harg5 arg6 harg6 hc0 x0 x1 x2 xs0).1)
theorem scover0_B_0 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (x0 : Vec F S2048x2048 .bf16) (x1 : Vec F S2048x1 .f32) (x2 : Vec F S2048x64 .f32) (xs0 : Vec F S2048x64 .f32) (y : S2048x64.Idx) :
    ∃ pc ∈ (kernelRun0_B c i arg2 harg2 arg3 harg3 arg4 harg4 arg5 harg5 arg6 harg6 hc0 x0 x1 x2 xs0).2.1, y ∈ pc.1.set :=
  View.cover_of_tiledL (kernelRun0_B c i arg2 harg2 arg3 harg3 arg4 harg4 arg5 harg5 arg6 harg6 hc0 x0 x1 x2 xs0).2.1 S2048x64.size (by sl_kernel_rfl) y
/-- What a later block leaves in the accumulator. -/
def sout0_B_0 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (x0 : Vec F S2048x2048 .bf16) (x1 : Vec F S2048x1 .f32) (x2 : Vec F S2048x64 .f32) (xs0 : Vec F S2048x64 .f32) : Vec F S2048x64 .f32 :=
  VS0_0.read (Elt F) (VS0_0.writes (Elt F) VS0_0.junk (kernelRun0_B c i arg2 harg2 arg3 harg3 arg4 harg4 arg5 harg5 arg6 harg6 hc0 x0 x1 x2 xs0).2.1)

/-! ## The accumulation, point by point -/

/-- What the output buffer and the accumulator hold after the body at position `n` (a pair: the output buffer, the
    accumulator): at a first block of the contracted axis the first case's contents, at a later block the second
    case's over the accumulator the point before left. -/
def outsAt0 (c : Dev nD) : (n : ℕ) → n < cfg0.N → Vec F S2048x64 .f32 × Vec F S2048x64 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩))
  | n + 1, hn =>
    if h0 : (n + 1) % 4 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- At a first block: the first case's contents. -/
theorem outsAt0_A (c : Dev nD) (t : Fin cfg0.N) (h0 : t.val % 4 = 0) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) (iblk0 V c 1 t) (iblk0 V c 2 t),
      sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) (iblk0 V c 1 t) (iblk0 V c 2 t)) := by
  obtain ⟨n, hn⟩ := t
  cases n with
  | zero => exact rfl
  | succ n => exact dif_pos h0

/-- At a later block: the second case's contents over what the point before left in the accumulator. -/
theorem outsAt0_B (c : Dev nD) (t : Fin cfg0.N) (h0 : ¬t.val % 4 = 0) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact absurd (Nat.zero_mod _) h0
  | succ n => exact dif_neg h0

/-! ## The region's invariant: the accumulator's contents between points -/

/-- Before the first point the class invariant (the accumulator at anything); after point `n` the accumulator at
    what that point left, beside the rest of the scoped buffers and the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The arrays as the region finds them; after the body each input's buffer at its block, the output's at the
    accumulation; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the position modulo 4 says which case the point is
    in; the invariant hands the body the accumulator (at what the point before left; at anything before the first
    point) and takes it back at this point's contents; the output buffer ends at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 4 = 0
  · rw [outsAt0_A V c t h0]
    unfold out0_A_3 sout0_A_0; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (iblk0 V c 0 t) (iblk0 V c 1 t) (iblk0 V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _)
    · rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (iblk0 V c 0 t) (iblk0 V c 1 t) (iblk0 V c 2 t)).2.2 Set.univ _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _)
  · rw [outsAt0_B V c t h0]
    unfold out0_B_3 sout0_B_0; (try dsimp only)
    have hz : t.val ≠ 0 := fun h => h0 (by rw [h])
    rw [PhiS0_castSucc V c t, PhiS0_pos V c _ _ hz]
    iintro ⟨⟨⟨HS0, Hrest⟩, Hg⟩, Ho, ⟨%d0, H0⟩, ⟨%d1, H1⟩, ⟨%d2, H2⟩, ⟨%d3, H3⟩⟩
    iapply ((kernelRun0_B c (grid0.coords t) _ _ _ _ _ _ _ _ _ _ (fun h => h0 ((hcond0_0 t).mp h)) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_B_0 c _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem Phi_in0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the accumulator's contents are forgotten. -/
theorem Phi_back0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem Phi_out0 (c : Dev nD) : (dat0 V c).Φ (Fin.last cfg0.N) ⊢ Pipeline.ΦA spec0 c :=
  Phi_back0 V c _ (by rw [Fin.val_last]; have : cfg0.N = 8 := N_0; omega)

end Cert.Kernel.Hand

end
-- ==== Proof.KReg1.lean ====
/- Region 1 of the program: the pipelined call of the kernel that accumulates, over the four column
   blocks of a row block, the product of the scaled incidence block with the matching block of M into a
   resident accumulator, and writes the accumulator out as the row block of Z.

   Stated at an arbitrary contents V of the core's buffers when the region is entered, and for any float
   model F.  The accumulator is zeroed at the first column block of each row block (grid coordinate 1 = 0),
   then each point adds one partial product to it and copies it whole into the output window's staging
   buffer; the staging buffer is written back after the last column block.  Two cases of the body are run:
   the first column block (A) and the others (B).  What the output window and the accumulator hold after
   each point is defined by recursion on the point (outsAt1), and the proof data, the body obligation and
   the two ends of the invariant are stated over it. -/
import proofs.«179498_j53352083751414_2_alg».proof.Proof.Gen.Kernel.Launch
import proofs.«179498_j53352083751414_2_alg».proof.Proof.Gen.Kernel.Skeleton
import proofs.«179498_j53352083751414_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the core's buffer contents when region 1 is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, whether or not the block
    was fetched there (when it was not, the block index has not moved), for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's conditional, from the grid coordinates: coordinate 1 is zero. -/
abbrev cond1_0 (i : grid1.Coords) : Prop := (Scalar.cmpi .ne (Scalar.extui (Scalar.cmpi .eq (BitVec.ofNat 32 (i 1).val) 0#32)) 0#32) = 1#1
/-- It holds at the first column block of each row block — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-! ## No window is idle at any point -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel

/-! ## The memrefs the body is called with -/

/-- One staging buffer of the output window, through which its contents are stated (the choice does not matter). -/
abbrev VO1_4 : View sig .tc .vmem S2048x64 .f32 := (Memref.whole cc1_stg4_0 : Memref sig .tc .vmem S2048x64 .f32).view
/-- Each window's current staging memref at point `t`, as the pipeline passes it, and its wholeness. -/
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x64 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows. -/
abbrev scM1_0 : Memref sig .tc .vmem S2048x64 .f32 := Memref.whole cc1_scratch0
/-- The accumulator as a view: what it holds is stated through it. -/
abbrev VS1_0 : View sig .tc .vmem S2048x64 .f32 := scM1_0.view

/-- The region's entry invariant with the accumulator as a memref owned at some contents, beside the scoped
    buffers that are not this call's (left unopened) and the generator register. -/
theorem PhiA1_eq (c : Dev nD) :
    (Pipeline.ΦA spec1 c : sProp 𝕄)
      = iprop(iprop((∃ d, owns (c : Thread nD τ) scM1_0 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-! ## The kernel body on any staging memrefs, case by case -/

set_option maxHeartbeats 1000000 in
/-- What the body's stores leave in the output window's staging memref and in the accumulator, as pieces (last
    first), AT THE FIRST COLUMN BLOCK (the conditional taken), with the proof that on whole memrefs — the inputs'
    at their contents, the output's and the accumulator's at anything — the body runs to the continuation holding
    the inputs' as they were and the output's and the accumulator's with their pieces written.  The accumulator is
    loaded before it is zeroed; the value loaded is not used. -/
noncomputable def kernelRun1_A (c : Dev nD) (i : grid1.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S2048x64 .f32) (harg6 : arg6.IsWhole) (arg7 : Memref sig .tc .vmem S2048x64 .f32) (harg7 : arg7.IsWhole) (hc0 : cond1_0 i)
    (x0 : Vec F S2048x1024 .bf16) (x1 : Vec F S2048x1 .f32) (x2 : Vec F S1x1024 .f32) (x3 : Vec F S1024x64 .f32) :
    Σ' (L4 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmulA_kernel i arg2 harg2 arg3 harg3 arg4 harg4 arg5 harg5 arg6 harg6 arg7 harg7) K } := by
  refine ⟨?_, ?_, fun E K => ?run⟩
  case run =>
    simp only [cc1__matmulA_kernel_eq_skeleton]; unfold cc1__matmulA_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

set_option maxHeartbeats 1000000 in
/-- The same AT THE OTHER COLUMN BLOCKS (the conditional not taken): the accumulator is handed at the contents
    `xs0` the point before left, which the partial product is added to. -/
noncomputable def kernelRun1_B (c : Dev nD) (i : grid1.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i)
    (x0 : Vec F S2048x1024 .bf16) (x1 : Vec F S2048x1 .f32) (x2 : Vec F S1x1024 .f32) (x3 : Vec F S1024x64 .f32) (xs0 : Vec F S2048x64 .f32) :
    Σ' (L4 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmulA_kernel i arg2 harg2 arg3 harg3 arg4 harg4 arg5 harg5 arg6 harg6 arg7 harg7) K } := by
  refine ⟨?_, ?_, fun E K => ?run⟩
  case run =>
    simp only [cc1__matmulA_kernel_eq_skeleton]; unfold cc1__matmulA_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## What each case leaves in the output window and in the accumulator -/

/-- Case A's pieces for the output window tile its block, so they cover it. -/
theorem cover1_A_4 (c : Dev nD) (i : grid1.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S2048x64 .f32) (harg6 : arg6.IsWhole) (arg7 : Memref sig .tc .vmem S2048x64 .f32) (harg7 : arg7.IsWhole) (hc0 : cond1_0 i)
    (x0 : Vec F S2048x1024 .bf16) (x1 : Vec F S2048x1 .f32) (x2 : Vec F S1x1024 .f32) (x3 : Vec F S1024x64 .f32) (y : S2048x64.Idx) :
    ∃ pc ∈ (kernelRun1_A c i arg2 harg2 arg3 harg3 arg4 harg4 arg5 harg5 arg6 harg6 arg7 harg7 hc0 x0 x1 x2 x3).1, y ∈ pc.1.set :=
  View.cover_of_tiledL (kernelRun1_A c i arg2 harg2 arg3 harg3 arg4 harg4 arg5 harg5 arg6 harg6 arg7 harg7 hc0 x0 x1 x2 x3).1 S2048x64.size (by sl_kernel_rfl) y

/-- What case A leaves in the output window's staging buffer: its pieces read back. -/
def out1_A_4 (c : Dev nD) (i : grid1.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S2048x64 .f32) (harg6 : arg6.IsWhole) (arg7 : Memref sig .tc .vmem S2048x64 .f32) (harg7 : arg7.IsWhole) (hc0 : cond1_0 i)
    (x0 : Vec F S2048x1024 .bf16) (x1 : Vec F S2048x1 .f32) (x2 : Vec F S1x1024 .f32) (x3 : Vec F S1024x64 .f32) : Vec F S2048x64 .f32 :=
  VO1_4.read (Elt F) (VO1_4.writes (Elt F) VO1_4.junk (kernelRun1_A c i arg2 harg2 arg3 harg3 arg4 harg4 arg5 harg5 arg6 harg6 arg7 harg7 hc0 x0 x1 x2 x3).1)

/-- Case A's pieces for the accumulator cover it. -/
theorem scover1_A_0 (c : Dev nD) (i : grid1.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S2048x64 .f32) (harg6 : arg6.IsWhole) (arg7 : Memref sig .tc .vmem S2048x64 .f32) (harg7 : arg7.IsWhole) (hc0 : cond1_0 i)
    (x0 : Vec F S2048x1024 .bf16) (x1 : Vec F S2048x1 .f32) (x2 : Vec F S1x1024 .f32) (x3 : Vec F S1024x64 .f32) (y : S2048x64.Idx) :
    ∃ pc ∈ (kernelRun1_A c i arg2 harg2 arg3 harg3 arg4 harg4 arg5 harg5 arg6 harg6 arg7 harg7 hc0 x0 x1 x2 x3).2.1, y ∈ pc.1.set :=
  View.cover_of_tiledL (kernelRun1_A c i arg2 harg2 arg3 harg3 arg4 harg4 arg5 harg5 arg6 harg6 arg7 harg7 hc0 x0 x1 x2 x3).2.1 S2048x64.size (by sl_kernel_rfl) y

/-- What case A leaves in the accumulator: its pieces read back. -/
def sout1_A_0 (c : Dev nD) (i : grid1.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S2048x64 .f32) (harg6 : arg6.IsWhole) (arg7 : Memref sig .tc .vmem S2048x64 .f32) (harg7 : arg7.IsWhole) (hc0 : cond1_0 i)
    (x0 : Vec F S2048x1024 .bf16) (x1 : Vec F S2048x1 .f32) (x2 : Vec F S1x1024 .f32) (x3 : Vec F S1024x64 .f32) : Vec F S2048x64 .f32 :=
  VS1_0.read (Elt F) (VS1_0.writes (Elt F) VS1_0.junk (kernelRun1_A c i arg2 harg2 arg3 harg3 arg4 harg4 arg5 harg5 arg6 harg6 arg7 harg7 hc0 x0 x1 x2 x3).2.1)

/-- Case B's pieces for the output window tile its block, so they cover it. -/
theorem cover1_B_4 (c : Dev nD) (i : grid1.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i)
    (x0 : Vec F S2048x1024 .bf16) (x1 : Vec F S2048x1 .f32) (x2 : Vec F S1x1024 .f32) (x3 : Vec F S1024x64 .f32) (xs0 : Vec F S2048x64 .f32) (y : S2048x64.Idx) :
    ∃ pc ∈ (kernelRun1_B c i arg2 harg2 arg3 harg3 arg4 harg4 arg5 harg5 arg6 harg6 arg7 harg7 hc0 x0 x1 x2 x3 xs0).1, y ∈ pc.1.set :=
  View.cover_of_tiledL (kernelRun1_B c i arg2 harg2 arg3 harg3 arg4 harg4 arg5 harg5 arg6 harg6 arg7 harg7 hc0 x0 x1 x2 x3 xs0).1 S2048x64.size (by sl_kernel_rfl) y

/-- What case B leaves in the output window's staging buffer: its pieces read back. -/
def out1_B_4 (c : Dev nD) (i : grid1.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i)
    (x0 : Vec F S2048x1024 .bf16) (x1 : Vec F S2048x1 .f32) (x2 : Vec F S1x1024 .f32) (x3 : Vec F S1024x64 .f32) (xs0 : Vec F S2048x64 .f32) : Vec F S2048x64 .f32 :=
  VO1_4.read (Elt F) (VO1_4.writes (Elt F) VO1_4.junk (kernelRun1_B c i arg2 harg2 arg3 harg3 arg4 harg4 arg5 harg5 arg6 harg6 arg7 harg7 hc0 x0 x1 x2 x3 xs0).1)

/-- Case B's pieces for the accumulator cover it. -/
theorem scover1_B_0 (c : Dev nD) (i : grid1.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i)
    (x0 : Vec F S2048x1024 .bf16) (x1 : Vec F S2048x1 .f32) (x2 : Vec F S1x1024 .f32) (x3 : Vec F S1024x64 .f32) (xs0 : Vec F S2048x64 .f32) (y : S2048x64.Idx) :
    ∃ pc ∈ (kernelRun1_B c i arg2 harg2 arg3 harg3 arg4 harg4 arg5 harg5 arg6 harg6 arg7 harg7 hc0 x0 x1 x2 x3 xs0).2.1, y ∈ pc.1.set :=
  View.cover_of_tiledL (kernelRun1_B c i arg2 harg2 arg3 harg3 arg4 harg4 arg5 harg5 arg6 harg6 arg7 harg7 hc0 x0 x1 x2 x3 xs0).2.1 S2048x64.size (by sl_kernel_rfl) y

/-- What case B leaves in the accumulator: its pieces read back. -/
def sout1_B_0 (c : Dev nD) (i : grid1.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i)
    (x0 : Vec F S2048x1024 .bf16) (x1 : Vec F S2048x1 .f32) (x2 : Vec F S1x1024 .f32) (x3 : Vec F S1024x64 .f32) (xs0 : Vec F S2048x64 .f32) : Vec F S2048x64 .f32 :=
  VS1_0.read (Elt F) (VS1_0.writes (Elt F) VS1_0.junk (kernelRun1_B c i arg2 harg2 arg3 harg3 arg4 harg4 arg5 harg5 arg6 harg6 arg7 harg7 hc0 x0 x1 x2 x3 xs0).2.1)

/-! ## What the output window and the accumulator hold after each point -/

/-- THE ACCUMULATION.  What the output window's staging buffer and the accumulator hold after the body at position
    `n` (a pair: the output window, then the accumulator): at a first column block case A's contents; elsewhere
    case B's, over what the accumulator held after position `n - 1`. -/
def outsAt1 (c : Dev nD) : (n : ℕ) → n < cfg1.N → Vec F S2048x64 .f32 × Vec F S2048x64 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a first column block: case A's contents. -/
theorem outsAt1_A (c : Dev nD) (t : Fin cfg1.N) (h0 : t.val % 4 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at another column block: case B's contents, over what the point before left in the accumulator. -/
theorem outsAt1_B (c : Dev nD) (t : Fin cfg1.N) (h0 : ¬t.val % 4 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the entry invariant (the accumulator at
    anything); afterwards the accumulator at what the point before left in it, the scoped buffers that are not this
    call's unopened, and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of the region's pipeline on core `c`: the arrays as the region finds them; after the body at
    point `t` each input's buffer at its block and the output's at `outsAt1`; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed form of the condition says which case
    the point is in; the invariant hands the body the accumulator at what the point before left (at anything at
    the first point), and takes it back at this point's contents; the output window's buffer is handed at anything
    and taken back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 4 = 0
  · rw [outsAt1_A V c t h0]
    unfold out1_A_4 sout1_A_0; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
  · rw [outsAt1_B V c t h0]
    unfold out1_B_4 sout1_B_0; (try dsimp only)
    have hz : t.val ≠ 0 := fun e => h0 (by rw [e])
    rw [PhiS1_castSucc V c t, PhiS1_pos V c _ _ hz]
    iintro ⟨⟨⟨HS0, HR⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ (fun h => h0 ((hcond1_0 t).mp h)) (iblk1 V c 0 t) (iblk1 V c 1 t) (iblk1 V c 2 t) (iblk1 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_B_0 c _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem Phi_in1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry invariant back: the accumulator's named contents
    are forgotten. -/
theorem Phi_out1_of (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem Phi_out1 (c : Dev nD) : (dat1 V c).Φ (Fin.last cfg1.N) ⊢ Pipeline.ΦA spec1 c :=
  Phi_out1_of V c _ (by rw [Fin.val_last]; have : cfg1.N = 16 := N_1; omega)

end Region1

end Cert.Kernel.Hand

end
-- ==== Proof.KReg2.lean ====
/-
  Region 2: the first matrix product of the second propagation (one column), M = Hᵀ · (Dv ⊙ I), computed block by block.
  The grid is 2 × 4: coordinate 0 picks a block of 2048 columns of H (rows of M), coordinate 1 runs over the four
  blocks of 2048 rows of H, the contracted axis. A scratch accumulator of the block's shape is carried between
  points: at coordinate 1 = 0 it is zeroed, at every point the product of the point's blocks is added to it, and
  the output window's buffer is overwritten with the accumulator. This module states what the accumulator and the
  output buffer hold after each point (by recursion on the point) and proves the body obligation of the pipeline
  against it, for any contents `V` the region is entered from and at any float instance.
-/
import proofs.«179498_j53352083751414_2_alg».proof.Proof.Gen.Kernel.Launch
import proofs.«179498_j53352083751414_2_alg».proof.Proof.Gen.Kernel.Skeleton
import proofs.«179498_j53352083751414_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's one branch: is the contracted axis at its first block? -/

/-- The body's branch condition, from the grid coordinates. -/
abbrev cond2_0 (i : grid2.Coords) : Prop := (Scalar.cmpi .ne (Scalar.extui (Scalar.cmpi .eq (BitVec.ofNat 32 (i 1).val) 0#32)) 0#32) = 1#1
/-- It holds exactly at the points whose position is a multiple of 4 (coordinate 1 is the position modulo 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- No window is ever idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

/-! ## The memrefs the body is called with -/

abbrev VO2_3 : View sig .tc .vmem S2048x1 .f32 := (Memref.whole cc2_stg3_0 : Memref sig .tc .vmem S2048x1 .f32).view
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2_0 : Memref sig .tc .vmem S2048x1 .f32 := Memref.whole cc2_scratch0
abbrev VS2_0 : View sig .tc .vmem S2048x1 .f32 := scM2_0.view

/-- The class invariant with the accumulator split out of the scoped rest. -/
theorem PhiA2_eq (c : Dev nD) :
    (Pipeline.ΦA spec2 c : sProp 𝕄)
      = iprop(iprop((∃ d, owns (c : Thread nD τ) scM2_0 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; rfl

/-! ## The body's triple, case by case -/

set_option maxHeartbeats 1000000 in
/-- FIRST BLOCK of the contracted axis: the accumulator, at anything, is zeroed and the product added; the pieces the
    stores leave in the output buffer and in the accumulator are the witness the run finds. -/
noncomputable def kernelRun2_A (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond2_0 i)
    (x0 : Vec F S2048x2048 .bf16) (x1 : Vec F S2048x1 .f32) (x2 : Vec F S2048x1 .f32) :
    Σ' (L3 : List (View.Piece (Elt F) S2048x1 .f32)), { LS0 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc2__matmulT_kernel i arg2 harg2 arg3 harg3 arg4 harg4 arg5 harg5 arg6 harg6) K } := by
  refine ⟨?_, ?_, fun E K => ?run⟩
  case run =>
    simp only [cc2__matmulT_kernel_eq_skeleton]; unfold cc2__matmulT_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

set_option maxHeartbeats 1000000 in
/-- A LATER BLOCK: the accumulator at what the point before left (`xs0`) has the product added. -/
noncomputable def kernelRun2_B (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond2_0 i)
    (x0 : Vec F S2048x2048 .bf16) (x1 : Vec F S2048x1 .f32) (x2 : Vec F S2048x1 .f32) (xs0 : Vec F S2048x1 .f32) :
    Σ' (L3 : List (View.Piece (Elt F) S2048x1 .f32)), { LS0 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc2__matmulT_kernel i arg2 harg2 arg3 harg3 arg4 harg4 arg5 harg5 arg6 harg6) K } := by
  refine ⟨?_, ?_, fun E K => ?run⟩
  case run =>
    simp only [cc2__matmulT_kernel_eq_skeleton]; unfold cc2__matmulT_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KReg2Dat.lean ====
/-
  Region 2, continued: what the accumulator and the output buffer hold after each grid point, by recursion on the
  point (zeroed and restarted at every first block of the contracted axis, added to at the later blocks); the
  pipeline's proof data built on it; and the body obligation at every point.
-/
import proofs.«179498_j53352083751414_2_alg».proof.Proof.KReg2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves: its pieces cover the buffers, and are read back -/

/-- At a first block the stores into the output buffer cover it. -/
theorem cover2_A_3 (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond2_0 i) (x0 : Vec F S2048x2048 .bf16) (x1 : Vec F S2048x1 .f32) (x2 : Vec F S2048x1 .f32) (y : S2048x1.Idx) :
    ∃ pc ∈ (kernelRun2_A c i arg2 harg2 arg3 harg3 arg4 harg4 arg5 harg5 arg6 harg6 hc0 x0 x1 x2).1, y ∈ pc.1.set :=
  View.cover_of_tiledL (kernelRun2_A c i arg2 harg2 arg3 harg3 arg4 harg4 arg5 harg5 arg6 harg6 hc0 x0 x1 x2).1 S2048x1.size (by sl_kernel_rfl) y
/-- What a first block leaves in the output buffer. -/
def out2_A_3 (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond2_0 i) (x0 : Vec F S2048x2048 .bf16) (x1 : Vec F S2048x1 .f32) (x2 : Vec F S2048x1 .f32) : Vec F S2048x1 .f32 :=
  VO2_3.read (Elt F) (VO2_3.writes (Elt F) VO2_3.junk (kernelRun2_A c i arg2 harg2 arg3 harg3 arg4 harg4 arg5 harg5 arg6 harg6 hc0 x0 x1 x2).1)
/-- At a first block the stores into the accumulator cover it. -/
theorem scover2_A_0 (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond2_0 i) (x0 : Vec F S2048x2048 .bf16) (x1 : Vec F S2048x1 .f32) (x2 : Vec F S2048x1 .f32) (y : S2048x1.Idx) :
    ∃ pc ∈ (kernelRun2_A c i arg2 harg2 arg3 harg3 arg4 harg4 arg5 harg5 arg6 harg6 hc0 x0 x1 x2).2.1, y ∈ pc.1.set :=
  View.cover_of_tiledL (kernelRun2_A c i arg2 harg2 arg3 harg3 arg4 harg4 arg5 harg5 arg6 harg6 hc0 x0 x1 x2).2.1 S2048x1.size (by sl_kernel_rfl) y
/-- What a first block leaves in the accumulator. -/
def sout2_A_0 (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond2_0 i) (x0 : Vec F S2048x2048 .bf16) (x1 : Vec F S2048x1 .f32) (x2 : Vec F S2048x1 .f32) : Vec F S2048x1 .f32 :=
  VS2_0.read (Elt F) (VS2_0.writes (Elt F) VS2_0.junk (kernelRun2_A c i arg2 harg2 arg3 harg3 arg4 harg4 arg5 harg5 arg6 harg6 hc0 x0 x1 x2).2.1)

theorem cover2_B_3 (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond2_0 i) (x0 : Vec F S2048x2048 .bf16) (x1 : Vec F S2048x1 .f32) (x2 : Vec F S2048x1 .f32) (xs0 : Vec F S2048x1 .f32) (y : S2048x1.Idx) :
    ∃ pc ∈ (kernelRun2_B c i arg2 harg2 arg3 harg3 arg4 harg4 arg5 harg5 arg6 harg6 hc0 x0 x1 x2 xs0).1, y ∈ pc.1.set :=
  View.cover_of_tiledL (kernelRun2_B c i arg2 harg2 arg3 harg3 arg4 harg4 arg5 harg5 arg6 harg6 hc0 x0 x1 x2 xs0).1 S2048x1.size (by sl_kernel_rfl) y
/-- What a later block leaves in the output buffer. -/
def out2_B_3 (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond2_0 i) (x0 : Vec F S2048x2048 .bf16) (x1 : Vec F S2048x1 .f32) (x2 : Vec F S2048x1 .f32) (xs0 : Vec F S2048x1 .f32) : Vec F S2048x1 .f32 :=
  VO2_3.read (Elt F) (VO2_3.writes (Elt F) VO2_3.junk (kernelRun2_B c i arg2 harg2 arg3 harg3 arg4 harg4 arg5 harg5 arg6 harg6 hc0 x0 x1 x2 xs0).1)
theorem scover2_B_0 (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond2_0 i) (x0 : Vec F S2048x2048 .bf16) (x1 : Vec F S2048x1 .f32) (x2 : Vec F S2048x1 .f32) (xs0 : Vec F S2048x1 .f32) (y : S2048x1.Idx) :
    ∃ pc ∈ (kernelRun2_B c i arg2 harg2 arg3 harg3 arg4 harg4 arg5 harg5 arg6 harg6 hc0 x0 x1 x2 xs0).2.1, y ∈ pc.1.set :=
  View.cover_of_tiledL (kernelRun2_B c i arg2 harg2 arg3 harg3 arg4 harg4 arg5 harg5 arg6 harg6 hc0 x0 x1 x2 xs0).2.1 S2048x1.size (by sl_kernel_rfl) y
/-- What a later block leaves in the accumulator. -/
def sout2_B_0 (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond2_0 i) (x0 : Vec F S2048x2048 .bf16) (x1 : Vec F S2048x1 .f32) (x2 : Vec F S2048x1 .f32) (xs0 : Vec F S2048x1 .f32) : Vec F S2048x1 .f32 :=
  VS2_0.read (Elt F) (VS2_0.writes (Elt F) VS2_0.junk (kernelRun2_B c i arg2 harg2 arg3 harg3 arg4 harg4 arg5 harg5 arg6 harg6 hc0 x0 x1 x2 xs0).2.1)

/-! ## The accumulation, point by point -/

/-- What the output buffer and the accumulator hold after the body at position `n` (a pair: the output buffer, the
    accumulator): at a first block of the contracted axis the first case's contents, at a later block the second
    case's over the accumulator the point before left. -/
def outsAt2 (c : Dev nD) : (n : ℕ) → n < cfg2.N → Vec F S2048x1 .f32 × Vec F S2048x1 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (iblk2 V c 0 ⟨0, hn⟩) (iblk2 V c 1 ⟨0, hn⟩) (iblk2 V c 2 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (iblk2 V c 0 ⟨0, hn⟩) (iblk2 V c 1 ⟨0, hn⟩) (iblk2 V c 2 ⟨0, hn⟩))
  | n + 1, hn =>
    if h0 : (n + 1) % 4 = 0 then
      (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (iblk2 V c 0 ⟨n + 1, hn⟩) (iblk2 V c 1 ⟨n + 1, hn⟩) (iblk2 V c 2 ⟨n + 1, hn⟩),
        sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (iblk2 V c 0 ⟨n + 1, hn⟩) (iblk2 V c 1 ⟨n + 1, hn⟩) (iblk2 V c 2 ⟨n + 1, hn⟩))
    else
      (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2,
        sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- At a first block: the first case's contents. -/
theorem outsAt2_A (c : Dev nD) (t : Fin cfg2.N) (h0 : t.val % 4 = 0) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (iblk2 V c 0 t) (iblk2 V c 1 t) (iblk2 V c 2 t),
      sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (iblk2 V c 0 t) (iblk2 V c 1 t) (iblk2 V c 2 t)) := by
  obtain ⟨n, hn⟩ := t
  cases n with
  | zero => exact rfl
  | succ n => exact dif_pos h0

/-- At a later block: the second case's contents over what the point before left in the accumulator. -/
theorem outsAt2_B (c : Dev nD) (t : Fin cfg2.N) (h0 : ¬t.val % 4 = 0) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (iblk2 V c 0 t) (iblk2 V c 1 t) (iblk2 V c 2 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact absurd (Nat.zero_mod _) h0
  | succ n => exact dif_neg h0

/-! ## The region's invariant: the accumulator's contents between points -/

/-- Before the first point the class invariant (the accumulator at anything); after point `n` the accumulator at
    what that point left, beside the rest of the scoped buffers and the generator register. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The arrays as the region finds them; after the body each input's buffer at its block, the output's at the
    accumulation; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' buffers hold their blocks; the position modulo 4 says which case the point is
    in; the invariant hands the body the accumulator (at what the point before left; at anything before the first
    point) and takes it back at this point's contents; the output buffer ends at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val % 4 = 0
  · rw [outsAt2_A V c t h0]
    unfold out2_A_3 sout2_A_0; (try dsimp only)
    by_cases hz : t.val = 0
    · rw [PhiS2_castSucc V c t, PhiS2_zero V c _ _ hz, PhiA2_eq]
      iintro ⟨⟨⟨HS0, Hrest⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (iblk2 V c 0 t) (iblk2 V c 1 t) (iblk2 V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_A_3 c _ _ _ _ _ _ _ _ _ _ _ _ _ _ _)
    · rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (iblk2 V c 0 t) (iblk2 V c 1 t) (iblk2 V c 2 t)).2.2 Set.univ _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_A_3 c _ _ _ _ _ _ _ _ _ _ _ _ _ _ _)
  · rw [outsAt2_B V c t h0]
    unfold out2_B_3 sout2_B_0; (try dsimp only)
    have hz : t.val ≠ 0 := fun h => h0 (by rw [h])
    rw [PhiS2_castSucc V c t, PhiS2_pos V c _ _ hz]
    iintro ⟨⟨⟨HS0, Hrest⟩, Hg⟩, Ho, ⟨%d0, H0⟩, ⟨%d1, H1⟩, ⟨%d2, H2⟩, ⟨%d3, H3⟩⟩
    iapply ((kernelRun2_B c (grid2.coords t) _ _ _ _ _ _ _ _ _ _ (fun h => h0 ((hcond2_0 t).mp h)) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover2_B_0 c _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_B_3 c _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem Phi_in2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the accumulator's contents are forgotten. -/
theorem Phi_back2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem Phi_out2 (c : Dev nD) : (dat2 V c).Φ (Fin.last cfg2.N) ⊢ Pipeline.ΦA spec2 c :=
  Phi_back2 V c _ (by rw [Fin.val_last]; have : cfg2.N = 8 := N_2; omega)

end Cert.Kernel.Hand

end
-- ==== Proof.KReg3.lean ====
/- Region 3 of the program: the pipelined call of the kernel that accumulates, over the four column
   blocks of a row block, the product of the scaled incidence block with the matching block of M into a
   resident accumulator, and writes the accumulator out as the row block of Z.

   Stated at an arbitrary contents V of the core's buffers when the region is entered, and for any float
   model F.  The accumulator is zeroed at the first column block of each row block (grid coordinate 1 = 0),
   then each point adds one partial product to it and copies it whole into the output window's staging
   buffer; the staging buffer is written back after the last column block.  Two cases of the body are run:
   the first column block (A) and the others (B).  What the output window and the accumulator hold after
   each point is defined by recursion on the point (outsAt3), and the proof data, the body obligation and
   the two ends of the invariant are stated over it. -/
import proofs.«179498_j53352083751414_2_alg».proof.Proof.Gen.Kernel.Launch
import proofs.«179498_j53352083751414_2_alg».proof.Proof.Gen.Kernel.Skeleton
import proofs.«179498_j53352083751414_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the core's buffer contents when region 1 is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds the window's block at every point, whether or not the block
    was fetched there (when it was not, the block index has not moved), for any proof data whose array is the
    entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch condition -/

/-- The condition of the body's conditional, from the grid coordinates: coordinate 1 is zero. -/
abbrev cond3_0 (i : grid3.Coords) : Prop := (Scalar.cmpi .ne (Scalar.extui (Scalar.cmpi .eq (BitVec.ofNat 32 (i 1).val) 0#32)) 0#32) = 1#1
/-- It holds at the first column block of each row block — decided over the grid. -/
theorem hcond3_0 : ∀ t : Fin cfg3.N, cond3_0 (grid3.coords t) ↔ t.val % 4 = 0 :=
  (by decide +kernel : ∀ t : Fin grid3.N, cond3_0 (grid3.coords t) ↔ t.val % 4 = 0)

/-! ## No window is idle at any point -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel

/-! ## The memrefs the body is called with -/

/-- One staging buffer of the output window, through which its contents are stated (the choice does not matter). -/
abbrev VO3_4 : View sig .tc .vmem S2048x1 .f32 := (Memref.whole cc3_stg4_0 : Memref sig .tc .vmem S2048x1 .f32).view
/-- Each window's current staging memref at point `t`, as the pipeline passes it, and its wholeness. -/
abbrev ms3_0 (t : Fin cfg3.N) : Memref sig .tc .vmem S2048x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2048x1 .f32 := win3_4.stage (cfg3.slots t 4)
abbrev hs3_4 (t : Fin cfg3.N) : (ms3_4 t).IsWhole := hstage3_4 ((cfg3.slots t 4).cast nbuf3_4)
/-- The accumulator: a whole scoped buffer of the kernel's own, passed beside the windows. -/
abbrev scM3_0 : Memref sig .tc .vmem S2048x1 .f32 := Memref.whole cc3_scratch0
/-- The accumulator as a view: what it holds is stated through it. -/
abbrev VS3_0 : View sig .tc .vmem S2048x1 .f32 := scM3_0.view

/-- The region's entry invariant with the accumulator as a memref owned at some contents, beside the scoped
    buffers that are not this call's (left unopened) and the generator register. -/
theorem PhiA3_eq (c : Dev nD) :
    (Pipeline.ΦA spec3 c : sProp 𝕄)
      = iprop(iprop((∃ d, owns (c : Thread nD τ) scM3_0 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

/-! ## The kernel body on any staging memrefs, case by case -/

set_option maxHeartbeats 1000000 in
/-- What the body's stores leave in the output window's staging memref and in the accumulator, as pieces (last
    first), AT THE FIRST COLUMN BLOCK (the conditional taken), with the proof that on whole memrefs — the inputs'
    at their contents, the output's and the accumulator's at anything — the body runs to the continuation holding
    the inputs' as they were and the output's and the accumulator's with their pieces written.  The accumulator is
    loaded before it is zeroed; the value loaded is not used. -/
noncomputable def kernelRun3_A (c : Dev nD) (i : grid3.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S2048x1 .f32) (harg6 : arg6.IsWhole) (arg7 : Memref sig .tc .vmem S2048x1 .f32) (harg7 : arg7.IsWhole) (hc0 : cond3_0 i)
    (x0 : Vec F S2048x1024 .bf16) (x1 : Vec F S2048x1 .f32) (x2 : Vec F S1x1024 .f32) (x3 : Vec F S1024x1 .f32) :
    Σ' (L4 : List (View.Piece (Elt F) S2048x1 .f32)), { LS0 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc3__matmulA_kernel i arg2 harg2 arg3 harg3 arg4 harg4 arg5 harg5 arg6 harg6 arg7 harg7) K } := by
  refine ⟨?_, ?_, fun E K => ?run⟩
  case run =>
    simp only [cc3__matmulA_kernel_eq_skeleton]; unfold cc3__matmulA_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

set_option maxHeartbeats 1000000 in
/-- The same AT THE OTHER COLUMN BLOCKS (the conditional not taken): the accumulator is handed at the contents
    `xs0` the point before left, which the partial product is added to. -/
noncomputable def kernelRun3_B (c : Dev nD) (i : grid3.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S2048x1 .f32) (harg6 : arg6.IsWhole) (arg7 : Memref sig .tc .vmem S2048x1 .f32) (harg7 : arg7.IsWhole) (hc0 : ¬cond3_0 i)
    (x0 : Vec F S2048x1024 .bf16) (x1 : Vec F S2048x1 .f32) (x2 : Vec F S1x1024 .f32) (x3 : Vec F S1024x1 .f32) (xs0 : Vec F S2048x1 .f32) :
    Σ' (L4 : List (View.Piece (Elt F) S2048x1 .f32)), { LS0 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc3__matmulA_kernel i arg2 harg2 arg3 harg3 arg4 harg4 arg5 harg5 arg6 harg6 arg7 harg7) K } := by
  refine ⟨?_, ?_, fun E K => ?run⟩
  case run =>
    simp only [cc3__matmulA_kernel_eq_skeleton]; unfold cc3__matmulA_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## What each case leaves in the output window and in the accumulator -/

/-- Case A's pieces for the output window tile its block, so they cover it. -/
theorem cover3_A_4 (c : Dev nD) (i : grid3.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S2048x1 .f32) (harg6 : arg6.IsWhole) (arg7 : Memref sig .tc .vmem S2048x1 .f32) (harg7 : arg7.IsWhole) (hc0 : cond3_0 i)
    (x0 : Vec F S2048x1024 .bf16) (x1 : Vec F S2048x1 .f32) (x2 : Vec F S1x1024 .f32) (x3 : Vec F S1024x1 .f32) (y : S2048x1.Idx) :
    ∃ pc ∈ (kernelRun3_A c i arg2 harg2 arg3 harg3 arg4 harg4 arg5 harg5 arg6 harg6 arg7 harg7 hc0 x0 x1 x2 x3).1, y ∈ pc.1.set :=
  View.cover_of_tiledL (kernelRun3_A c i arg2 harg2 arg3 harg3 arg4 harg4 arg5 harg5 arg6 harg6 arg7 harg7 hc0 x0 x1 x2 x3).1 S2048x1.size (by sl_kernel_rfl) y

/-- What case A leaves in the output window's staging buffer: its pieces read back. -/
def out3_A_4 (c : Dev nD) (i : grid3.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S2048x1 .f32) (harg6 : arg6.IsWhole) (arg7 : Memref sig .tc .vmem S2048x1 .f32) (harg7 : arg7.IsWhole) (hc0 : cond3_0 i)
    (x0 : Vec F S2048x1024 .bf16) (x1 : Vec F S2048x1 .f32) (x2 : Vec F S1x1024 .f32) (x3 : Vec F S1024x1 .f32) : Vec F S2048x1 .f32 :=
  VO3_4.read (Elt F) (VO3_4.writes (Elt F) VO3_4.junk (kernelRun3_A c i arg2 harg2 arg3 harg3 arg4 harg4 arg5 harg5 arg6 harg6 arg7 harg7 hc0 x0 x1 x2 x3).1)

/-- Case A's pieces for the accumulator cover it. -/
theorem scover3_A_0 (c : Dev nD) (i : grid3.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S2048x1 .f32) (harg6 : arg6.IsWhole) (arg7 : Memref sig .tc .vmem S2048x1 .f32) (harg7 : arg7.IsWhole) (hc0 : cond3_0 i)
    (x0 : Vec F S2048x1024 .bf16) (x1 : Vec F S2048x1 .f32) (x2 : Vec F S1x1024 .f32) (x3 : Vec F S1024x1 .f32) (y : S2048x1.Idx) :
    ∃ pc ∈ (kernelRun3_A c i arg2 harg2 arg3 harg3 arg4 harg4 arg5 harg5 arg6 harg6 arg7 harg7 hc0 x0 x1 x2 x3).2.1, y ∈ pc.1.set :=
  View.cover_of_tiledL (kernelRun3_A c i arg2 harg2 arg3 harg3 arg4 harg4 arg5 harg5 arg6 harg6 arg7 harg7 hc0 x0 x1 x2 x3).2.1 S2048x1.size (by sl_kernel_rfl) y

/-- What case A leaves in the accumulator: its pieces read back. -/
def sout3_A_0 (c : Dev nD) (i : grid3.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S2048x1 .f32) (harg6 : arg6.IsWhole) (arg7 : Memref sig .tc .vmem S2048x1 .f32) (harg7 : arg7.IsWhole) (hc0 : cond3_0 i)
    (x0 : Vec F S2048x1024 .bf16) (x1 : Vec F S2048x1 .f32) (x2 : Vec F S1x1024 .f32) (x3 : Vec F S1024x1 .f32) : Vec F S2048x1 .f32 :=
  VS3_0.read (Elt F) (VS3_0.writes (Elt F) VS3_0.junk (kernelRun3_A c i arg2 harg2 arg3 harg3 arg4 harg4 arg5 harg5 arg6 harg6 arg7 harg7 hc0 x0 x1 x2 x3).2.1)

/-- Case B's pieces for the output window tile its block, so they cover it. -/
theorem cover3_B_4 (c : Dev nD) (i : grid3.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S2048x1 .f32) (harg6 : arg6.IsWhole) (arg7 : Memref sig .tc .vmem S2048x1 .f32) (harg7 : arg7.IsWhole) (hc0 : ¬cond3_0 i)
    (x0 : Vec F S2048x1024 .bf16) (x1 : Vec F S2048x1 .f32) (x2 : Vec F S1x1024 .f32) (x3 : Vec F S1024x1 .f32) (xs0 : Vec F S2048x1 .f32) (y : S2048x1.Idx) :
    ∃ pc ∈ (kernelRun3_B c i arg2 harg2 arg3 harg3 arg4 harg4 arg5 harg5 arg6 harg6 arg7 harg7 hc0 x0 x1 x2 x3 xs0).1, y ∈ pc.1.set :=
  View.cover_of_tiledL (kernelRun3_B c i arg2 harg2 arg3 harg3 arg4 harg4 arg5 harg5 arg6 harg6 arg7 harg7 hc0 x0 x1 x2 x3 xs0).1 S2048x1.size (by sl_kernel_rfl) y

/-- What case B leaves in the output window's staging buffer: its pieces read back. -/
def out3_B_4 (c : Dev nD) (i : grid3.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S2048x1 .f32) (harg6 : arg6.IsWhole) (arg7 : Memref sig .tc .vmem S2048x1 .f32) (harg7 : arg7.IsWhole) (hc0 : ¬cond3_0 i)
    (x0 : Vec F S2048x1024 .bf16) (x1 : Vec F S2048x1 .f32) (x2 : Vec F S1x1024 .f32) (x3 : Vec F S1024x1 .f32) (xs0 : Vec F S2048x1 .f32) : Vec F S2048x1 .f32 :=
  VO3_4.read (Elt F) (VO3_4.writes (Elt F) VO3_4.junk (kernelRun3_B c i arg2 harg2 arg3 harg3 arg4 harg4 arg5 harg5 arg6 harg6 arg7 harg7 hc0 x0 x1 x2 x3 xs0).1)

/-- Case B's pieces for the accumulator cover it. -/
theorem scover3_B_0 (c : Dev nD) (i : grid3.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S2048x1 .f32) (harg6 : arg6.IsWhole) (arg7 : Memref sig .tc .vmem S2048x1 .f32) (harg7 : arg7.IsWhole) (hc0 : ¬cond3_0 i)
    (x0 : Vec F S2048x1024 .bf16) (x1 : Vec F S2048x1 .f32) (x2 : Vec F S1x1024 .f32) (x3 : Vec F S1024x1 .f32) (xs0 : Vec F S2048x1 .f32) (y : S2048x1.Idx) :
    ∃ pc ∈ (kernelRun3_B c i arg2 harg2 arg3 harg3 arg4 harg4 arg5 harg5 arg6 harg6 arg7 harg7 hc0 x0 x1 x2 x3 xs0).2.1, y ∈ pc.1.set :=
  View.cover_of_tiledL (kernelRun3_B c i arg2 harg2 arg3 harg3 arg4 harg4 arg5 harg5 arg6 harg6 arg7 harg7 hc0 x0 x1 x2 x3 xs0).2.1 S2048x1.size (by sl_kernel_rfl) y

/-- What case B leaves in the accumulator: its pieces read back. -/
def sout3_B_0 (c : Dev nD) (i : grid3.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S2048x1 .f32) (harg6 : arg6.IsWhole) (arg7 : Memref sig .tc .vmem S2048x1 .f32) (harg7 : arg7.IsWhole) (hc0 : ¬cond3_0 i)
    (x0 : Vec F S2048x1024 .bf16) (x1 : Vec F S2048x1 .f32) (x2 : Vec F S1x1024 .f32) (x3 : Vec F S1024x1 .f32) (xs0 : Vec F S2048x1 .f32) : Vec F S2048x1 .f32 :=
  VS3_0.read (Elt F) (VS3_0.writes (Elt F) VS3_0.junk (kernelRun3_B c i arg2 harg2 arg3 harg3 arg4 harg4 arg5 harg5 arg6 harg6 arg7 harg7 hc0 x0 x1 x2 x3 xs0).2.1)

/-! ## What the output window and the accumulator hold after each point -/

/-- THE ACCUMULATION.  What the output window's staging buffer and the accumulator hold after the body at position
    `n` (a pair: the output window, then the accumulator): at a first column block case A's contents; elsewhere
    case B's, over what the accumulator held after position `n - 1`. -/
def outsAt3 (c : Dev nD) : (n : ℕ) → n < cfg3.N → Vec F S2048x1 .f32 × Vec F S2048x1 .f32
  | 0, hn => (out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr (Nat.zero_mod _)) (iblk3 V c 0 ⟨0, hn⟩) (iblk3 V c 1 ⟨0, hn⟩) (iblk3 V c 2 ⟨0, hn⟩) (iblk3 V c 3 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr (Nat.zero_mod _)) (iblk3 V c 0 ⟨0, hn⟩) (iblk3 V c 1 ⟨0, hn⟩) (iblk3 V c 2 ⟨0, hn⟩) (iblk3 V c 3 ⟨0, hn⟩))
  | n + 1, hn =>
    if h0 : (n + 1) % 4 = 0 then
      (out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) ((hcond3_0 ⟨n + 1, hn⟩).mpr h0) (iblk3 V c 0 ⟨n + 1, hn⟩) (iblk3 V c 1 ⟨n + 1, hn⟩) (iblk3 V c 2 ⟨n + 1, hn⟩) (iblk3 V c 3 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) ((hcond3_0 ⟨n + 1, hn⟩).mpr h0) (iblk3 V c 0 ⟨n + 1, hn⟩) (iblk3 V c 1 ⟨n + 1, hn⟩) (iblk3 V c 2 ⟨n + 1, hn⟩) (iblk3 V c 3 ⟨n + 1, hn⟩))
    else
      (out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)

/-- `outsAt3` at a first column block: case A's contents. -/
theorem outsAt3_A (c : Dev nD) (t : Fin cfg3.N) (h0 : t.val % 4 = 0) :
    outsAt3 V c t.val t.isLt = (out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (iblk3 V c 0 t) (iblk3 V c 1 t) (iblk3 V c 2 t) (iblk3 V c 3 t), sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (iblk3 V c 0 t) (iblk3 V c 1 t) (iblk3 V c 2 t) (iblk3 V c 3 t)) := by
  obtain ⟨n, hn⟩ := t
  cases n with
  | zero => exact rfl
  | succ n => exact (dif_pos h0).trans rfl

/-- `outsAt3` at another column block: case B's contents, over what the point before left in the accumulator. -/
theorem outsAt3_B (c : Dev nD) (t : Fin cfg3.N) (h0 : ¬t.val % 4 = 0) :
    outsAt3 V c t.val t.isLt = (out3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (iblk3 V c 0 t) (iblk3 V c 1 t) (iblk3 V c 2 t) (iblk3 V c 3 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the entry invariant (the accumulator at
    anything); afterwards the accumulator at what the point before left in it, the scoped buffers that are not this
    call's unopened, and the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the accumulator at that point's contents. -/
theorem PhiS3_succ (c : Dev nD) (n : ℕ) (hn : n < cfg3.N) :
    PhiS3 V c (n + 1) hn = iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

/-- Before a point that is not the first: the accumulator at what the point before left. -/
theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of the region's pipeline on core `c`: the arrays as the region finds them; after the body at
    point `t` each input's buffer at its block and the output's at `outsAt3`; the invariant `PhiS3`; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point: the inputs' memrefs hold their blocks; the closed form of the condition says which case
    the point is in; the invariant hands the body the accumulator at what the point before left (at anything at
    the first point), and takes it back at this point's contents; the output window's buffer is handed at anything
    and taken back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  by_cases h0 : t.val % 4 = 0
  · rw [outsAt3_A V c t h0]
    unfold out3_A_4 sout3_A_0; (try dsimp only)
    by_cases hz : t.val = 0
    · rw [PhiS3_castSucc V c t, PhiS3_zero V c _ _ hz, PhiA3_eq]
      iintro ⟨⟨⟨HS0, HR⟩, Hg⟩, Ho, ⟨%d0, H0⟩, ⟨%d1, H1⟩, ⟨%d2, H2⟩, ⟨%d3, H3⟩, ⟨%d4, H4⟩⟩
      iapply ((kernelRun3_A c (grid3.coords t) _ _ _ _ _ _ _ _ _ _ _ _ ((hcond3_0 t).mpr h0) (iblk3 V c 0 t) (iblk3 V c 1 t) (iblk3 V c 2 t) (iblk3 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover3_A_4 c _ _ _ _ _ _ _ _ _ _ _ _ _ _ _ _ _ _)
    · rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun3_A c (grid3.coords t) _ _ _ _ _ _ _ _ _ _ _ _ ((hcond3_0 t).mpr h0) (iblk3 V c 0 t) (iblk3 V c 1 t) (iblk3 V c 2 t) (iblk3 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover3_A_4 c _ _ _ _ _ _ _ _ _ _ _ _ _ _ _ _ _ _)
  · rw [outsAt3_B V c t h0]
    unfold out3_B_4 sout3_B_0; (try dsimp only)
    have hz : t.val ≠ 0 := fun e => h0 (by rw [e])
    rw [PhiS3_castSucc V c t, PhiS3_pos V c _ _ hz]
    iintro ⟨⟨⟨HS0, HR⟩, Hg⟩, Ho, ⟨%d0, H0⟩, ⟨%d1, H1⟩, ⟨%d2, H2⟩, ⟨%d3, H3⟩, ⟨%d4, H4⟩⟩
    iapply ((kernelRun3_B c (grid3.coords t) _ _ _ _ _ _ _ _ _ _ _ _ (fun h => h0 ((hcond3_0 t).mp h)) (iblk3 V c 0 t) (iblk3 V c 1 t) (iblk3 V c 2 t) (iblk3 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover3_B_0 c _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover3_B_4 c _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem Phi_in3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the entry invariant back: the accumulator's named contents
    are forgotten. -/
theorem Phi_out3_of (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

/-- The same after the last point. -/
theorem Phi_out3 (c : Dev nD) : (dat3 V c).Φ (Fin.last cfg3.N) ⊢ Pipeline.ΦA spec3 c :=
  Phi_out3_of V c _ (by rw [Fin.val_last]; have : cfg3.N = 16 := N_3; omega)

end Region1

end Cert.Kernel.Hand

end
-- ==== Proof.KRun.lean ====
/-
  The whole run of @main at any float instance: the unscoped buffers' contents at each boundary between its items
  (host operations and the four regions), the four regions as segments over those contents, and the launch. The post
  names every unscoped buffer's final contents; the frame claim reads the nine arguments off it.
-/
import proofs.«179498_j53352083751414_2_alg».proof.Proof.KReg0Dat
import proofs.«179498_j53352083751414_2_alg».proof.Proof.KReg1
import proofs.«179498_j53352083751414_2_alg».proof.Proof.KReg2Dat
import proofs.«179498_j53352083751414_2_alg».proof.Proof.KReg3
import proofs.«179498_j53352083751414_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s unscoped buffers at launch. -/
abbrev W0 : Dev nD → Valuation τ sig (Elt F) := fun c b => m (c, b)
/-- After the host operations `hostOps0`. -/
abbrev W1 : Dev nD → Valuation τ sig (Elt F) := fun c => StableHlo.after hostOps0 (W0 m c)
abbrev VW1 : (c : Dev nD) → (b : Ref sig .tc) → Buf (Elt F) ((c : Thread nD τ).loc b) := fun c b => W1 m c b
theorem W1_of (c : Dev nD) (r : Ref sig .tc) (h : r ∉ hostOps0_W) : W1 m c r = W0 m c r :=
  StableHlo.after_of_writes_sub hostOps0 _ hostOps0_writes h
/-- At region 0's exit: its arrays at what the pipeline leaves, every other buffer as entered. -/
def W2 (c : Dev nD) : Valuation τ sig (Elt F) :=
  Pipeline.withArrays spec0 c (W1 m c) fun w => (dat0 (VW1 m) c).arrAt w cfg0.N
theorem W2_arr (c : Dev nD) (w : Fin cfg0.W) :
    W2 m c (Proc.devRef .tc (Pipeline.arrRef spec0 w)) = (dat0 (VW1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VW2 : (c : Dev nD) → (b : Ref sig .tc) → Buf (Elt F) ((c : Thread nD τ).loc b) := fun c b => W2 m c b
theorem hF0 (c : Dev nD) (w : Fin cfg0.W) : (dat0 (VW1 m) c).arrAt w cfg0.N = VW2 m c (Pipeline.arrRef spec0 w) :=
  (W2_arr m c w).symm
theorem hrest0 (c : Dev nD) : ∀ b, b ∉ Finset.univ.image (Pipeline.arrRef spec0) → VW2 m c b = VW1 m c b :=
  fun b hb => W2_of_ne m c b fun w e => hb (Finset.mem_image.mpr ⟨w, Finset.mem_univ _, e⟩)
/-- At region 1's exit: its arrays at what the pipeline leaves, every other buffer as entered. -/
def W3 (c : Dev nD) : Valuation τ sig (Elt F) :=
  Pipeline.withArrays spec1 c (W2 m c) fun w => (dat1 (VW2 m) c).arrAt w cfg1.N
theorem W3_arr (c : Dev nD) (w : Fin cfg1.W) :
    W3 m c (Proc.devRef .tc (Pipeline.arrRef spec1 w)) = (dat1 (VW2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VW3 : (c : Dev nD) → (b : Ref sig .tc) → Buf (Elt F) ((c : Thread nD τ).loc b) := fun c b => W3 m c b
theorem hF1 (c : Dev nD) (w : Fin cfg1.W) : (dat1 (VW2 m) c).arrAt w cfg1.N = VW3 m c (Pipeline.arrRef spec1 w) :=
  (W3_arr m c w).symm
theorem hrest1 (c : Dev nD) : ∀ b, b ∉ Finset.univ.image (Pipeline.arrRef spec1) → VW3 m c b = VW2 m c b :=
  fun b hb => W3_of_ne m c b fun w e => hb (Finset.mem_image.mpr ⟨w, Finset.mem_univ _, e⟩)
/-- After the host operations `hostOps2`. -/
abbrev W4 : Dev nD → Valuation τ sig (Elt F) := fun c => StableHlo.after hostOps2 (W3 m c)
abbrev VW4 : (c : Dev nD) → (b : Ref sig .tc) → Buf (Elt F) ((c : Thread nD τ).loc b) := fun c b => W4 m c b
theorem W4_of (c : Dev nD) (r : Ref sig .tc) (h : r ∉ hostOps2_W) : W4 m c r = W3 m c r :=
  StableHlo.after_of_writes_sub hostOps2 _ hostOps2_writes h
/-- After the host operations `hostOps2_1`. -/
abbrev W5 : Dev nD → Valuation τ sig (Elt F) := fun c => StableHlo.after hostOps2_1 (W4 m c)
abbrev VW5 : (c : Dev nD) → (b : Ref sig .tc) → Buf (Elt F) ((c : Thread nD τ).loc b) := fun c b => W5 m c b
theorem W5_of (c : Dev nD) (r : Ref sig .tc) (h : r ∉ hostOps2_1_W) : W5 m c r = W4 m c r :=
  StableHlo.after_of_writes_sub hostOps2_1 _ hostOps2_1_writes h
/-- After the host operations `hostOps2_2`. -/
abbrev W6 : Dev nD → Valuation τ sig (Elt F) := fun c => StableHlo.after hostOps2_2 (W5 m c)
abbrev VW6 : (c : Dev nD) → (b : Ref sig .tc) → Buf (Elt F) ((c : Thread nD τ).loc b) := fun c b => W6 m c b
theorem W6_of (c : Dev nD) (r : Ref sig .tc) (h : r ∉ hostOps2_2_W) : W6 m c r = W5 m c r :=
  StableHlo.after_of_writes_sub hostOps2_2 _ hostOps2_2_writes h
/-- After the host operations `hostOps2_3`. -/
abbrev W7 : Dev nD → Valuation τ sig (Elt F) := fun c => StableHlo.after hostOps2_3 (W6 m c)
abbrev VW7 : (c : Dev nD) → (b : Ref sig .tc) → Buf (Elt F) ((c : Thread nD τ).loc b) := fun c b => W7 m c b
theorem W7_of (c : Dev nD) (r : Ref sig .tc) (h : r ∉ hostOps2_3_W) : W7 m c r = W6 m c r :=
  StableHlo.after_of_writes_sub hostOps2_3 _ hostOps2_3_writes h
/-- After the host operations `hostOps2_4`. -/
abbrev W8 : Dev nD → Valuation τ sig (Elt F) := fun c => StableHlo.after hostOps2_4 (W7 m c)
abbrev VW8 : (c : Dev nD) → (b : Ref sig .tc) → Buf (Elt F) ((c : Thread nD τ).loc b) := fun c b => W8 m c b
theorem W8_of (c : Dev nD) (r : Ref sig .tc) (h : r ∉ hostOps2_4_W) : W8 m c r = W7 m c r :=
  StableHlo.after_of_writes_sub hostOps2_4 _ hostOps2_4_writes h
/-- At region 2's exit: its arrays at what the pipeline leaves, every other buffer as entered. -/
def W9 (c : Dev nD) : Valuation τ sig (Elt F) :=
  Pipeline.withArrays spec2 c (W8 m c) fun w => (dat2 (VW8 m) c).arrAt w cfg2.N
theorem W9_arr (c : Dev nD) (w : Fin cfg2.W) :
    W9 m c (Proc.devRef .tc (Pipeline.arrRef spec2 w)) = (dat2 (VW8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev VW9 : (c : Dev nD) → (b : Ref sig .tc) → Buf (Elt F) ((c : Thread nD τ).loc b) := fun c b => W9 m c b
theorem hF2 (c : Dev nD) (w : Fin cfg2.W) : (dat2 (VW8 m) c).arrAt w cfg2.N = VW9 m c (Pipeline.arrRef spec2 w) :=
  (W9_arr m c w).symm
theorem hrest2 (c : Dev nD) : ∀ b, b ∉ Finset.univ.image (Pipeline.arrRef spec2) → VW9 m c b = VW8 m c b :=
  fun b hb => W9_of_ne m c b fun w e => hb (Finset.mem_image.mpr ⟨w, Finset.mem_univ _, e⟩)
/-- At region 3's exit: its arrays at what the pipeline leaves, every other buffer as entered. -/
def W10 (c : Dev nD) : Valuation τ sig (Elt F) :=
  Pipeline.withArrays spec3 c (W9 m c) fun w => (dat3 (VW9 m) c).arrAt w cfg3.N
theorem W10_arr (c : Dev nD) (w : Fin cfg3.W) :
    W10 m c (Proc.devRef .tc (Pipeline.arrRef spec3 w)) = (dat3 (VW9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
abbrev VW10 : (c : Dev nD) → (b : Ref sig .tc) → Buf (Elt F) ((c : Thread nD τ).loc b) := fun c b => W10 m c b
theorem hF3 (c : Dev nD) (w : Fin cfg3.W) : (dat3 (VW9 m) c).arrAt w cfg3.N = VW10 m c (Pipeline.arrRef spec3 w) :=
  (W10_arr m c w).symm
theorem hrest3 (c : Dev nD) : ∀ b, b ∉ Finset.univ.image (Pipeline.arrRef spec3) → VW10 m c b = VW9 m c b :=
  fun b hb => W10_of_ne m c b fun w e => hb (Finset.mem_image.mpr ⟨w, Finset.mem_univ _, e⟩)
/-- After the host operations `hostOps4`. -/
abbrev W11 : Dev nD → Valuation τ sig (Elt F) := fun c => StableHlo.after hostOps4 (W10 m c)
abbrev VW11 : (c : Dev nD) → (b : Ref sig .tc) → Buf (Elt F) ((c : Thread nD τ).loc b) := fun c b => W11 m c b
theorem W11_of (c : Dev nD) (r : Ref sig .tc) (h : r ∉ hostOps4_W) : W11 m c r = W10 m c r :=
  StableHlo.after_of_writes_sub hostOps4 _ hostOps4_writes h

/-! ## No item writes an argument -/

theorem W11_main_arg0 (c : Dev nD) : W11 m c (Proc.devRef .tc main_arg0) = m ((c : Thread nD τ).loc main_arg0) :=
  (W11_of m c main_arg0 (by decide)).trans <| (W10_of_ne m c main_arg0 (by decide)).trans <| (W9_of_ne m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of_ne m c main_arg0 (by decide)).trans <| (W2_of_ne m c main_arg0 (by decide)).trans <| (W1_of m c main_arg0 (by decide)).trans rfl
theorem W11_main_arg1 (c : Dev nD) : W11 m c (Proc.devRef .tc main_arg1) = m ((c : Thread nD τ).loc main_arg1) :=
  (W11_of m c main_arg1 (by decide)).trans <| (W10_of_ne m c main_arg1 (by decide)).trans <| (W9_of_ne m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of_ne m c main_arg1 (by decide)).trans <| (W2_of_ne m c main_arg1 (by decide)).trans <| (W1_of m c main_arg1 (by decide)).trans rfl
theorem W11_main_arg2 (c : Dev nD) : W11 m c (Proc.devRef .tc main_arg2) = m ((c : Thread nD τ).loc main_arg2) :=
  (W11_of m c main_arg2 (by decide)).trans <| (W10_of_ne m c main_arg2 (by decide)).trans <| (W9_of_ne m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of_ne m c main_arg2 (by decide)).trans <| (W2_of_ne m c main_arg2 (by decide)).trans <| (W1_of m c main_arg2 (by decide)).trans rfl
theorem W11_main_arg3 (c : Dev nD) : W11 m c (Proc.devRef .tc main_arg3) = m ((c : Thread nD τ).loc main_arg3) :=
  (W11_of m c main_arg3 (by decide)).trans <| (W10_of_ne m c main_arg3 (by decide)).trans <| (W9_of_ne m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of_ne m c main_arg3 (by decide)).trans <| (W2_of_ne m c main_arg3 (by decide)).trans <| (W1_of m c main_arg3 (by decide)).trans rfl
theorem W11_main_arg4 (c : Dev nD) : W11 m c (Proc.devRef .tc main_arg4) = m ((c : Thread nD τ).loc main_arg4) :=
  (W11_of m c main_arg4 (by decide)).trans <| (W10_of_ne m c main_arg4 (by decide)).trans <| (W9_of_ne m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of_ne m c main_arg4 (by decide)).trans <| (W2_of_ne m c main_arg4 (by decide)).trans <| (W1_of m c main_arg4 (by decide)).trans rfl
theorem W11_main_arg5 (c : Dev nD) : W11 m c (Proc.devRef .tc main_arg5) = m ((c : Thread nD τ).loc main_arg5) :=
  (W11_of m c main_arg5 (by decide)).trans <| (W10_of_ne m c main_arg5 (by decide)).trans <| (W9_of_ne m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of_ne m c main_arg5 (by decide)).trans <| (W2_of_ne m c main_arg5 (by decide)).trans <| (W1_of m c main_arg5 (by decide)).trans rfl
theorem W11_main_arg6 (c : Dev nD) : W11 m c (Proc.devRef .tc main_arg6) = m ((c : Thread nD τ).loc main_arg6) :=
  (W11_of m c main_arg6 (by decide)).trans <| (W10_of_ne m c main_arg6 (by decide)).trans <| (W9_of_ne m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of_ne m c main_arg6 (by decide)).trans <| (W2_of_ne m c main_arg6 (by decide)).trans <| (W1_of m c main_arg6 (by decide)).trans rfl
theorem W11_main_arg7 (c : Dev nD) : W11 m c (Proc.devRef .tc main_arg7) = m ((c : Thread nD τ).loc main_arg7) :=
  (W11_of m c main_arg7 (by decide)).trans <| (W10_of_ne m c main_arg7 (by decide)).trans <| (W9_of_ne m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of_ne m c main_arg7 (by decide)).trans <| (W2_of_ne m c main_arg7 (by decide)).trans <| (W1_of m c main_arg7 (by decide)).trans rfl
theorem W11_main_arg8 (c : Dev nD) : W11 m c (Proc.devRef .tc main_arg8) = m ((c : Thread nD τ).loc main_arg8) :=
  (W11_of m c main_arg8 (by decide)).trans <| (W10_of_ne m c main_arg8 (by decide)).trans <| (W9_of_ne m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of_ne m c main_arg8 (by decide)).trans <| (W2_of_ne m c main_arg8 (by decide)).trans <| (W1_of m c main_arg8 (by decide)).trans rfl

/-! ## The proof data family and the thread state -/

abbrev admH : (p : Fin 4) → (pcfgs (F := F) p).Adm := fun p => (cfgs p).toPCfg_adm
/-- Every pipeline's proof data, each at its region's entry contents: a literal match on the pipeline. -/
def pdats : (p : Fin 4) → (c : Dev nD) → Dat τ (Elt F) Unit ℕ (UR sig nD τ) ℕ (Pipeline.pin (pcfgs (F := F)) admH p) c
  | ⟨0, _⟩ => fun c => dat0 (VW1 m) c
  | ⟨1, _⟩ => fun c => dat1 (VW2 m) c
  | ⟨2, _⟩ => fun c => dat2 (VW8 m) c
  | ⟨3, _⟩ => fun c => dat3 (VW9 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W11 m c) ∗ ∃ r, prngReg c r)

/-! ## The regions as segments -/

set_option backward.isDefEq.respectTransparency.types false in
/-- Region 0 over the thread state: entered from every unscoped buffer at `W1`, left at `W2`; its arrays split
    out of the unscoped buffers and put back at the exit contents; the generator register and the scoped rest into the
    region's invariant and out; nothing owed; no semaphore of the kernel's own. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VW1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VW1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (VW1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (Phi_in0 (VW1 m) c)
    unfold Pipeline.ΦA
    iintro ⟨Hp, -, Hr⟩
    isplitl [Hr]; · iexact Hr
    iexact Hp
  hout c := by
    rw [Pipeline.ownSems0_none]
    refine (Phi_out0 (VW1 m) c).trans (show (Pipeline.ΦA spec0 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (VW1 m c) (VW2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`; its arrays split
    out of the unscoped buffers and put back at the exit contents; the generator register and the scoped rest into the
    region's invariant and out; nothing owed; no semaphore of the kernel's own. -/
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VW2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (VW2 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (VW2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (Phi_in1 (VW2 m) c)
    unfold Pipeline.ΦA
    iintro ⟨Hp, -, Hr⟩
    isplitl [Hr]; · iexact Hr
    iexact Hp
  hout c := by
    rw [Pipeline.ownSems0_none]
    refine (Phi_out1 (VW2 m) c).trans (show (Pipeline.ΦA spec1 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (VW2 m c) (VW3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W8`, left at `W9`; its arrays split
    out of the unscoped buffers and put back at the exit contents; the generator register and the scoped rest into the
    region's invariant and out; nothing owed; no semaphore of the kernel's own. -/
def reg2 : Pipeline.RegionSeg (pcfgs (F := F)) admH (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VW8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (VW8 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (VW8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (Phi_in2 (VW8 m) c)
    unfold Pipeline.ΦA
    iintro ⟨Hp, -, Hr⟩
    isplitl [Hr]; · iexact Hr
    iexact Hp
  hout c := by
    rw [Pipeline.ownSems0_none]
    refine (Phi_out2 (VW8 m) c).trans (show (Pipeline.ΦA spec2 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (VW8 m c) (VW9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W9`, left at `W10`; its arrays split
    out of the unscoped buffers and put back at the exit contents; the generator register and the scoped rest into the
    region's invariant and out; nothing owed; no semaphore of the kernel's own. -/
def reg3 : Pipeline.RegionSeg (pcfgs (F := F)) admH (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VW9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (VW9 m c)
  hentry c := by
    rw [Pipeline.ownSems0_none]
    have hsplit := Pipeline.arrays_of_unscopedBufs (p := 3) (pcfgs (F := F)) admH (pdats m) launch3.win launch3.arr_whole c
      ((pdats m 3 c).share_full fun _ => rfl) (VW9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec3 c : sProp 𝕄) from ?_).trans (Phi_in3 (VW9 m) c)
    unfold Pipeline.ΦA
    iintro ⟨Hp, -, Hr⟩
    isplitl [Hr]; · iexact Hr
    iexact Hp
  hout c := by
    rw [Pipeline.ownSems0_none]
    refine (Phi_out3 (VW9 m) c).trans (show (Pipeline.ΦA spec3 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m) ((pdats m 3 c).share_full fun _ => rfl)
      (VW9 m c) (VW10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdats m) () defs₀ 𝒱₀ L lv) :=
  [
    .host (hseg hostOps0 hostOps0_sub hostOps0_fresh (W0 m)),
    .region (reg0 m),
    .region (reg1 m),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)),
    .host (hseg hostOps2_3 hostOps2_3_sub hostOps2_3_fresh (W6 m)),
    .host (hseg hostOps2_4 hostOps2_4_sub hostOps2_4_fresh (W7 m)),
    .region (reg2 m),
    .region (reg3 m),
    .host (hseg hostOps4 hostOps4_sub hostOps4_fresh (W10 m)) ]

theorem main_run (c : Dev nD) : main (F := F) c = Pipeline.Seg.run (segsH m) := (main_chain c).trans (by chain_rfl)

set_option backward.isDefEq.respectTransparency.types false in
/-- Every weakly fair execution of @main from memory `m` with zero counters terminates, nothing faulting, with every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) admH (pdats m) () cellOf_inj emb₁ defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W11 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

/-- The frame claim's post at any float instance: the nine arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    (h c _ (mem_uc main_arg0 (by decide))).trans (W11_main_arg0 m c),
    (h c _ (mem_uc main_arg1 (by decide))).trans (W11_main_arg1 m c),
    (h c _ (mem_uc main_arg2 (by decide))).trans (W11_main_arg2 m c),
    (h c _ (mem_uc main_arg3 (by decide))).trans (W11_main_arg3 m c),
    (h c _ (mem_uc main_arg4 (by decide))).trans (W11_main_arg4 m c),
    (h c _ (mem_uc main_arg5 (by decide))).trans (W11_main_arg5 m c),
    (h c _ (mem_uc main_arg6 (by decide))).trans (W11_main_arg6 m c),
    (h c _ (mem_uc main_arg7 (by decide))).trans (W11_main_arg7 m c),
    (h c _ (mem_uc main_arg8 (by decide))).trans (W11_main_arg8 m c)⟩) (run_all m ρ)

end Cert.Kernel.Hand

end
-- ==== Proof.Reg0.lean ====
/-
  Region 0: the first matrix product of the first propagation, M = Hᵀ · (Dv ⊙ I), computed block by block.
  The grid is 2 × 4: coordinate 0 picks a block of 2048 columns of H (rows of M), coordinate 1 runs over the four
  blocks of 2048 rows of H, the contracted axis. A scratch accumulator of the block's shape is carried between
  points: at coordinate 1 = 0 it is zeroed, at every point the product of the point's blocks is added to it, and
  the output window's buffer is overwritten with the accumulator. This module states what the accumulator and the
  output buffer hold after each point (by recursion on the point) and proves the body obligation of the pipeline
  against it, for any contents `V` the region is entered from and at any float instance.
-/
import proofs.«179498_j53352083751414_2_alg».proof.Proof.Gen.KernelIdeal.Launch
import proofs.«179498_j53352083751414_2_alg».proof.Proof.Gen.KernelIdeal.Skeleton
import proofs.«179498_j53352083751414_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's one branch: is the contracted axis at its first block? -/

/-- The body's branch condition, from the grid coordinates. -/
abbrev cond0_0 (i : grid0.Coords) : Prop := (Scalar.cmpi .ne (Scalar.extui (Scalar.cmpi .eq (BitVec.ofNat 32 (i 1).val) 0#32)) 0#32) = 1#1
/-- It holds exactly at the points whose position is a multiple of 4 (coordinate 1 is the position modulo 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- No window is ever idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-! ## The memrefs the body is called with -/

abbrev VO0_3 : View sig .tc .vmem S2048x64 .f32 := (Memref.whole cc0_stg3_0 : Memref sig .tc .vmem S2048x64 .f32).view
abbrev ms0_0 (t : Fin cfg0.N) : Memref sig .tc .vmem S2048x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x64 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S2048x64 .f32 := Memref.whole cc0_scratch0
abbrev VS0_0 : View sig .tc .vmem S2048x64 .f32 := scM0_0.view

/-- The class invariant with the accumulator split out of the scoped rest. -/
theorem PhiA0_eq (c : Dev nD) :
    (Pipeline.ΦA spec0 c : sProp 𝕄)
      = iprop(iprop((∃ d, owns (c : Thread nD τ) scM0_0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; rfl

/-! ## The body's triple, case by case -/

set_option maxHeartbeats 1000000 in
/-- FIRST BLOCK of the contracted axis: the accumulator, at anything, is zeroed and the product added; the pieces the
    stores leave in the output buffer and in the accumulator are the witness the run finds. -/
noncomputable def kernelRun0_A (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hc0 : cond0_0 i)
    (x0 : Vec F S2048x2048 .bf16) (x1 : Vec F S2048x1 .f32) (x2 : Vec F S2048x64 .f32) :
    Σ' (L3 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc0__matmulT_kernel i arg2 harg2 arg3 harg3 arg4 harg4 arg5 harg5 arg6 harg6) K } := by
  refine ⟨?_, ?_, fun E K => ?run⟩
  case run =>
    simp only [cc0__matmulT_kernel_eq_skeleton]; unfold cc0__matmulT_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

set_option maxHeartbeats 1000000 in
/-- A LATER BLOCK: the accumulator at what the point before left (`xs0`) has the product added. -/
noncomputable def kernelRun0_B (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i)
    (x0 : Vec F S2048x2048 .bf16) (x1 : Vec F S2048x1 .f32) (x2 : Vec F S2048x64 .f32) (xs0 : Vec F S2048x64 .f32) :
    Σ' (L3 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc0__matmulT_kernel i arg2 harg2 arg3 harg3 arg4 harg4 arg5 harg5 arg6 harg6) K } := by
  refine ⟨?_, ?_, fun E K => ?run⟩
  case run =>
    simp only [cc0__matmulT_kernel_eq_skeleton]; unfold cc0__matmulT_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.Reg0Dat.lean ====
/-
  Region 0, continued: what the accumulator and the output buffer hold after each grid point, by recursion on the
  point (zeroed and restarted at every first block of the contracted axis, added to at the later blocks); the
  pipeline's proof data built on it; and the body obligation at every point.
-/
import proofs.«179498_j53352083751414_2_alg».proof.Proof.Reg0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves: its pieces cover the buffers, and are read back -/

/-- At a first block the stores into the output buffer cover it. -/
theorem cover0_A_3 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (x0 : Vec F S2048x2048 .bf16) (x1 : Vec F S2048x1 .f32) (x2 : Vec F S2048x64 .f32) (y : S2048x64.Idx) :
    ∃ pc ∈ (kernelRun0_A c i arg2 harg2 arg3 harg3 arg4 harg4 arg5 harg5 arg6 harg6 hc0 x0 x1 x2).1, y ∈ pc.1.set :=
  View.cover_of_tiledL (kernelRun0_A c i arg2 harg2 arg3 harg3 arg4 harg4 arg5 harg5 arg6 harg6 hc0 x0 x1 x2).1 S2048x64.size (by sl_kernel_rfl) y
/-- What a first block leaves in the output buffer. -/
def out0_A_3 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (x0 : Vec F S2048x2048 .bf16) (x1 : Vec F S2048x1 .f32) (x2 : Vec F S2048x64 .f32) : Vec F S2048x64 .f32 :=
  VO0_3.read (Elt F) (VO0_3.writes (Elt F) VO0_3.junk (kernelRun0_A c i arg2 harg2 arg3 harg3 arg4 harg4 arg5 harg5 arg6 harg6 hc0 x0 x1 x2).1)
/-- At a first block the stores into the accumulator cover it. -/
theorem scover0_A_0 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (x0 : Vec F S2048x2048 .bf16) (x1 : Vec F S2048x1 .f32) (x2 : Vec F S2048x64 .f32) (y : S2048x64.Idx) :
    ∃ pc ∈ (kernelRun0_A c i arg2 harg2 arg3 harg3 arg4 harg4 arg5 harg5 arg6 harg6 hc0 x0 x1 x2).2.1, y ∈ pc.1.set :=
  View.cover_of_tiledL (kernelRun0_A c i arg2 harg2 arg3 harg3 arg4 harg4 arg5 harg5 arg6 harg6 hc0 x0 x1 x2).2.1 S2048x64.size (by sl_kernel_rfl) y
/-- What a first block leaves in the accumulator. -/
def sout0_A_0 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (x0 : Vec F S2048x2048 .bf16) (x1 : Vec F S2048x1 .f32) (x2 : Vec F S2048x64 .f32) : Vec F S2048x64 .f32 :=
  VS0_0.read (Elt F) (VS0_0.writes (Elt F) VS0_0.junk (kernelRun0_A c i arg2 harg2 arg3 harg3 arg4 harg4 arg5 harg5 arg6 harg6 hc0 x0 x1 x2).2.1)

theorem cover0_B_3 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (x0 : Vec F S2048x2048 .bf16) (x1 : Vec F S2048x1 .f32) (x2 : Vec F S2048x64 .f32) (xs0 : Vec F S2048x64 .f32) (y : S2048x64.Idx) :
    ∃ pc ∈ (kernelRun0_B c i arg2 harg2 arg3 harg3 arg4 harg4 arg5 harg5 arg6 harg6 hc0 x0 x1 x2 xs0).1, y ∈ pc.1.set :=
  View.cover_of_tiledL (kernelRun0_B c i arg2 harg2 arg3 harg3 arg4 harg4 arg5 harg5 arg6 harg6 hc0 x0 x1 x2 xs0).1 S2048x64.size (by sl_kernel_rfl) y
/-- What a later block leaves in the output buffer. -/
def out0_B_3 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (x0 : Vec F S2048x2048 .bf16) (x1 : Vec F S2048x1 .f32) (x2 : Vec F S2048x64 .f32) (xs0 : Vec F S2048x64 .f32) : Vec F S2048x64 .f32 :=
  VO0_3.read (Elt F) (VO0_3.writes (Elt F) VO0_3.junk (kernelRun0_B c i arg2 harg2 arg3 harg3 arg4 harg4 arg5 harg5 arg6 harg6 hc0 x0 x1 x2 xs0).1)
theorem scover0_B_0 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (x0 : Vec F S2048x2048 .bf16) (x1 : Vec F S2048x1 .f32) (x2 : Vec F S2048x64 .f32) (xs0 : Vec F S2048x64 .f32) (y : S2048x64.Idx) :
    ∃ pc ∈ (kernelRun0_B c i arg2 harg2 arg3 harg3 arg4 harg4 arg5 harg5 arg6 harg6 hc0 x0 x1 x2 xs0).2.1, y ∈ pc.1.set :=
  View.cover_of_tiledL (kernelRun0_B c i arg2 harg2 arg3 harg3 arg4 harg4 arg5 harg5 arg6 harg6 hc0 x0 x1 x2 xs0).2.1 S2048x64.size (by sl_kernel_rfl) y
/-- What a later block leaves in the accumulator. -/
def sout0_B_0 (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (x0 : Vec F S2048x2048 .bf16) (x1 : Vec F S2048x1 .f32) (x2 : Vec F S2048x64 .f32) (xs0 : Vec F S2048x64 .f32) : Vec F S2048x64 .f32 :=
  VS0_0.read (Elt F) (VS0_0.writes (Elt F) VS0_0.junk (kernelRun0_B c i arg2 harg2 arg3 harg3 arg4 harg4 arg5 harg5 arg6 harg6 hc0 x0 x1 x2 xs0).2.1)

/-! ## The accumulation, point by point -/

/-- What the output buffer and the accumulator hold after the body at position `n` (a pair: the output buffer, the
    accumulator): at a first block of the contracted axis the first case's contents, at a later block the second
    case's over the accumulator the point before left. -/
def outsAt0 (c : Dev nD) : (n : ℕ) → n < cfg0.N → Vec F S2048x64 .f32 × Vec F S2048x64 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩))
  | n + 1, hn =>
    if h0 : (n + 1) % 4 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- At a first block: the first case's contents. -/
theorem outsAt0_A (c : Dev nD) (t : Fin cfg0.N) (h0 : t.val % 4 = 0) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) (iblk0 V c 1 t) (iblk0 V c 2 t),
      sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) (iblk0 V c 1 t) (iblk0 V c 2 t)) := by
  obtain ⟨n, hn⟩ := t
  cases n with
  | zero => exact rfl
  | succ n => exact dif_pos h0

/-- At a later block: the second case's contents over what the point before left in the accumulator. -/
theorem outsAt0_B (c : Dev nD) (t : Fin cfg0.N) (h0 : ¬t.val % 4 = 0) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact absurd (Nat.zero_mod _) h0
  | succ n => exact dif_neg h0

/-! ## The region's invariant: the accumulator's contents between points -/

/-- Before the first point the class invariant (the accumulator at anything); after point `n` the accumulator at
    what that point left, beside the rest of the scoped buffers and the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The arrays as the region finds them; after the body each input's buffer at its block, the output's at the
    accumulation; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the position modulo 4 says which case the point is
    in; the invariant hands the body the accumulator (at what the point before left; at anything before the first
    point) and takes it back at this point's contents; the output buffer ends at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 4 = 0
  · rw [outsAt0_A V c t h0]
    unfold out0_A_3 sout0_A_0; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (iblk0 V c 0 t) (iblk0 V c 1 t) (iblk0 V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _)
    · rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (iblk0 V c 0 t) (iblk0 V c 1 t) (iblk0 V c 2 t)).2.2 Set.univ _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _)
  · rw [outsAt0_B V c t h0]
    unfold out0_B_3 sout0_B_0; (try dsimp only)
    have hz : t.val ≠ 0 := fun h => h0 (by rw [h])
    rw [PhiS0_castSucc V c t, PhiS0_pos V c _ _ hz]
    iintro ⟨⟨⟨HS0, Hrest⟩, Hg⟩, Ho, ⟨%d0, H0⟩, ⟨%d1, H1⟩, ⟨%d2, H2⟩, ⟨%d3, H3⟩⟩
    iapply ((kernelRun0_B c (grid0.coords t) _ _ _ _ _ _ _ _ _ _ (fun h => h0 ((hcond0_0 t).mp h)) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_B_0 c _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem Phi_in0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the accumulator's contents are forgotten. -/
theorem Phi_back0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem Phi_out0 (c : Dev nD) : (dat0 V c).Φ (Fin.last cfg0.N) ⊢ Pipeline.ΦA spec0 c :=
  Phi_back0 V c _ (by rw [Fin.val_last]; have : cfg0.N = 8 := N_0; omega)

end Cert.KernelIdeal.Hand

end
-- ==== Proof.Reg1.lean ====
/- Region 1 of the program: the pipelined call of the kernel that accumulates, over the four column
   blocks of a row block, the product of the scaled incidence block with the matching block of M into a
   resident accumulator, and writes the accumulator out as the row block of Z.

   Stated at an arbitrary contents V of the core's buffers when the region is entered, and for any float
   model F.  The accumulator is zeroed at the first column block of each row block (grid coordinate 1 = 0),
   then each point adds one partial product to it and copies it whole into the output window's staging
   buffer; the staging buffer is written back after the last column block.  Two cases of the body are run:
   the first column block (A) and the others (B).  What the output window and the accumulator hold after
   each point is defined by recursion on the point (outsAt1), and the proof data, the body obligation and
   the two ends of the invariant are stated over it. -/
import proofs.«179498_j53352083751414_2_alg».proof.Proof.Gen.KernelIdeal.Launch
import proofs.«179498_j53352083751414_2_alg».proof.Proof.Gen.KernelIdeal.Skeleton
import proofs.«179498_j53352083751414_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the core's buffer contents when region 1 is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, whether or not the block
    was fetched there (when it was not, the block index has not moved), for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's conditional, from the grid coordinates: coordinate 1 is zero. -/
abbrev cond1_0 (i : grid1.Coords) : Prop := (Scalar.cmpi .ne (Scalar.extui (Scalar.cmpi .eq (BitVec.ofNat 32 (i 1).val) 0#32)) 0#32) = 1#1
/-- It holds at the first column block of each row block — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-! ## No window is idle at any point -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel

/-! ## The memrefs the body is called with -/

/-- One staging buffer of the output window, through which its contents are stated (the choice does not matter). -/
abbrev VO1_4 : View sig .tc .vmem S2048x64 .f32 := (Memref.whole cc1_stg4_0 : Memref sig .tc .vmem S2048x64 .f32).view
/-- Each window's current staging memref at point `t`, as the pipeline passes it, and its wholeness. -/
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x64 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows. -/
abbrev scM1_0 : Memref sig .tc .vmem S2048x64 .f32 := Memref.whole cc1_scratch0
/-- The accumulator as a view: what it holds is stated through it. -/
abbrev VS1_0 : View sig .tc .vmem S2048x64 .f32 := scM1_0.view

/-- The region's entry invariant with the accumulator as a memref owned at some contents, beside the scoped
    buffers that are not this call's (left unopened) and the generator register. -/
theorem PhiA1_eq (c : Dev nD) :
    (Pipeline.ΦA spec1 c : sProp 𝕄)
      = iprop(iprop((∃ d, owns (c : Thread nD τ) scM1_0 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-! ## The kernel body on any staging memrefs, case by case -/

set_option maxHeartbeats 1000000 in
/-- What the body's stores leave in the output window's staging memref and in the accumulator, as pieces (last
    first), AT THE FIRST COLUMN BLOCK (the conditional taken), with the proof that on whole memrefs — the inputs'
    at their contents, the output's and the accumulator's at anything — the body runs to the continuation holding
    the inputs' as they were and the output's and the accumulator's with their pieces written.  The accumulator is
    loaded before it is zeroed; the value loaded is not used. -/
noncomputable def kernelRun1_A (c : Dev nD) (i : grid1.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S2048x64 .f32) (harg6 : arg6.IsWhole) (arg7 : Memref sig .tc .vmem S2048x64 .f32) (harg7 : arg7.IsWhole) (hc0 : cond1_0 i)
    (x0 : Vec F S2048x1024 .bf16) (x1 : Vec F S2048x1 .f32) (x2 : Vec F S1x1024 .f32) (x3 : Vec F S1024x64 .f32) :
    Σ' (L4 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmulA_kernel i arg2 harg2 arg3 harg3 arg4 harg4 arg5 harg5 arg6 harg6 arg7 harg7) K } := by
  refine ⟨?_, ?_, fun E K => ?run⟩
  case run =>
    simp only [cc1__matmulA_kernel_eq_skeleton]; unfold cc1__matmulA_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

set_option maxHeartbeats 1000000 in
/-- The same AT THE OTHER COLUMN BLOCKS (the conditional not taken): the accumulator is handed at the contents
    `xs0` the point before left, which the partial product is added to. -/
noncomputable def kernelRun1_B (c : Dev nD) (i : grid1.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i)
    (x0 : Vec F S2048x1024 .bf16) (x1 : Vec F S2048x1 .f32) (x2 : Vec F S1x1024 .f32) (x3 : Vec F S1024x64 .f32) (xs0 : Vec F S2048x64 .f32) :
    Σ' (L4 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc1__matmulA_kernel i arg2 harg2 arg3 harg3 arg4 harg4 arg5 harg5 arg6 harg6 arg7 harg7) K } := by
  refine ⟨?_, ?_, fun E K => ?run⟩
  case run =>
    simp only [cc1__matmulA_kernel_eq_skeleton]; unfold cc1__matmulA_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## What each case leaves in the output window and in the accumulator -/

/-- Case A's pieces for the output window tile its block, so they cover it. -/
theorem cover1_A_4 (c : Dev nD) (i : grid1.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S2048x64 .f32) (harg6 : arg6.IsWhole) (arg7 : Memref sig .tc .vmem S2048x64 .f32) (harg7 : arg7.IsWhole) (hc0 : cond1_0 i)
    (x0 : Vec F S2048x1024 .bf16) (x1 : Vec F S2048x1 .f32) (x2 : Vec F S1x1024 .f32) (x3 : Vec F S1024x64 .f32) (y : S2048x64.Idx) :
    ∃ pc ∈ (kernelRun1_A c i arg2 harg2 arg3 harg3 arg4 harg4 arg5 harg5 arg6 harg6 arg7 harg7 hc0 x0 x1 x2 x3).1, y ∈ pc.1.set :=
  View.cover_of_tiledL (kernelRun1_A c i arg2 harg2 arg3 harg3 arg4 harg4 arg5 harg5 arg6 harg6 arg7 harg7 hc0 x0 x1 x2 x3).1 S2048x64.size (by sl_kernel_rfl) y

/-- What case A leaves in the output window's staging buffer: its pieces read back. -/
def out1_A_4 (c : Dev nD) (i : grid1.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S2048x64 .f32) (harg6 : arg6.IsWhole) (arg7 : Memref sig .tc .vmem S2048x64 .f32) (harg7 : arg7.IsWhole) (hc0 : cond1_0 i)
    (x0 : Vec F S2048x1024 .bf16) (x1 : Vec F S2048x1 .f32) (x2 : Vec F S1x1024 .f32) (x3 : Vec F S1024x64 .f32) : Vec F S2048x64 .f32 :=
  VO1_4.read (Elt F) (VO1_4.writes (Elt F) VO1_4.junk (kernelRun1_A c i arg2 harg2 arg3 harg3 arg4 harg4 arg5 harg5 arg6 harg6 arg7 harg7 hc0 x0 x1 x2 x3).1)

/-- Case A's pieces for the accumulator cover it. -/
theorem scover1_A_0 (c : Dev nD) (i : grid1.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S2048x64 .f32) (harg6 : arg6.IsWhole) (arg7 : Memref sig .tc .vmem S2048x64 .f32) (harg7 : arg7.IsWhole) (hc0 : cond1_0 i)
    (x0 : Vec F S2048x1024 .bf16) (x1 : Vec F S2048x1 .f32) (x2 : Vec F S1x1024 .f32) (x3 : Vec F S1024x64 .f32) (y : S2048x64.Idx) :
    ∃ pc ∈ (kernelRun1_A c i arg2 harg2 arg3 harg3 arg4 harg4 arg5 harg5 arg6 harg6 arg7 harg7 hc0 x0 x1 x2 x3).2.1, y ∈ pc.1.set :=
  View.cover_of_tiledL (kernelRun1_A c i arg2 harg2 arg3 harg3 arg4 harg4 arg5 harg5 arg6 harg6 arg7 harg7 hc0 x0 x1 x2 x3).2.1 S2048x64.size (by sl_kernel_rfl) y

/-- What case A leaves in the accumulator: its pieces read back. -/
def sout1_A_0 (c : Dev nD) (i : grid1.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S2048x64 .f32) (harg6 : arg6.IsWhole) (arg7 : Memref sig .tc .vmem S2048x64 .f32) (harg7 : arg7.IsWhole) (hc0 : cond1_0 i)
    (x0 : Vec F S2048x1024 .bf16) (x1 : Vec F S2048x1 .f32) (x2 : Vec F S1x1024 .f32) (x3 : Vec F S1024x64 .f32) : Vec F S2048x64 .f32 :=
  VS1_0.read (Elt F) (VS1_0.writes (Elt F) VS1_0.junk (kernelRun1_A c i arg2 harg2 arg3 harg3 arg4 harg4 arg5 harg5 arg6 harg6 arg7 harg7 hc0 x0 x1 x2 x3).2.1)

/-- Case B's pieces for the output window tile its block, so they cover it. -/
theorem cover1_B_4 (c : Dev nD) (i : grid1.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i)
    (x0 : Vec F S2048x1024 .bf16) (x1 : Vec F S2048x1 .f32) (x2 : Vec F S1x1024 .f32) (x3 : Vec F S1024x64 .f32) (xs0 : Vec F S2048x64 .f32) (y : S2048x64.Idx) :
    ∃ pc ∈ (kernelRun1_B c i arg2 harg2 arg3 harg3 arg4 harg4 arg5 harg5 arg6 harg6 arg7 harg7 hc0 x0 x1 x2 x3 xs0).1, y ∈ pc.1.set :=
  View.cover_of_tiledL (kernelRun1_B c i arg2 harg2 arg3 harg3 arg4 harg4 arg5 harg5 arg6 harg6 arg7 harg7 hc0 x0 x1 x2 x3 xs0).1 S2048x64.size (by sl_kernel_rfl) y

/-- What case B leaves in the output window's staging buffer: its pieces read back. -/
def out1_B_4 (c : Dev nD) (i : grid1.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i)
    (x0 : Vec F S2048x1024 .bf16) (x1 : Vec F S2048x1 .f32) (x2 : Vec F S1x1024 .f32) (x3 : Vec F S1024x64 .f32) (xs0 : Vec F S2048x64 .f32) : Vec F S2048x64 .f32 :=
  VO1_4.read (Elt F) (VO1_4.writes (Elt F) VO1_4.junk (kernelRun1_B c i arg2 harg2 arg3 harg3 arg4 harg4 arg5 harg5 arg6 harg6 arg7 harg7 hc0 x0 x1 x2 x3 xs0).1)

/-- Case B's pieces for the accumulator cover it. -/
theorem scover1_B_0 (c : Dev nD) (i : grid1.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i)
    (x0 : Vec F S2048x1024 .bf16) (x1 : Vec F S2048x1 .f32) (x2 : Vec F S1x1024 .f32) (x3 : Vec F S1024x64 .f32) (xs0 : Vec F S2048x64 .f32) (y : S2048x64.Idx) :
    ∃ pc ∈ (kernelRun1_B c i arg2 harg2 arg3 harg3 arg4 harg4 arg5 harg5 arg6 harg6 arg7 harg7 hc0 x0 x1 x2 x3 xs0).2.1, y ∈ pc.1.set :=
  View.cover_of_tiledL (kernelRun1_B c i arg2 harg2 arg3 harg3 arg4 harg4 arg5 harg5 arg6 harg6 arg7 harg7 hc0 x0 x1 x2 x3 xs0).2.1 S2048x64.size (by sl_kernel_rfl) y

/-- What case B leaves in the accumulator: its pieces read back. -/
def sout1_B_0 (c : Dev nD) (i : grid1.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i)
    (x0 : Vec F S2048x1024 .bf16) (x1 : Vec F S2048x1 .f32) (x2 : Vec F S1x1024 .f32) (x3 : Vec F S1024x64 .f32) (xs0 : Vec F S2048x64 .f32) : Vec F S2048x64 .f32 :=
  VS1_0.read (Elt F) (VS1_0.writes (Elt F) VS1_0.junk (kernelRun1_B c i arg2 harg2 arg3 harg3 arg4 harg4 arg5 harg5 arg6 harg6 arg7 harg7 hc0 x0 x1 x2 x3 xs0).2.1)

/-! ## What the output window and the accumulator hold after each point -/

/-- THE ACCUMULATION.  What the output window's staging buffer and the accumulator hold after the body at position
    `n` (a pair: the output window, then the accumulator): at a first column block case A's contents; elsewhere
    case B's, over what the accumulator held after position `n - 1`. -/
def outsAt1 (c : Dev nD) : (n : ℕ) → n < cfg1.N → Vec F S2048x64 .f32 × Vec F S2048x64 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a first column block: case A's contents. -/
theorem outsAt1_A (c : Dev nD) (t : Fin cfg1.N) (h0 : t.val % 4 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at another column block: case B's contents, over what the point before left in the accumulator. -/
theorem outsAt1_B (c : Dev nD) (t : Fin cfg1.N) (h0 : ¬t.val % 4 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the entry invariant (the accumulator at
    anything); afterwards the accumulator at what the point before left in it, the scoped buffers that are not this
    call's unopened, and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of the region's pipeline on core `c`: the arrays as the region finds them; after the body at
    point `t` each input's buffer at its block and the output's at `outsAt1`; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed form of the condition says which case
    the point is in; the invariant hands the body the accumulator at what the point before left (at anything at
    the first point), and takes it back at this point's contents; the output window's buffer is handed at anything
    and taken back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 4 = 0
  · rw [outsAt1_A V c t h0]
    unfold out1_A_4 sout1_A_0; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
  · rw [outsAt1_B V c t h0]
    unfold out1_B_4 sout1_B_0; (try dsimp only)
    have hz : t.val ≠ 0 := fun e => h0 (by rw [e])
    rw [PhiS1_castSucc V c t, PhiS1_pos V c _ _ hz]
    iintro ⟨⟨⟨HS0, HR⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ (fun h => h0 ((hcond1_0 t).mp h)) (iblk1 V c 0 t) (iblk1 V c 1 t) (iblk1 V c 2 t) (iblk1 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_B_0 c _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem Phi_in1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry invariant back: the accumulator's named contents
    are forgotten. -/
theorem Phi_out1_of (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem Phi_out1 (c : Dev nD) : (dat1 V c).Φ (Fin.last cfg1.N) ⊢ Pipeline.ΦA spec1 c :=
  Phi_out1_of V c _ (by rw [Fin.val_last]; have : cfg1.N = 16 := N_1; omega)

end Region1

end Cert.KernelIdeal.Hand

end
-- ==== Proof.Reg2.lean ====
/-
  Region 2: the first matrix product of the second propagation (one column), M = Hᵀ · (Dv ⊙ I), computed block by block.
  The grid is 2 × 4: coordinate 0 picks a block of 2048 columns of H (rows of M), coordinate 1 runs over the four
  blocks of 2048 rows of H, the contracted axis. A scratch accumulator of the block's shape is carried between
  points: at coordinate 1 = 0 it is zeroed, at every point the product of the point's blocks is added to it, and
  the output window's buffer is overwritten with the accumulator. This module states what the accumulator and the
  output buffer hold after each point (by recursion on the point) and proves the body obligation of the pipeline
  against it, for any contents `V` the region is entered from and at any float instance.
-/
import proofs.«179498_j53352083751414_2_alg».proof.Proof.Gen.KernelIdeal.Launch
import proofs.«179498_j53352083751414_2_alg».proof.Proof.Gen.KernelIdeal.Skeleton
import proofs.«179498_j53352083751414_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's one branch: is the contracted axis at its first block? -/

/-- The body's branch condition, from the grid coordinates. -/
abbrev cond2_0 (i : grid2.Coords) : Prop := (Scalar.cmpi .ne (Scalar.extui (Scalar.cmpi .eq (BitVec.ofNat 32 (i 1).val) 0#32)) 0#32) = 1#1
/-- It holds exactly at the points whose position is a multiple of 4 (coordinate 1 is the position modulo 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- No window is ever idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

/-! ## The memrefs the body is called with -/

abbrev VO2_3 : View sig .tc .vmem S2048x1 .f32 := (Memref.whole cc2_stg3_0 : Memref sig .tc .vmem S2048x1 .f32).view
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2_0 : Memref sig .tc .vmem S2048x1 .f32 := Memref.whole cc2_scratch0
abbrev VS2_0 : View sig .tc .vmem S2048x1 .f32 := scM2_0.view

/-- The class invariant with the accumulator split out of the scoped rest. -/
theorem PhiA2_eq (c : Dev nD) :
    (Pipeline.ΦA spec2 c : sProp 𝕄)
      = iprop(iprop((∃ d, owns (c : Thread nD τ) scM2_0 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; rfl

/-! ## The body's triple, case by case -/

set_option maxHeartbeats 1000000 in
/-- FIRST BLOCK of the contracted axis: the accumulator, at anything, is zeroed and the product added; the pieces the
    stores leave in the output buffer and in the accumulator are the witness the run finds. -/
noncomputable def kernelRun2_A (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond2_0 i)
    (x0 : Vec F S2048x2048 .bf16) (x1 : Vec F S2048x1 .f32) (x2 : Vec F S2048x1 .f32) :
    Σ' (L3 : List (View.Piece (Elt F) S2048x1 .f32)), { LS0 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc2__matmulT_kernel i arg2 harg2 arg3 harg3 arg4 harg4 arg5 harg5 arg6 harg6) K } := by
  refine ⟨?_, ?_, fun E K => ?run⟩
  case run =>
    simp only [cc2__matmulT_kernel_eq_skeleton]; unfold cc2__matmulT_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

set_option maxHeartbeats 1000000 in
/-- A LATER BLOCK: the accumulator at what the point before left (`xs0`) has the product added. -/
noncomputable def kernelRun2_B (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond2_0 i)
    (x0 : Vec F S2048x2048 .bf16) (x1 : Vec F S2048x1 .f32) (x2 : Vec F S2048x1 .f32) (xs0 : Vec F S2048x1 .f32) :
    Σ' (L3 : List (View.Piece (Elt F) S2048x1 .f32)), { LS0 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc2__matmulT_kernel i arg2 harg2 arg3 harg3 arg4 harg4 arg5 harg5 arg6 harg6) K } := by
  refine ⟨?_, ?_, fun E K => ?run⟩
  case run =>
    simp only [cc2__matmulT_kernel_eq_skeleton]; unfold cc2__matmulT_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.Reg2Dat.lean ====
/-
  Region 2, continued: what the accumulator and the output buffer hold after each grid point, by recursion on the
  point (zeroed and restarted at every first block of the contracted axis, added to at the later blocks); the
  pipeline's proof data built on it; and the body obligation at every point.
-/
import proofs.«179498_j53352083751414_2_alg».proof.Proof.Reg2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves: its pieces cover the buffers, and are read back -/

/-- At a first block the stores into the output buffer cover it. -/
theorem cover2_A_3 (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond2_0 i) (x0 : Vec F S2048x2048 .bf16) (x1 : Vec F S2048x1 .f32) (x2 : Vec F S2048x1 .f32) (y : S2048x1.Idx) :
    ∃ pc ∈ (kernelRun2_A c i arg2 harg2 arg3 harg3 arg4 harg4 arg5 harg5 arg6 harg6 hc0 x0 x1 x2).1, y ∈ pc.1.set :=
  View.cover_of_tiledL (kernelRun2_A c i arg2 harg2 arg3 harg3 arg4 harg4 arg5 harg5 arg6 harg6 hc0 x0 x1 x2).1 S2048x1.size (by sl_kernel_rfl) y
/-- What a first block leaves in the output buffer. -/
def out2_A_3 (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond2_0 i) (x0 : Vec F S2048x2048 .bf16) (x1 : Vec F S2048x1 .f32) (x2 : Vec F S2048x1 .f32) : Vec F S2048x1 .f32 :=
  VO2_3.read (Elt F) (VO2_3.writes (Elt F) VO2_3.junk (kernelRun2_A c i arg2 harg2 arg3 harg3 arg4 harg4 arg5 harg5 arg6 harg6 hc0 x0 x1 x2).1)
/-- At a first block the stores into the accumulator cover it. -/
theorem scover2_A_0 (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond2_0 i) (x0 : Vec F S2048x2048 .bf16) (x1 : Vec F S2048x1 .f32) (x2 : Vec F S2048x1 .f32) (y : S2048x1.Idx) :
    ∃ pc ∈ (kernelRun2_A c i arg2 harg2 arg3 harg3 arg4 harg4 arg5 harg5 arg6 harg6 hc0 x0 x1 x2).2.1, y ∈ pc.1.set :=
  View.cover_of_tiledL (kernelRun2_A c i arg2 harg2 arg3 harg3 arg4 harg4 arg5 harg5 arg6 harg6 hc0 x0 x1 x2).2.1 S2048x1.size (by sl_kernel_rfl) y
/-- What a first block leaves in the accumulator. -/
def sout2_A_0 (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond2_0 i) (x0 : Vec F S2048x2048 .bf16) (x1 : Vec F S2048x1 .f32) (x2 : Vec F S2048x1 .f32) : Vec F S2048x1 .f32 :=
  VS2_0.read (Elt F) (VS2_0.writes (Elt F) VS2_0.junk (kernelRun2_A c i arg2 harg2 arg3 harg3 arg4 harg4 arg5 harg5 arg6 harg6 hc0 x0 x1 x2).2.1)

theorem cover2_B_3 (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond2_0 i) (x0 : Vec F S2048x2048 .bf16) (x1 : Vec F S2048x1 .f32) (x2 : Vec F S2048x1 .f32) (xs0 : Vec F S2048x1 .f32) (y : S2048x1.Idx) :
    ∃ pc ∈ (kernelRun2_B c i arg2 harg2 arg3 harg3 arg4 harg4 arg5 harg5 arg6 harg6 hc0 x0 x1 x2 xs0).1, y ∈ pc.1.set :=
  View.cover_of_tiledL (kernelRun2_B c i arg2 harg2 arg3 harg3 arg4 harg4 arg5 harg5 arg6 harg6 hc0 x0 x1 x2 xs0).1 S2048x1.size (by sl_kernel_rfl) y
/-- What a later block leaves in the output buffer. -/
def out2_B_3 (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond2_0 i) (x0 : Vec F S2048x2048 .bf16) (x1 : Vec F S2048x1 .f32) (x2 : Vec F S2048x1 .f32) (xs0 : Vec F S2048x1 .f32) : Vec F S2048x1 .f32 :=
  VO2_3.read (Elt F) (VO2_3.writes (Elt F) VO2_3.junk (kernelRun2_B c i arg2 harg2 arg3 harg3 arg4 harg4 arg5 harg5 arg6 harg6 hc0 x0 x1 x2 xs0).1)
theorem scover2_B_0 (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond2_0 i) (x0 : Vec F S2048x2048 .bf16) (x1 : Vec F S2048x1 .f32) (x2 : Vec F S2048x1 .f32) (xs0 : Vec F S2048x1 .f32) (y : S2048x1.Idx) :
    ∃ pc ∈ (kernelRun2_B c i arg2 harg2 arg3 harg3 arg4 harg4 arg5 harg5 arg6 harg6 hc0 x0 x1 x2 xs0).2.1, y ∈ pc.1.set :=
  View.cover_of_tiledL (kernelRun2_B c i arg2 harg2 arg3 harg3 arg4 harg4 arg5 harg5 arg6 harg6 hc0 x0 x1 x2 xs0).2.1 S2048x1.size (by sl_kernel_rfl) y
/-- What a later block leaves in the accumulator. -/
def sout2_B_0 (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond2_0 i) (x0 : Vec F S2048x2048 .bf16) (x1 : Vec F S2048x1 .f32) (x2 : Vec F S2048x1 .f32) (xs0 : Vec F S2048x1 .f32) : Vec F S2048x1 .f32 :=
  VS2_0.read (Elt F) (VS2_0.writes (Elt F) VS2_0.junk (kernelRun2_B c i arg2 harg2 arg3 harg3 arg4 harg4 arg5 harg5 arg6 harg6 hc0 x0 x1 x2 xs0).2.1)

/-! ## The accumulation, point by point -/

/-- What the output buffer and the accumulator hold after the body at position `n` (a pair: the output buffer, the
    accumulator): at a first block of the contracted axis the first case's contents, at a later block the second
    case's over the accumulator the point before left. -/
def outsAt2 (c : Dev nD) : (n : ℕ) → n < cfg2.N → Vec F S2048x1 .f32 × Vec F S2048x1 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (iblk2 V c 0 ⟨0, hn⟩) (iblk2 V c 1 ⟨0, hn⟩) (iblk2 V c 2 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (iblk2 V c 0 ⟨0, hn⟩) (iblk2 V c 1 ⟨0, hn⟩) (iblk2 V c 2 ⟨0, hn⟩))
  | n + 1, hn =>
    if h0 : (n + 1) % 4 = 0 then
      (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (iblk2 V c 0 ⟨n + 1, hn⟩) (iblk2 V c 1 ⟨n + 1, hn⟩) (iblk2 V c 2 ⟨n + 1, hn⟩),
        sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (iblk2 V c 0 ⟨n + 1, hn⟩) (iblk2 V c 1 ⟨n + 1, hn⟩) (iblk2 V c 2 ⟨n + 1, hn⟩))
    else
      (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2,
        sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- At a first block: the first case's contents. -/
theorem outsAt2_A (c : Dev nD) (t : Fin cfg2.N) (h0 : t.val % 4 = 0) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (iblk2 V c 0 t) (iblk2 V c 1 t) (iblk2 V c 2 t),
      sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (iblk2 V c 0 t) (iblk2 V c 1 t) (iblk2 V c 2 t)) := by
  obtain ⟨n, hn⟩ := t
  cases n with
  | zero => exact rfl
  | succ n => exact dif_pos h0

/-- At a later block: the second case's contents over what the point before left in the accumulator. -/
theorem outsAt2_B (c : Dev nD) (t : Fin cfg2.N) (h0 : ¬t.val % 4 = 0) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (iblk2 V c 0 t) (iblk2 V c 1 t) (iblk2 V c 2 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact absurd (Nat.zero_mod _) h0
  | succ n => exact dif_neg h0

/-! ## The region's invariant: the accumulator's contents between points -/

/-- Before the first point the class invariant (the accumulator at anything); after point `n` the accumulator at
    what that point left, beside the rest of the scoped buffers and the generator register. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The arrays as the region finds them; after the body each input's buffer at its block, the output's at the
    accumulation; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' buffers hold their blocks; the position modulo 4 says which case the point is
    in; the invariant hands the body the accumulator (at what the point before left; at anything before the first
    point) and takes it back at this point's contents; the output buffer ends at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val % 4 = 0
  · rw [outsAt2_A V c t h0]
    unfold out2_A_3 sout2_A_0; (try dsimp only)
    by_cases hz : t.val = 0
    · rw [PhiS2_castSucc V c t, PhiS2_zero V c _ _ hz, PhiA2_eq]
      iintro ⟨⟨⟨HS0, Hrest⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (iblk2 V c 0 t) (iblk2 V c 1 t) (iblk2 V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_A_3 c _ _ _ _ _ _ _ _ _ _ _ _ _ _ _)
    · rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (iblk2 V c 0 t) (iblk2 V c 1 t) (iblk2 V c 2 t)).2.2 Set.univ _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_A_3 c _ _ _ _ _ _ _ _ _ _ _ _ _ _ _)
  · rw [outsAt2_B V c t h0]
    unfold out2_B_3 sout2_B_0; (try dsimp only)
    have hz : t.val ≠ 0 := fun h => h0 (by rw [h])
    rw [PhiS2_castSucc V c t, PhiS2_pos V c _ _ hz]
    iintro ⟨⟨⟨HS0, Hrest⟩, Hg⟩, Ho, ⟨%d0, H0⟩, ⟨%d1, H1⟩, ⟨%d2, H2⟩, ⟨%d3, H3⟩⟩
    iapply ((kernelRun2_B c (grid2.coords t) _ _ _ _ _ _ _ _ _ _ (fun h => h0 ((hcond2_0 t).mp h)) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover2_B_0 c _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_B_3 c _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem Phi_in2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the accumulator's contents are forgotten. -/
theorem Phi_back2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem Phi_out2 (c : Dev nD) : (dat2 V c).Φ (Fin.last cfg2.N) ⊢ Pipeline.ΦA spec2 c :=
  Phi_back2 V c _ (by rw [Fin.val_last]; have : cfg2.N = 8 := N_2; omega)

end Cert.KernelIdeal.Hand

end
-- ==== Proof.Reg3.lean ====
/- Region 3 of the program: the pipelined call of the kernel that accumulates, over the four column
   blocks of a row block, the product of the scaled incidence block with the matching block of M into a
   resident accumulator, and writes the accumulator out as the row block of Z.

   Stated at an arbitrary contents V of the core's buffers when the region is entered, and for any float
   model F.  The accumulator is zeroed at the first column block of each row block (grid coordinate 1 = 0),
   then each point adds one partial product to it and copies it whole into the output window's staging
   buffer; the staging buffer is written back after the last column block.  Two cases of the body are run:
   the first column block (A) and the others (B).  What the output window and the accumulator hold after
   each point is defined by recursion on the point (outsAt3), and the proof data, the body obligation and
   the two ends of the invariant are stated over it. -/
import proofs.«179498_j53352083751414_2_alg».proof.Proof.Gen.KernelIdeal.Launch
import proofs.«179498_j53352083751414_2_alg».proof.Proof.Gen.KernelIdeal.Skeleton
import proofs.«179498_j53352083751414_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the core's buffer contents when region 1 is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds the window's block at every point, whether or not the block
    was fetched there (when it was not, the block index has not moved), for any proof data whose array is the
    entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch condition -/

/-- The condition of the body's conditional, from the grid coordinates: coordinate 1 is zero. -/
abbrev cond3_0 (i : grid3.Coords) : Prop := (Scalar.cmpi .ne (Scalar.extui (Scalar.cmpi .eq (BitVec.ofNat 32 (i 1).val) 0#32)) 0#32) = 1#1
/-- It holds at the first column block of each row block — decided over the grid. -/
theorem hcond3_0 : ∀ t : Fin cfg3.N, cond3_0 (grid3.coords t) ↔ t.val % 4 = 0 :=
  (by decide +kernel : ∀ t : Fin grid3.N, cond3_0 (grid3.coords t) ↔ t.val % 4 = 0)

/-! ## No window is idle at any point -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel

/-! ## The memrefs the body is called with -/

/-- One staging buffer of the output window, through which its contents are stated (the choice does not matter). -/
abbrev VO3_4 : View sig .tc .vmem S2048x1 .f32 := (Memref.whole cc3_stg4_0 : Memref sig .tc .vmem S2048x1 .f32).view
/-- Each window's current staging memref at point `t`, as the pipeline passes it, and its wholeness. -/
abbrev ms3_0 (t : Fin cfg3.N) : Memref sig .tc .vmem S2048x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2048x1 .f32 := win3_4.stage (cfg3.slots t 4)
abbrev hs3_4 (t : Fin cfg3.N) : (ms3_4 t).IsWhole := hstage3_4 ((cfg3.slots t 4).cast nbuf3_4)
/-- The accumulator: a whole scoped buffer of the kernel's own, passed beside the windows. -/
abbrev scM3_0 : Memref sig .tc .vmem S2048x1 .f32 := Memref.whole cc3_scratch0
/-- The accumulator as a view: what it holds is stated through it. -/
abbrev VS3_0 : View sig .tc .vmem S2048x1 .f32 := scM3_0.view

/-- The region's entry invariant with the accumulator as a memref owned at some contents, beside the scoped
    buffers that are not this call's (left unopened) and the generator register. -/
theorem PhiA3_eq (c : Dev nD) :
    (Pipeline.ΦA spec3 c : sProp 𝕄)
      = iprop(iprop((∃ d, owns (c : Thread nD τ) scM3_0 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

/-! ## The kernel body on any staging memrefs, case by case -/

set_option maxHeartbeats 1000000 in
/-- What the body's stores leave in the output window's staging memref and in the accumulator, as pieces (last
    first), AT THE FIRST COLUMN BLOCK (the conditional taken), with the proof that on whole memrefs — the inputs'
    at their contents, the output's and the accumulator's at anything — the body runs to the continuation holding
    the inputs' as they were and the output's and the accumulator's with their pieces written.  The accumulator is
    loaded before it is zeroed; the value loaded is not used. -/
noncomputable def kernelRun3_A (c : Dev nD) (i : grid3.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S2048x1 .f32) (harg6 : arg6.IsWhole) (arg7 : Memref sig .tc .vmem S2048x1 .f32) (harg7 : arg7.IsWhole) (hc0 : cond3_0 i)
    (x0 : Vec F S2048x1024 .bf16) (x1 : Vec F S2048x1 .f32) (x2 : Vec F S1x1024 .f32) (x3 : Vec F S1024x1 .f32) :
    Σ' (L4 : List (View.Piece (Elt F) S2048x1 .f32)), { LS0 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc3__matmulA_kernel i arg2 harg2 arg3 harg3 arg4 harg4 arg5 harg5 arg6 harg6 arg7 harg7) K } := by
  refine ⟨?_, ?_, fun E K => ?run⟩
  case run =>
    simp only [cc3__matmulA_kernel_eq_skeleton]; unfold cc3__matmulA_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

set_option maxHeartbeats 1000000 in
/-- The same AT THE OTHER COLUMN BLOCKS (the conditional not taken): the accumulator is handed at the contents
    `xs0` the point before left, which the partial product is added to. -/
noncomputable def kernelRun3_B (c : Dev nD) (i : grid3.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S2048x1 .f32) (harg6 : arg6.IsWhole) (arg7 : Memref sig .tc .vmem S2048x1 .f32) (harg7 : arg7.IsWhole) (hc0 : ¬cond3_0 i)
    (x0 : Vec F S2048x1024 .bf16) (x1 : Vec F S2048x1 .f32) (x2 : Vec F S1x1024 .f32) (x3 : Vec F S1024x1 .f32) (xs0 : Vec F S2048x1 .f32) :
    Σ' (L4 : List (View.Piece (Elt F) S2048x1 .f32)), { LS0 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc3__matmulA_kernel i arg2 harg2 arg3 harg3 arg4 harg4 arg5 harg5 arg6 harg6 arg7 harg7) K } := by
  refine ⟨?_, ?_, fun E K => ?run⟩
  case run =>
    simp only [cc3__matmulA_kernel_eq_skeleton]; unfold cc3__matmulA_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## What each case leaves in the output window and in the accumulator -/

/-- Case A's pieces for the output window tile its block, so they cover it. -/
theorem cover3_A_4 (c : Dev nD) (i : grid3.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S2048x1 .f32) (harg6 : arg6.IsWhole) (arg7 : Memref sig .tc .vmem S2048x1 .f32) (harg7 : arg7.IsWhole) (hc0 : cond3_0 i)
    (x0 : Vec F S2048x1024 .bf16) (x1 : Vec F S2048x1 .f32) (x2 : Vec F S1x1024 .f32) (x3 : Vec F S1024x1 .f32) (y : S2048x1.Idx) :
    ∃ pc ∈ (kernelRun3_A c i arg2 harg2 arg3 harg3 arg4 harg4 arg5 harg5 arg6 harg6 arg7 harg7 hc0 x0 x1 x2 x3).1, y ∈ pc.1.set :=
  View.cover_of_tiledL (kernelRun3_A c i arg2 harg2 arg3 harg3 arg4 harg4 arg5 harg5 arg6 harg6 arg7 harg7 hc0 x0 x1 x2 x3).1 S2048x1.size (by sl_kernel_rfl) y

/-- What case A leaves in the output window's staging buffer: its pieces read back. -/
def out3_A_4 (c : Dev nD) (i : grid3.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S2048x1 .f32) (harg6 : arg6.IsWhole) (arg7 : Memref sig .tc .vmem S2048x1 .f32) (harg7 : arg7.IsWhole) (hc0 : cond3_0 i)
    (x0 : Vec F S2048x1024 .bf16) (x1 : Vec F S2048x1 .f32) (x2 : Vec F S1x1024 .f32) (x3 : Vec F S1024x1 .f32) : Vec F S2048x1 .f32 :=
  VO3_4.read (Elt F) (VO3_4.writes (Elt F) VO3_4.junk (kernelRun3_A c i arg2 harg2 arg3 harg3 arg4 harg4 arg5 harg5 arg6 harg6 arg7 harg7 hc0 x0 x1 x2 x3).1)

/-- Case A's pieces for the accumulator cover it. -/
theorem scover3_A_0 (c : Dev nD) (i : grid3.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S2048x1 .f32) (harg6 : arg6.IsWhole) (arg7 : Memref sig .tc .vmem S2048x1 .f32) (harg7 : arg7.IsWhole) (hc0 : cond3_0 i)
    (x0 : Vec F S2048x1024 .bf16) (x1 : Vec F S2048x1 .f32) (x2 : Vec F S1x1024 .f32) (x3 : Vec F S1024x1 .f32) (y : S2048x1.Idx) :
    ∃ pc ∈ (kernelRun3_A c i arg2 harg2 arg3 harg3 arg4 harg4 arg5 harg5 arg6 harg6 arg7 harg7 hc0 x0 x1 x2 x3).2.1, y ∈ pc.1.set :=
  View.cover_of_tiledL (kernelRun3_A c i arg2 harg2 arg3 harg3 arg4 harg4 arg5 harg5 arg6 harg6 arg7 harg7 hc0 x0 x1 x2 x3).2.1 S2048x1.size (by sl_kernel_rfl) y

/-- What case A leaves in the accumulator: its pieces read back. -/
def sout3_A_0 (c : Dev nD) (i : grid3.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S2048x1 .f32) (harg6 : arg6.IsWhole) (arg7 : Memref sig .tc .vmem S2048x1 .f32) (harg7 : arg7.IsWhole) (hc0 : cond3_0 i)
    (x0 : Vec F S2048x1024 .bf16) (x1 : Vec F S2048x1 .f32) (x2 : Vec F S1x1024 .f32) (x3 : Vec F S1024x1 .f32) : Vec F S2048x1 .f32 :=
  VS3_0.read (Elt F) (VS3_0.writes (Elt F) VS3_0.junk (kernelRun3_A c i arg2 harg2 arg3 harg3 arg4 harg4 arg5 harg5 arg6 harg6 arg7 harg7 hc0 x0 x1 x2 x3).2.1)

/-- Case B's pieces for the output window tile its block, so they cover it. -/
theorem cover3_B_4 (c : Dev nD) (i : grid3.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S2048x1 .f32) (harg6 : arg6.IsWhole) (arg7 : Memref sig .tc .vmem S2048x1 .f32) (harg7 : arg7.IsWhole) (hc0 : ¬cond3_0 i)
    (x0 : Vec F S2048x1024 .bf16) (x1 : Vec F S2048x1 .f32) (x2 : Vec F S1x1024 .f32) (x3 : Vec F S1024x1 .f32) (xs0 : Vec F S2048x1 .f32) (y : S2048x1.Idx) :
    ∃ pc ∈ (kernelRun3_B c i arg2 harg2 arg3 harg3 arg4 harg4 arg5 harg5 arg6 harg6 arg7 harg7 hc0 x0 x1 x2 x3 xs0).1, y ∈ pc.1.set :=
  View.cover_of_tiledL (kernelRun3_B c i arg2 harg2 arg3 harg3 arg4 harg4 arg5 harg5 arg6 harg6 arg7 harg7 hc0 x0 x1 x2 x3 xs0).1 S2048x1.size (by sl_kernel_rfl) y

/-- What case B leaves in the output window's staging buffer: its pieces read back. -/
def out3_B_4 (c : Dev nD) (i : grid3.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S2048x1 .f32) (harg6 : arg6.IsWhole) (arg7 : Memref sig .tc .vmem S2048x1 .f32) (harg7 : arg7.IsWhole) (hc0 : ¬cond3_0 i)
    (x0 : Vec F S2048x1024 .bf16) (x1 : Vec F S2048x1 .f32) (x2 : Vec F S1x1024 .f32) (x3 : Vec F S1024x1 .f32) (xs0 : Vec F S2048x1 .f32) : Vec F S2048x1 .f32 :=
  VO3_4.read (Elt F) (VO3_4.writes (Elt F) VO3_4.junk (kernelRun3_B c i arg2 harg2 arg3 harg3 arg4 harg4 arg5 harg5 arg6 harg6 arg7 harg7 hc0 x0 x1 x2 x3 xs0).1)

/-- Case B's pieces for the accumulator cover it. -/
theorem scover3_B_0 (c : Dev nD) (i : grid3.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S2048x1 .f32) (harg6 : arg6.IsWhole) (arg7 : Memref sig .tc .vmem S2048x1 .f32) (harg7 : arg7.IsWhole) (hc0 : ¬cond3_0 i)
    (x0 : Vec F S2048x1024 .bf16) (x1 : Vec F S2048x1 .f32) (x2 : Vec F S1x1024 .f32) (x3 : Vec F S1024x1 .f32) (xs0 : Vec F S2048x1 .f32) (y : S2048x1.Idx) :
    ∃ pc ∈ (kernelRun3_B c i arg2 harg2 arg3 harg3 arg4 harg4 arg5 harg5 arg6 harg6 arg7 harg7 hc0 x0 x1 x2 x3 xs0).2.1, y ∈ pc.1.set :=
  View.cover_of_tiledL (kernelRun3_B c i arg2 harg2 arg3 harg3 arg4 harg4 arg5 harg5 arg6 harg6 arg7 harg7 hc0 x0 x1 x2 x3 xs0).2.1 S2048x1.size (by sl_kernel_rfl) y

/-- What case B leaves in the accumulator: its pieces read back. -/
def sout3_B_0 (c : Dev nD) (i : grid3.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S2048x1 .f32) (harg6 : arg6.IsWhole) (arg7 : Memref sig .tc .vmem S2048x1 .f32) (harg7 : arg7.IsWhole) (hc0 : ¬cond3_0 i)
    (x0 : Vec F S2048x1024 .bf16) (x1 : Vec F S2048x1 .f32) (x2 : Vec F S1x1024 .f32) (x3 : Vec F S1024x1 .f32) (xs0 : Vec F S2048x1 .f32) : Vec F S2048x1 .f32 :=
  VS3_0.read (Elt F) (VS3_0.writes (Elt F) VS3_0.junk (kernelRun3_B c i arg2 harg2 arg3 harg3 arg4 harg4 arg5 harg5 arg6 harg6 arg7 harg7 hc0 x0 x1 x2 x3 xs0).2.1)

/-! ## What the output window and the accumulator hold after each point -/

/-- THE ACCUMULATION.  What the output window's staging buffer and the accumulator hold after the body at position
    `n` (a pair: the output window, then the accumulator): at a first column block case A's contents; elsewhere
    case B's, over what the accumulator held after position `n - 1`. -/
def outsAt3 (c : Dev nD) : (n : ℕ) → n < cfg3.N → Vec F S2048x1 .f32 × Vec F S2048x1 .f32
  | 0, hn => (out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr (Nat.zero_mod _)) (iblk3 V c 0 ⟨0, hn⟩) (iblk3 V c 1 ⟨0, hn⟩) (iblk3 V c 2 ⟨0, hn⟩) (iblk3 V c 3 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr (Nat.zero_mod _)) (iblk3 V c 0 ⟨0, hn⟩) (iblk3 V c 1 ⟨0, hn⟩) (iblk3 V c 2 ⟨0, hn⟩) (iblk3 V c 3 ⟨0, hn⟩))
  | n + 1, hn =>
    if h0 : (n + 1) % 4 = 0 then
      (out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) ((hcond3_0 ⟨n + 1, hn⟩).mpr h0) (iblk3 V c 0 ⟨n + 1, hn⟩) (iblk3 V c 1 ⟨n + 1, hn⟩) (iblk3 V c 2 ⟨n + 1, hn⟩) (iblk3 V c 3 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) ((hcond3_0 ⟨n + 1, hn⟩).mpr h0) (iblk3 V c 0 ⟨n + 1, hn⟩) (iblk3 V c 1 ⟨n + 1, hn⟩) (iblk3 V c 2 ⟨n + 1, hn⟩) (iblk3 V c 3 ⟨n + 1, hn⟩))
    else
      (out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)

/-- `outsAt3` at a first column block: case A's contents. -/
theorem outsAt3_A (c : Dev nD) (t : Fin cfg3.N) (h0 : t.val % 4 = 0) :
    outsAt3 V c t.val t.isLt = (out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (iblk3 V c 0 t) (iblk3 V c 1 t) (iblk3 V c 2 t) (iblk3 V c 3 t), sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (iblk3 V c 0 t) (iblk3 V c 1 t) (iblk3 V c 2 t) (iblk3 V c 3 t)) := by
  obtain ⟨n, hn⟩ := t
  cases n with
  | zero => exact rfl
  | succ n => exact (dif_pos h0).trans rfl

/-- `outsAt3` at another column block: case B's contents, over what the point before left in the accumulator. -/
theorem outsAt3_B (c : Dev nD) (t : Fin cfg3.N) (h0 : ¬t.val % 4 = 0) :
    outsAt3 V c t.val t.isLt = (out3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (iblk3 V c 0 t) (iblk3 V c 1 t) (iblk3 V c 2 t) (iblk3 V c 3 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the entry invariant (the accumulator at
    anything); afterwards the accumulator at what the point before left in it, the scoped buffers that are not this
    call's unopened, and the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the accumulator at that point's contents. -/
theorem PhiS3_succ (c : Dev nD) (n : ℕ) (hn : n < cfg3.N) :
    PhiS3 V c (n + 1) hn = iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

/-- Before a point that is not the first: the accumulator at what the point before left. -/
theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of the region's pipeline on core `c`: the arrays as the region finds them; after the body at
    point `t` each input's buffer at its block and the output's at `outsAt3`; the invariant `PhiS3`; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point: the inputs' memrefs hold their blocks; the closed form of the condition says which case
    the point is in; the invariant hands the body the accumulator at what the point before left (at anything at
    the first point), and takes it back at this point's contents; the output window's buffer is handed at anything
    and taken back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  by_cases h0 : t.val % 4 = 0
  · rw [outsAt3_A V c t h0]
    unfold out3_A_4 sout3_A_0; (try dsimp only)
    by_cases hz : t.val = 0
    · rw [PhiS3_castSucc V c t, PhiS3_zero V c _ _ hz, PhiA3_eq]
      iintro ⟨⟨⟨HS0, HR⟩, Hg⟩, Ho, ⟨%d0, H0⟩, ⟨%d1, H1⟩, ⟨%d2, H2⟩, ⟨%d3, H3⟩, ⟨%d4, H4⟩⟩
      iapply ((kernelRun3_A c (grid3.coords t) _ _ _ _ _ _ _ _ _ _ _ _ ((hcond3_0 t).mpr h0) (iblk3 V c 0 t) (iblk3 V c 1 t) (iblk3 V c 2 t) (iblk3 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover3_A_4 c _ _ _ _ _ _ _ _ _ _ _ _ _ _ _ _ _ _)
    · rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun3_A c (grid3.coords t) _ _ _ _ _ _ _ _ _ _ _ _ ((hcond3_0 t).mpr h0) (iblk3 V c 0 t) (iblk3 V c 1 t) (iblk3 V c 2 t) (iblk3 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_A_0 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover3_A_4 c _ _ _ _ _ _ _ _ _ _ _ _ _ _ _ _ _ _)
  · rw [outsAt3_B V c t h0]
    unfold out3_B_4 sout3_B_0; (try dsimp only)
    have hz : t.val ≠ 0 := fun e => h0 (by rw [e])
    rw [PhiS3_castSucc V c t, PhiS3_pos V c _ _ hz]
    iintro ⟨⟨⟨HS0, HR⟩, Hg⟩, Ho, ⟨%d0, H0⟩, ⟨%d1, H1⟩, ⟨%d2, H2⟩, ⟨%d3, H3⟩, ⟨%d4, H4⟩⟩
    iapply ((kernelRun3_B c (grid3.coords t) _ _ _ _ _ _ _ _ _ _ _ _ (fun h => h0 ((hcond3_0 t).mp h)) (iblk3 V c 0 t) (iblk3 V c 1 t) (iblk3 V c 2 t) (iblk3 V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover3_B_0 c _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover3_B_4 c _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem Phi_in3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the entry invariant back: the accumulator's named contents
    are forgotten. -/
theorem Phi_out3_of (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

/-- The same after the last point. -/
theorem Phi_out3 (c : Dev nD) : (dat3 V c).Φ (Fin.last cfg3.N) ⊢ Pipeline.ΦA spec3 c :=
  Phi_out3_of V c _ (by rw [Fin.val_last]; have : cfg3.N = 16 := N_3; omega)

end Region1

end Cert.KernelIdeal.Hand

end
-- ==== Proof.Run.lean ====
/-
  The whole run of @main at any float instance: the unscoped buffers' contents at each boundary between its items
  (host operations and the four regions), the four regions as segments over those contents, and the launch. The post
  names every unscoped buffer's final contents; the frame claim reads the nine arguments off it.
-/
import proofs.«179498_j53352083751414_2_alg».proof.Proof.Reg0Dat
import proofs.«179498_j53352083751414_2_alg».proof.Proof.Reg1
import proofs.«179498_j53352083751414_2_alg».proof.Proof.Reg2Dat
import proofs.«179498_j53352083751414_2_alg».proof.Proof.Reg3
import proofs.«179498_j53352083751414_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s unscoped buffers at launch. -/
abbrev W0 : Dev nD → Valuation τ sig (Elt F) := fun c b => m (c, b)
/-- After the host operations `hostOps0`. -/
abbrev W1 : Dev nD → Valuation τ sig (Elt F) := fun c => StableHlo.after hostOps0 (W0 m c)
abbrev VW1 : (c : Dev nD) → (b : Ref sig .tc) → Buf (Elt F) ((c : Thread nD τ).loc b) := fun c b => W1 m c b
theorem W1_of (c : Dev nD) (r : Ref sig .tc) (h : r ∉ hostOps0_W) : W1 m c r = W0 m c r :=
  StableHlo.after_of_writes_sub hostOps0 _ hostOps0_writes h
/-- At region 0's exit: its arrays at what the pipeline leaves, every other buffer as entered. -/
def W2 (c : Dev nD) : Valuation τ sig (Elt F) :=
  Pipeline.withArrays spec0 c (W1 m c) fun w => (dat0 (VW1 m) c).arrAt w cfg0.N
theorem W2_arr (c : Dev nD) (w : Fin cfg0.W) :
    W2 m c (Proc.devRef .tc (Pipeline.arrRef spec0 w)) = (dat0 (VW1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VW2 : (c : Dev nD) → (b : Ref sig .tc) → Buf (Elt F) ((c : Thread nD τ).loc b) := fun c b => W2 m c b
theorem hF0 (c : Dev nD) (w : Fin cfg0.W) : (dat0 (VW1 m) c).arrAt w cfg0.N = VW2 m c (Pipeline.arrRef spec0 w) :=
  (W2_arr m c w).symm
theorem hrest0 (c : Dev nD) : ∀ b, b ∉ Finset.univ.image (Pipeline.arrRef spec0) → VW2 m c b = VW1 m c b :=
  fun b hb => W2_of_ne m c b fun w e => hb (Finset.mem_image.mpr ⟨w, Finset.mem_univ _, e⟩)
/-- At region 1's exit: its arrays at what the pipeline leaves, every other buffer as entered. -/
def W3 (c : Dev nD) : Valuation τ sig (Elt F) :=
  Pipeline.withArrays spec1 c (W2 m c) fun w => (dat1 (VW2 m) c).arrAt w cfg1.N
theorem W3_arr (c : Dev nD) (w : Fin cfg1.W) :
    W3 m c (Proc.devRef .tc (Pipeline.arrRef spec1 w)) = (dat1 (VW2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VW3 : (c : Dev nD) → (b : Ref sig .tc) → Buf (Elt F) ((c : Thread nD τ).loc b) := fun c b => W3 m c b
theorem hF1 (c : Dev nD) (w : Fin cfg1.W) : (dat1 (VW2 m) c).arrAt w cfg1.N = VW3 m c (Pipeline.arrRef spec1 w) :=
  (W3_arr m c w).symm
theorem hrest1 (c : Dev nD) : ∀ b, b ∉ Finset.univ.image (Pipeline.arrRef spec1) → VW3 m c b = VW2 m c b :=
  fun b hb => W3_of_ne m c b fun w e => hb (Finset.mem_image.mpr ⟨w, Finset.mem_univ _, e⟩)
/-- After the host operations `hostOps2`. -/
abbrev W4 : Dev nD → Valuation τ sig (Elt F) := fun c => StableHlo.after hostOps2 (W3 m c)
abbrev VW4 : (c : Dev nD) → (b : Ref sig .tc) → Buf (Elt F) ((c : Thread nD τ).loc b) := fun c b => W4 m c b
theorem W4_of (c : Dev nD) (r : Ref sig .tc) (h : r ∉ hostOps2_W) : W4 m c r = W3 m c r :=
  StableHlo.after_of_writes_sub hostOps2 _ hostOps2_writes h
/-- After the host operations `hostOps2_1`. -/
abbrev W5 : Dev nD → Valuation τ sig (Elt F) := fun c => StableHlo.after hostOps2_1 (W4 m c)
abbrev VW5 : (c : Dev nD) → (b : Ref sig .tc) → Buf (Elt F) ((c : Thread nD τ).loc b) := fun c b => W5 m c b
theorem W5_of (c : Dev nD) (r : Ref sig .tc) (h : r ∉ hostOps2_1_W) : W5 m c r = W4 m c r :=
  StableHlo.after_of_writes_sub hostOps2_1 _ hostOps2_1_writes h
/-- After the host operations `hostOps2_2`. -/
abbrev W6 : Dev nD → Valuation τ sig (Elt F) := fun c => StableHlo.after hostOps2_2 (W5 m c)
abbrev VW6 : (c : Dev nD) → (b : Ref sig .tc) → Buf (Elt F) ((c : Thread nD τ).loc b) := fun c b => W6 m c b
theorem W6_of (c : Dev nD) (r : Ref sig .tc) (h : r ∉ hostOps2_2_W) : W6 m c r = W5 m c r :=
  StableHlo.after_of_writes_sub hostOps2_2 _ hostOps2_2_writes h
/-- After the host operations `hostOps2_3`. -/
abbrev W7 : Dev nD → Valuation τ sig (Elt F) := fun c => StableHlo.after hostOps2_3 (W6 m c)
abbrev VW7 : (c : Dev nD) → (b : Ref sig .tc) → Buf (Elt F) ((c : Thread nD τ).loc b) := fun c b => W7 m c b
theorem W7_of (c : Dev nD) (r : Ref sig .tc) (h : r ∉ hostOps2_3_W) : W7 m c r = W6 m c r :=
  StableHlo.after_of_writes_sub hostOps2_3 _ hostOps2_3_writes h
/-- After the host operations `hostOps2_4`. -/
abbrev W8 : Dev nD → Valuation τ sig (Elt F) := fun c => StableHlo.after hostOps2_4 (W7 m c)
abbrev VW8 : (c : Dev nD) → (b : Ref sig .tc) → Buf (Elt F) ((c : Thread nD τ).loc b) := fun c b => W8 m c b
theorem W8_of (c : Dev nD) (r : Ref sig .tc) (h : r ∉ hostOps2_4_W) : W8 m c r = W7 m c r :=
  StableHlo.after_of_writes_sub hostOps2_4 _ hostOps2_4_writes h
/-- At region 2's exit: its arrays at what the pipeline leaves, every other buffer as entered. -/
def W9 (c : Dev nD) : Valuation τ sig (Elt F) :=
  Pipeline.withArrays spec2 c (W8 m c) fun w => (dat2 (VW8 m) c).arrAt w cfg2.N
theorem W9_arr (c : Dev nD) (w : Fin cfg2.W) :
    W9 m c (Proc.devRef .tc (Pipeline.arrRef spec2 w)) = (dat2 (VW8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev VW9 : (c : Dev nD) → (b : Ref sig .tc) → Buf (Elt F) ((c : Thread nD τ).loc b) := fun c b => W9 m c b
theorem hF2 (c : Dev nD) (w : Fin cfg2.W) : (dat2 (VW8 m) c).arrAt w cfg2.N = VW9 m c (Pipeline.arrRef spec2 w) :=
  (W9_arr m c w).symm
theorem hrest2 (c : Dev nD) : ∀ b, b ∉ Finset.univ.image (Pipeline.arrRef spec2) → VW9 m c b = VW8 m c b :=
  fun b hb => W9_of_ne m c b fun w e => hb (Finset.mem_image.mpr ⟨w, Finset.mem_univ _, e⟩)
/-- At region 3's exit: its arrays at what the pipeline leaves, every other buffer as entered. -/
def W10 (c : Dev nD) : Valuation τ sig (Elt F) :=
  Pipeline.withArrays spec3 c (W9 m c) fun w => (dat3 (VW9 m) c).arrAt w cfg3.N
theorem W10_arr (c : Dev nD) (w : Fin cfg3.W) :
    W10 m c (Proc.devRef .tc (Pipeline.arrRef spec3 w)) = (dat3 (VW9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
abbrev VW10 : (c : Dev nD) → (b : Ref sig .tc) → Buf (Elt F) ((c : Thread nD τ).loc b) := fun c b => W10 m c b
theorem hF3 (c : Dev nD) (w : Fin cfg3.W) : (dat3 (VW9 m) c).arrAt w cfg3.N = VW10 m c (Pipeline.arrRef spec3 w) :=
  (W10_arr m c w).symm
theorem hrest3 (c : Dev nD) : ∀ b, b ∉ Finset.univ.image (Pipeline.arrRef spec3) → VW10 m c b = VW9 m c b :=
  fun b hb => W10_of_ne m c b fun w e => hb (Finset.mem_image.mpr ⟨w, Finset.mem_univ _, e⟩)
/-- After the host operations `hostOps4`. -/
abbrev W11 : Dev nD → Valuation τ sig (Elt F) := fun c => StableHlo.after hostOps4 (W10 m c)
abbrev VW11 : (c : Dev nD) → (b : Ref sig .tc) → Buf (Elt F) ((c : Thread nD τ).loc b) := fun c b => W11 m c b
theorem W11_of (c : Dev nD) (r : Ref sig .tc) (h : r ∉ hostOps4_W) : W11 m c r = W10 m c r :=
  StableHlo.after_of_writes_sub hostOps4 _ hostOps4_writes h

/-! ## No item writes an argument -/

theorem W11_main_arg0 (c : Dev nD) : W11 m c (Proc.devRef .tc main_arg0) = m ((c : Thread nD τ).loc main_arg0) :=
  (W11_of m c main_arg0 (by decide)).trans <| (W10_of_ne m c main_arg0 (by decide)).trans <| (W9_of_ne m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of_ne m c main_arg0 (by decide)).trans <| (W2_of_ne m c main_arg0 (by decide)).trans <| (W1_of m c main_arg0 (by decide)).trans rfl
theorem W11_main_arg1 (c : Dev nD) : W11 m c (Proc.devRef .tc main_arg1) = m ((c : Thread nD τ).loc main_arg1) :=
  (W11_of m c main_arg1 (by decide)).trans <| (W10_of_ne m c main_arg1 (by decide)).trans <| (W9_of_ne m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of_ne m c main_arg1 (by decide)).trans <| (W2_of_ne m c main_arg1 (by decide)).trans <| (W1_of m c main_arg1 (by decide)).trans rfl
theorem W11_main_arg2 (c : Dev nD) : W11 m c (Proc.devRef .tc main_arg2) = m ((c : Thread nD τ).loc main_arg2) :=
  (W11_of m c main_arg2 (by decide)).trans <| (W10_of_ne m c main_arg2 (by decide)).trans <| (W9_of_ne m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of_ne m c main_arg2 (by decide)).trans <| (W2_of_ne m c main_arg2 (by decide)).trans <| (W1_of m c main_arg2 (by decide)).trans rfl
theorem W11_main_arg3 (c : Dev nD) : W11 m c (Proc.devRef .tc main_arg3) = m ((c : Thread nD τ).loc main_arg3) :=
  (W11_of m c main_arg3 (by decide)).trans <| (W10_of_ne m c main_arg3 (by decide)).trans <| (W9_of_ne m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of_ne m c main_arg3 (by decide)).trans <| (W2_of_ne m c main_arg3 (by decide)).trans <| (W1_of m c main_arg3 (by decide)).trans rfl
theorem W11_main_arg4 (c : Dev nD) : W11 m c (Proc.devRef .tc main_arg4) = m ((c : Thread nD τ).loc main_arg4) :=
  (W11_of m c main_arg4 (by decide)).trans <| (W10_of_ne m c main_arg4 (by decide)).trans <| (W9_of_ne m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of_ne m c main_arg4 (by decide)).trans <| (W2_of_ne m c main_arg4 (by decide)).trans <| (W1_of m c main_arg4 (by decide)).trans rfl
theorem W11_main_arg5 (c : Dev nD) : W11 m c (Proc.devRef .tc main_arg5) = m ((c : Thread nD τ).loc main_arg5) :=
  (W11_of m c main_arg5 (by decide)).trans <| (W10_of_ne m c main_arg5 (by decide)).trans <| (W9_of_ne m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of_ne m c main_arg5 (by decide)).trans <| (W2_of_ne m c main_arg5 (by decide)).trans <| (W1_of m c main_arg5 (by decide)).trans rfl
theorem W11_main_arg6 (c : Dev nD) : W11 m c (Proc.devRef .tc main_arg6) = m ((c : Thread nD τ).loc main_arg6) :=
  (W11_of m c main_arg6 (by decide)).trans <| (W10_of_ne m c main_arg6 (by decide)).trans <| (W9_of_ne m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of_ne m c main_arg6 (by decide)).trans <| (W2_of_ne m c main_arg6 (by decide)).trans <| (W1_of m c main_arg6 (by decide)).trans rfl
theorem W11_main_arg7 (c : Dev nD) : W11 m c (Proc.devRef .tc main_arg7) = m ((c : Thread nD τ).loc main_arg7) :=
  (W11_of m c main_arg7 (by decide)).trans <| (W10_of_ne m c main_arg7 (by decide)).trans <| (W9_of_ne m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of_ne m c main_arg7 (by decide)).trans <| (W2_of_ne m c main_arg7 (by decide)).trans <| (W1_of m c main_arg7 (by decide)).trans rfl
theorem W11_main_arg8 (c : Dev nD) : W11 m c (Proc.devRef .tc main_arg8) = m ((c : Thread nD τ).loc main_arg8) :=
  (W11_of m c main_arg8 (by decide)).trans <| (W10_of_ne m c main_arg8 (by decide)).trans <| (W9_of_ne m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of_ne m c main_arg8 (by decide)).trans <| (W2_of_ne m c main_arg8 (by decide)).trans <| (W1_of m c main_arg8 (by decide)).trans rfl

/-! ## The proof data family and the thread state -/

abbrev admH : (p : Fin 4) → (pcfgs (F := F) p).Adm := fun p => (cfgs p).toPCfg_adm
/-- Every pipeline's proof data, each at its region's entry contents: a literal match on the pipeline. -/
def pdats : (p : Fin 4) → (c : Dev nD) → Dat τ (Elt F) Unit ℕ (UR sig nD τ) ℕ (Pipeline.pin (pcfgs (F := F)) admH p) c
  | ⟨0, _⟩ => fun c => dat0 (VW1 m) c
  | ⟨1, _⟩ => fun c => dat1 (VW2 m) c
  | ⟨2, _⟩ => fun c => dat2 (VW8 m) c
  | ⟨3, _⟩ => fun c => dat3 (VW9 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W11 m c) ∗ ∃ r, prngReg c r)

/-! ## The regions as segments -/

set_option backward.isDefEq.respectTransparency.types false in
/-- Region 0 over the thread state: entered from every unscoped buffer at `W1`, left at `W2`; its arrays split
    out of the unscoped buffers and put back at the exit contents; the generator register and the scoped rest into the
    region's invariant and out; nothing owed; no semaphore of the kernel's own. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VW1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VW1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (VW1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (Phi_in0 (VW1 m) c)
    unfold Pipeline.ΦA
    iintro ⟨Hp, -, Hr⟩
    isplitl [Hr]; · iexact Hr
    iexact Hp
  hout c := by
    rw [Pipeline.ownSems0_none]
    refine (Phi_out0 (VW1 m) c).trans (show (Pipeline.ΦA spec0 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (VW1 m c) (VW2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`; its arrays split
    out of the unscoped buffers and put back at the exit contents; the generator register and the scoped rest into the
    region's invariant and out; nothing owed; no semaphore of the kernel's own. -/
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VW2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (VW2 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (VW2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (Phi_in1 (VW2 m) c)
    unfold Pipeline.ΦA
    iintro ⟨Hp, -, Hr⟩
    isplitl [Hr]; · iexact Hr
    iexact Hp
  hout c := by
    rw [Pipeline.ownSems0_none]
    refine (Phi_out1 (VW2 m) c).trans (show (Pipeline.ΦA spec1 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (VW2 m c) (VW3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W8`, left at `W9`; its arrays split
    out of the unscoped buffers and put back at the exit contents; the generator register and the scoped rest into the
    region's invariant and out; nothing owed; no semaphore of the kernel's own. -/
def reg2 : Pipeline.RegionSeg (pcfgs (F := F)) admH (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VW8 m) c).loose
  hwaits := Pipeline.hwaits_of_owed_zero _ _ _ _ L lv 2 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec2 c (VW8 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (VW8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (Phi_in2 (VW8 m) c)
    unfold Pipeline.ΦA
    iintro ⟨Hp, -, Hr⟩
    isplitl [Hr]; · iexact Hr
    iexact Hp
  hout c := by
    rw [Pipeline.ownSems0_none]
    refine (Phi_out2 (VW8 m) c).trans (show (Pipeline.ΦA spec2 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (VW8 m c) (VW9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W9`, left at `W10`; its arrays split
    out of the unscoped buffers and put back at the exit contents; the generator register and the scoped rest into the
    region's invariant and out; nothing owed; no semaphore of the kernel's own. -/
def reg3 : Pipeline.RegionSeg (pcfgs (F := F)) admH (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VW9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (VW9 m c)
  hentry c := by
    rw [Pipeline.ownSems0_none]
    have hsplit := Pipeline.arrays_of_unscopedBufs (p := 3) (pcfgs (F := F)) admH (pdats m) launch3.win launch3.arr_whole c
      ((pdats m 3 c).share_full fun _ => rfl) (VW9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec3 c : sProp 𝕄) from ?_).trans (Phi_in3 (VW9 m) c)
    unfold Pipeline.ΦA
    iintro ⟨Hp, -, Hr⟩
    isplitl [Hr]; · iexact Hr
    iexact Hp
  hout c := by
    rw [Pipeline.ownSems0_none]
    refine (Phi_out3 (VW9 m) c).trans (show (Pipeline.ΦA spec3 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m) ((pdats m 3 c).share_full fun _ => rfl)
      (VW9 m c) (VW10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdats m) () defs₀ 𝒱₀ L lv) :=
  [
    .host (hseg hostOps0 hostOps0_sub hostOps0_fresh (W0 m)),
    .region (reg0 m),
    .region (reg1 m),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)),
    .host (hseg hostOps2_3 hostOps2_3_sub hostOps2_3_fresh (W6 m)),
    .host (hseg hostOps2_4 hostOps2_4_sub hostOps2_4_fresh (W7 m)),
    .region (reg2 m),
    .region (reg3 m),
    .host (hseg hostOps4 hostOps4_sub hostOps4_fresh (W10 m)) ]

theorem main_run (c : Dev nD) : main (F := F) c = Pipeline.Seg.run (segsH m) := (main_chain c).trans (by chain_rfl)

set_option backward.isDefEq.respectTransparency.types false in
/-- Every weakly fair execution of @main from memory `m` with zero counters terminates, nothing faulting, with every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) admH (pdats m) () cellOf_inj emb₁ defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W11 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

/-- The frame claim's post at any float instance: the nine arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    (h c _ (mem_uc main_arg0 (by decide))).trans (W11_main_arg0 m c),
    (h c _ (mem_uc main_arg1 (by decide))).trans (W11_main_arg1 m c),
    (h c _ (mem_uc main_arg2 (by decide))).trans (W11_main_arg2 m c),
    (h c _ (mem_uc main_arg3 (by decide))).trans (W11_main_arg3 m c),
    (h c _ (mem_uc main_arg4 (by decide))).trans (W11_main_arg4 m c),
    (h c _ (mem_uc main_arg5 (by decide))).trans (W11_main_arg5 m c),
    (h c _ (mem_uc main_arg6 (by decide))).trans (W11_main_arg6 m c),
    (h c _ (mem_uc main_arg7 (by decide))).trans (W11_main_arg7 m c),
    (h c _ (mem_uc main_arg8 (by decide))).trans (W11_main_arg8 m c)⟩) (run_all m ρ)

end Cert.KernelIdeal.Hand

end
-- ==== Proof.RefOps.lean ====
import proofs.«179498_j53352083751414_2_alg».proof.Defs
import proofs.«179498_j53352083751414_2_alg».proof.Proof.Gen.ReferenceIdeal
import proofs.«179498_j53352083751414_2_alg».proof.Proof.Gen.Pre_finite_inputs
import Idealize.ShloMosaic.Lib.StableHlo.Run

/-! The reference program's @main as one straight line of host operations: the two outlined
    functions it calls (the leaky rectifier with its select, and the variance with its select) are
    unfolded at their call sites over the buffers each call names. -/

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- @main's eighty-one operations in order, the calls unfolded: fifteen of its own up to the slope constant,
    the rectifier's seven (zero, its broadcast, the comparison, the slope converted and broadcast, the product,
    the select), six for the mean, the variance's twenty-two (mean, centring, squares, the count less the
    degrees of freedom, the quotient, the guard of a positive count and its select), then the normalisation,
    the second propagation and the logistic tail. -/
abbrev ops : List (HloOp τ sig (Elt F)) :=
  [ StableHlo.unary main_arg1 main_v0 (broadcastInDim S8192x1 ![0] bcast_S8192_S8192x1_0 : (⟨S8192, .f32⟩ : BufTy).Contents (Elt F) → (⟨S8192x1, .f32⟩ : BufTy).Contents (Elt F)),
    StableHlo.unary main_v0 main_v1 (broadcastInDim S8192x4096 ![0, 1] bcast_S8192x1_S8192x4096_0_1 : (⟨S8192x1, .f32⟩ : BufTy).Contents (Elt F) → (⟨S8192x4096, .f32⟩ : BufTy).Contents (Elt F)),
    StableHlo.binary main_v1 main_arg3 main_v2 (mulf : (⟨S8192x4096, .f32⟩ : BufTy).Contents (Elt F) → (⟨S8192x4096, .f32⟩ : BufTy).Contents (Elt F) → (⟨S8192x4096, .f32⟩ : BufTy).Contents (Elt F)),
    StableHlo.binary main_arg4 main_arg2 main_v3 (mulf : (⟨S4096, .f32⟩ : BufTy).Contents (Elt F) → (⟨S4096, .f32⟩ : BufTy).Contents (Elt F) → (⟨S4096, .f32⟩ : BufTy).Contents (Elt F)),
    StableHlo.unary main_v3 main_v4 (broadcastInDim S1x4096 ![1] bcast_S4096_S1x4096_1 : (⟨S4096, .f32⟩ : BufTy).Contents (Elt F) → (⟨S1x4096, .f32⟩ : BufTy).Contents (Elt F)),
    StableHlo.unary main_v4 main_v5 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v2 main_v5 main_v6 (mulf : (⟨S8192x4096, .f32⟩ : BufTy).Contents (Elt F) → (⟨S8192x4096, .f32⟩ : BufTy).Contents (Elt F) → (⟨S8192x4096, .f32⟩ : BufTy).Contents (Elt F)),
    StableHlo.binary main_arg0 main_arg5 main_v7 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    StableHlo.unary main_arg3 main_v8 ((transpose S4096x8192 [1, 0] · transposes_S8192x4096_S4096x8192_1_0) : (⟨S8192x4096, .f32⟩ : BufTy).Contents (Elt F) → (⟨S4096x8192, .f32⟩ : BufTy).Contents (Elt F)),
    StableHlo.unary main_arg1 main_v9 (broadcastInDim S8192x1 ![0] bcast_S8192_S8192x1_0 : (⟨S8192, .f32⟩ : BufTy).Contents (Elt F) → (⟨S8192x1, .f32⟩ : BufTy).Contents (Elt F)),
    StableHlo.unary main_v9 main_v10 (broadcastInDim S8192x64 ![0, 1] bcast_S8192x1_S8192x64_0_1 : (⟨S8192x1, .f32⟩ : BufTy).Contents (Elt F) → (⟨S8192x64, .f32⟩ : BufTy).Contents (Elt F)),
    StableHlo.binary main_v10 main_v7 main_v11 (mulf : (⟨S8192x64, .f32⟩ : BufTy).Contents (Elt F) → (⟨S8192x64, .f32⟩ : BufTy).Contents (Elt F) → (⟨S8192x64, .f32⟩ : BufTy).Contents (Elt F)),
    StableHlo.binary main_v8 main_v11 main_v12 ((fun l r => Host.dotGeneral dot_S4096x8192_S8192x64_S4096x64_1_0_0_1_n_n none l r) : (⟨S4096x8192, .f32⟩ : BufTy).Contents (Elt F) → (⟨S8192x64, .f32⟩ : BufTy).Contents (Elt F) → (⟨S4096x64, .f32⟩ : BufTy).Contents (Elt F)),
    StableHlo.binary main_v6 main_v12 main_v13 ((fun l r => Host.dotGeneral dot_S8192x4096_S4096x64_S8192x64_1_0_0_1_n_n none l r) : (⟨S8192x4096, .f32⟩ : BufTy).Contents (Elt F) → (⟨S4096x64, .f32⟩ : BufTy).Contents (Elt F) → (⟨S8192x64, .f32⟩ : BufTy).Contents (Elt F)),
    StableHlo.nullary main_cst (constant S_ .f32 0x3C23D70A#32),
    StableHlo.TRef.nullary main_call0.cst (constant S_ .f32 0x00000000#32),
    StableHlo.TRef.unary main_call0.cst main_call0.v0 (broadcastInDim S8192x64 ![] bcast_S_S8192x64),
    StableHlo.TRef.binary (.of main_v13 : StableHlo.TRef sig ⟨S8192x64, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S8192x64 ![] bcast_S_S8192x64),
    StableHlo.TRef.binary main_call0.v3 (.of main_v13 : StableHlo.TRef sig ⟨S8192x64, .f32⟩) main_call0.v4 mulf,
    StableHlo.TRef.ternary main_call0.v1 (.of main_v13 : StableHlo.TRef sig ⟨S8192x64, .f32⟩) main_call0.v4 main_call0.call0.v0 select,
    StableHlo.nullary main_cst_0 (constant S_ .f32 0x00000000#32),
    StableHlo.binary main_v14 main_cst_0 main_v15 ((fun x v => Host.reduceAdd x v reducesTo_S8192x64_S64_d0 h_S_) : (⟨S8192x64, .f32⟩ : BufTy).Contents (Elt F) → (⟨S_, .f32⟩ : BufTy).Contents (Elt F) → (⟨S64, .f32⟩ : BufTy).Contents (Elt F)),
    StableHlo.nullary main_cst_1 (constant S_ .f32 0x46000000#32),
    StableHlo.unary main_cst_1 main_v16 (broadcastInDim S64 ![] bcast_S_S64 : (⟨S_, .f32⟩ : BufTy).Contents (Elt F) → (⟨S64, .f32⟩ : BufTy).Contents (Elt F)),
    StableHlo.binary main_v15 main_v16 main_v17 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call1.cst (constant S_ .f32 0x00000000#32),
    StableHlo.TRef.binary (.of main_v14 : StableHlo.TRef sig ⟨S8192x64, .f32⟩) main_call1.cst main_call1.v0 (fun x v => Host.reduceAdd x v reducesTo_S8192x64_S64_d0 h_S_),
    StableHlo.TRef.unary main_call1.v0 main_call1.v1 (broadcastInDim S1x64 ![1] bcast_S64_S1x64_1),
    StableHlo.TRef.nullary main_call1.cst_0 (constant S_ .f32 0x46000000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S8192x64 ![0, 1] bcast_S1x64_S8192x64_0_1),
    StableHlo.TRef.binary (.of main_v14 : StableHlo.TRef sig ⟨S8192x64, .f32⟩) main_call1.v4 main_call1.v5 subf,
    StableHlo.TRef.binary main_call1.v5 main_call1.v5 main_call1.v6 mulf,
    StableHlo.TRef.unary (.of main_c : StableHlo.TRef sig ⟨S_, .i32⟩) main_call1.v7 (sitofp .f32),
    StableHlo.TRef.nullary main_call1.cst_1 (constant S_ .f32 0x46000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S8192x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_v17 main_v19 (broadcastInDim S1x64 ![1] bcast_S64_S1x64_1 : (⟨S64, .f32⟩ : BufTy).Contents (Elt F) → (⟨S1x64, .f32⟩ : BufTy).Contents (Elt F)),
    StableHlo.unary main_v19 main_v20 (broadcastInDim S8192x64 ![0, 1] bcast_S1x64_S8192x64_0_1 : (⟨S1x64, .f32⟩ : BufTy).Contents (Elt F) → (⟨S8192x64, .f32⟩ : BufTy).Contents (Elt F)),
    StableHlo.binary main_v14 main_v20 main_v21 (subf : (⟨S8192x64, .f32⟩ : BufTy).Contents (Elt F) → (⟨S8192x64, .f32⟩ : BufTy).Contents (Elt F) → (⟨S8192x64, .f32⟩ : BufTy).Contents (Elt F)),
    StableHlo.nullary main_cst_2 (constant S_ .f32 0x3727C5AC#32),
    StableHlo.unary main_cst_2 main_v22 (broadcastInDim S64 ![] bcast_S_S64 : (⟨S_, .f32⟩ : BufTy).Contents (Elt F) → (⟨S64, .f32⟩ : BufTy).Contents (Elt F)),
    StableHlo.binary main_v18 main_v22 main_v23 (addf : (⟨S64, .f32⟩ : BufTy).Contents (Elt F) → (⟨S64, .f32⟩ : BufTy).Contents (Elt F) → (⟨S64, .f32⟩ : BufTy).Contents (Elt F)),
    StableHlo.unary main_v23 main_v24 (Host.sqrt : (⟨S64, .f32⟩ : BufTy).Contents (Elt F) → (⟨S64, .f32⟩ : BufTy).Contents (Elt F)),
    StableHlo.unary main_v24 main_v25 (broadcastInDim S1x64 ![1] bcast_S64_S1x64_1 : (⟨S64, .f32⟩ : BufTy).Contents (Elt F) → (⟨S1x64, .f32⟩ : BufTy).Contents (Elt F)),
    StableHlo.unary main_v25 main_v26 (broadcastInDim S8192x64 ![0, 1] bcast_S1x64_S8192x64_0_1 : (⟨S1x64, .f32⟩ : BufTy).Contents (Elt F) → (⟨S8192x64, .f32⟩ : BufTy).Contents (Elt F)),
    StableHlo.binary main_v21 main_v26 main_v27 (Host.divf : (⟨S8192x64, .f32⟩ : BufTy).Contents (Elt F) → (⟨S8192x64, .f32⟩ : BufTy).Contents (Elt F) → (⟨S8192x64, .f32⟩ : BufTy).Contents (Elt F)),
    StableHlo.unary main_arg7 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S8192x64 ![0, 1] bcast_S1x64_S8192x64_0_1 : (⟨S1x64, .f32⟩ : BufTy).Contents (Elt F) → (⟨S8192x64, .f32⟩ : BufTy).Contents (Elt F)),
    StableHlo.binary main_v27 main_v29 main_v30 (mulf : (⟨S8192x64, .f32⟩ : BufTy).Contents (Elt F) → (⟨S8192x64, .f32⟩ : BufTy).Contents (Elt F) → (⟨S8192x64, .f32⟩ : BufTy).Contents (Elt F)),
    StableHlo.unary main_arg8 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S8192x64 ![0, 1] bcast_S1x64_S8192x64_0_1 : (⟨S1x64, .f32⟩ : BufTy).Contents (Elt F) → (⟨S8192x64, .f32⟩ : BufTy).Contents (Elt F)),
    StableHlo.binary main_v30 main_v32 main_v33 (addf : (⟨S8192x64, .f32⟩ : BufTy).Contents (Elt F) → (⟨S8192x64, .f32⟩ : BufTy).Contents (Elt F) → (⟨S8192x64, .f32⟩ : BufTy).Contents (Elt F)),
    StableHlo.binary main_v33 main_arg6 main_v34 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    StableHlo.unary main_arg3 main_v35 ((transpose S4096x8192 [1, 0] · transposes_S8192x4096_S4096x8192_1_0) : (⟨S8192x4096, .f32⟩ : BufTy).Contents (Elt F) → (⟨S4096x8192, .f32⟩ : BufTy).Contents (Elt F)),
    StableHlo.unary main_arg1 main_v36 (broadcastInDim S8192x1 ![0] bcast_S8192_S8192x1_0 : (⟨S8192, .f32⟩ : BufTy).Contents (Elt F) → (⟨S8192x1, .f32⟩ : BufTy).Contents (Elt F)),
    StableHlo.binary main_v36 main_v34 main_v37 (mulf : (⟨S8192x1, .f32⟩ : BufTy).Contents (Elt F) → (⟨S8192x1, .f32⟩ : BufTy).Contents (Elt F) → (⟨S8192x1, .f32⟩ : BufTy).Contents (Elt F)),
    StableHlo.binary main_v35 main_v37 main_v38 ((fun l r => Host.dotGeneral dot_S4096x8192_S8192x1_S4096x1_1_0_0_1_n_n none l r) : (⟨S4096x8192, .f32⟩ : BufTy).Contents (Elt F) → (⟨S8192x1, .f32⟩ : BufTy).Contents (Elt F) → (⟨S4096x1, .f32⟩ : BufTy).Contents (Elt F)),
    StableHlo.binary main_v6 main_v38 main_v39 ((fun l r => Host.dotGeneral dot_S8192x4096_S4096x1_S8192x1_1_0_0_1_n_n none l r) : (⟨S8192x4096, .f32⟩ : BufTy).Contents (Elt F) → (⟨S4096x1, .f32⟩ : BufTy).Contents (Elt F) → (⟨S8192x1, .f32⟩ : BufTy).Contents (Elt F)),
    StableHlo.unary main_v39 main_v40 (Host.negf : (⟨S8192x1, .f32⟩ : BufTy).Contents (Elt F) → (⟨S8192x1, .f32⟩ : BufTy).Contents (Elt F)),
    StableHlo.unary main_v40 main_v41 (Host.exp : (⟨S8192x1, .f32⟩ : BufTy).Contents (Elt F) → (⟨S8192x1, .f32⟩ : BufTy).Contents (Elt F)),
    StableHlo.nullary main_cst_3 (constant S_ .f32 0x3F800000#32),
    StableHlo.unary main_cst_3 main_v42 (broadcastInDim S8192x1 ![] bcast_S_S8192x1 : (⟨S_, .f32⟩ : BufTy).Contents (Elt F) → (⟨S8192x1, .f32⟩ : BufTy).Contents (Elt F)),
    StableHlo.binary main_v42 main_v41 main_v43 (addf : (⟨S8192x1, .f32⟩ : BufTy).Contents (Elt F) → (⟨S8192x1, .f32⟩ : BufTy).Contents (Elt F) → (⟨S8192x1, .f32⟩ : BufTy).Contents (Elt F)),
    StableHlo.nullary main_cst_4 (constant S_ .f32 0x3F800000#32),
    StableHlo.unary main_cst_4 main_v44 (broadcastInDim S8192x1 ![] bcast_S_S8192x1 : (⟨S_, .f32⟩ : BufTy).Contents (Elt F) → (⟨S8192x1, .f32⟩ : BufTy).Contents (Elt F)),
    StableHlo.binary main_v44 main_v43 main_v45 (Host.divf : (⟨S8192x1, .f32⟩ : BufTy).Contents (Elt F) → (⟨S8192x1, .f32⟩ : BufTy).Contents (Elt F) → (⟨S8192x1, .f32⟩ : BufTy).Contents (Elt F)),
    StableHlo.reshape main_v45 main_v46 rfl shapeCasts_S8192x1_S8192 ]

-- eighty-one binds re-associated: the rewrite under the chain recurses once per statement
set_option maxRecDepth 8192 in
set_option maxHeartbeats 1600000 in
/-- @main is that straight line: the called functions' bodies unfolded at their calls, both sides are one chain
    of steps once sequencing is re-associated. -/
theorem main_eq (c : Dev nD) : main (F := F) c = seq ops := by
  simp only [main, fn_leaky_relu.body, fn_where.body, fn_var.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., binary_bufs_sub .., unary_bufs_sub .., unary_bufs_sub .., unary_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., reshape_bufs_sub ..⟩

end Cert.ReferenceIdeal.RefRun

end
-- ==== Proof.RefStages.lean ====
import proofs.«179498_j53352083751414_2_alg».proof.Proof.Gen.ReferenceIdeal
import Idealize.ShloMosaic.Lib.StableHlo.Run

/-! The value the reference program computes, of its nine argument arrays, cut into named stages in program order. -/

noncomputable section

namespace Cert.ReferenceIdeal.RefRun

open Cert.ReferenceIdeal Cert.ReferenceIdeal.Facts₀ Idealize.ShloMosaic Idealize.SL.Sem Idealize.ShloMosaic.StableHlo

variable {F : FTy → Type} [FloatOps F]

/-! ## The stages of the composed value -/

/-- The propagation matrix: entry (i, j) is Dv[i] · H[i, j] · (W[j] · De[j]) — the vertex scale broadcast along
    rows times the incidence matrix, times the product of edge weight and edge scale broadcast along columns. -/
noncomputable def refA (x1 : FVec F S8192 .f32) (x2 : FVec F S4096 .f32) (x3 : FVec F S8192x4096 .f32) (x4 : FVec F S4096 .f32) :
    FVec F S8192x4096 .f32 :=
  mulf
    (mulf (broadcastInDim S8192x4096 ![0, 1] bcast_S8192x1_S8192x4096_0_1 (broadcastInDim S8192x1 ![0] bcast_S8192_S8192x1_0 x1)) x3)
    (broadcastInDim S8192x4096 ![0, 1] bcast_S1x4096_S8192x4096_0_1 (broadcastInDim S1x4096 ![1] bcast_S4096_S1x4096_1 (mulf x4 x2)))

/-- The features times the first weight matrix: X · θ₁. -/
noncomputable def refXt1 (x0 : FVec F S8192x128 .f32) (x5 : FVec F S128x64 .f32) : FVec F S8192x64 .f32 :=
  Host.dotGeneral (F := F) dot_S8192x128_S128x64_S8192x64_1_0_0_1_n_n none x0 x5

/-- First propagation, to the edges: Hᵀ · (Dv ⊙ Xt1), the vertex scale broadcast along the 64 columns. -/
noncomputable def refM1 (x1 : FVec F S8192 .f32) (x3 : FVec F S8192x4096 .f32) (xt1 : FVec F S8192x64 .f32) : FVec F S4096x64 .f32 :=
  Host.dotGeneral (F := F) dot_S4096x8192_S8192x64_S4096x64_1_0_0_1_n_n none
    (transpose S4096x8192 [1, 0] x3 transposes_S8192x4096_S4096x8192_1_0)
    (mulf (broadcastInDim S8192x64 ![0, 1] bcast_S8192x1_S8192x64_0_1 (broadcastInDim S8192x1 ![0] bcast_S8192_S8192x1_0 x1)) xt1)

/-- First propagation, back to the vertices: A · M1. -/
noncomputable def refZ1 (a : FVec F S8192x4096 .f32) (m1 : FVec F S4096x64 .f32) : FVec F S8192x64 .f32 :=
  Host.dotGeneral (F := F) dot_S8192x4096_S4096x64_S8192x64_1_0_0_1_n_n none a m1

/-- The leaky rectifier, the program's operations in order: x where x ≥ 0, else slope · x. -/
noncomputable def refAct (z1 : FVec F S8192x64 .f32) : FVec F S8192x64 .f32 :=
  let cst : FVec F S_ .f32 := constant S_ .f32 0x3C23D70A#32
  let l_cst : FVec F S_ .f32 := constant S_ .f32 0x00000000#32
  let l_v0 : FVec F S8192x64 .f32 := broadcastInDim S8192x64 ![] bcast_S_S8192x64 l_cst
  let l_v1 : IVec S8192x64 1 := cmpf .oge z1 l_v0
  let l_v2 : FVec F S_ .f32 := id cst
  let l_v3 : FVec F S8192x64 .f32 := broadcastInDim S8192x64 ![] bcast_S_S8192x64 l_v2
  let l_v4 : FVec F S8192x64 .f32 := mulf l_v3 z1
  select l_v1 z1 l_v4

/-- The column mean: the sum over the 8192 rows divided by 8192. -/
noncomputable def refMean (v14 : FVec F S8192x64 .f32) : FVec F S64 .f32 :=
  let cst_0 : FVec F S_ .f32 := constant S_ .f32 0x00000000#32
  let v15 : FVec F S64 .f32 := Host.reduceAdd v14 cst_0 reducesTo_S8192x64_S64_d0 h_S_
  let cst_1 : FVec F S_ .f32 := constant S_ .f32 0x46000000#32
  let v16 : FVec F S64 .f32 := broadcastInDim S64 ![] bcast_S_S64 cst_1
  Host.divf v15 v16

/-- The column variance, the program's operations in order: the mean of the squared deviations from a mean computed
    again, the sum divided by 8192 − 0, the quotient kept where that count is positive (else the not-a-number). -/
noncomputable def refVar (v14 : FVec F S8192x64 .f32) : FVec F S64 .f32 :=
  let c : IVec S_ 32 := constantI S_ 32 0#32
  let r_cst : FVec F S_ .f32 := constant S_ .f32 0x00000000#32
  let r_v0 : FVec F S64 .f32 := Host.reduceAdd v14 r_cst reducesTo_S8192x64_S64_d0 h_S_
  let r_v1 : FVec F S1x64 .f32 := broadcastInDim S1x64 ![1] bcast_S64_S1x64_1 r_v0
  let r_cst_0 : FVec F S_ .f32 := constant S_ .f32 0x46000000#32
  let r_v2 : FVec F S1x64 .f32 := broadcastInDim S1x64 ![] bcast_S_S1x64 r_cst_0
  let r_v3 : FVec F S1x64 .f32 := Host.divf r_v1 r_v2
  let r_v4 : FVec F S8192x64 .f32 := broadcastInDim S8192x64 ![0, 1] bcast_S1x64_S8192x64_0_1 r_v3
  let r_v5 : FVec F S8192x64 .f32 := subf v14 r_v4
  let r_v6 : FVec F S8192x64 .f32 := mulf r_v5 r_v5
  let r_v7 : FVec F S_ .f32 := sitofp .f32 c
  let r_cst_1 : FVec F S_ .f32 := constant S_ .f32 0x46000000#32
  let r_v8 : FVec F S_ .f32 := subf r_cst_1 r_v7
  let r_cst_2 : FVec F S_ .f32 := constant S_ .f32 0x00000000#32
  let r_v9 : FVec F S64 .f32 := Host.reduceAdd r_v6 r_cst_2 reducesTo_S8192x64_S64_d0 h_S_
  let r_v10 : FVec F S64 .f32 := broadcastInDim S64 ![] bcast_S_S64 r_v8
  let r_v11 : FVec F S64 .f32 := Host.divf r_v9 r_v10
  let r_cst_3 : FVec F S_ .f32 := constant S_ .f32 0x00000000#32
  let r_v12 : IVec S_ 1 := cmpf .ogt r_v8 r_cst_3
  let r_cst_4 : FVec F S_ .f32 := constant S_ .f32 0x7FC00000#32
  let w_v0 : FVec F S_ .f32 := id r_cst_4
  let w_v1 : FVec F S64 .f32 := broadcastInDim S64 ![] bcast_S_S64 w_v0
  select (broadcastInDim S64 ![] bcast_S_S64 r_v12) r_v11 w_v1

/-- The normalisation, the scale and the shift, the program's operations in order:
    ((x − mean) / √(var + ε)) · γ + β, the three row vectors broadcast down the 8192 rows. -/
noncomputable def refNorm (v14 : FVec F S8192x64 .f32) (v17 v18 gamma beta : FVec F S64 .f32) : FVec F S8192x64 .f32 :=
  let v19 : FVec F S1x64 .f32 := broadcastInDim S1x64 ![1] bcast_S64_S1x64_1 v17
  let v20 : FVec F S8192x64 .f32 := broadcastInDim S8192x64 ![0, 1] bcast_S1x64_S8192x64_0_1 v19
  let v21 : FVec F S8192x64 .f32 := subf v14 v20
  let cst_2 : FVec F S_ .f32 := constant S_ .f32 0x3727C5AC#32
  let v22 : FVec F S64 .f32 := broadcastInDim S64 ![] bcast_S_S64 cst_2
  let v23 : FVec F S64 .f32 := addf v18 v22
  let v24 : FVec F S64 .f32 := Host.sqrt v23
  let v25 : FVec F S1x64 .f32 := broadcastInDim S1x64 ![1] bcast_S64_S1x64_1 v24
  let v26 : FVec F S8192x64 .f32 := broadcastInDim S8192x64 ![0, 1] bcast_S1x64_S8192x64_0_1 v25
  let v27 : FVec F S8192x64 .f32 := Host.divf v21 v26
  let v28 : FVec F S1x64 .f32 := broadcastInDim S1x64 ![1] bcast_S64_S1x64_1 gamma
  let v29 : FVec F S8192x64 .f32 := broadcastInDim S8192x64 ![0, 1] bcast_S1x64_S8192x64_0_1 v28
  let v30 : FVec F S8192x64 .f32 := mulf v27 v29
  let v31 : FVec F S1x64 .f32 := broadcastInDim S1x64 ![1] bcast_S64_S1x64_1 beta
  let v32 : FVec F S8192x64 .f32 := broadcastInDim S8192x64 ![0, 1] bcast_S1x64_S8192x64_0_1 v31
  addf v30 v32

/-- From the first propagation's output to the second's input: the rectifier, its column mean and variance, the
    normalisation with scale γ and shift β, and the product with the second weight matrix θ₂. -/
noncomputable def refMid (z1 : FVec F S8192x64 .f32) (gamma beta : FVec F S64 .f32) (theta2 : FVec F S64x1 .f32) : FVec F S8192x1 .f32 :=
  Host.dotGeneral (F := F) dot_S8192x64_S64x1_S8192x1_1_0_0_1_n_n none
    (refNorm (refAct z1) (refMean (refAct z1)) (refVar (refAct z1)) gamma beta) theta2

/-- Second propagation, to the edges: Hᵀ · (Dv ⊙ Y), one column. -/
noncomputable def refM2 (x1 : FVec F S8192 .f32) (x3 : FVec F S8192x4096 .f32) (y : FVec F S8192x1 .f32) : FVec F S4096x1 .f32 :=
  Host.dotGeneral (F := F) dot_S4096x8192_S8192x1_S4096x1_1_0_0_1_n_n none
    (transpose S4096x8192 [1, 0] x3 transposes_S8192x4096_S4096x8192_1_0)
    (mulf (broadcastInDim S8192x1 ![0] bcast_S8192_S8192x1_0 x1) y)

/-- Second propagation, back to the vertices: A · M2. -/
noncomputable def refZ2 (a : FVec F S8192x4096 .f32) (m2 : FVec F S4096x1 .f32) : FVec F S8192x1 .f32 :=
  Host.dotGeneral (F := F) dot_S8192x4096_S4096x1_S8192x1_1_0_0_1_n_n none a m2

/-- The logistic tail: 1 / (1 + exp (−z)), then the column read as a vector. -/
noncomputable def refTail (z2 : FVec F S8192x1 .f32) : FVec F S8192 .f32 :=
  shapeCast S8192
    (Host.divf (broadcastInDim S8192x1 ![] bcast_S_S8192x1 (constant (F := F) S_ .f32 0x3F800000#32))
      (addf (broadcastInDim S8192x1 ![] bcast_S_S8192x1 (constant (F := F) S_ .f32 0x3F800000#32)) (Host.exp (Host.negf z2))))
    shapeCasts_S8192x1_S8192

/-- What the run leaves in the result buffer, of the nine argument arrays. -/
noncomputable def result (x0 : FVec F S8192x128 .f32) (x1 : FVec F S8192 .f32) (x2 : FVec F S4096 .f32) (x3 : FVec F S8192x4096 .f32)
    (x4 : FVec F S4096 .f32) (x5 : FVec F S128x64 .f32) (x6 : FVec F S64x1 .f32) (x7 x8 : FVec F S64 .f32) : FVec F S8192 .f32 :=
  refTail (refZ2 (refA x1 x2 x3 x4) (refM2 x1 x3 (refMid (refZ1 (refA x1 x2 x3 x4) (refM1 x1 x3 (refXt1 x0 x5))) x7 x8 x6)))

/-- Contents after two lines run one after the other are the second's after the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

end Cert.ReferenceIdeal.RefRun

end
-- ==== Proof.RefRun.lean ====
import proofs.«179498_j53352083751414_2_alg».proof.Proof.RefOps
import proofs.«179498_j53352083751414_2_alg».proof.Proof.RefStages

/-! The run of the reference program: every weakly fair execution of its @main terminates, the result buffer
    holds the operations' composed value of the nine argument arrays, and the arguments are unchanged. The
    composed value is the stages' composition, read window by window. -/

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-! ## The operations, window by window

The line of eighty-one operations is read in eight consecutive windows, one per stage: what a window leaves in the
buffer it is read for is the stage's value of what the window found in the buffers it reads, whatever those contents
are; a buffer that no operation of a window writes keeps its contents through it. -/

/-- The nine argument buffers. -/
abbrev argRefs : List (Ref sig .tc) := [main_arg0, main_arg1, main_arg2, main_arg3, main_arg4, main_arg5, main_arg6, main_arg7, main_arg8]

/-- Operations 1–7 of the line: the propagation matrix. -/
abbrev opsA : List (HloOp τ sig (Elt F)) :=
  [ StableHlo.unary main_arg1 main_v0 (broadcastInDim S8192x1 ![0] bcast_S8192_S8192x1_0 : (⟨S8192, .f32⟩ : BufTy).Contents (Elt F) → (⟨S8192x1, .f32⟩ : BufTy).Contents (Elt F)),
    StableHlo.unary main_v0 main_v1 (broadcastInDim S8192x4096 ![0, 1] bcast_S8192x1_S8192x4096_0_1 : (⟨S8192x1, .f32⟩ : BufTy).Contents (Elt F) → (⟨S8192x4096, .f32⟩ : BufTy).Contents (Elt F)),
    StableHlo.binary main_v1 main_arg3 main_v2 (mulf : (⟨S8192x4096, .f32⟩ : BufTy).Contents (Elt F) → (⟨S8192x4096, .f32⟩ : BufTy).Contents (Elt F) → (⟨S8192x4096, .f32⟩ : BufTy).Contents (Elt F)),
    StableHlo.binary main_arg4 main_arg2 main_v3 (mulf : (⟨S4096, .f32⟩ : BufTy).Contents (Elt F) → (⟨S4096, .f32⟩ : BufTy).Contents (Elt F) → (⟨S4096, .f32⟩ : BufTy).Contents (Elt F)),
    StableHlo.unary main_v3 main_v4 (broadcastInDim S1x4096 ![1] bcast_S4096_S1x4096_1 : (⟨S4096, .f32⟩ : BufTy).Contents (Elt F) → (⟨S1x4096, .f32⟩ : BufTy).Contents (Elt F)),
    StableHlo.unary main_v4 main_v5 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v2 main_v5 main_v6 (mulf : (⟨S8192x4096, .f32⟩ : BufTy).Contents (Elt F) → (⟨S8192x4096, .f32⟩ : BufTy).Contents (Elt F) → (⟨S8192x4096, .f32⟩ : BufTy).Contents (Elt F)) ]
/-- The buffers those operations write. -/
abbrev opsA_W : List (Ref sig .tc) := [main_v0, main_v1, main_v2, main_v3, main_v4, main_v5, main_v6]
set_option maxRecDepth 8192 in
theorem opsA_writes : (opsA : List (HloOp τ sig (Elt F))).Forall fun op =>
    op.writes ⊆ (opsA_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the window does not write keeps its contents through it. -/
theorem opsA_keep (W : Valuation τ sig (Elt F)) (r : Ref sig .tc) (h : r ∉ opsA_W) :
    after opsA W (Proc.devRef .tc r) = W (Proc.devRef .tc r) :=
  after_of_writes_sub opsA W opsA_writes h
theorem opsA_args : ∀ r ∈ argRefs, r ∉ opsA_W := by decide

/-- Operations 8–8 of the line: the features times the first weight matrix. -/
abbrev opsB : List (HloOp τ sig (Elt F)) :=
  [ StableHlo.binary main_arg0 main_arg5 main_v7 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)) ]
/-- The buffers those operations write. -/
abbrev opsB_W : List (Ref sig .tc) := [main_v7]
set_option maxRecDepth 8192 in
theorem opsB_writes : (opsB : List (HloOp τ sig (Elt F))).Forall fun op =>
    op.writes ⊆ (opsB_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))
/-- A buffer the window does not write keeps its contents through it. -/
theorem opsB_keep (W : Valuation τ sig (Elt F)) (r : Ref sig .tc) (h : r ∉ opsB_W) :
    after opsB W (Proc.devRef .tc r) = W (Proc.devRef .tc r) :=
  after_of_writes_sub opsB W opsB_writes h
theorem opsB_args : ∀ r ∈ argRefs, r ∉ opsB_W := by decide

/-- Operations 9–13 of the line: the first propagation to the edges. -/
abbrev opsC : List (HloOp τ sig (Elt F)) :=
  [ StableHlo.unary main_arg3 main_v8 ((transpose S4096x8192 [1, 0] · transposes_S8192x4096_S4096x8192_1_0) : (⟨S8192x4096, .f32⟩ : BufTy).Contents (Elt F) → (⟨S4096x8192, .f32⟩ : BufTy).Contents (Elt F)),
    StableHlo.unary main_arg1 main_v9 (broadcastInDim S8192x1 ![0] bcast_S8192_S8192x1_0 : (⟨S8192, .f32⟩ : BufTy).Contents (Elt F) → (⟨S8192x1, .f32⟩ : BufTy).Contents (Elt F)),
    StableHlo.unary main_v9 main_v10 (broadcastInDim S8192x64 ![0, 1] bcast_S8192x1_S8192x64_0_1 : (⟨S8192x1, .f32⟩ : BufTy).Contents (Elt F) → (⟨S8192x64, .f32⟩ : BufTy).Contents (Elt F)),
    StableHlo.binary main_v10 main_v7 main_v11 (mulf : (⟨S8192x64, .f32⟩ : BufTy).Contents (Elt F) → (⟨S8192x64, .f32⟩ : BufTy).Contents (Elt F) → (⟨S8192x64, .f32⟩ : BufTy).Contents (Elt F)),
    StableHlo.binary main_v8 main_v11 main_v12 ((fun l r => Host.dotGeneral dot_S4096x8192_S8192x64_S4096x64_1_0_0_1_n_n none l r) : (⟨S4096x8192, .f32⟩ : BufTy).Contents (Elt F) → (⟨S8192x64, .f32⟩ : BufTy).Contents (Elt F) → (⟨S4096x64, .f32⟩ : BufTy).Contents (Elt F)) ]
/-- The buffers those operations write. -/
abbrev opsC_W : List (Ref sig .tc) := [main_v8, main_v9, main_v10, main_v11, main_v12]
set_option maxRecDepth 8192 in
theorem opsC_writes : (opsC : List (HloOp τ sig (Elt F))).Forall fun op =>
    op.writes ⊆ (opsC_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the window does not write keeps its contents through it. -/
theorem opsC_keep (W : Valuation τ sig (Elt F)) (r : Ref sig .tc) (h : r ∉ opsC_W) :
    after opsC W (Proc.devRef .tc r) = W (Proc.devRef .tc r) :=
  after_of_writes_sub opsC W opsC_writes h
theorem opsC_args : ∀ r ∈ argRefs, r ∉ opsC_W := by decide

/-- Operations 14–14 of the line: the first propagation back to the vertices. -/
abbrev opsD : List (HloOp τ sig (Elt F)) :=
  [ StableHlo.binary main_v6 main_v12 main_v13 ((fun l r => Host.dotGeneral dot_S8192x4096_S4096x64_S8192x64_1_0_0_1_n_n none l r) : (⟨S8192x4096, .f32⟩ : BufTy).Contents (Elt F) → (⟨S4096x64, .f32⟩ : BufTy).Contents (Elt F) → (⟨S8192x64, .f32⟩ : BufTy).Contents (Elt F)) ]
/-- The buffers those operations write. -/
abbrev opsD_W : List (Ref sig .tc) := [main_v13]
set_option maxRecDepth 8192 in
theorem opsD_writes : (opsD : List (HloOp τ sig (Elt F))).Forall fun op =>
    op.writes ⊆ (opsD_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))
/-- A buffer the window does not write keeps its contents through it. -/
theorem opsD_keep (W : Valuation τ sig (Elt F)) (r : Ref sig .tc) (h : r ∉ opsD_W) :
    after opsD W (Proc.devRef .tc r) = W (Proc.devRef .tc r) :=
  after_of_writes_sub opsD W opsD_writes h
theorem opsD_args : ∀ r ∈ argRefs, r ∉ opsD_W := by decide

/-- Operations 15–67 of the line: the rectifier, the column statistics, the normalisation, the scale and shift, the second weight matrix. -/
abbrev opsE : List (HloOp τ sig (Elt F)) :=
  [ StableHlo.nullary main_cst (constant S_ .f32 0x3C23D70A#32),
    StableHlo.TRef.nullary main_call0.cst (constant S_ .f32 0x00000000#32),
    StableHlo.TRef.unary main_call0.cst main_call0.v0 (broadcastInDim S8192x64 ![] bcast_S_S8192x64),
    StableHlo.TRef.binary (.of main_v13 : StableHlo.TRef sig ⟨S8192x64, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S8192x64 ![] bcast_S_S8192x64),
    StableHlo.TRef.binary main_call0.v3 (.of main_v13 : StableHlo.TRef sig ⟨S8192x64, .f32⟩) main_call0.v4 mulf,
    StableHlo.TRef.ternary main_call0.v1 (.of main_v13 : StableHlo.TRef sig ⟨S8192x64, .f32⟩) main_call0.v4 main_call0.call0.v0 select,
    StableHlo.nullary main_cst_0 (constant S_ .f32 0x00000000#32),
    StableHlo.binary main_v14 main_cst_0 main_v15 ((fun x v => Host.reduceAdd x v reducesTo_S8192x64_S64_d0 h_S_) : (⟨S8192x64, .f32⟩ : BufTy).Contents (Elt F) → (⟨S_, .f32⟩ : BufTy).Contents (Elt F) → (⟨S64, .f32⟩ : BufTy).Contents (Elt F)),
    StableHlo.nullary main_cst_1 (constant S_ .f32 0x46000000#32),
    StableHlo.unary main_cst_1 main_v16 (broadcastInDim S64 ![] bcast_S_S64 : (⟨S_, .f32⟩ : BufTy).Contents (Elt F) → (⟨S64, .f32⟩ : BufTy).Contents (Elt F)),
    StableHlo.binary main_v15 main_v16 main_v17 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call1.cst (constant S_ .f32 0x00000000#32),
    StableHlo.TRef.binary (.of main_v14 : StableHlo.TRef sig ⟨S8192x64, .f32⟩) main_call1.cst main_call1.v0 (fun x v => Host.reduceAdd x v reducesTo_S8192x64_S64_d0 h_S_),
    StableHlo.TRef.unary main_call1.v0 main_call1.v1 (broadcastInDim S1x64 ![1] bcast_S64_S1x64_1),
    StableHlo.TRef.nullary main_call1.cst_0 (constant S_ .f32 0x46000000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S8192x64 ![0, 1] bcast_S1x64_S8192x64_0_1),
    StableHlo.TRef.binary (.of main_v14 : StableHlo.TRef sig ⟨S8192x64, .f32⟩) main_call1.v4 main_call1.v5 subf,
    StableHlo.TRef.binary main_call1.v5 main_call1.v5 main_call1.v6 mulf,
    StableHlo.TRef.unary (.of main_c : StableHlo.TRef sig ⟨S_, .i32⟩) main_call1.v7 (sitofp .f32),
    StableHlo.TRef.nullary main_call1.cst_1 (constant S_ .f32 0x46000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S8192x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_v17 main_v19 (broadcastInDim S1x64 ![1] bcast_S64_S1x64_1 : (⟨S64, .f32⟩ : BufTy).Contents (Elt F) → (⟨S1x64, .f32⟩ : BufTy).Contents (Elt F)),
    StableHlo.unary main_v19 main_v20 (broadcastInDim S8192x64 ![0, 1] bcast_S1x64_S8192x64_0_1 : (⟨S1x64, .f32⟩ : BufTy).Contents (Elt F) → (⟨S8192x64, .f32⟩ : BufTy).Contents (Elt F)),
    StableHlo.binary main_v14 main_v20 main_v21 (subf : (⟨S8192x64, .f32⟩ : BufTy).Contents (Elt F) → (⟨S8192x64, .f32⟩ : BufTy).Contents (Elt F) → (⟨S8192x64, .f32⟩ : BufTy).Contents (Elt F)),
    StableHlo.nullary main_cst_2 (constant S_ .f32 0x3727C5AC#32),
    StableHlo.unary main_cst_2 main_v22 (broadcastInDim S64 ![] bcast_S_S64 : (⟨S_, .f32⟩ : BufTy).Contents (Elt F) → (⟨S64, .f32⟩ : BufTy).Contents (Elt F)),
    StableHlo.binary main_v18 main_v22 main_v23 (addf : (⟨S64, .f32⟩ : BufTy).Contents (Elt F) → (⟨S64, .f32⟩ : BufTy).Contents (Elt F) → (⟨S64, .f32⟩ : BufTy).Contents (Elt F)),
    StableHlo.unary main_v23 main_v24 (Host.sqrt : (⟨S64, .f32⟩ : BufTy).Contents (Elt F) → (⟨S64, .f32⟩ : BufTy).Contents (Elt F)),
    StableHlo.unary main_v24 main_v25 (broadcastInDim S1x64 ![1] bcast_S64_S1x64_1 : (⟨S64, .f32⟩ : BufTy).Contents (Elt F) → (⟨S1x64, .f32⟩ : BufTy).Contents (Elt F)),
    StableHlo.unary main_v25 main_v26 (broadcastInDim S8192x64 ![0, 1] bcast_S1x64_S8192x64_0_1 : (⟨S1x64, .f32⟩ : BufTy).Contents (Elt F) → (⟨S8192x64, .f32⟩ : BufTy).Contents (Elt F)),
    StableHlo.binary main_v21 main_v26 main_v27 (Host.divf : (⟨S8192x64, .f32⟩ : BufTy).Contents (Elt F) → (⟨S8192x64, .f32⟩ : BufTy).Contents (Elt F) → (⟨S8192x64, .f32⟩ : BufTy).Contents (Elt F)),
    StableHlo.unary main_arg7 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S8192x64 ![0, 1] bcast_S1x64_S8192x64_0_1 : (⟨S1x64, .f32⟩ : BufTy).Contents (Elt F) → (⟨S8192x64, .f32⟩ : BufTy).Contents (Elt F)),
    StableHlo.binary main_v27 main_v29 main_v30 (mulf : (⟨S8192x64, .f32⟩ : BufTy).Contents (Elt F) → (⟨S8192x64, .f32⟩ : BufTy).Contents (Elt F) → (⟨S8192x64, .f32⟩ : BufTy).Contents (Elt F)),
    StableHlo.unary main_arg8 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S8192x64 ![0, 1] bcast_S1x64_S8192x64_0_1 : (⟨S1x64, .f32⟩ : BufTy).Contents (Elt F) → (⟨S8192x64, .f32⟩ : BufTy).Contents (Elt F)),
    StableHlo.binary main_v30 main_v32 main_v33 (addf : (⟨S8192x64, .f32⟩ : BufTy).Contents (Elt F) → (⟨S8192x64, .f32⟩ : BufTy).Contents (Elt F) → (⟨S8192x64, .f32⟩ : BufTy).Contents (Elt F)),
    StableHlo.binary main_v33 main_arg6 main_v34 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)) ]
/-- The buffers those operations write. -/
abbrev opsE_W : List (Ref sig .tc) := [main_cst, main_call0.cst.ref, main_call0.v0.ref, main_call0.v1.ref, main_call0.v2.ref, main_call0.v3.ref, main_call0.v4.ref, main_call0.call0.v0.ref, main_cst_0, main_v15, main_cst_1, main_v16, main_v17, main_c, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref, main_v19, main_v20, main_v21, main_cst_2, main_v22, main_v23, main_v24, main_v25, main_v26, main_v27, main_v28, main_v29, main_v30, main_v31, main_v32, main_v33, main_v34]
set_option maxRecDepth 8192 in
theorem opsE_writes : (opsE : List (HloOp τ sig (Elt F))).Forall fun op =>
    op.writes ⊆ (opsE_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the window does not write keeps its contents through it. -/
theorem opsE_keep (W : Valuation τ sig (Elt F)) (r : Ref sig .tc) (h : r ∉ opsE_W) :
    after opsE W (Proc.devRef .tc r) = W (Proc.devRef .tc r) :=
  after_of_writes_sub opsE W opsE_writes h
theorem opsE_args : ∀ r ∈ argRefs, r ∉ opsE_W := by decide

/-- Operations 68–71 of the line: the second propagation to the edges. -/
abbrev opsG : List (HloOp τ sig (Elt F)) :=
  [ StableHlo.unary main_arg3 main_v35 ((transpose S4096x8192 [1, 0] · transposes_S8192x4096_S4096x8192_1_0) : (⟨S8192x4096, .f32⟩ : BufTy).Contents (Elt F) → (⟨S4096x8192, .f32⟩ : BufTy).Contents (Elt F)),
    StableHlo.unary main_arg1 main_v36 (broadcastInDim S8192x1 ![0] bcast_S8192_S8192x1_0 : (⟨S8192, .f32⟩ : BufTy).Contents (Elt F) → (⟨S8192x1, .f32⟩ : BufTy).Contents (Elt F)),
    StableHlo.binary main_v36 main_v34 main_v37 (mulf : (⟨S8192x1, .f32⟩ : BufTy).Contents (Elt F) → (⟨S8192x1, .f32⟩ : BufTy).Contents (Elt F) → (⟨S8192x1, .f32⟩ : BufTy).Contents (Elt F)),
    StableHlo.binary main_v35 main_v37 main_v38 ((fun l r => Host.dotGeneral dot_S4096x8192_S8192x1_S4096x1_1_0_0_1_n_n none l r) : (⟨S4096x8192, .f32⟩ : BufTy).Contents (Elt F) → (⟨S8192x1, .f32⟩ : BufTy).Contents (Elt F) → (⟨S4096x1, .f32⟩ : BufTy).Contents (Elt F)) ]
/-- The buffers those operations write. -/
abbrev opsG_W : List (Ref sig .tc) := [main_v35, main_v36, main_v37, main_v38]
set_option maxRecDepth 8192 in
theorem opsG_writes : (opsG : List (HloOp τ sig (Elt F))).Forall fun op =>
    op.writes ⊆ (opsG_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the window does not write keeps its contents through it. -/
theorem opsG_keep (W : Valuation τ sig (Elt F)) (r : Ref sig .tc) (h : r ∉ opsG_W) :
    after opsG W (Proc.devRef .tc r) = W (Proc.devRef .tc r) :=
  after_of_writes_sub opsG W opsG_writes h
theorem opsG_args : ∀ r ∈ argRefs, r ∉ opsG_W := by decide

/-- Operations 72–72 of the line: the second propagation back to the vertices. -/
abbrev opsH : List (HloOp τ sig (Elt F)) :=
  [ StableHlo.binary main_v6 main_v38 main_v39 ((fun l r => Host.dotGeneral dot_S8192x4096_S4096x1_S8192x1_1_0_0_1_n_n none l r) : (⟨S8192x4096, .f32⟩ : BufTy).Contents (Elt F) → (⟨S4096x1, .f32⟩ : BufTy).Contents (Elt F) → (⟨S8192x1, .f32⟩ : BufTy).Contents (Elt F)) ]
/-- The buffers those operations write. -/
abbrev opsH_W : List (Ref sig .tc) := [main_v39]
set_option maxRecDepth 8192 in
theorem opsH_writes : (opsH : List (HloOp τ sig (Elt F))).Forall fun op =>
    op.writes ⊆ (opsH_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))
/-- A buffer the window does not write keeps its contents through it. -/
theorem opsH_keep (W : Valuation τ sig (Elt F)) (r : Ref sig .tc) (h : r ∉ opsH_W) :
    after opsH W (Proc.devRef .tc r) = W (Proc.devRef .tc r) :=
  after_of_writes_sub opsH W opsH_writes h
theorem opsH_args : ∀ r ∈ argRefs, r ∉ opsH_W := by decide

/-- Operations 73–81 of the line: the logistic tail. -/
abbrev opsT : List (HloOp τ sig (Elt F)) :=
  [ StableHlo.unary main_v39 main_v40 (Host.negf : (⟨S8192x1, .f32⟩ : BufTy).Contents (Elt F) → (⟨S8192x1, .f32⟩ : BufTy).Contents (Elt F)),
    StableHlo.unary main_v40 main_v41 (Host.exp : (⟨S8192x1, .f32⟩ : BufTy).Contents (Elt F) → (⟨S8192x1, .f32⟩ : BufTy).Contents (Elt F)),
    StableHlo.nullary main_cst_3 (constant S_ .f32 0x3F800000#32),
    StableHlo.unary main_cst_3 main_v42 (broadcastInDim S8192x1 ![] bcast_S_S8192x1 : (⟨S_, .f32⟩ : BufTy).Contents (Elt F) → (⟨S8192x1, .f32⟩ : BufTy).Contents (Elt F)),
    StableHlo.binary main_v42 main_v41 main_v43 (addf : (⟨S8192x1, .f32⟩ : BufTy).Contents (Elt F) → (⟨S8192x1, .f32⟩ : BufTy).Contents (Elt F) → (⟨S8192x1, .f32⟩ : BufTy).Contents (Elt F)),
    StableHlo.nullary main_cst_4 (constant S_ .f32 0x3F800000#32),
    StableHlo.unary main_cst_4 main_v44 (broadcastInDim S8192x1 ![] bcast_S_S8192x1 : (⟨S_, .f32⟩ : BufTy).Contents (Elt F) → (⟨S8192x1, .f32⟩ : BufTy).Contents (Elt F)),
    StableHlo.binary main_v44 main_v43 main_v45 (Host.divf : (⟨S8192x1, .f32⟩ : BufTy).Contents (Elt F) → (⟨S8192x1, .f32⟩ : BufTy).Contents (Elt F) → (⟨S8192x1, .f32⟩ : BufTy).Contents (Elt F)),
    StableHlo.reshape main_v45 main_v46 rfl shapeCasts_S8192x1_S8192 ]
/-- The buffers those operations write. -/
abbrev opsT_W : List (Ref sig .tc) := [main_v40, main_v41, main_cst_3, main_v42, main_v43, main_cst_4, main_v44, main_v45, main_v46]
set_option maxRecDepth 8192 in
theorem opsT_writes : (opsT : List (HloOp τ sig (Elt F))).Forall fun op =>
    op.writes ⊆ (opsT_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the window does not write keeps its contents through it. -/
theorem opsT_keep (W : Valuation τ sig (Elt F)) (r : Ref sig .tc) (h : r ∉ opsT_W) :
    after opsT W (Proc.devRef .tc r) = W (Proc.devRef .tc r) :=
  after_of_writes_sub opsT W opsT_writes h
theorem opsT_args : ∀ r ∈ argRefs, r ∉ opsT_W := by decide

/-- The line is its eight windows in order. -/
theorem ops_split : (ops : List (HloOp τ sig (Elt F))) = opsA ++ (opsB ++ (opsC ++ (opsD ++ (opsE ++ (opsG ++ (opsH ++ (opsT))))))) := rfl

/-! ## What each window computes -/

set_option maxRecDepth 65536 in
set_option maxHeartbeats 8000000 in
theorem winA (W : Valuation τ sig (Elt F)) :
    after opsA W (Proc.devRef .tc main_v6) = refA (W (Proc.devRef .tc main_arg1)) (W (Proc.devRef .tc main_arg2)) (W (Proc.devRef .tc main_arg3)) (W (Proc.devRef .tc main_arg4)) := by
  simp only [opsA]
  after_results_simp
  rfl

set_option maxRecDepth 65536 in
set_option maxHeartbeats 8000000 in
theorem winB (W : Valuation τ sig (Elt F)) :
    after opsB W (Proc.devRef .tc main_v7) = refXt1 (W (Proc.devRef .tc main_arg0)) (W (Proc.devRef .tc main_arg5)) := by
  simp only [opsB]
  after_results_simp
  rfl

set_option maxRecDepth 65536 in
set_option maxHeartbeats 8000000 in
theorem winC (W : Valuation τ sig (Elt F)) :
    after opsC W (Proc.devRef .tc main_v12) = refM1 (W (Proc.devRef .tc main_arg1)) (W (Proc.devRef .tc main_arg3)) (W (Proc.devRef .tc main_v7)) := by
  simp only [opsC]
  after_results_simp
  rfl

set_option maxRecDepth 65536 in
set_option maxHeartbeats 8000000 in
theorem winD (W : Valuation τ sig (Elt F)) :
    after opsD W (Proc.devRef .tc main_v13) = refZ1 (W (Proc.devRef .tc main_v6)) (W (Proc.devRef .tc main_v12)) := by
  simp only [opsD]
  after_results_simp
  rfl

set_option maxRecDepth 65536 in
set_option maxHeartbeats 8000000 in
theorem winE (W : Valuation τ sig (Elt F)) :
    after opsE W (Proc.devRef .tc main_v34) = refMid (W (Proc.devRef .tc main_v13)) (W (Proc.devRef .tc main_arg7)) (W (Proc.devRef .tc main_arg8)) (W (Proc.devRef .tc main_arg6)) := by
  simp only [opsE]
  after_results_simp
  rfl

set_option maxRecDepth 65536 in
set_option maxHeartbeats 8000000 in
theorem winG (W : Valuation τ sig (Elt F)) :
    after opsG W (Proc.devRef .tc main_v38) = refM2 (W (Proc.devRef .tc main_arg1)) (W (Proc.devRef .tc main_arg3)) (W (Proc.devRef .tc main_v34)) := by
  simp only [opsG]
  after_results_simp
  rfl

set_option maxRecDepth 65536 in
set_option maxHeartbeats 8000000 in
theorem winH (W : Valuation τ sig (Elt F)) :
    after opsH W (Proc.devRef .tc main_v39) = refZ2 (W (Proc.devRef .tc main_v6)) (W (Proc.devRef .tc main_v38)) := by
  simp only [opsH]
  after_results_simp
  rfl

set_option maxRecDepth 65536 in
set_option maxHeartbeats 8000000 in
theorem winT (W : Valuation τ sig (Elt F)) :
    after opsT W (Proc.devRef .tc main_v46) = refTail (W (Proc.devRef .tc main_v39)) := by
  simp only [opsT]
  after_results_simp
  rfl

/-! ## The windows in order -/

/-- The buffer contents after the window `opsA`, from contents `V`. -/
def valA (V : Valuation τ sig (Elt F)) : Valuation τ sig (Elt F) := after opsA V
theorem valA_arg (V : Valuation τ sig (Elt F)) : ∀ r ∈ argRefs, valA V (Proc.devRef .tc r) = V (Proc.devRef .tc r) :=
  fun r h => opsA_keep _ r (opsA_args r h)

/-- The buffer contents after the windows up to `opsB`, from contents `V`. -/
def valB (V : Valuation τ sig (Elt F)) : Valuation τ sig (Elt F) := after opsB (valA V)
theorem valB_arg (V : Valuation τ sig (Elt F)) : ∀ r ∈ argRefs, valB V (Proc.devRef .tc r) = V (Proc.devRef .tc r) :=
  fun r h => (opsB_keep _ r (opsB_args r h)).trans (valA_arg V r h)

/-- The buffer contents after the windows up to `opsC`, from contents `V`. -/
def valC (V : Valuation τ sig (Elt F)) : Valuation τ sig (Elt F) := after opsC (valB V)
theorem valC_arg (V : Valuation τ sig (Elt F)) : ∀ r ∈ argRefs, valC V (Proc.devRef .tc r) = V (Proc.devRef .tc r) :=
  fun r h => (opsC_keep _ r (opsC_args r h)).trans (valB_arg V r h)

/-- The buffer contents after the windows up to `opsD`, from contents `V`. -/
def valD (V : Valuation τ sig (Elt F)) : Valuation τ sig (Elt F) := after opsD (valC V)
theorem valD_arg (V : Valuation τ sig (Elt F)) : ∀ r ∈ argRefs, valD V (Proc.devRef .tc r) = V (Proc.devRef .tc r) :=
  fun r h => (opsD_keep _ r (opsD_args r h)).trans (valC_arg V r h)

/-- The buffer contents after the windows up to `opsE`, from contents `V`. -/
def valE (V : Valuation τ sig (Elt F)) : Valuation τ sig (Elt F) := after opsE (valD V)
theorem valE_arg (V : Valuation τ sig (Elt F)) : ∀ r ∈ argRefs, valE V (Proc.devRef .tc r) = V (Proc.devRef .tc r) :=
  fun r h => (opsE_keep _ r (opsE_args r h)).trans (valD_arg V r h)

/-- The buffer contents after the windows up to `opsG`, from contents `V`. -/
def valG (V : Valuation τ sig (Elt F)) : Valuation τ sig (Elt F) := after opsG (valE V)
theorem valG_arg (V : Valuation τ sig (Elt F)) : ∀ r ∈ argRefs, valG V (Proc.devRef .tc r) = V (Proc.devRef .tc r) :=
  fun r h => (opsG_keep _ r (opsG_args r h)).trans (valE_arg V r h)

/-- The buffer contents after the windows up to `opsH`, from contents `V`. -/
def valH (V : Valuation τ sig (Elt F)) : Valuation τ sig (Elt F) := after opsH (valG V)
theorem valH_arg (V : Valuation τ sig (Elt F)) : ∀ r ∈ argRefs, valH V (Proc.devRef .tc r) = V (Proc.devRef .tc r) :=
  fun r h => (opsH_keep _ r (opsH_args r h)).trans (valG_arg V r h)

/-- The buffer contents after the windows up to `opsT`, from contents `V`. -/
def valT (V : Valuation τ sig (Elt F)) : Valuation τ sig (Elt F) := after opsT (valH V)
theorem valT_arg (V : Valuation τ sig (Elt F)) : ∀ r ∈ argRefs, valT V (Proc.devRef .tc r) = V (Proc.devRef .tc r) :=
  fun r h => (opsT_keep _ r (opsT_args r h)).trans (valH_arg V r h)

theorem after_ops (V : Valuation τ sig (Elt F)) : after ops V = valT V := by
  rw [ops_split]; simp only [after_app]; rfl

theorem valA_v6 (V : Valuation τ sig (Elt F)) : valA V (Proc.devRef .tc main_v6) = refA (V (Proc.devRef .tc main_arg1)) (V (Proc.devRef .tc main_arg2)) (V (Proc.devRef .tc main_arg3)) (V (Proc.devRef .tc main_arg4)) := winA V
theorem valB_v6 (V : Valuation τ sig (Elt F)) : valB V (Proc.devRef .tc main_v6) = refA (V (Proc.devRef .tc main_arg1)) (V (Proc.devRef .tc main_arg2)) (V (Proc.devRef .tc main_arg3)) (V (Proc.devRef .tc main_arg4)) :=
  (opsB_keep _ main_v6 (by decide)).trans (valA_v6 V)
theorem valB_v7 (V : Valuation τ sig (Elt F)) : valB V (Proc.devRef .tc main_v7) = refXt1 (V (Proc.devRef .tc main_arg0)) (V (Proc.devRef .tc main_arg5)) :=
  (winB (valA V)).trans (by rw [valA_arg V main_arg0 (by decide), valA_arg V main_arg5 (by decide)])
theorem valC_v6 (V : Valuation τ sig (Elt F)) : valC V (Proc.devRef .tc main_v6) = refA (V (Proc.devRef .tc main_arg1)) (V (Proc.devRef .tc main_arg2)) (V (Proc.devRef .tc main_arg3)) (V (Proc.devRef .tc main_arg4)) :=
  (opsC_keep _ main_v6 (by decide)).trans (valB_v6 V)
theorem valC_v12 (V : Valuation τ sig (Elt F)) : valC V (Proc.devRef .tc main_v12) = refM1 (V (Proc.devRef .tc main_arg1)) (V (Proc.devRef .tc main_arg3)) (refXt1 (V (Proc.devRef .tc main_arg0)) (V (Proc.devRef .tc main_arg5))) :=
  (winC (valB V)).trans (by rw [valB_arg V main_arg1 (by decide), valB_arg V main_arg3 (by decide), valB_v7])
theorem valD_v6 (V : Valuation τ sig (Elt F)) : valD V (Proc.devRef .tc main_v6) = refA (V (Proc.devRef .tc main_arg1)) (V (Proc.devRef .tc main_arg2)) (V (Proc.devRef .tc main_arg3)) (V (Proc.devRef .tc main_arg4)) :=
  (opsD_keep _ main_v6 (by decide)).trans (valC_v6 V)
theorem valD_v13 (V : Valuation τ sig (Elt F)) : valD V (Proc.devRef .tc main_v13) = refZ1 (refA (V (Proc.devRef .tc main_arg1)) (V (Proc.devRef .tc main_arg2)) (V (Proc.devRef .tc main_arg3)) (V (Proc.devRef .tc main_arg4))) (refM1 (V (Proc.devRef .tc main_arg1)) (V (Proc.devRef .tc main_arg3)) (refXt1 (V (Proc.devRef .tc main_arg0)) (V (Proc.devRef .tc main_arg5)))) :=
  (winD (valC V)).trans (by rw [valC_v6, valC_v12])
theorem valE_v6 (V : Valuation τ sig (Elt F)) : valE V (Proc.devRef .tc main_v6) = refA (V (Proc.devRef .tc main_arg1)) (V (Proc.devRef .tc main_arg2)) (V (Proc.devRef .tc main_arg3)) (V (Proc.devRef .tc main_arg4)) :=
  (opsE_keep _ main_v6 (by decide)).trans (valD_v6 V)
theorem valE_v34 (V : Valuation τ sig (Elt F)) : valE V (Proc.devRef .tc main_v34) = refMid (refZ1 (refA (V (Proc.devRef .tc main_arg1)) (V (Proc.devRef .tc main_arg2)) (V (Proc.devRef .tc main_arg3)) (V (Proc.devRef .tc main_arg4))) (refM1 (V (Proc.devRef .tc main_arg1)) (V (Proc.devRef .tc main_arg3)) (refXt1 (V (Proc.devRef .tc main_arg0)) (V (Proc.devRef .tc main_arg5))))) (V (Proc.devRef .tc main_arg7)) (V (Proc.devRef .tc main_arg8)) (V (Proc.devRef .tc main_arg6)) :=
  (winE (valD V)).trans (by rw [valD_v13, valD_arg V main_arg7 (by decide), valD_arg V main_arg8 (by decide), valD_arg V main_arg6 (by decide)])
theorem valG_v6 (V : Valuation τ sig (Elt F)) : valG V (Proc.devRef .tc main_v6) = refA (V (Proc.devRef .tc main_arg1)) (V (Proc.devRef .tc main_arg2)) (V (Proc.devRef .tc main_arg3)) (V (Proc.devRef .tc main_arg4)) :=
  (opsG_keep _ main_v6 (by decide)).trans (valE_v6 V)
theorem valG_v38 (V : Valuation τ sig (Elt F)) : valG V (Proc.devRef .tc main_v38) = refM2 (V (Proc.devRef .tc main_arg1)) (V (Proc.devRef .tc main_arg3)) (refMid (refZ1 (refA (V (Proc.devRef .tc main_arg1)) (V (Proc.devRef .tc main_arg2)) (V (Proc.devRef .tc main_arg3)) (V (Proc.devRef .tc main_arg4))) (refM1 (V (Proc.devRef .tc main_arg1)) (V (Proc.devRef .tc main_arg3)) (refXt1 (V (Proc.devRef .tc main_arg0)) (V (Proc.devRef .tc main_arg5))))) (V (Proc.devRef .tc main_arg7)) (V (Proc.devRef .tc main_arg8)) (V (Proc.devRef .tc main_arg6))) :=
  (winG (valE V)).trans (by rw [valE_arg V main_arg1 (by decide), valE_arg V main_arg3 (by decide), valE_v34])
theorem valH_v39 (V : Valuation τ sig (Elt F)) : valH V (Proc.devRef .tc main_v39) = refZ2 (refA (V (Proc.devRef .tc main_arg1)) (V (Proc.devRef .tc main_arg2)) (V (Proc.devRef .tc main_arg3)) (V (Proc.devRef .tc main_arg4))) (refM2 (V (Proc.devRef .tc main_arg1)) (V (Proc.devRef .tc main_arg3)) (refMid (refZ1 (refA (V (Proc.devRef .tc main_arg1)) (V (Proc.devRef .tc main_arg2)) (V (Proc.devRef .tc main_arg3)) (V (Proc.devRef .tc main_arg4))) (refM1 (V (Proc.devRef .tc main_arg1)) (V (Proc.devRef .tc main_arg3)) (refXt1 (V (Proc.devRef .tc main_arg0)) (V (Proc.devRef .tc main_arg5))))) (V (Proc.devRef .tc main_arg7)) (V (Proc.devRef .tc main_arg8)) (V (Proc.devRef .tc main_arg6)))) :=
  (winH (valG V)).trans (by rw [valG_v6, valG_v38])
theorem valT_v46 (V : Valuation τ sig (Elt F)) : valT V (Proc.devRef .tc main_v46) = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  (winT (valH V)).trans (by rw [valH_v39]; rfl)

/-- The result buffer after the whole line, of the argument buffers' contents before it. -/
theorem out_eq (V : Valuation τ sig (Elt F)) : after ops V (Proc.devRef .tc main_v46) = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [after_ops]; exact valT_v46 V

/-- An argument buffer after the whole line holds what it held. -/
theorem arg_eq (V : Valuation τ sig (Elt F)) (r : Ref sig .tc) (h : r ∈ argRefs) :
    after ops V (Proc.devRef .tc r) = V (Proc.devRef .tc r) := by
  rw [after_ops]; exact valT_arg V r h

/-! ## The run -/

/-- On every device, for any float values, from any memory with zero counters: every weakly fair execution of
    @main terminates with the result buffer at `result` of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v46).trans (out_eq (launchContents m c)),
      (h c main_arg0).trans (arg_eq (launchContents m c) main_arg0 (by decide)),
      (h c main_arg1).trans (arg_eq (launchContents m c) main_arg1 (by decide)),
      (h c main_arg2).trans (arg_eq (launchContents m c) main_arg2 (by decide)),
      (h c main_arg3).trans (arg_eq (launchContents m c) main_arg3 (by decide)),
      (h c main_arg4).trans (arg_eq (launchContents m c) main_arg4 (by decide)),
      (h c main_arg5).trans (arg_eq (launchContents m c) main_arg5 (by decide)),
      (h c main_arg6).trans (arg_eq (launchContents m c) main_arg6 (by decide)),
      (h c main_arg7).trans (arg_eq (launchContents m c) main_arg7 (by decide)),
      (h c main_arg8).trans (arg_eq (launchContents m c) main_arg8 (by decide))⟩)
    (run_seq scopedRefs_eq scopedSems_eq defs main (fun _ => ops) main_eq (fun _ => ops_sub) m ρ)

/-- The reference runs and leaves its argument arrays unchanged. -/
theorem frame_ri : Cert.frame_ReferenceIdeal :=
  fun m ρ _ => (θ_run _ _ _).mono (fun _ h c => (h c).2) (run (F := Ideal) m ρ)

end Cert.ReferenceIdeal.RefRun

end
-- ==== Proof.KHost.lean ====
/-
  The host operations of @main read as values: what the first stretch computes from the arguments, and which buffers
  every later item leaves as they were.
-/
import proofs.«179498_j53352083751414_2_alg».proof.Proof.Run
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-! ## The first stretch: the incidence matrix narrowed, the vertex scale as a column, the edge scale as a row, X·θ₁ -/

theorem W1_main_v0 (c : Dev nD) : W1 m c (Proc.devRef .tc main_v0)
    = (truncf .bf16 (m ((c : Thread nD τ).loc main_arg3) : (⟨S8192x4096, .f32⟩ : BufTy).Contents (Elt F)) bitsLt_bf16_f32 : (⟨S8192x4096, .bf16⟩ : BufTy).Contents (Elt F)) := by
  show StableHlo.after hostOps0 (W0 m c) (Proc.devRef .tc main_v0) = _; after_results
theorem W1_main_v1 (c : Dev nD) : W1 m c (Proc.devRef .tc main_v1)
    = (broadcastInDim S8192x1 ![0] bcast_S8192_S8192x1_0 (m ((c : Thread nD τ).loc main_arg1) : (⟨S8192, .f32⟩ : BufTy).Contents (Elt F)) : (⟨S8192x1, .f32⟩ : BufTy).Contents (Elt F)) := by
  show StableHlo.after hostOps0 (W0 m c) (Proc.devRef .tc main_v1) = _; after_results
theorem W1_main_v3 (c : Dev nD) : W1 m c (Proc.devRef .tc main_v3)
    = (broadcastInDim S1x4096 ![1] bcast_S4096_S1x4096_1 (mulf (m ((c : Thread nD τ).loc main_arg4) : (⟨S4096, .f32⟩ : BufTy).Contents (Elt F)) (m ((c : Thread nD τ).loc main_arg2))) : (⟨S1x4096, .f32⟩ : BufTy).Contents (Elt F)) := by
  show StableHlo.after hostOps0 (W0 m c) (Proc.devRef .tc main_v3) = _; after_results
theorem W1_main_v4 (c : Dev nD) : W1 m c (Proc.devRef .tc main_v4)
    = (Host.dotGeneral dot_S8192x128_S128x64_S8192x64_1_0_0_1_n_n none (m ((c : Thread nD τ).loc main_arg0) : (⟨S8192x128, .f32⟩ : BufTy).Contents (Elt F)) (m ((c : Thread nD τ).loc main_arg5) : (⟨S128x64, .f32⟩ : BufTy).Contents (Elt F)) : (⟨S8192x64, .f32⟩ : BufTy).Contents (Elt F)) := by
  show StableHlo.after hostOps0 (W0 m c) (Proc.devRef .tc main_v4) = _; after_results

/-! ## What later items leave as it was -/

theorem W2_main_v0_kept (c : Dev nD) : W2 m c (Proc.devRef .tc main_v0) = W1 m c (Proc.devRef .tc main_v0) :=
  ((W2_arr m c 0).trans (((dat0 (VW1 m) c).arrAt_in 0 rfl _).trans (A_eq0 (VW1 m) c 0)))

theorem W8_main_v0_kept (c : Dev nD) : W8 m c (Proc.devRef .tc main_v0) = W1 m c (Proc.devRef .tc main_v0) :=
  (W8_of m c main_v0 (by decide)).trans <| (W7_of m c main_v0 (by decide)).trans <| (W6_of m c main_v0 (by decide)).trans <| (W5_of m c main_v0 (by decide)).trans <| (W4_of m c main_v0 (by decide)).trans <| ((W3_arr m c 0).trans (((dat1 (VW2 m) c).arrAt_in 0 rfl _).trans (A_eq1 (VW2 m) c 0))).trans <| ((W2_arr m c 0).trans (((dat0 (VW1 m) c).arrAt_in 0 rfl _).trans (A_eq0 (VW1 m) c 0)))

theorem W9_main_v0_kept (c : Dev nD) : W9 m c (Proc.devRef .tc main_v0) = W1 m c (Proc.devRef .tc main_v0) :=
  ((W9_arr m c 0).trans (((dat2 (VW8 m) c).arrAt_in 0 rfl _).trans (A_eq2 (VW8 m) c 0))).trans <| (W8_of m c main_v0 (by decide)).trans <| (W7_of m c main_v0 (by decide)).trans <| (W6_of m c main_v0 (by decide)).trans <| (W5_of m c main_v0 (by decide)).trans <| (W4_of m c main_v0 (by decide)).trans <| ((W3_arr m c 0).trans (((dat1 (VW2 m) c).arrAt_in 0 rfl _).trans (A_eq1 (VW2 m) c 0))).trans <| ((W2_arr m c 0).trans (((dat0 (VW1 m) c).arrAt_in 0 rfl _).trans (A_eq0 (VW1 m) c 0)))

theorem W2_main_v1_kept (c : Dev nD) : W2 m c (Proc.devRef .tc main_v1) = W1 m c (Proc.devRef .tc main_v1) :=
  ((W2_arr m c 1).trans (((dat0 (VW1 m) c).arrAt_in 1 rfl _).trans (A_eq0 (VW1 m) c 1)))

theorem W8_main_v1_kept (c : Dev nD) : W8 m c (Proc.devRef .tc main_v1) = W1 m c (Proc.devRef .tc main_v1) :=
  (W8_of m c main_v1 (by decide)).trans <| (W7_of m c main_v1 (by decide)).trans <| (W6_of m c main_v1 (by decide)).trans <| (W5_of m c main_v1 (by decide)).trans <| (W4_of m c main_v1 (by decide)).trans <| ((W3_arr m c 1).trans (((dat1 (VW2 m) c).arrAt_in 1 rfl _).trans (A_eq1 (VW2 m) c 1))).trans <| ((W2_arr m c 1).trans (((dat0 (VW1 m) c).arrAt_in 1 rfl _).trans (A_eq0 (VW1 m) c 1)))

theorem W9_main_v1_kept (c : Dev nD) : W9 m c (Proc.devRef .tc main_v1) = W1 m c (Proc.devRef .tc main_v1) :=
  ((W9_arr m c 1).trans (((dat2 (VW8 m) c).arrAt_in 1 rfl _).trans (A_eq2 (VW8 m) c 1))).trans <| (W8_of m c main_v1 (by decide)).trans <| (W7_of m c main_v1 (by decide)).trans <| (W6_of m c main_v1 (by decide)).trans <| (W5_of m c main_v1 (by decide)).trans <| (W4_of m c main_v1 (by decide)).trans <| ((W3_arr m c 1).trans (((dat1 (VW2 m) c).arrAt_in 1 rfl _).trans (A_eq1 (VW2 m) c 1))).trans <| ((W2_arr m c 1).trans (((dat0 (VW1 m) c).arrAt_in 1 rfl _).trans (A_eq0 (VW1 m) c 1)))

theorem W2_main_v3_kept (c : Dev nD) : W2 m c (Proc.devRef .tc main_v3) = W1 m c (Proc.devRef .tc main_v3) :=
  (W2_of_ne m c main_v3 (by decide))

theorem W8_main_v3_kept (c : Dev nD) : W8 m c (Proc.devRef .tc main_v3) = W1 m c (Proc.devRef .tc main_v3) :=
  (W8_of m c main_v3 (by decide)).trans <| (W7_of m c main_v3 (by decide)).trans <| (W6_of m c main_v3 (by decide)).trans <| (W5_of m c main_v3 (by decide)).trans <| (W4_of m c main_v3 (by decide)).trans <| ((W3_arr m c 2).trans (((dat1 (VW2 m) c).arrAt_in 2 rfl _).trans (A_eq1 (VW2 m) c 2))).trans <| (W2_of_ne m c main_v3 (by decide))

theorem W9_main_v3_kept (c : Dev nD) : W9 m c (Proc.devRef .tc main_v3) = W1 m c (Proc.devRef .tc main_v3) :=
  (W9_of_ne m c main_v3 (by decide)).trans <| (W8_of m c main_v3 (by decide)).trans <| (W7_of m c main_v3 (by decide)).trans <| (W6_of m c main_v3 (by decide)).trans <| (W5_of m c main_v3 (by decide)).trans <| (W4_of m c main_v3 (by decide)).trans <| ((W3_arr m c 2).trans (((dat1 (VW2 m) c).arrAt_in 2 rfl _).trans (A_eq1 (VW2 m) c 2))).trans <| (W2_of_ne m c main_v3 (by decide))

theorem W7_main_arg6_kept (c : Dev nD) : W7 m c (Proc.devRef .tc main_arg6) = W0 m c (Proc.devRef .tc main_arg6) :=
  (W7_of m c main_arg6 (by decide)).trans <| (W6_of m c main_arg6 (by decide)).trans <| (W5_of m c main_arg6 (by decide)).trans <| (W4_of m c main_arg6 (by decide)).trans <| (W3_of_ne m c main_arg6 (by decide)).trans <| (W2_of_ne m c main_arg6 (by decide)).trans <| (W1_of m c main_arg6 (by decide))

theorem W7_main_arg7_kept (c : Dev nD) : W7 m c (Proc.devRef .tc main_arg7) = W0 m c (Proc.devRef .tc main_arg7) :=
  (W7_of m c main_arg7 (by decide)).trans <| (W6_of m c main_arg7 (by decide)).trans <| (W5_of m c main_arg7 (by decide)).trans <| (W4_of m c main_arg7 (by decide)).trans <| (W3_of_ne m c main_arg7 (by decide)).trans <| (W2_of_ne m c main_arg7 (by decide)).trans <| (W1_of m c main_arg7 (by decide))

theorem W7_main_arg8_kept (c : Dev nD) : W7 m c (Proc.devRef .tc main_arg8) = W0 m c (Proc.devRef .tc main_arg8) :=
  (W7_of m c main_arg8 (by decide)).trans <| (W6_of m c main_arg8 (by decide)).trans <| (W5_of m c main_arg8 (by decide)).trans <| (W4_of m c main_arg8 (by decide)).trans <| (W3_of_ne m c main_arg8 (by decide)).trans <| (W2_of_ne m c main_arg8 (by decide)).trans <| (W1_of m c main_arg8 (by decide))

theorem W3_main_arg6_kept (c : Dev nD) : W3 m c (Proc.devRef .tc main_arg6) = W0 m c (Proc.devRef .tc main_arg6) :=
  (W3_of_ne m c main_arg6 (by decide)).trans <| (W2_of_ne m c main_arg6 (by decide)).trans <| (W1_of m c main_arg6 (by decide))

theorem W3_main_arg7_kept (c : Dev nD) : W3 m c (Proc.devRef .tc main_arg7) = W0 m c (Proc.devRef .tc main_arg7) :=
  (W3_of_ne m c main_arg7 (by decide)).trans <| (W2_of_ne m c main_arg7 (by decide)).trans <| (W1_of m c main_arg7 (by decide))

theorem W3_main_arg8_kept (c : Dev nD) : W3 m c (Proc.devRef .tc main_arg8) = W0 m c (Proc.devRef .tc main_arg8) :=
  (W3_of_ne m c main_arg8 (by decide)).trans <| (W2_of_ne m c main_arg8 (by decide)).trans <| (W1_of m c main_arg8 (by decide))

end Cert.KernelIdeal.Hand

end
-- ==== Proof.KHost2.lean ====
/-
  The host operations between the regions, read as values: from the first propagation's output to the second's
  input — the rectifier, its column mean and variance, the normalisation, the product with θ₂ —, and the logistic tail;
  stated with the reference's own stage functions, which are the same operations in the same order.
-/
import proofs.«179498_j53352083751414_2_alg».proof.Proof.KHost
import proofs.«179498_j53352083751414_2_alg».proof.Proof.RefStages

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]

/-! ## One stretch at a time, from any contents -/

section Stages
variable (V : Valuation τ sig (Elt F))

/-- The rectifier of the first propagation's output. -/
theorem mid_act : StableHlo.after hostOps2_1 (StableHlo.after hostOps2 V) (Proc.devRef .tc main_v7)
    = Cert.ReferenceIdeal.RefRun.refAct (F := F) (V (Proc.devRef .tc main_v6)) := by
  after_results_simp
  rfl

/-- Its column mean. -/
theorem mid_mean : StableHlo.after hostOps2_2 V (Proc.devRef .tc main_v10)
    = Cert.ReferenceIdeal.RefRun.refMean (F := F) (V (Proc.devRef .tc main_v7)) := by
  after_results
  try rfl

/-- The integer zero the variance's count is taken from. -/
theorem mid_c : StableHlo.after hostOps2_2 V (Proc.devRef .tc main_c) = (constantI S_ 32 0#32 : (⟨S_, .i32⟩ : BufTy).Contents (Elt F)) := by
  after_results
  try rfl

/-- Its column variance. -/
theorem mid_var (hc : V (Proc.devRef .tc main_c) = (constantI S_ 32 0#32 : (⟨S_, .i32⟩ : BufTy).Contents (Elt F))) :
    StableHlo.after hostOps2_3 V (Proc.devRef .tc main_v11)
    = Cert.ReferenceIdeal.RefRun.refVar (F := F) (V (Proc.devRef .tc main_v7)) := by
  after_results_simp
  rw [hc]
  rfl

/-- The normalisation, scale and shift, and the product with θ₂. -/
theorem mid_norm : StableHlo.after hostOps2_4 V (Proc.devRef .tc main_v27)
    = Host.dotGeneral (F := F) Cert.ReferenceIdeal.dot_S8192x64_S64x1_S8192x1_1_0_0_1_n_n none
        (Cert.ReferenceIdeal.RefRun.refNorm (F := F) (V (Proc.devRef .tc main_v7)) (V (Proc.devRef .tc main_v10)) (V (Proc.devRef .tc main_v11))
          (V (Proc.devRef .tc main_arg7)) (V (Proc.devRef .tc main_arg8))) (V (Proc.devRef .tc main_arg6)) := by
  after_results_simp
  rfl

end Stages

variable (m : (ℓ : Loc nD τ sig) → Buf (Elt F) ℓ)

/-- The logistic tail of the second propagation's output. -/
theorem W11_main_v36 (c : Dev nD) : W11 m c (Proc.devRef .tc main_v36)
    = Cert.ReferenceIdeal.RefRun.refTail (F := F) (W10 m c (Proc.devRef .tc main_v29)) := by
  show StableHlo.after hostOps4 (W10 m c) (Proc.devRef .tc main_v36) = _
  after_results
  rfl

/-- From the first propagation's output to the second's input. -/
theorem W8_main_v27 (c : Dev nD) : W8 m c (Proc.devRef .tc main_v27)
    = Cert.ReferenceIdeal.RefRun.refMid (F := F) (W3 m c (Proc.devRef .tc main_v6)) (m ((c : Thread nD τ).loc main_arg7)) (m ((c : Thread nD τ).loc main_arg8)) (m ((c : Thread nD τ).loc main_arg6)) := by
  have h7 : W7 m c (Proc.devRef .tc main_v7) = Cert.ReferenceIdeal.RefRun.refAct (F := F) (W3 m c (Proc.devRef .tc main_v6)) :=
    (W7_of m c main_v7 (by decide)).trans ((W6_of m c main_v7 (by decide)).trans (mid_act (W3 m c)))
  have h10 : W7 m c (Proc.devRef .tc main_v10) = Cert.ReferenceIdeal.RefRun.refMean (F := F) (Cert.ReferenceIdeal.RefRun.refAct (F := F) (W3 m c (Proc.devRef .tc main_v6))) :=
    (W7_of m c main_v10 (by decide)).trans ((mid_mean (W5 m c)).trans (congrArg _ (mid_act (W3 m c))))
  have h11 : W7 m c (Proc.devRef .tc main_v11) = Cert.ReferenceIdeal.RefRun.refVar (F := F) (Cert.ReferenceIdeal.RefRun.refAct (F := F) (W3 m c (Proc.devRef .tc main_v6))) :=
    (mid_var (W6 m c) (mid_c (W5 m c))).trans (congrArg _ ((W6_of m c main_v7 (by decide)).trans (mid_act (W3 m c))))
  refine (mid_norm (W7 m c)).trans ?_
  rw [h7, h10, h11, W7_main_arg6_kept m c, W7_main_arg7_kept m c, W7_main_arg8_kept m c]
  rfl

end Cert.KernelIdeal.Hand

end
-- ==== Proof.Reg0Val.lean ====
/-
  Region 0: what each case leaves, as the body's arithmetic. At a first block of the contracted axis the
  accumulator and the output buffer both end at the product of the point's blocks added to zero; at a later block at
  the product added to what the accumulator held.
-/
import proofs.«179498_j53352083751414_2_alg».proof.Proof.Reg0Dat
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]

theorem zeros2_0 : (![0, 0] : Fin S2048x64.rank → ℕ) = fun _ => 0 := by funext a; fin_cases a <;> rfl

theorem sout0_B_0_eq (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (x0 : Vec F S2048x2048 .bf16) (x1 : Vec F S2048x1 .f32) (x2 : Vec F S2048x64 .f32) (xs0 : Vec F S2048x64 .f32) :
    sout0_B_0 c i arg2 harg2 arg3 harg3 arg4 harg4 arg5 harg5 arg6 harg6 hc0 x0 x1 x2 xs0 = k0_pay2 x1 x2 x0 xs0 := by
  unfold sout0_B_0
  rw [View.read_writes_eq_canon _ _ _ (scover0_B_0 c i arg2 harg2 arg3 harg3 arg4 harg4 arg5 harg5 arg6 harg6 hc0 x0 x1 x2 xs0)]
  unfold kernelRun0_B
  dsimp only
  sl_unfold_words
  rw [View.canon_unit_zero zeros2_0]
  simp only [View.readAt_eq_ld, Memref.IsWhole.read_unread, View.ld_unit_zero (S := S2048x1) zeros2_0, View.ld_unit_zero (S := S2048x64) zeros2_0, View.ld_unit_zero (S := S2048x2048) zeros2_0]

theorem out0_B_3_eq (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hc0 : ¬cond0_0 i) (x0 : Vec F S2048x2048 .bf16) (x1 : Vec F S2048x1 .f32) (x2 : Vec F S2048x64 .f32) (xs0 : Vec F S2048x64 .f32) :
    out0_B_3 c i arg2 harg2 arg3 harg3 arg4 harg4 arg5 harg5 arg6 harg6 hc0 x0 x1 x2 xs0 = k0_pay2 x1 x2 x0 xs0 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  refine (View.canon_unit_zero (S := S2048x64) zeros2_0 _ _).trans ?_
  rw [View.readCov_unit_zero _ zeros2_0]
  simp only [View.readAt_eq_ld, Memref.IsWhole.read_unread, View.ld_unit_zero (S := S2048x1) zeros2_0, View.ld_unit_zero (S := S2048x64) zeros2_0, View.ld_unit_zero (S := S2048x2048) zeros2_0]

theorem sout0_A_0_eq (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (x0 : Vec F S2048x2048 .bf16) (x1 : Vec F S2048x1 .f32) (x2 : Vec F S2048x64 .f32) :
    sout0_A_0 c i arg2 harg2 arg3 harg3 arg4 harg4 arg5 harg5 arg6 harg6 hc0 x0 x1 x2 = k0_pay2 x1 x2 x0 (k0_pay1 (F := F)) := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_cons_unit_zero zeros2_0, View.readCov_unit_zero _ zeros2_0]
  simp only [View.readAt_eq_ld, Memref.IsWhole.read_unread, View.ld_unit_zero (S := S2048x1) zeros2_0, View.ld_unit_zero (S := S2048x64) zeros2_0, View.ld_unit_zero (S := S2048x2048) zeros2_0]

theorem out0_A_3_eq (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (hc0 : cond0_0 i) (x0 : Vec F S2048x2048 .bf16) (x1 : Vec F S2048x1 .f32) (x2 : Vec F S2048x64 .f32) :
    out0_A_3 c i arg2 harg2 arg3 harg3 arg4 harg4 arg5 harg5 arg6 harg6 hc0 x0 x1 x2 = k0_pay2 x1 x2 x0 (k0_pay1 (F := F)) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  refine (View.canon_unit_zero (S := S2048x64) zeros2_0 _ _).trans ?_
  rw [View.readCov_eq_canon_ld _ _ _ (fun y => ⟨_, List.mem_cons_self, View.mem_set_unit_zero zeros2_0 inb_S2048x64_S2048x64_0_0 y⟩)]
  rw [View.canon_cons_unit_zero zeros2_0, View.ld_unit_zero zeros2_0, View.readCov_unit_zero _ zeros2_0]
  simp only [View.readAt_eq_ld, Memref.IsWhole.read_unread, View.ld_unit_zero (S := S2048x1) zeros2_0, View.ld_unit_zero (S := S2048x64) zeros2_0, View.ld_unit_zero (S := S2048x2048) zeros2_0]

/-! ## The accumulation in the body's arithmetic -/

variable (V : (c : Dev nD) → (b : Ref sig .tc) → Buf (Elt F) ((c : Thread nD τ).loc b))

/-- After a first block of the contracted axis both buffers hold the blocks' product added to zero. -/
theorem outsAt0_first (c : Dev nD) (t : Fin cfg0.N) (h : t.val % 4 = 0) :
    outsAt0 V c t.val t.isLt = (k0_pay2 (iblk0 V c 1 t) (iblk0 V c 2 t) (iblk0 V c 0 t) (k0_pay1 (F := F)),
      k0_pay2 (iblk0 V c 1 t) (iblk0 V c 2 t) (iblk0 V c 0 t) (k0_pay1 (F := F))) := by
  rw [outsAt0_A V c t h, out0_A_3_eq, sout0_A_0_eq]

/-- After a later block both hold the blocks' product added to what the accumulator held. -/
theorem outsAt0_next (c : Dev nD) (t : Fin cfg0.N) (h : ¬t.val % 4 = 0) :
    outsAt0 V c t.val t.isLt = (k0_pay2 (iblk0 V c 1 t) (iblk0 V c 2 t) (iblk0 V c 0 t) (outsAt0 V c (t.val - 1) (Nat.lt_of_le_of_lt (Nat.sub_le _ _) t.isLt)).2,
      k0_pay2 (iblk0 V c 1 t) (iblk0 V c 2 t) (iblk0 V c 0 t) (outsAt0 V c (t.val - 1) (Nat.lt_of_le_of_lt (Nat.sub_le _ _) t.isLt)).2) := by
  rw [outsAt0_B V c t h, out0_B_3_eq, sout0_B_0_eq]

end Cert.KernelIdeal.Hand

end
-- ==== Proof.Spec.lean ====
/-
  The two matrix products of one propagation step, as functions of whole arrays over the extended reals.
  `MT`: M = Hᵀ · (Dv ⊙ I), entry (e, k) = Σ over the 8192 vertices n of H(n, e) · (Dv(n) · I(n, k)).
  `ZA`: Z = A · M with A(n, e) = (H(n, e) · Dv(n)) · s(e), entry (n, k) = Σ over the 4096 edges e of A(n, e) · M(e, k).
  Dv is carried as a column [8192, 1] and the edge scale s as a row [1, 4096], as the programs hold them.
-/
import Idealize.ShloMosaic.PureOps.Ideal
import Idealize.ShloMosaic.Lib.ValueIdx

noncomputable section

namespace Cert.Spec

open Idealize.ShloMosaic Idealize.ShloMosaic.ValueIdx

/-- Entry (e, k) of Hᵀ · (Dv ⊙ I). -/
def mt {h : Nat} (Hm : (⟨2, ![8192, 4096]⟩ : Shape).Idx → EReal) (Dvc : (⟨2, ![8192, 1]⟩ : Shape).Idx → EReal)
    (I : (⟨2, ![8192, h]⟩ : Shape).Idx → EReal) (e : Fin 4096) (k : Fin h) : EReal :=
  ∑ n : Fin 8192, Hm (ix2 n e) * (Dvc (ix2 n (0 : Fin 1)) * I (ix2 n k))

/-- Hᵀ · (Dv ⊙ I) as an array [4096, h]. -/
def MT {h : Nat} (Hm : (⟨2, ![8192, 4096]⟩ : Shape).Idx → EReal) (Dvc : (⟨2, ![8192, 1]⟩ : Shape).Idx → EReal)
    (I : (⟨2, ![8192, h]⟩ : Shape).Idx → EReal) : (⟨2, ![4096, h]⟩ : Shape).Idx → EReal :=
  fun j => mt Hm Dvc I (j 0) (j 1)

theorem MT_apply {h : Nat} (Hm : (⟨2, ![8192, 4096]⟩ : Shape).Idx → EReal) (Dvc : (⟨2, ![8192, 1]⟩ : Shape).Idx → EReal)
    (I : (⟨2, ![8192, h]⟩ : Shape).Idx → EReal) (e : Fin 4096) (k : Fin h) :
    MT Hm Dvc I (ix2 e k) = ∑ n : Fin 8192, Hm (ix2 n e) * (Dvc (ix2 n (0 : Fin 1)) * I (ix2 n k)) := rfl

/-- Entry (n, k) of A · M, A(n, e) = (H(n, e) · Dv(n)) · s(e). -/
def za {h : Nat} (Hm : (⟨2, ![8192, 4096]⟩ : Shape).Idx → EReal) (Dvc : (⟨2, ![8192, 1]⟩ : Shape).Idx → EReal)
    (s : (⟨2, ![1, 4096]⟩ : Shape).Idx → EReal) (M : (⟨2, ![4096, h]⟩ : Shape).Idx → EReal) (n : Fin 8192) (k : Fin h) : EReal :=
  ∑ e : Fin 4096, ((Hm (ix2 n e) * Dvc (ix2 n (0 : Fin 1))) * s (ix2 (0 : Fin 1) e)) * M (ix2 e k)

/-- A · M as an array [8192, h]. -/
def ZA {h : Nat} (Hm : (⟨2, ![8192, 4096]⟩ : Shape).Idx → EReal) (Dvc : (⟨2, ![8192, 1]⟩ : Shape).Idx → EReal)
    (s : (⟨2, ![1, 4096]⟩ : Shape).Idx → EReal) (M : (⟨2, ![4096, h]⟩ : Shape).Idx → EReal) : (⟨2, ![8192, h]⟩ : Shape).Idx → EReal :=
  fun j => za Hm Dvc s M (j 0) (j 1)

theorem ZA_apply {h : Nat} (Hm : (⟨2, ![8192, 4096]⟩ : Shape).Idx → EReal) (Dvc : (⟨2, ![8192, 1]⟩ : Shape).Idx → EReal)
    (s : (⟨2, ![1, 4096]⟩ : Shape).Idx → EReal) (M : (⟨2, ![4096, h]⟩ : Shape).Idx → EReal) (n : Fin 8192) (k : Fin h) :
    ZA Hm Dvc s M (ix2 n k) = ∑ e : Fin 4096, ((Hm (ix2 n e) * Dvc (ix2 n (0 : Fin 1))) * s (ix2 (0 : Fin 1) e)) * M (ix2 e k) := rfl

/-- The 8192 vertices as 4 blocks of 2048. -/
def blk4 : Fin 4 × Fin 2048 ≃ Fin 8192 where
  toFun p := ⟨2048 * p.1.val + p.2.val, by omega⟩
  invFun n := (⟨n.val / 2048, by omega⟩, ⟨n.val % 2048, by omega⟩)
  left_inv p := by
    obtain ⟨⟨a, ha⟩, ⟨b, hb⟩⟩ := p
    refine Prod.ext (Fin.ext ?_) (Fin.ext ?_)
    · show (2048 * a + b) / 2048 = a; omega
    · show (2048 * a + b) % 2048 = b; omega
  right_inv n := by
    obtain ⟨n, hn⟩ := n
    refine Fin.ext ?_
    show 2048 * (n / 2048) + n % 2048 = n; omega

/-- A sum over the 8192 vertices, block by block. -/
theorem sum_blocks4 {M : Type*} [AddCommMonoid M] (f : Fin 8192 → M) :
    ∑ n : Fin 8192, f n = ∑ b : Fin 4, ∑ r : Fin 2048, f ⟨2048 * b.val + r.val, by omega⟩ := by
  rw [← Fintype.sum_prod_type (f := fun p : Fin 4 × Fin 2048 => f ⟨2048 * p.1.val + p.2.val, by omega⟩)]
  exact (Fintype.sum_equiv blk4 _ _ (fun _ => rfl)).symm

/-- The 4096 edges as 4 blocks of 1024. -/
def blk4e : Fin 4 × Fin 1024 ≃ Fin 4096 where
  toFun p := ⟨1024 * p.1.val + p.2.val, by omega⟩
  invFun n := (⟨n.val / 1024, by omega⟩, ⟨n.val % 1024, by omega⟩)
  left_inv p := by
    obtain ⟨⟨a, ha⟩, ⟨b, hb⟩⟩ := p
    refine Prod.ext (Fin.ext ?_) (Fin.ext ?_)
    · show (1024 * a + b) / 1024 = a; omega
    · show (1024 * a + b) % 1024 = b; omega
  right_inv n := by
    obtain ⟨n, hn⟩ := n
    refine Fin.ext ?_
    show 1024 * (n / 1024) + n % 1024 = n; omega

/-- A sum over the 4096 edges, block by block. -/
theorem sum_blocks4e {M : Type*} [AddCommMonoid M] (f : Fin 4096 → M) :
    ∑ n : Fin 4096, f n = ∑ b : Fin 4, ∑ r : Fin 1024, f ⟨1024 * b.val + r.val, by omega⟩ := by
  rw [← Fintype.sum_prod_type (f := fun p : Fin 4 × Fin 1024 => f ⟨1024 * p.1.val + p.2.val, by omega⟩)]
  exact (Fintype.sum_equiv blk4e _ _ (fun _ => rfl)).symm

end Cert.Spec

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.Reg0Arr.lean ====
/-
  Region 0, the array: after the last grid point the result array holds M = Hᵀ · (Dv ⊙ I), entry by entry.

  The body's arithmetic at an index (the accumulator plus the sum, over the 2048 rows of the point's blocks, of
  H(n, e) · (Dv(n) · I(n, k)): both operands of the product are contracted on their axis 0); the accumulation over
  the four points of one row of the grid, which are the four blocks of 2048 rows of H; each window's block read at an
  index as an entry of its array; what a flushing point writes back as a block of M; the blocks written back cover
  the result array.
-/
import proofs.«179498_j53352083751414_2_alg».proof.Proof.Reg0Val
import proofs.«179498_j53352083751414_2_alg».proof.Proof.Spec
import proofs.«179498_j53352083751414_2_alg».proof.Proof.LibDense
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## A product contracted on axis 0 of both operands, read at an index -/

/-- The dimension numbers `<[0], [0], [1], [1], [], []>` ("K×M by K×N", the left operand transposed) over any
    well-formedness witness: a record with these axis lists is one of these by unfolding. -/
abbrev colsOf {K M N : Nat}
    (wf : DotDims.WF (⟨2, ![K, M]⟩ : Shape) ⟨2, ![K, N]⟩ ⟨2, ![M, N]⟩ [0] [0] [1] [1] [] []) :
    DotDims (⟨2, ![K, M]⟩ : Shape) ⟨2, ![K, N]⟩ ⟨2, ![M, N]⟩ :=
  { lhsContracting := [0], rhsContracting := [0], lhsNonContracting := [1], rhsNonContracting := [1],
    lhsBatch := [], rhsBatch := [], wf := wf }

section Cols
variable {K M N : Nat} (wf : DotDims.WF (⟨2, ![K, M]⟩ : Shape) ⟨2, ![K, N]⟩ ⟨2, ![M, N]⟩ [0] [0] [1] [1] [] [])

/-- The left operand's column is the result's row. -/
theorem cols_lhs_col (i : (⟨2, ![M, N]⟩ : Shape).Idx) (q : (colsOf wf).contr.Idx) :
    ((colsOf wf).lhsIdx i q 1).val = (i 0).val := by
  unfold DotDims.lhsIdx
  rw [dif_neg (show ¬(1 : Fin 2) ∈ (colsOf wf).lhsBatch from List.not_mem_nil),
    dif_pos (show (1 : Fin 2) ∈ (colsOf wf).lhsNonContracting from List.mem_singleton.mpr rfl)]
  rfl

/-- The right operand's column is the result's column. -/
theorem cols_rhs_col (i : (⟨2, ![M, N]⟩ : Shape).Idx) (q : (colsOf wf).contr.Idx) :
    ((colsOf wf).rhsIdx i q 1).val = (i 1).val := by
  unfold DotDims.rhsIdx
  rw [dif_neg (show ¬(1 : Fin 2) ∈ (colsOf wf).rhsBatch from List.not_mem_nil),
    dif_pos (show (1 : Fin 2) ∈ (colsOf wf).rhsNonContracting from List.mem_singleton.mpr rfl)]
  rfl

/-- The contraction sum at (i, j), re-indexed by the one contracted coordinate: the rows of both operands. -/
theorem cols_sum (l : (⟨2, ![K, M]⟩ : Shape).Idx → EReal) (r : (⟨2, ![K, N]⟩ : Shape).Idx → EReal)
    (i : Fin M) (j : Fin N) :
    ∑ q : (colsOf wf).contr.Idx, l ((colsOf wf).lhsIdx (ix2 i j) q) * r ((colsOf wf).rhsIdx (ix2 i j) q)
      = ∑ n : Fin K, l (ix2 n i) * r (ix2 n j) := by
  rw [← Equiv.sum_comp (contrEquiv1 (colsOf wf) K rfl rfl).symm]
  refine Finset.sum_congr rfl fun n _ => ?_
  have hn := contrEquiv1_symm_val (colsOf wf) K rfl rfl n
  have el : (colsOf wf).lhsIdx (ix2 i j) ((contrEquiv1 (colsOf wf) K rfl rfl).symm n) = ix2 n i :=
    funext fun a => Fin.ext (by
      match a with
      | ⟨0, _⟩ => exact ((colsOf wf).lhsIdx_val_of_single rfl _ _).trans hn
      | ⟨1, _⟩ => exact cols_lhs_col wf _ _)
  have er : (colsOf wf).rhsIdx (ix2 i j) ((contrEquiv1 (colsOf wf) K rfl rfl).symm n) = ix2 n j :=
    funext fun a => Fin.ext (by
      match a with
      | ⟨0, _⟩ => exact ((colsOf wf).rhsIdx_val_of_single rfl _ _).trans hn
      | ⟨1, _⟩ => exact cols_rhs_col wf _ _)
  rw [el, er]

/-- Such a product on the vector unit into the zero accumulator, read at (i, j). -/
theorem matmul_zero_cols {φ₁ φ₂ : FTy} (prec : Option ContractPrecision)
    (l : FVec Ideal (⟨2, ![K, M]⟩ : Shape) φ₁) (r : FVec Ideal (⟨2, ![K, N]⟩ : Shape) φ₂) (i : Fin M) (j : Fin N) :
    FloatOps.matmul (colsOf wf) prec l r (constant (⟨2, ![M, N]⟩ : Shape) .f32 0x00000000#32) (ix2 i j)
      = ∑ n : Fin K, l (ix2 n i) * r (ix2 n j) :=
  (Ideal.matmul_constant_zero_apply (colsOf wf) prec l r (ix2 i j)).trans (cols_sum wf l r i j)

end Cols

/-! ## The body's arithmetic at an index -/

/-- The accumulator starts at zero. -/
theorem k0_pay1_apply (e : Fin 2048) (k : Fin 64) : k0_pay1 (F := Ideal) (ix2 e k) = 0 := by
  unfold k0_pay1
  rw [shapeCast_self]
  exact Ideal.ofBits_zero_f32

/-- A point adds to the accumulator, at (e, k), the sum over the rows n of its blocks of H(n, e) · (Dv(n) · I(n, k)). -/
theorem k0_pay2_apply (dv : Vec Ideal S2048x1 .f32) (it : Vec Ideal S2048x64 .f32) (hb : Vec Ideal S2048x2048 .bf16)
    (acc : Vec Ideal S2048x64 .f32) (e : Fin 2048) (k : Fin 64) :
    k0_pay2 (F := Ideal) dv it hb acc (ix2 e k)
      = acc (ix2 e k) + ∑ n : Fin 2048, hb (ix2 n e) * (dv (ix2 n (0 : Fin 1)) * it (ix2 n k)) := by
  unfold k0_pay2
  simp only [shapeCast_self]
  refine congrArg (acc (ix2 e k) + ·) ?_
  refine (matmul_zero_cols dot_S2048x2048_S2048x64_S2048x64_0_0_1_1_n_n_wf none _ _ e k).trans ?_
  refine Finset.sum_congr rfl fun n _ => ?_
  refine congrArg (hb (ix2 n e) * ·) ?_
  exact congrArg (· * it (ix2 n k)) (Cert.LibDense.spread_col_apply dv broadcasts_S2048x1_S2048x64 n k)

/-! ## The grid: where each window's block sits -/

/-- The grid has 8 points. -/
theorem lt8_0 (t : Fin cfg0.N) : t.val < 8 := by
  have h : cfg0.N = 8 := N_0
  have := t.isLt
  omega

/-- The index maps, decided over the grid: at position t the blocks of H are block t mod 4 of its rows and
    block t div 4 of its columns, the blocks of Dv and of I block t mod 4 of their rows, the result's block t div 4 of
    its rows. -/
theorem idx0 : ∀ t : Fin cfg0.N,
    win0_0.index t (0 : Fin 2) = t.val % 4 ∧ win0_0.index t (1 : Fin 2) = t.val / 4
    ∧ win0_1.index t (0 : Fin 2) = t.val % 4 ∧ win0_1.index t (1 : Fin 2) = 0
    ∧ win0_2.index t (0 : Fin 2) = t.val % 4 ∧ win0_2.index t (1 : Fin 2) = 0
    ∧ win0_3.index t (0 : Fin 2) = t.val / 4 ∧ win0_3.index t (1 : Fin 2) = 0 :=
  (by decide +kernel : ∀ t : Fin grid0.N, _)

variable (V : (c : Dev nD) → (b : Ref sig .tc) → Buf (Elt Ideal) ((c : Thread nD τ).loc b))

/-! ## Each window's block, read at an index, is an entry of its array -/

/-- H's block at point t, at (n, e): H at row 2048·(t mod 4) + n and column 2048·(t div 4) + e. -/
theorem iblk0_0_apply (c : Dev nD) (t : Fin cfg0.N) (n e : Fin 2048) (i : S8192x4096.Idx)
    (hi0 : (i 0).val = 2048 * (t.val % 4) + n.val) (hi1 : (i 1).val = 2048 * (t.val / 4) + e.val) :
    (iblk0 V c 0 t : Vec Ideal S2048x2048 .bf16) (ix2 n e) = (V c main_v0 : S8192x4096.Idx → EReal) i := by
  obtain ⟨h0, h1, -⟩ := idx0 t
  unfold iblk0
  rw [View.read_apply]
  show V c main_v0 (((cfg0.win 0).blk t).view.emb (ix2 n e)) = V c main_v0 i
  refine congrArg _ (funext fun a => Fin.ext ?_)
  match a with
  | ⟨0, _⟩ => show win0_0.index t (0 : Fin 2) * 2048 + 1 * n.val = (i 0).val; rw [h0, hi0]; omega
  | ⟨1, _⟩ => show win0_0.index t (1 : Fin 2) * 2048 + 1 * e.val = (i 1).val; rw [h1, hi1]; omega

/-- Dv's block at point t, at (n, 0): Dv at row 2048·(t mod 4) + n. -/
theorem iblk0_1_apply (c : Dev nD) (t : Fin cfg0.N) (n : Fin 2048) (i : S8192x1.Idx)
    (hi0 : (i 0).val = 2048 * (t.val % 4) + n.val) :
    (iblk0 V c 1 t : Vec Ideal S2048x1 .f32) (ix2 n (0 : Fin 1)) = (V c main_v1 : S8192x1.Idx → EReal) i := by
  obtain ⟨-, -, h0, h1, -⟩ := idx0 t
  unfold iblk0
  rw [View.read_apply]
  show V c main_v1 (((cfg0.win 1).blk t).view.emb (ix2 n (0 : Fin 1))) = V c main_v1 i
  refine congrArg _ (funext fun a => Fin.ext ?_)
  match a with
  | ⟨0, _⟩ => show win0_1.index t (0 : Fin 2) * 2048 + 1 * n.val = (i 0).val; rw [h0, hi0]; omega
  | ⟨1, _⟩ =>
    show win0_1.index t (1 : Fin 2) * 1 + 1 * ((0 : Fin 1) : ℕ) = (i 1).val
    have hi1 : (i 1).val < 1 := (i 1).isLt
    rw [h1]; show 0 * 1 + 1 * 0 = (i 1).val; omega

/-- I's block at point t, at (n, k): I at row 2048·(t mod 4) + n and column k. -/
theorem iblk0_2_apply (c : Dev nD) (t : Fin cfg0.N) (n : Fin 2048) (k : Fin 64) (i : S8192x64.Idx)
    (hi0 : (i 0).val = 2048 * (t.val % 4) + n.val) (hi1 : (i 1).val = k.val) :
    (iblk0 V c 2 t : Vec Ideal S2048x64 .f32) (ix2 n k) = (V c main_v4 : S8192x64.Idx → EReal) i := by
  obtain ⟨-, -, -, -, h0, h1, -⟩ := idx0 t
  unfold iblk0
  rw [View.read_apply]
  show V c main_v4 (((cfg0.win 2).blk t).view.emb (ix2 n k)) = V c main_v4 i
  refine congrArg _ (funext fun a => Fin.ext ?_)
  match a with
  | ⟨0, _⟩ => show win0_2.index t (0 : Fin 2) * 2048 + 1 * n.val = (i 0).val; rw [h0, hi0]; omega
  | ⟨1, _⟩ => show win0_2.index t (1 : Fin 2) * 64 + 1 * k.val = (i 1).val; rw [h1, hi1]; omega

/-- The result's block at point t: its entry (e, k) sits at row 2048·(t div 4) + e and column k. -/
theorem blk0_3_emb (t : Fin cfg0.N) (e : Fin 2048) (k : Fin 64) (i : S4096x64.Idx)
    (hi0 : (i 0).val = 2048 * (t.val / 4) + e.val) (hi1 : (i 1).val = k.val) :
    ((cfg0.win 3).blk t).view.emb (ix2 e k) = i := by
  obtain ⟨-, -, -, -, -, -, h0, h1⟩ := idx0 t
  refine funext fun a => Fin.ext ?_
  match a with
  | ⟨0, _⟩ => show win0_3.index t (0 : Fin 2) * 2048 + 1 * e.val = (i 0).val; rw [h0, hi0]; omega
  | ⟨1, _⟩ => show win0_3.index t (1 : Fin 2) * 64 + 1 * k.val = (i 1).val; rw [h1, hi1]; omega

/-! ## The accumulation over one row of the grid -/

/-- The product of three blocks at (e, k): the sum over their 2048 rows n of H(n, e) · (Dv(n) · I(n, k)). -/
def bsum0 (hb : Vec Ideal S2048x2048 .bf16) (dv : Vec Ideal S2048x1 .f32) (it : Vec Ideal S2048x64 .f32)
    (e : Fin 2048) (k : Fin 64) : EReal :=
  ∑ n : Fin 2048, hb (ix2 n e) * (dv (ix2 n (0 : Fin 1)) * it (ix2 n k))

/-- The product of point t's blocks at (e, k). -/
def bprod0 (c : Dev nD) (t : Fin cfg0.N) (e : Fin 2048) (k : Fin 64) : EReal :=
  bsum0 (iblk0 V c 0 t) (iblk0 V c 1 t) (iblk0 V c 2 t) e k

/-- The output buffer and the accumulator hold the same after every point. -/
theorem outsAt0_fst_eq_snd (c : Dev nD) (t : Fin cfg0.N) :
    (outsAt0 V c t.val t.isLt).1 = (outsAt0 V c t.val t.isLt).2 := by
  by_cases h : t.val % 4 = 0
  · rw [outsAt0_first V c t h]
  · rw [outsAt0_next V c t h]

/-- After a first block of the contracted axis the accumulator is that point's product. -/
theorem acc0_first (c : Dev nD) (t : Fin cfg0.N) (h : t.val % 4 = 0) (e : Fin 2048) (k : Fin 64) :
    (outsAt0 V c t.val t.isLt).2 (ix2 e k) = bprod0 V c t e k := by
  rw [outsAt0_first V c t h]
  refine (k0_pay2_apply (iblk0 V c 1 t) (iblk0 V c 2 t) (iblk0 V c 0 t) _ e k).trans ?_
  rw [k0_pay1_apply, zero_add]
  rfl

/-- After a later block it is what the point before left plus that point's product. -/
theorem acc0_next (c : Dev nD) (t : Fin cfg0.N) (h : ¬t.val % 4 = 0) (e : Fin 2048) (k : Fin 64) :
    (outsAt0 V c t.val t.isLt).2 (ix2 e k)
      = (outsAt0 V c (t.val - 1) (Nat.lt_of_le_of_lt (Nat.sub_le _ _) t.isLt)).2 (ix2 e k) + bprod0 V c t e k := by
  rw [outsAt0_next V c t h]
  exact k0_pay2_apply (iblk0 V c 1 t) (iblk0 V c 2 t) (iblk0 V c 0 t) _ e k

/-- At the last point of a row of the grid the output buffer holds the sum of the row's four products. -/
theorem acc0_row (c : Dev nD) (t : Fin cfg0.N) (h3 : t.val % 4 = 3) (e : Fin 2048) (k : Fin 64) :
    (outsAt0 V c t.val t.isLt).1 (ix2 e k)
      = ∑ b : Fin 4, bprod0 V c ⟨t.val - 3 + b.val, by have := lt8_0 t; have h : cfg0.N = 8 := N_0; omega⟩ e k := by
  have hlt := t.isLt
  have p2 : t.val - 1 < cfg0.N := by omega
  have p1 : t.val - 1 - 1 < cfg0.N := by omega
  have p0 : t.val - 1 - 1 - 1 < cfg0.N := by omega
  have s3 := acc0_next V c t (by omega) e k
  have s2 := acc0_next V c ⟨t.val - 1, p2⟩ (show ¬(t.val - 1) % 4 = 0 by omega) e k
  have s1 := acc0_next V c ⟨t.val - 1 - 1, p1⟩ (show ¬(t.val - 1 - 1) % 4 = 0 by omega) e k
  have s0 := acc0_first V c ⟨t.val - 1 - 1 - 1, p0⟩ (show (t.val - 1 - 1 - 1) % 4 = 0 by omega) e k
  rw [outsAt0_fst_eq_snd V c t, Fin.sum_univ_four]
  refine s3.trans (congrArg₂ (· + ·) (s2.trans (congrArg₂ (· + ·) (s1.trans (congrArg₂ (· + ·) (s0.trans ?_) ?_)) ?_)) ?_)
  · exact congrArg (fun u => bprod0 V c u e k) (Fin.ext (by show t.val - 1 - 1 - 1 = t.val - 3 + 0; omega))
  · exact congrArg (fun u => bprod0 V c u e k) (Fin.ext (by show t.val - 1 - 1 = t.val - 3 + 1; omega))
  · exact congrArg (fun u => bprod0 V c u e k) (Fin.ext (by show t.val - 1 = t.val - 3 + 2; omega))
  · exact congrArg (fun u => bprod0 V c u e k) (Fin.ext (by show t.val = t.val - 3 + 3; omega))

/-- The sum over the rows 2048·b … 2048·b + 2047 of the arrays of H(n, E) · (Dv(n) · I(n, k)). -/
def rowsum0 (Hm : S8192x4096.Idx → EReal) (Dvc : S8192x1.Idx → EReal) (I : S8192x64.Idx → EReal)
    (b : ℕ) (hb4 : b < 4) (E : Fin 4096) (k : Fin 64) : EReal :=
  ∑ r : Fin 2048, Hm (ix2 (⟨2048 * b + r.val, by omega⟩ : Fin 8192) E)
    * (Dvc (ix2 (⟨2048 * b + r.val, by omega⟩ : Fin 8192) (0 : Fin 1)) * I (ix2 (⟨2048 * b + r.val, by omega⟩ : Fin 8192) k))

/-- A point's product as a sum of entries of the arrays: at a point of block b of the contracted axis (b = t mod 4), in
    row t div 4 of the grid, over the rows 2048·b … 2048·b + 2047 of H, Dv and I, at column E = 2048·(t div 4) + e of H. -/
theorem bprod0_eq (c : Dev nD) (t : Fin cfg0.N) (e : Fin 2048) (k : Fin 64) (b : ℕ) (hb4 : b < 4) (E : Fin 4096)
    (hb : t.val % 4 = b) (hE : E.val = 2048 * (t.val / 4) + e.val) :
    bprod0 V c t e k = rowsum0 (V c main_v0) (V c main_v1) (V c main_v4) b hb4 E k := by
  subst hb
  unfold bprod0 bsum0 rowsum0
  refine Finset.sum_congr rfl fun r _ => ?_
  rw [iblk0_0_apply V c t r e (ix2 (⟨2048 * (t.val % 4) + r.val, by omega⟩ : Fin 8192) E) rfl hE,
    iblk0_1_apply V c t r (ix2 (⟨2048 * (t.val % 4) + r.val, by omega⟩ : Fin 8192) (0 : Fin 1)) rfl,
    iblk0_2_apply V c t r k (ix2 (⟨2048 * (t.val % 4) + r.val, by omega⟩ : Fin 8192) k) rfl rfl]

/-! ## What a flushing point writes back, the cover, the array -/

/-- The spec's sum over the 8192 vertices, block by block. -/
theorem MT_rows0 (Hm : S8192x4096.Idx → EReal) (Dvc : S8192x1.Idx → EReal) (I : S8192x64.Idx → EReal) (E : Fin 4096) (k : Fin 64) :
    Cert.Spec.MT (h := 64) Hm Dvc I (ix2 E k) = ∑ b : Fin 4, rowsum0 Hm Dvc I b.val b.isLt E k := by
  rw [Cert.Spec.MT_apply, Cert.Spec.sum_blocks4]
  rfl

/-- At the last point of a row of the grid the output buffer holds, at (e, k), entry (2048·(t div 4) + e, k) of Hᵀ · (Dv ⊙ I). -/
theorem row0_value (c : Dev nD) (t : Fin cfg0.N) (h3 : t.val % 4 = 3) (e : Fin 2048) (k : Fin 64) (E : Fin 4096)
    (hE : E.val = 2048 * (t.val / 4) + e.val) :
    (outsAt0 V c t.val t.isLt).1 (ix2 e k) = Cert.Spec.MT (h := 64) (V c main_v0) (V c main_v1) (V c main_v4) (ix2 E k) := by
  have h8 : t.val < 8 := lt8_0 t
  rw [MT_rows0, acc0_row V c t h3 e k]
  refine Finset.sum_congr rfl fun b _ => ?_
  exact bprod0_eq V c _ e k b.val b.isLt E (by show (t.val - 3 + b.val) % 4 = b.val; omega)
    (by show E.val = 2048 * ((t.val - 3 + b.val) / 4) + e.val; rw [hE]; congr 2; omega)

/-- A flushing point (the last of its row of the grid) writes back its block of Hᵀ · (Dv ⊙ I). -/
theorem flushed0_3_eq (c : Dev nD) (t : Fin cfg0.N) (hf : (cfg0.win 3).flush t = true) :
    (dat0 V c).flushed 3 t = ((cfg0.win 3).blk t).view.read (Elt Ideal)
      (Cert.Spec.MT (h := 64) (V c main_v0) (V c main_v1) (V c main_v4)) := by
  have h3 : t.val % 4 = 3 := (flush0_3 t).mp hf
  have h8 : t.val < 8 := lt8_0 t
  funext y
  obtain ⟨e, k, rfl⟩ : ∃ (e : Fin 2048) (k : Fin 64), y = ix2 e k := ⟨y 0, y 1, eq_ix2 (n0 := 2048) (n1 := 64) y⟩
  rw [View.read_apply, blk0_3_emb t e k (ix2 (⟨2048 * (t.val / 4) + e.val, by omega⟩ : Fin 4096) k) rfl rfl]
  show (dat0 V c).after 3 t (ix2 e k) = Cert.Spec.MT (h := 64) (V c main_v0) (V c main_v1) (V c main_v4)
    (ix2 (⟨2048 * (t.val / 4) + e.val, by omega⟩ : Fin 4096) k)
  rw [after0_3]
  exact row0_value V c t h3 e k _ rfl

/-- Every row of the result array is in the block of the last point of some row of the grid. -/
theorem cover0_3 (i : S4096x64.Idx) :
    ∃ t : Fin cfg0.N, (cfg0.win 3).flush t = true ∧ i ∈ ((cfg0.win 3).blk t).view.set := by
  have hN : cfg0.N = 8 := N_0
  have hi0 : (i 0).val < 4096 := idx2_lt0 i
  have hi1 : (i 1).val < 64 := idx2_lt1 i
  have ht : 4 * ((i 0).val / 2048) + 3 < cfg0.N := by omega
  refine ⟨⟨4 * ((i 0).val / 2048) + 3, ht⟩, (flush0_3 _).mpr (by show (4 * ((i 0).val / 2048) + 3) % 4 = 3; omega), ?_⟩
  obtain ⟨-, -, -, -, -, -, h0, h1⟩ := idx0 ⟨4 * ((i 0).val / 2048) + 3, ht⟩
  show i ∈ ((View.whole main_v5).slice (win0_3.rect ⟨4 * ((i 0).val / 2048) + 3, ht⟩)).set
  rw [View.set_slice_whole, Rect.mem_set_unit]
  intro a
  match a with
  | ⟨0, _⟩ =>
    show win0_3.index ⟨4 * ((i 0).val / 2048) + 3, ht⟩ (0 : Fin 2) * 2048 ≤ (i 0).val
      ∧ (i 0).val < win0_3.index ⟨4 * ((i 0).val / 2048) + 3, ht⟩ (0 : Fin 2) * 2048 + 2048
    rw [h0]; show (4 * ((i 0).val / 2048) + 3) / 4 * 2048 ≤ (i 0).val ∧ (i 0).val < (4 * ((i 0).val / 2048) + 3) / 4 * 2048 + 2048
    omega
  | ⟨1, _⟩ =>
    show win0_3.index ⟨4 * ((i 0).val / 2048) + 3, ht⟩ (1 : Fin 2) * 64 ≤ (i 1).val
      ∧ (i 1).val < win0_3.index ⟨4 * ((i 0).val / 2048) + 3, ht⟩ (1 : Fin 2) * 64 + 64
    rw [h1]; omega

/-- THE ARRAY after the region: Hᵀ · (Dv ⊙ I) of the arrays the region was entered from. -/
theorem arr0_final (c : Dev nD) :
    (dat0 V c).arrAt 3 cfg0.N = Cert.Spec.MT (h := 64) (V c main_v0) (V c main_v1) (V c main_v4) :=
  (dat0 V c).arrAt_eq_of_cover 3 _ (fun t hf => flushed0_3_eq V c t hf) cover0_3

end Cert.KernelIdeal.Hand

end
-- ==== Proof.Reg1Val.lean ====
/- Region 1: what each case of the body leaves, as the body's arithmetic.  At a first column block the
   accumulator and the output window's buffer both end at the partial product of the point's blocks added to zero;
   at a later column block at the partial product added to what the accumulator held. -/
import proofs.«179498_j53352083751414_2_alg».proof.Proof.Reg1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]

/-- The zero offsets of a whole-buffer access, as the constant function. -/
theorem k1_zeros : (![0, 0] : Fin S2048x64.rank → ℕ) = fun _ => 0 := by funext a; fin_cases a <;> rfl

/-- At a later column block the accumulator ends at the point's partial product added to what it held. -/
theorem sout1_B_0_eq (c : Dev nD) (i : grid1.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i)
    (x0 : Vec F S2048x1024 .bf16) (x1 : Vec F S2048x1 .f32) (x2 : Vec F S1x1024 .f32) (x3 : Vec F S1024x64 .f32) (xs0 : Vec F S2048x64 .f32) :
    sout1_B_0 c i arg2 harg2 arg3 harg3 arg4 harg4 arg5 harg5 arg6 harg6 arg7 harg7 hc0 x0 x1 x2 x3 xs0 = k1_pay2 x1 x2 x0 x3 xs0 := by
  unfold sout1_B_0
  rw [View.read_writes_eq_canon _ _ _ (scover1_B_0 c i arg2 harg2 arg3 harg3 arg4 harg4 arg5 harg5 arg6 harg6 arg7 harg7 hc0 x0 x1 x2 x3 xs0)]
  unfold kernelRun1_B
  dsimp only
  sl_unfold_words
  rw [View.canon_unit_zero k1_zeros]
  simp only [View.readAt_eq_ld, Memref.IsWhole.read_unread, View.ld_unit_zero (S := S2048x1) k1_zeros, View.ld_unit_zero (S := S1x1024) k1_zeros, View.ld_unit_zero (S := S2048x1024) k1_zeros, View.ld_unit_zero (S := S1024x64) k1_zeros, View.ld_unit_zero (S := S2048x64) k1_zeros]

/-- and the output window's buffer holds the accumulator's new contents. -/
theorem out1_B_4_eq (c : Dev nD) (i : grid1.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S2048x64 .f32) (harg6 : arg6.IsWhole) (arg7 : Memref sig .tc .vmem S2048x64 .f32) (harg7 : arg7.IsWhole) (hc0 : ¬cond1_0 i)
    (x0 : Vec F S2048x1024 .bf16) (x1 : Vec F S2048x1 .f32) (x2 : Vec F S1x1024 .f32) (x3 : Vec F S1024x64 .f32) (xs0 : Vec F S2048x64 .f32) :
    out1_B_4 c i arg2 harg2 arg3 harg3 arg4 harg4 arg5 harg5 arg6 harg6 arg7 harg7 hc0 x0 x1 x2 x3 xs0 = k1_pay2 x1 x2 x0 x3 xs0 := by
  unfold out1_B_4
  rw [View.read_writes_eq_canon _ _ _ (cover1_B_4 c i arg2 harg2 arg3 harg3 arg4 harg4 arg5 harg5 arg6 harg6 arg7 harg7 hc0 x0 x1 x2 x3 xs0)]
  unfold kernelRun1_B
  dsimp only
  sl_unfold_words
  refine (View.canon_unit_zero (S := S2048x64) k1_zeros _ _).trans ?_
  rw [View.readCov_unit_zero _ k1_zeros]
  simp only [View.readAt_eq_ld, Memref.IsWhole.read_unread, View.ld_unit_zero (S := S2048x1) k1_zeros, View.ld_unit_zero (S := S1x1024) k1_zeros, View.ld_unit_zero (S := S2048x1024) k1_zeros, View.ld_unit_zero (S := S1024x64) k1_zeros, View.ld_unit_zero (S := S2048x64) k1_zeros]

/-- At a first column block the accumulator ends at the point's partial product added to zero. -/
theorem sout1_A_0_eq (c : Dev nD) (i : grid1.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S2048x64 .f32) (harg6 : arg6.IsWhole) (arg7 : Memref sig .tc .vmem S2048x64 .f32) (harg7 : arg7.IsWhole) (hc0 : cond1_0 i)
    (x0 : Vec F S2048x1024 .bf16) (x1 : Vec F S2048x1 .f32) (x2 : Vec F S1x1024 .f32) (x3 : Vec F S1024x64 .f32) :
    sout1_A_0 c i arg2 harg2 arg3 harg3 arg4 harg4 arg5 harg5 arg6 harg6 arg7 harg7 hc0 x0 x1 x2 x3 = k1_pay2 x1 x2 x0 x3 (k1_pay1 (F := F)) := by
  unfold sout1_A_0
  rw [View.read_writes_eq_canon _ _ _ (scover1_A_0 c i arg2 harg2 arg3 harg3 arg4 harg4 arg5 harg5 arg6 harg6 arg7 harg7 hc0 x0 x1 x2 x3)]
  unfold kernelRun1_A
  dsimp only
  sl_unfold_words
  rw [View.canon_cons_unit_zero k1_zeros, View.readCov_unit_zero _ k1_zeros]
  simp only [View.readAt_eq_ld, Memref.IsWhole.read_unread, View.ld_unit_zero (S := S2048x1) k1_zeros, View.ld_unit_zero (S := S1x1024) k1_zeros, View.ld_unit_zero (S := S2048x1024) k1_zeros, View.ld_unit_zero (S := S1024x64) k1_zeros, View.ld_unit_zero (S := S2048x64) k1_zeros]

/-- and the output window's buffer holds the accumulator's new contents. -/
theorem out1_A_4_eq (c : Dev nD) (i : grid1.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S2048x64 .f32) (harg6 : arg6.IsWhole) (arg7 : Memref sig .tc .vmem S2048x64 .f32) (harg7 : arg7.IsWhole) (hc0 : cond1_0 i)
    (x0 : Vec F S2048x1024 .bf16) (x1 : Vec F S2048x1 .f32) (x2 : Vec F S1x1024 .f32) (x3 : Vec F S1024x64 .f32) :
    out1_A_4 c i arg2 harg2 arg3 harg3 arg4 harg4 arg5 harg5 arg6 harg6 arg7 harg7 hc0 x0 x1 x2 x3 = k1_pay2 x1 x2 x0 x3 (k1_pay1 (F := F)) := by
  unfold out1_A_4
  rw [View.read_writes_eq_canon _ _ _ (cover1_A_4 c i arg2 harg2 arg3 harg3 arg4 harg4 arg5 harg5 arg6 harg6 arg7 harg7 hc0 x0 x1 x2 x3)]
  unfold kernelRun1_A
  dsimp only
  sl_unfold_words
  refine (View.canon_unit_zero (S := S2048x64) k1_zeros _ _).trans ?_
  rw [View.readCov_eq_canon_ld _ _ _ (fun y => ⟨_, List.mem_cons_self, View.mem_set_unit_zero k1_zeros inb_S2048x64_S2048x64_0_0 y⟩)]
  rw [View.canon_cons_unit_zero k1_zeros, View.ld_unit_zero k1_zeros, View.readCov_unit_zero _ k1_zeros]
  simp only [View.readAt_eq_ld, Memref.IsWhole.read_unread, View.ld_unit_zero (S := S2048x1) k1_zeros, View.ld_unit_zero (S := S1x1024) k1_zeros, View.ld_unit_zero (S := S2048x1024) k1_zeros, View.ld_unit_zero (S := S1024x64) k1_zeros, View.ld_unit_zero (S := S2048x64) k1_zeros]

/-! ## The accumulation in the body's arithmetic -/

variable (V : (c : Dev nD) → (b : Ref sig .tc) → Buf (Elt F) ((c : Thread nD τ).loc b))

/-- After a first column block both buffers hold the blocks' partial product added to zero. -/
theorem outsAt1_first (c : Dev nD) (t : Fin cfg1.N) (h : t.val % 4 = 0) :
    outsAt1 V c t.val t.isLt = (k1_pay2 (iblk1 V c 1 t) (iblk1 V c 2 t) (iblk1 V c 0 t) (iblk1 V c 3 t) (k1_pay1 (F := F)),
      k1_pay2 (iblk1 V c 1 t) (iblk1 V c 2 t) (iblk1 V c 0 t) (iblk1 V c 3 t) (k1_pay1 (F := F))) := by
  rw [outsAt1_A V c t h, out1_A_4_eq, sout1_A_0_eq]

/-- After a later column block both hold the blocks' partial product added to what the accumulator held. -/
theorem outsAt1_next (c : Dev nD) (t : Fin cfg1.N) (h : t.val % 4 ≠ 0) :
    outsAt1 V c t.val t.isLt = (k1_pay2 (iblk1 V c 1 t) (iblk1 V c 2 t) (iblk1 V c 0 t) (iblk1 V c 3 t) (outsAt1 V c (t.val - 1) (Nat.lt_of_le_of_lt (Nat.sub_le _ _) t.isLt)).2,
      k1_pay2 (iblk1 V c 1 t) (iblk1 V c 2 t) (iblk1 V c 0 t) (iblk1 V c 3 t) (outsAt1 V c (t.val - 1) (Nat.lt_of_le_of_lt (Nat.sub_le _ _) t.isLt)).2) := by
  rw [outsAt1_B V c t h, out1_B_4_eq, sout1_B_0_eq]

end Cert.KernelIdeal.Hand

end
-- ==== Proof.Reg1Arr.lean ====
/- Region 1, the array: after the last grid point the result array holds Z = A · M with
   A(n, e) = (H(n, e) · Dv(n)) · s(e), entry by entry.

   The body's arithmetic at an index (the accumulator plus the sum, over the 1024 columns of the point's blocks, of
   ((H(r, e) · Dv(r)) · s(e)) · M(e, k)); the accumulation over the four points of one row of the grid, which are the
   four blocks of 1024 edges; each window's block read at an index as an entry of its array; what a flushing point
   writes back as a block of Z; the blocks written back cover the result array. -/
import proofs.«179498_j53352083751414_2_alg».proof.Proof.Reg1Val
import proofs.«179498_j53352083751414_2_alg».proof.Proof.Spec
import proofs.«179498_j53352083751414_2_alg».proof.Proof.LibDense
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## The body's arithmetic at an index -/

/-- The accumulator starts at zero. -/
theorem k1_pay1_apply (r : Fin 2048) (k : Fin 64) : k1_pay1 (F := Ideal) (ix2 r k) = 0 := by
  unfold k1_pay1
  rw [shapeCast_self]
  exact Ideal.ofBits_zero_f32

/-- A point adds to the accumulator, at (r, k), the sum over the columns e of its blocks of
    ((H(r, e) · Dv(r)) · s(e)) · M(e, k). -/
theorem k1_pay2_apply (dv : Vec Ideal S2048x1 .f32) (col : Vec Ideal S1x1024 .f32) (hb : Vec Ideal S2048x1024 .bf16)
    (mb : Vec Ideal S1024x64 .f32) (acc : Vec Ideal S2048x64 .f32) (r : Fin 2048) (k : Fin 64) :
    k1_pay2 (F := Ideal) dv col hb mb acc (ix2 r k)
      = acc (ix2 r k) + ∑ e : Fin 1024, ((hb (ix2 r e) * dv (ix2 r (0 : Fin 1))) * col (ix2 (0 : Fin 1) e)) * mb (ix2 e k) := by
  unfold k1_pay2
  simp only [shapeCast_self]
  refine congrArg (acc (ix2 r k) + ·) ?_
  refine (Cert.LibDense.matmul_zero_plain dot_S2048x1024_S1024x64_S2048x64_1_0_0_1_n_n_wf none _ _ r k).trans ?_
  refine Finset.sum_congr rfl fun e _ => ?_
  refine congrArg (· * mb (ix2 e k)) ?_
  refine congrArg₂ (· * ·) ?_ ?_
  · exact congrArg (hb (ix2 r e) * ·) (Cert.LibDense.spread_col_apply dv broadcasts_S2048x1_S2048x1024 r e)
  · exact broadcastTo_1b_ab_apply col broadcasts_S1x1024_S2048x1024 r e

/-! ## The windows' blocks as entries of their arrays -/

/-- The block index of each window at a point, from the point's position in the 4 × 4 grid — decided over the grid. -/
theorem idx1_0 : ∀ t : Fin cfg1.N, win1_0.index t 0 = t.val / 4 ∧ win1_0.index t 1 = t.val % 4 :=
  (by decide +kernel : ∀ t : Fin grid1.N, win1_0.index t 0 = t.val / 4 ∧ win1_0.index t 1 = t.val % 4)
theorem idx1_1 : ∀ t : Fin cfg1.N, win1_1.index t 0 = t.val / 4 ∧ win1_1.index t 1 = 0 :=
  (by decide +kernel : ∀ t : Fin grid1.N, win1_1.index t 0 = t.val / 4 ∧ win1_1.index t 1 = 0)
theorem idx1_2 : ∀ t : Fin cfg1.N, win1_2.index t 0 = 0 ∧ win1_2.index t 1 = t.val % 4 :=
  (by decide +kernel : ∀ t : Fin grid1.N, win1_2.index t 0 = 0 ∧ win1_2.index t 1 = t.val % 4)
theorem idx1_3 : ∀ t : Fin cfg1.N, win1_3.index t 0 = t.val % 4 ∧ win1_3.index t 1 = 0 :=
  (by decide +kernel : ∀ t : Fin grid1.N, win1_3.index t 0 = t.val % 4 ∧ win1_3.index t 1 = 0)
theorem idx1_4 : ∀ t : Fin cfg1.N, win1_4.index t 0 = t.val / 4 ∧ win1_4.index t 1 = 0 :=
  (by decide +kernel : ∀ t : Fin grid1.N, win1_4.index t 0 = t.val / 4 ∧ win1_4.index t 1 = 0)

section Blocks

variable (V : (c : Dev nD) → (b : Ref sig .tc) → Buf (Elt Ideal) ((c : Thread nD τ).loc b))

/-- Window 0's block at point `t` is rows 2048·(t / 4) … and columns 1024·(t % 4) … of H. -/
theorem iblk1_0_apply (c : Dev nD) (t : Fin cfg1.N) (x : S2048x1024.Idx) (j : S8192x4096.Idx)
    (hj0 : (j 0).val = 2048 * (t.val / 4) + (x 0).val) (hj1 : (j 1).val = 1024 * (t.val % 4) + (x 1).val) :
    (iblk1 V c 0 t : Vec Ideal S2048x1024 .bf16) x = (V c main_v0 : S8192x4096.Idx → Elt Ideal .bf16) j := by
  have hi := idx1_0 t
  unfold iblk1
  rw [View.read_apply]
  show V c main_v0 _ = V c main_v0 _
  congr 1
  funext a
  apply Fin.ext
  match a with
  | ⟨0, _⟩ => show win1_0.index t 0 * 2048 + 1 * (x 0).val = (j 0).val; rw [hi.1, hj0]; omega
  | ⟨1, _⟩ => show win1_0.index t 1 * 1024 + 1 * (x 1).val = (j 1).val; rw [hi.2, hj1]; omega

/-- Window 1's block at point `t` is rows 2048·(t / 4) … of the Dv column. -/
theorem iblk1_1_apply (c : Dev nD) (t : Fin cfg1.N) (x : S2048x1.Idx) (j : S8192x1.Idx)
    (hj0 : (j 0).val = 2048 * (t.val / 4) + (x 0).val) (hj1 : (j 1).val = (x 1).val) :
    (iblk1 V c 1 t : Vec Ideal S2048x1 .f32) x = (V c main_v1 : S8192x1.Idx → Elt Ideal .f32) j := by
  have hi := idx1_1 t
  unfold iblk1
  rw [View.read_apply]
  show V c main_v1 _ = V c main_v1 _
  congr 1
  funext a
  apply Fin.ext
  match a with
  | ⟨0, _⟩ => show win1_1.index t 0 * 2048 + 1 * (x 0).val = (j 0).val; rw [hi.1, hj0]; omega
  | ⟨1, _⟩ => show win1_1.index t 1 * 1 + 1 * (x 1).val = (j 1).val; rw [hi.2, hj1]; omega

/-- Window 2's block at point `t` is columns 1024·(t % 4) … of the edge-scale row. -/
theorem iblk1_2_apply (c : Dev nD) (t : Fin cfg1.N) (x : S1x1024.Idx) (j : S1x4096.Idx)
    (hj0 : (j 0).val = (x 0).val) (hj1 : (j 1).val = 1024 * (t.val % 4) + (x 1).val) :
    (iblk1 V c 2 t : Vec Ideal S1x1024 .f32) x = (V c main_v3 : S1x4096.Idx → Elt Ideal .f32) j := by
  have hi := idx1_2 t
  unfold iblk1
  rw [View.read_apply]
  show V c main_v3 _ = V c main_v3 _
  congr 1
  funext a
  apply Fin.ext
  match a with
  | ⟨0, _⟩ => show win1_2.index t 0 * 1 + 1 * (x 0).val = (j 0).val; rw [hi.1, hj0]; omega
  | ⟨1, _⟩ => show win1_2.index t 1 * 1024 + 1 * (x 1).val = (j 1).val; rw [hi.2, hj1]; omega

/-- Window 3's block at point `t` is rows 1024·(t % 4) … of M. -/
theorem iblk1_3_apply (c : Dev nD) (t : Fin cfg1.N) (x : S1024x64.Idx) (j : S4096x64.Idx)
    (hj0 : (j 0).val = 1024 * (t.val % 4) + (x 0).val) (hj1 : (j 1).val = (x 1).val) :
    (iblk1 V c 3 t : Vec Ideal S1024x64 .f32) x = (V c main_v5 : S4096x64.Idx → Elt Ideal .f32) j := by
  have hi := idx1_3 t
  unfold iblk1
  rw [View.read_apply]
  show V c main_v5 _ = V c main_v5 _
  congr 1
  funext a
  apply Fin.ext
  match a with
  | ⟨0, _⟩ => show win1_3.index t 0 * 1024 + 1 * (x 0).val = (j 0).val; rw [hi.1, hj0]; omega
  | ⟨1, _⟩ => show win1_3.index t 1 * 64 + 1 * (x 1).val = (j 1).val; rw [hi.2, hj1]; omega

end Blocks

/-! ## The accumulation over the four points of a row of the grid -/

/-- The partial product of four blocks at (r, k): the sum over the blocks' 1024 columns. -/
def k1_part (hb : Vec Ideal S2048x1024 .bf16) (dv : Vec Ideal S2048x1 .f32) (col : Vec Ideal S1x1024 .f32)
    (mb : Vec Ideal S1024x64 .f32) (r : Fin 2048) (k : Fin 64) : Elt Ideal .f32 :=
  ∑ e : Fin 1024, ((hb (ix2 r e) * dv (ix2 r (0 : Fin 1))) * col (ix2 (0 : Fin 1) e)) * mb (ix2 e k)

/-- The part of entry (2048·q + r, k) of A · M that the edges 1024·b … 1024·b + 1023 contribute. -/
def zaPart1 {h : Nat} (Hm : (⟨2, ![8192, 4096]⟩ : Shape).Idx → EReal) (Dvc : (⟨2, ![8192, 1]⟩ : Shape).Idx → EReal)
    (s : (⟨2, ![1, 4096]⟩ : Shape).Idx → EReal) (M : (⟨2, ![4096, h]⟩ : Shape).Idx → EReal)
    (q b : Fin 4) (r : Fin 2048) (k : Fin h) : EReal :=
  ∑ e : Fin 1024, ((Hm (ix2 (⟨2048 * q.val + r.val, by omega⟩ : Fin 8192) (⟨1024 * b.val + e.val, by omega⟩ : Fin 4096))
      * Dvc (ix2 (⟨2048 * q.val + r.val, by omega⟩ : Fin 8192) (0 : Fin 1)))
      * s (ix2 (0 : Fin 1) (⟨1024 * b.val + e.val, by omega⟩ : Fin 4096)))
      * M (ix2 (⟨1024 * b.val + e.val, by omega⟩ : Fin 4096) k)

/-- An entry of A · M is the four blocks of edges' parts added in order. -/
theorem za_blocks1 {h : Nat} (Hm : (⟨2, ![8192, 4096]⟩ : Shape).Idx → EReal) (Dvc : (⟨2, ![8192, 1]⟩ : Shape).Idx → EReal)
    (s : (⟨2, ![1, 4096]⟩ : Shape).Idx → EReal) (M : (⟨2, ![4096, h]⟩ : Shape).Idx → EReal)
    (q : Fin 4) (r : Fin 2048) (k : Fin h) :
    Cert.Spec.ZA Hm Dvc s M (ix2 (⟨2048 * q.val + r.val, by omega⟩ : Fin 8192) k)
      = zaPart1 Hm Dvc s M q 0 r k + zaPart1 Hm Dvc s M q 1 r k + zaPart1 Hm Dvc s M q 2 r k + zaPart1 Hm Dvc s M q 3 r k := by
  rw [Cert.Spec.ZA_apply, Cert.Spec.sum_blocks4e, Fin.sum_univ_four]
  rfl

section Accumulate

variable (V : (c : Dev nD) → (b : Ref sig .tc) → Buf (Elt Ideal) ((c : Thread nD τ).loc b))

/-- What point `t` adds at (r, k): the partial product of its blocks. -/
def part1 (c : Dev nD) (t : Fin cfg1.N) (r : Fin 2048) (k : Fin 64) : Elt Ideal .f32 :=
  k1_part (iblk1 V c 0 t) (iblk1 V c 1 t) (iblk1 V c 2 t) (iblk1 V c 3 t) r k

/-- The contents after a position do not depend on how the position is written. -/
theorem outsAt1_congr (c : Dev nD) {n n' : ℕ} (e : n = n') (h : n < cfg1.N) (h' : n' < cfg1.N) :
    outsAt1 V c n h = outsAt1 V c n' h' := by subst e; rfl

/-- After every point the output window's buffer holds what the accumulator holds. -/
theorem outsAt1_fst_eq_snd (c : Dev nD) (t : Fin cfg1.N) : (outsAt1 V c t.val t.isLt).1 = (outsAt1 V c t.val t.isLt).2 := by
  by_cases h : t.val % 4 = 0
  · rw [outsAt1_first V c t h]
  · rw [outsAt1_next V c t h]

/-- After a first column block the accumulator holds that point's partial product. -/
theorem acc1_first (c : Dev nD) (t : Fin cfg1.N) (h : t.val % 4 = 0) (r : Fin 2048) (k : Fin 64) :
    ((outsAt1 V c t.val t.isLt).2 : Vec Ideal S2048x64 .f32) (ix2 r k) = part1 V c t r k := by
  rw [outsAt1_first V c t h]
  dsimp only
  refine (k1_pay2_apply (iblk1 V c 1 t) (iblk1 V c 2 t) (iblk1 V c 0 t) (iblk1 V c 3 t) (k1_pay1 (F := Ideal)) r k).trans ?_
  rw [k1_pay1_apply r k, zero_add]
  rfl

/-- After a later column block it holds what it held after the point before, plus that point's partial product. -/
theorem acc1_next (c : Dev nD) (t t' : Fin cfg1.N) (h : t.val % 4 ≠ 0) (hp : t'.val + 1 = t.val) (r : Fin 2048) (k : Fin 64) :
    ((outsAt1 V c t.val t.isLt).2 : Vec Ideal S2048x64 .f32) (ix2 r k)
      = ((outsAt1 V c t'.val t'.isLt).2 : Vec Ideal S2048x64 .f32) (ix2 r k) + part1 V c t r k := by
  rw [outsAt1_next V c t h]
  dsimp only
  rw [outsAt1_congr V c (show t.val - 1 = t'.val by omega) _ t'.isLt]
  exact k1_pay2_apply (iblk1 V c 1 t) (iblk1 V c 2 t) (iblk1 V c 0 t) (iblk1 V c 3 t) ((outsAt1 V c t'.val t'.isLt).2) r k

/-- Point `b` of row `q` of the 4 × 4 grid. -/
def pt1 (q b : Fin 4) : Fin cfg1.N := ⟨4 * q.val + b.val, lt_of_lt_of_eq (by omega) N_1.symm⟩

theorem pt1_val (q b : Fin 4) : (pt1 q b).val = 4 * q.val + b.val := rfl

/-- After the last point of row `q` the output window's buffer holds the four points' partial products added in
    the grid's order. -/
theorem out1_flush (c : Dev nD) (q : Fin 4) (r : Fin 2048) (k : Fin 64) :
    ((outsAt1 V c (pt1 q 3).val (pt1 q 3).isLt).1 : Vec Ideal S2048x64 .f32) (ix2 r k)
      = part1 V c (pt1 q 0) r k + part1 V c (pt1 q 1) r k + part1 V c (pt1 q 2) r k + part1 V c (pt1 q 3) r k := by
  rw [outsAt1_fst_eq_snd V c (pt1 q 3)]
  rw [acc1_next V c (pt1 q 3) (pt1 q 2) (by rw [pt1_val]; show (4 * q.val + 3) % 4 ≠ 0; omega) (by rw [pt1_val, pt1_val]; rfl) r k]
  rw [acc1_next V c (pt1 q 2) (pt1 q 1) (by rw [pt1_val]; show (4 * q.val + 2) % 4 ≠ 0; omega) (by rw [pt1_val, pt1_val]; rfl) r k]
  rw [acc1_next V c (pt1 q 1) (pt1 q 0) (by rw [pt1_val]; show (4 * q.val + 1) % 4 ≠ 0; omega) (by rw [pt1_val, pt1_val]; rfl) r k]
  rw [acc1_first V c (pt1 q 0) (by rw [pt1_val]; show (4 * q.val + 0) % 4 = 0; omega) r k]

/-- A point's partial product as entries of the arrays: point `b` of row `q` reads rows 2048·q … of H and of the
    Dv column, and columns / rows 1024·b … of H, of the edge scale and of M. -/
theorem part1_eq (c : Dev nD) (q b : Fin 4) (r : Fin 2048) (k : Fin 64) :
    part1 V c (pt1 q b) r k = zaPart1 (V c main_v0) (V c main_v1) (V c main_v3) (V c main_v5) q b r k := by
  unfold part1 k1_part zaPart1
  have hq : (pt1 q b).val / 4 = q.val := by rw [pt1_val]; omega
  have hb : (pt1 q b).val % 4 = b.val := by rw [pt1_val]; omega
  refine Finset.sum_congr rfl fun e _ => ?_
  rw [iblk1_0_apply V c (pt1 q b) (ix2 r e) (ix2 (⟨2048 * q.val + r.val, by omega⟩ : Fin 8192) (⟨1024 * b.val + e.val, by omega⟩ : Fin 4096)) (by rw [hq]) (by rw [hb]),
    iblk1_1_apply V c (pt1 q b) (ix2 r (0 : Fin 1)) (ix2 (⟨2048 * q.val + r.val, by omega⟩ : Fin 8192) (0 : Fin 1)) (by rw [hq]) rfl,
    iblk1_2_apply V c (pt1 q b) (ix2 (0 : Fin 1) e) (ix2 (0 : Fin 1) (⟨1024 * b.val + e.val, by omega⟩ : Fin 4096)) rfl (by rw [hb]),
    iblk1_3_apply V c (pt1 q b) (ix2 e k) (ix2 (⟨1024 * b.val + e.val, by omega⟩ : Fin 4096) k) (by rw [hb]) rfl]

end Accumulate

/-! ## What is written back, and the array after the run -/

section Final

variable (V : (c : Dev nD) → (b : Ref sig .tc) → Buf (Elt Ideal) ((c : Thread nD τ).loc b))

/-- WHAT A FLUSHING POINT WRITES BACK is its block of A · M: the last point of row `q` of the grid writes rows
    2048·q … 2048·q + 2047. -/
theorem flushed1_4_eq (c : Dev nD) (t : Fin cfg1.N) (hf : (cfg1.win 4).flush t = true) :
    (dat1 (F := Ideal) V c).flushed 4 t = ((cfg1.win 4).blk t).view.read (Elt Ideal) (Cert.Spec.ZA (V c main_v0) (V c main_v1) (V c main_v3) (V c main_v5)) := by
  have h3 : t.val % 4 = 3 := (flush1_4 t).mp hf
  have hlt : t.val < 16 := lt_of_lt_of_eq t.isLt N_1
  obtain ⟨q, rfl⟩ : ∃ q : Fin 4, t = pt1 q 3 :=
    ⟨⟨t.val / 4, by omega⟩, Fin.ext (by rw [pt1_val]; show t.val = 4 * (t.val / 4) + 3; omega)⟩
  show (cfg1.win 4).cut (grid1.coords (pt1 q 3)) ((dat1 V c).after 4 (pt1 q 3)) = _
  rw [after1_4]
  funext y
  obtain ⟨r, k, rfl⟩ : ∃ (r : Fin 2048) (k : Fin 64), y = ix2 r k := ⟨y 0, y 1, eq_ix2 y⟩
  show ((outsAt1 V c (pt1 q 3).val (pt1 q 3).isLt).1 : Vec Ideal S2048x64 .f32) (ix2 r k)
    = Cert.Spec.ZA (V c main_v0) (V c main_v1) (V c main_v3) (V c main_v5) (((cfg1.win 4).blk (pt1 q 3)).view.emb (ix2 r k))
  have he : ((cfg1.win 4).blk (pt1 q 3)).view.emb (ix2 r k) = ix2 (⟨2048 * q.val + r.val, by omega⟩ : Fin 8192) k := by
    obtain ⟨e0, e1⟩ := idx1_4 (pt1 q 3)
    funext a; apply Fin.ext
    match a with
    | ⟨0, _⟩ => show win1_4.index (pt1 q 3) 0 * 2048 + 1 * r.val = 2048 * q.val + r.val; rw [e0, pt1_val]; show (4 * q.val + 3) / 4 * 2048 + 1 * r.val = 2048 * q.val + r.val; omega
    | ⟨1, _⟩ => show win1_4.index (pt1 q 3) 1 * 64 + 1 * k.val = k.val; rw [e1]; omega
  rw [he, za_blocks1, out1_flush V c q r k, part1_eq V c q 0 r k, part1_eq V c q 1 r k, part1_eq V c q 2 r k, part1_eq V c q 3 r k]

/-- An index of the result array is in point `t`'s block iff each coordinate is in the block's range on its axis. -/
theorem mem_blk1_4 (t : Fin cfg1.N) (i : S8192x64.Idx) :
    i ∈ ((cfg1.win 4).blk t).view.set ↔ ∀ a : Fin 2, win1_4.index t a * S2048x64.size a ≤ (i a).val ∧ (i a).val < win1_4.index t a * S2048x64.size a + S2048x64.size a := by
  show i ∈ ((View.whole main_v6).slice (win1_4.rect t)).set ↔ _
  rw [View.set_slice_whole, Rect.mem_set_unit]
  exact Iff.rfl

/-- Every row of the result array is written back: row n by the last point of row n / 2048 of the grid. -/
theorem cover1_4 (i : S8192x64.Idx) : ∃ t : Fin cfg1.N, (cfg1.win 4).flush t = true ∧ i ∈ ((cfg1.win 4).blk t).view.set := by
  have hi0 : (i 0).val < 8192 := (i 0).isLt
  have hi1 : (i 1).val < 64 := (i 1).isLt
  obtain ⟨e0, e1⟩ := idx1_4 (pt1 ⟨(i 0).val / 2048, by omega⟩ 3)
  refine ⟨pt1 ⟨(i 0).val / 2048, by omega⟩ 3, (flush1_4 _).mpr (by rw [pt1_val]; show (4 * ((i 0).val / 2048) + 3) % 4 = 3; omega), ?_⟩
  rw [mem_blk1_4]
  intro a
  match a with
  | ⟨0, _⟩ =>
    show win1_4.index (pt1 ⟨(i 0).val / 2048, by omega⟩ 3) 0 * 2048 ≤ (i 0).val ∧ (i 0).val < win1_4.index (pt1 ⟨(i 0).val / 2048, by omega⟩ 3) 0 * 2048 + 2048
    rw [e0, pt1_val]
    show (4 * ((i 0).val / 2048) + 3) / 4 * 2048 ≤ (i 0).val ∧ (i 0).val < (4 * ((i 0).val / 2048) + 3) / 4 * 2048 + 2048
    omega
  | ⟨1, _⟩ =>
    show win1_4.index (pt1 ⟨(i 0).val / 2048, by omega⟩ 3) 1 * 64 ≤ (i 1).val ∧ (i 1).val < win1_4.index (pt1 ⟨(i 0).val / 2048, by omega⟩ 3) 1 * 64 + 64
    rw [e1]
    omega

/-- THE ARRAY AFTER THE RUN: the result array ends holding A · M of the arrays as the region finds them. -/
theorem arr1_final (c : Dev nD) :
    (dat1 (F := Ideal) V c).arrAt 4 cfg1.N = Cert.Spec.ZA (V c main_v0) (V c main_v1) (V c main_v3) (V c main_v5) :=
  (dat1 V c).arrAt_eq_of_cover 4 (Cert.Spec.ZA (V c main_v0) (V c main_v1) (V c main_v3) (V c main_v5)) (flushed1_4_eq V c) (fun i => cover1_4 i)

end Final

end Cert.KernelIdeal.Hand

end
-- ==== Proof.Reg2Val.lean ====
/-
  Region 2: what each case leaves, as the body's arithmetic. At a first block of the contracted axis the
  accumulator and the output buffer both end at the product of the point's blocks added to zero; at a later block at
  the product added to what the accumulator held.
-/
import proofs.«179498_j53352083751414_2_alg».proof.Proof.Reg2Dat
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]

theorem zeros2_2 : (![0, 0] : Fin S2048x1.rank → ℕ) = fun _ => 0 := by funext a; fin_cases a <;> rfl

theorem sout2_B_0_eq (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond2_0 i) (x0 : Vec F S2048x2048 .bf16) (x1 : Vec F S2048x1 .f32) (x2 : Vec F S2048x1 .f32) (xs0 : Vec F S2048x1 .f32) :
    sout2_B_0 c i arg2 harg2 arg3 harg3 arg4 harg4 arg5 harg5 arg6 harg6 hc0 x0 x1 x2 xs0 = k2_pay2 x1 x2 x0 xs0 := by
  unfold sout2_B_0
  rw [View.read_writes_eq_canon _ _ _ (scover2_B_0 c i arg2 harg2 arg3 harg3 arg4 harg4 arg5 harg5 arg6 harg6 hc0 x0 x1 x2 xs0)]
  unfold kernelRun2_B
  dsimp only
  sl_unfold_words
  rw [View.canon_unit_zero zeros2_2]
  simp only [View.readAt_eq_ld, Memref.IsWhole.read_unread, View.ld_unit_zero (S := S2048x1) zeros2_2, View.ld_unit_zero (S := S2048x1) zeros2_2, View.ld_unit_zero (S := S2048x2048) zeros2_2]

theorem out2_B_3_eq (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond2_0 i) (x0 : Vec F S2048x2048 .bf16) (x1 : Vec F S2048x1 .f32) (x2 : Vec F S2048x1 .f32) (xs0 : Vec F S2048x1 .f32) :
    out2_B_3 c i arg2 harg2 arg3 harg3 arg4 harg4 arg5 harg5 arg6 harg6 hc0 x0 x1 x2 xs0 = k2_pay2 x1 x2 x0 xs0 := by
  unfold out2_B_3
  rw [View.read_writes_eq_canon _ _ _ (cover2_B_3 c i arg2 harg2 arg3 harg3 arg4 harg4 arg5 harg5 arg6 harg6 hc0 x0 x1 x2 xs0)]
  unfold kernelRun2_B
  dsimp only
  sl_unfold_words
  refine (View.canon_unit_zero (S := S2048x1) zeros2_2 _ _).trans ?_
  rw [View.readCov_unit_zero _ zeros2_2]
  simp only [View.readAt_eq_ld, Memref.IsWhole.read_unread, View.ld_unit_zero (S := S2048x1) zeros2_2, View.ld_unit_zero (S := S2048x1) zeros2_2, View.ld_unit_zero (S := S2048x2048) zeros2_2]

theorem sout2_A_0_eq (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond2_0 i) (x0 : Vec F S2048x2048 .bf16) (x1 : Vec F S2048x1 .f32) (x2 : Vec F S2048x1 .f32) :
    sout2_A_0 c i arg2 harg2 arg3 harg3 arg4 harg4 arg5 harg5 arg6 harg6 hc0 x0 x1 x2 = k2_pay2 x1 x2 x0 (k2_pay1 (F := F)) := by
  unfold sout2_A_0
  rw [View.read_writes_eq_canon _ _ _ (scover2_A_0 c i arg2 harg2 arg3 harg3 arg4 harg4 arg5 harg5 arg6 harg6 hc0 x0 x1 x2)]
  unfold kernelRun2_A
  dsimp only
  sl_unfold_words
  rw [View.canon_cons_unit_zero zeros2_2, View.readCov_unit_zero _ zeros2_2]
  simp only [View.readAt_eq_ld, Memref.IsWhole.read_unread, View.ld_unit_zero (S := S2048x1) zeros2_2, View.ld_unit_zero (S := S2048x1) zeros2_2, View.ld_unit_zero (S := S2048x2048) zeros2_2]

theorem out2_A_3_eq (c : Dev nD) (i : grid2.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond2_0 i) (x0 : Vec F S2048x2048 .bf16) (x1 : Vec F S2048x1 .f32) (x2 : Vec F S2048x1 .f32) :
    out2_A_3 c i arg2 harg2 arg3 harg3 arg4 harg4 arg5 harg5 arg6 harg6 hc0 x0 x1 x2 = k2_pay2 x1 x2 x0 (k2_pay1 (F := F)) := by
  unfold out2_A_3
  rw [View.read_writes_eq_canon _ _ _ (cover2_A_3 c i arg2 harg2 arg3 harg3 arg4 harg4 arg5 harg5 arg6 harg6 hc0 x0 x1 x2)]
  unfold kernelRun2_A
  dsimp only
  sl_unfold_words
  refine (View.canon_unit_zero (S := S2048x1) zeros2_2 _ _).trans ?_
  rw [View.readCov_eq_canon_ld _ _ _ (fun y => ⟨_, List.mem_cons_self, View.mem_set_unit_zero zeros2_2 inb_S2048x1_S2048x1_0_0 y⟩)]
  rw [View.canon_cons_unit_zero zeros2_2, View.ld_unit_zero zeros2_2, View.readCov_unit_zero _ zeros2_2]
  simp only [View.readAt_eq_ld, Memref.IsWhole.read_unread, View.ld_unit_zero (S := S2048x1) zeros2_2, View.ld_unit_zero (S := S2048x1) zeros2_2, View.ld_unit_zero (S := S2048x2048) zeros2_2]

/-! ## The accumulation in the body's arithmetic -/

variable (V : (c : Dev nD) → (b : Ref sig .tc) → Buf (Elt F) ((c : Thread nD τ).loc b))

/-- After a first block of the contracted axis both buffers hold the blocks' product added to zero. -/
theorem outsAt2_first (c : Dev nD) (t : Fin cfg2.N) (h : t.val % 4 = 0) :
    outsAt2 V c t.val t.isLt = (k2_pay2 (iblk2 V c 1 t) (iblk2 V c 2 t) (iblk2 V c 0 t) (k2_pay1 (F := F)),
      k2_pay2 (iblk2 V c 1 t) (iblk2 V c 2 t) (iblk2 V c 0 t) (k2_pay1 (F := F))) := by
  rw [outsAt2_A V c t h, out2_A_3_eq, sout2_A_0_eq]

/-- After a later block both hold the blocks' product added to what the accumulator held. -/
theorem outsAt2_next (c : Dev nD) (t : Fin cfg2.N) (h : ¬t.val % 4 = 0) :
    outsAt2 V c t.val t.isLt = (k2_pay2 (iblk2 V c 1 t) (iblk2 V c 2 t) (iblk2 V c 0 t) (outsAt2 V c (t.val - 1) (Nat.lt_of_le_of_lt (Nat.sub_le _ _) t.isLt)).2,
      k2_pay2 (iblk2 V c 1 t) (iblk2 V c 2 t) (iblk2 V c 0 t) (outsAt2 V c (t.val - 1) (Nat.lt_of_le_of_lt (Nat.sub_le _ _) t.isLt)).2) := by
  rw [outsAt2_B V c t h, out2_B_3_eq, sout2_B_0_eq]

end Cert.KernelIdeal.Hand

end
-- ==== Proof.Reg2Arr.lean ====
/-
  Region 2, the array: after the last grid point the result array holds m = Hᵀ · (Dv ⊙ y), a column, entry by entry.

  The same kernel as region 0 with one column: the body's arithmetic at an index (the accumulator plus the sum, over
  the 2048 rows of the point's blocks, of H(n, e) · (Dv(n) · y(n)); Dv's block and y's block are both columns, so the
  product needs no spreading); the accumulation over the four points of one row of the grid; each window's block read
  at an index as an entry of its array; what a flushing point writes back as a block of m; the blocks written back
  cover the result array.
-/
import proofs.«179498_j53352083751414_2_alg».proof.Proof.Reg2Val
import proofs.«179498_j53352083751414_2_alg».proof.Proof.Reg0Arr
import proofs.«179498_j53352083751414_2_alg».proof.Proof.Spec
import proofs.«179498_j53352083751414_2_alg».proof.Proof.LibDense
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## The body's arithmetic at an index -/

/-- The accumulator starts at zero. -/
theorem k2_pay1_apply (e : Fin 2048) (k : Fin 1) : k2_pay1 (F := Ideal) (ix2 e k) = 0 := by
  unfold k2_pay1
  rw [shapeCast_self]
  exact Ideal.ofBits_zero_f32

/-- A point adds to the accumulator, at (e, 0), the sum over the rows n of its blocks of H(n, e) · (Dv(n) · y(n)): the one column index is 0. -/
theorem k2_pay2_apply (dv : Vec Ideal S2048x1 .f32) (it : Vec Ideal S2048x1 .f32) (hb : Vec Ideal S2048x2048 .bf16)
    (acc : Vec Ideal S2048x1 .f32) (e : Fin 2048) (k : Fin 1) :
    k2_pay2 (F := Ideal) dv it hb acc (ix2 e k)
      = acc (ix2 e k) + ∑ n : Fin 2048, hb (ix2 n e) * (dv (ix2 n (0 : Fin 1)) * it (ix2 n k)) := by
  obtain rfl : k = (0 : Fin 1) := Subsingleton.elim _ _
  unfold k2_pay2
  simp only [shapeCast_self]
  refine congrArg (acc (ix2 e (0 : Fin 1)) + ·) ?_
  exact matmul_zero_cols dot_S2048x2048_S2048x1_S2048x1_0_0_1_1_n_n_wf none _ _ e (0 : Fin 1)

/-! ## The grid: where each window's block sits -/

/-- The grid has 8 points. -/
theorem lt8_2 (t : Fin cfg2.N) : t.val < 8 := by
  have h : cfg2.N = 8 := N_2
  have := t.isLt
  omega

/-- The index maps, decided over the grid: at position t the blocks of H are block t mod 4 of its rows and
    block t div 4 of its columns, the blocks of Dv and of I block t mod 4 of their rows, the result's block t div 4 of
    its rows. -/
theorem idx2 : ∀ t : Fin cfg2.N,
    win2_0.index t (0 : Fin 2) = t.val % 4 ∧ win2_0.index t (1 : Fin 2) = t.val / 4
    ∧ win2_1.index t (0 : Fin 2) = t.val % 4 ∧ win2_1.index t (1 : Fin 2) = 0
    ∧ win2_2.index t (0 : Fin 2) = t.val % 4 ∧ win2_2.index t (1 : Fin 2) = 0
    ∧ win2_3.index t (0 : Fin 2) = t.val / 4 ∧ win2_3.index t (1 : Fin 2) = 0 :=
  (by decide +kernel : ∀ t : Fin grid2.N, _)

variable (V : (c : Dev nD) → (b : Ref sig .tc) → Buf (Elt Ideal) ((c : Thread nD τ).loc b))

/-! ## Each window's block, read at an index, is an entry of its array -/

/-- H's block at point t, at (n, e): H at row 2048·(t mod 4) + n and column 2048·(t div 4) + e. -/
theorem iblk2_0_apply (c : Dev nD) (t : Fin cfg2.N) (n e : Fin 2048) (i : S8192x4096.Idx)
    (hi0 : (i 0).val = 2048 * (t.val % 4) + n.val) (hi1 : (i 1).val = 2048 * (t.val / 4) + e.val) :
    (iblk2 V c 0 t : Vec Ideal S2048x2048 .bf16) (ix2 n e) = (V c main_v0 : S8192x4096.Idx → EReal) i := by
  obtain ⟨h0, h1, -⟩ := idx2 t
  unfold iblk2
  rw [View.read_apply]
  show V c main_v0 (((cfg2.win 0).blk t).view.emb (ix2 n e)) = V c main_v0 i
  refine congrArg _ (funext fun a => Fin.ext ?_)
  match a with
  | ⟨0, _⟩ => show win2_0.index t (0 : Fin 2) * 2048 + 1 * n.val = (i 0).val; rw [h0, hi0]; omega
  | ⟨1, _⟩ => show win2_0.index t (1 : Fin 2) * 2048 + 1 * e.val = (i 1).val; rw [h1, hi1]; omega

/-- Dv's block at point t, at (n, 0): Dv at row 2048·(t mod 4) + n. -/
theorem iblk2_1_apply (c : Dev nD) (t : Fin cfg2.N) (n : Fin 2048) (i : S8192x1.Idx)
    (hi0 : (i 0).val = 2048 * (t.val % 4) + n.val) :
    (iblk2 V c 1 t : Vec Ideal S2048x1 .f32) (ix2 n (0 : Fin 1)) = (V c main_v1 : S8192x1.Idx → EReal) i := by
  obtain ⟨-, -, h0, h1, -⟩ := idx2 t
  unfold iblk2
  rw [View.read_apply]
  show V c main_v1 (((cfg2.win 1).blk t).view.emb (ix2 n (0 : Fin 1))) = V c main_v1 i
  refine congrArg _ (funext fun a => Fin.ext ?_)
  match a with
  | ⟨0, _⟩ => show win2_1.index t (0 : Fin 2) * 2048 + 1 * n.val = (i 0).val; rw [h0, hi0]; omega
  | ⟨1, _⟩ =>
    show win2_1.index t (1 : Fin 2) * 1 + 1 * ((0 : Fin 1) : ℕ) = (i 1).val
    have hi1 : (i 1).val < 1 := (i 1).isLt
    rw [h1]; show 0 * 1 + 1 * 0 = (i 1).val; omega

/-- I's block at point t, at (n, k): I at row 2048·(t mod 4) + n and column k. -/
theorem iblk2_2_apply (c : Dev nD) (t : Fin cfg2.N) (n : Fin 2048) (k : Fin 1) (i : S8192x1.Idx)
    (hi0 : (i 0).val = 2048 * (t.val % 4) + n.val) (hi1 : (i 1).val = k.val) :
    (iblk2 V c 2 t : Vec Ideal S2048x1 .f32) (ix2 n k) = (V c main_v27 : S8192x1.Idx → EReal) i := by
  obtain ⟨-, -, -, -, h0, h1, -⟩ := idx2 t
  unfold iblk2
  rw [View.read_apply]
  show V c main_v27 (((cfg2.win 2).blk t).view.emb (ix2 n k)) = V c main_v27 i
  refine congrArg _ (funext fun a => Fin.ext ?_)
  match a with
  | ⟨0, _⟩ => show win2_2.index t (0 : Fin 2) * 2048 + 1 * n.val = (i 0).val; rw [h0, hi0]; omega
  | ⟨1, _⟩ => show win2_2.index t (1 : Fin 2) * 1 + 1 * k.val = (i 1).val; rw [h1, hi1]; omega

/-- The result's block at point t: its entry (e, k) sits at row 2048·(t div 4) + e and column k. -/
theorem blk2_3_emb (t : Fin cfg2.N) (e : Fin 2048) (k : Fin 1) (i : S4096x1.Idx)
    (hi0 : (i 0).val = 2048 * (t.val / 4) + e.val) (hi1 : (i 1).val = k.val) :
    ((cfg2.win 3).blk t).view.emb (ix2 e k) = i := by
  obtain ⟨-, -, -, -, -, -, h0, h1⟩ := idx2 t
  refine funext fun a => Fin.ext ?_
  match a with
  | ⟨0, _⟩ => show win2_3.index t (0 : Fin 2) * 2048 + 1 * e.val = (i 0).val; rw [h0, hi0]; omega
  | ⟨1, _⟩ => show win2_3.index t (1 : Fin 2) * 1 + 1 * k.val = (i 1).val; rw [h1, hi1]; omega

/-! ## The accumulation over one row of the grid -/

/-- The product of three blocks at (e, k): the sum over their 2048 rows n of H(n, e) · (Dv(n) · I(n, k)). -/
def bsum2 (hb : Vec Ideal S2048x2048 .bf16) (dv : Vec Ideal S2048x1 .f32) (it : Vec Ideal S2048x1 .f32)
    (e : Fin 2048) (k : Fin 1) : EReal :=
  ∑ n : Fin 2048, hb (ix2 n e) * (dv (ix2 n (0 : Fin 1)) * it (ix2 n k))

/-- The product of point t's blocks at (e, k). -/
def bprod2 (c : Dev nD) (t : Fin cfg2.N) (e : Fin 2048) (k : Fin 1) : EReal :=
  bsum2 (iblk2 V c 0 t) (iblk2 V c 1 t) (iblk2 V c 2 t) e k

/-- The output buffer and the accumulator hold the same after every point. -/
theorem outsAt2_fst_eq_snd (c : Dev nD) (t : Fin cfg2.N) :
    (outsAt2 V c t.val t.isLt).1 = (outsAt2 V c t.val t.isLt).2 := by
  by_cases h : t.val % 4 = 0
  · rw [outsAt2_first V c t h]
  · rw [outsAt2_next V c t h]

/-- After a first block of the contracted axis the accumulator is that point's product. -/
theorem acc2_first (c : Dev nD) (t : Fin cfg2.N) (h : t.val % 4 = 0) (e : Fin 2048) (k : Fin 1) :
    (outsAt2 V c t.val t.isLt).2 (ix2 e k) = bprod2 V c t e k := by
  rw [outsAt2_first V c t h]
  refine (k2_pay2_apply (iblk2 V c 1 t) (iblk2 V c 2 t) (iblk2 V c 0 t) _ e k).trans ?_
  rw [k2_pay1_apply, zero_add]
  rfl

/-- After a later block it is what the point before left plus that point's product. -/
theorem acc2_next (c : Dev nD) (t : Fin cfg2.N) (h : ¬t.val % 4 = 0) (e : Fin 2048) (k : Fin 1) :
    (outsAt2 V c t.val t.isLt).2 (ix2 e k)
      = (outsAt2 V c (t.val - 1) (Nat.lt_of_le_of_lt (Nat.sub_le _ _) t.isLt)).2 (ix2 e k) + bprod2 V c t e k := by
  rw [outsAt2_next V c t h]
  exact k2_pay2_apply (iblk2 V c 1 t) (iblk2 V c 2 t) (iblk2 V c 0 t) _ e k

/-- At the last point of a row of the grid the output buffer holds the sum of the row's four products. -/
theorem acc2_row (c : Dev nD) (t : Fin cfg2.N) (h3 : t.val % 4 = 3) (e : Fin 2048) (k : Fin 1) :
    (outsAt2 V c t.val t.isLt).1 (ix2 e k)
      = ∑ b : Fin 4, bprod2 V c ⟨t.val - 3 + b.val, by have := lt8_2 t; have h : cfg2.N = 8 := N_2; omega⟩ e k := by
  have hlt := t.isLt
  have p2 : t.val - 1 < cfg2.N := by omega
  have p1 : t.val - 1 - 1 < cfg2.N := by omega
  have p0 : t.val - 1 - 1 - 1 < cfg2.N := by omega
  have s3 := acc2_next V c t (by omega) e k
  have s2 := acc2_next V c ⟨t.val - 1, p2⟩ (show ¬(t.val - 1) % 4 = 0 by omega) e k
  have s1 := acc2_next V c ⟨t.val - 1 - 1, p1⟩ (show ¬(t.val - 1 - 1) % 4 = 0 by omega) e k
  have s0 := acc2_first V c ⟨t.val - 1 - 1 - 1, p0⟩ (show (t.val - 1 - 1 - 1) % 4 = 0 by omega) e k
  rw [outsAt2_fst_eq_snd V c t, Fin.sum_univ_four]
  refine s3.trans (congrArg₂ (· + ·) (s2.trans (congrArg₂ (· + ·) (s1.trans (congrArg₂ (· + ·) (s0.trans ?_) ?_)) ?_)) ?_)
  · exact congrArg (fun u => bprod2 V c u e k) (Fin.ext (by show t.val - 1 - 1 - 1 = t.val - 3 + 0; omega))
  · exact congrArg (fun u => bprod2 V c u e k) (Fin.ext (by show t.val - 1 - 1 = t.val - 3 + 1; omega))
  · exact congrArg (fun u => bprod2 V c u e k) (Fin.ext (by show t.val - 1 = t.val - 3 + 2; omega))
  · exact congrArg (fun u => bprod2 V c u e k) (Fin.ext (by show t.val = t.val - 3 + 3; omega))

/-- The sum over the rows 2048·b … 2048·b + 2047 of the arrays of H(n, E) · (Dv(n) · I(n, k)). -/
def rowsum2 (Hm : S8192x4096.Idx → EReal) (Dvc : S8192x1.Idx → EReal) (I : S8192x1.Idx → EReal)
    (b : ℕ) (hb4 : b < 4) (E : Fin 4096) (k : Fin 1) : EReal :=
  ∑ r : Fin 2048, Hm (ix2 (⟨2048 * b + r.val, by omega⟩ : Fin 8192) E)
    * (Dvc (ix2 (⟨2048 * b + r.val, by omega⟩ : Fin 8192) (0 : Fin 1)) * I (ix2 (⟨2048 * b + r.val, by omega⟩ : Fin 8192) k))

/-- A point's product as a sum of entries of the arrays: at a point of block b of the contracted axis (b = t mod 4), in
    row t div 4 of the grid, over the rows 2048·b … 2048·b + 2047 of H, Dv and I, at column E = 2048·(t div 4) + e of H. -/
theorem bprod2_eq (c : Dev nD) (t : Fin cfg2.N) (e : Fin 2048) (k : Fin 1) (b : ℕ) (hb4 : b < 4) (E : Fin 4096)
    (hb : t.val % 4 = b) (hE : E.val = 2048 * (t.val / 4) + e.val) :
    bprod2 V c t e k = rowsum2 (V c main_v0) (V c main_v1) (V c main_v27) b hb4 E k := by
  subst hb
  unfold bprod2 bsum2 rowsum2
  refine Finset.sum_congr rfl fun r _ => ?_
  rw [iblk2_0_apply V c t r e (ix2 (⟨2048 * (t.val % 4) + r.val, by omega⟩ : Fin 8192) E) rfl hE,
    iblk2_1_apply V c t r (ix2 (⟨2048 * (t.val % 4) + r.val, by omega⟩ : Fin 8192) (0 : Fin 1)) rfl,
    iblk2_2_apply V c t r k (ix2 (⟨2048 * (t.val % 4) + r.val, by omega⟩ : Fin 8192) k) rfl rfl]

/-! ## What a flushing point writes back, the cover, the array -/

/-- The spec's sum over the 8192 vertices, block by block. -/
theorem MT_rows2 (Hm : S8192x4096.Idx → EReal) (Dvc : S8192x1.Idx → EReal) (I : S8192x1.Idx → EReal) (E : Fin 4096) (k : Fin 1) :
    Cert.Spec.MT (h := 1) Hm Dvc I (ix2 E k) = ∑ b : Fin 4, rowsum2 Hm Dvc I b.val b.isLt E k := by
  rw [Cert.Spec.MT_apply, Cert.Spec.sum_blocks4]
  rfl

/-- At the last point of a row of the grid the output buffer holds, at (e, k), entry (2048·(t div 4) + e, k) of Hᵀ · (Dv ⊙ I). -/
theorem row2_value (c : Dev nD) (t : Fin cfg2.N) (h3 : t.val % 4 = 3) (e : Fin 2048) (k : Fin 1) (E : Fin 4096)
    (hE : E.val = 2048 * (t.val / 4) + e.val) :
    (outsAt2 V c t.val t.isLt).1 (ix2 e k) = Cert.Spec.MT (h := 1) (V c main_v0) (V c main_v1) (V c main_v27) (ix2 E k) := by
  have h8 : t.val < 8 := lt8_2 t
  rw [MT_rows2, acc2_row V c t h3 e k]
  refine Finset.sum_congr rfl fun b _ => ?_
  exact bprod2_eq V c _ e k b.val b.isLt E (by show (t.val - 3 + b.val) % 4 = b.val; omega)
    (by show E.val = 2048 * ((t.val - 3 + b.val) / 4) + e.val; rw [hE]; congr 2; omega)

/-- A flushing point (the last of its row of the grid) writes back its block of Hᵀ · (Dv ⊙ I). -/
theorem flushed2_3_eq (c : Dev nD) (t : Fin cfg2.N) (hf : (cfg2.win 3).flush t = true) :
    (dat2 V c).flushed 3 t = ((cfg2.win 3).blk t).view.read (Elt Ideal)
      (Cert.Spec.MT (h := 1) (V c main_v0) (V c main_v1) (V c main_v27)) := by
  have h3 : t.val % 4 = 3 := (flush2_3 t).mp hf
  have h8 : t.val < 8 := lt8_2 t
  funext y
  obtain ⟨e, k, rfl⟩ : ∃ (e : Fin 2048) (k : Fin 1), y = ix2 e k := ⟨y 0, y 1, eq_ix2 (n0 := 2048) (n1 := 1) y⟩
  rw [View.read_apply, blk2_3_emb t e k (ix2 (⟨2048 * (t.val / 4) + e.val, by omega⟩ : Fin 4096) k) rfl rfl]
  show (dat2 V c).after 3 t (ix2 e k) = Cert.Spec.MT (h := 1) (V c main_v0) (V c main_v1) (V c main_v27)
    (ix2 (⟨2048 * (t.val / 4) + e.val, by omega⟩ : Fin 4096) k)
  rw [after2_3]
  exact row2_value V c t h3 e k _ rfl

/-- Every row of the result array is in the block of the last point of some row of the grid. -/
theorem cover2_3 (i : S4096x1.Idx) :
    ∃ t : Fin cfg2.N, (cfg2.win 3).flush t = true ∧ i ∈ ((cfg2.win 3).blk t).view.set := by
  have hN : cfg2.N = 8 := N_2
  have hi0 : (i 0).val < 4096 := idx2_lt0 i
  have hi1 : (i 1).val < 1 := idx2_lt1 i
  have ht : 4 * ((i 0).val / 2048) + 3 < cfg2.N := by omega
  refine ⟨⟨4 * ((i 0).val / 2048) + 3, ht⟩, (flush2_3 _).mpr (by show (4 * ((i 0).val / 2048) + 3) % 4 = 3; omega), ?_⟩
  obtain ⟨-, -, -, -, -, -, h0, h1⟩ := idx2 ⟨4 * ((i 0).val / 2048) + 3, ht⟩
  show i ∈ ((View.whole main_v28).slice (win2_3.rect ⟨4 * ((i 0).val / 2048) + 3, ht⟩)).set
  rw [View.set_slice_whole, Rect.mem_set_unit]
  intro a
  match a with
  | ⟨0, _⟩ =>
    show win2_3.index ⟨4 * ((i 0).val / 2048) + 3, ht⟩ (0 : Fin 2) * 2048 ≤ (i 0).val
      ∧ (i 0).val < win2_3.index ⟨4 * ((i 0).val / 2048) + 3, ht⟩ (0 : Fin 2) * 2048 + 2048
    rw [h0]; show (4 * ((i 0).val / 2048) + 3) / 4 * 2048 ≤ (i 0).val ∧ (i 0).val < (4 * ((i 0).val / 2048) + 3) / 4 * 2048 + 2048
    omega
  | ⟨1, _⟩ =>
    show win2_3.index ⟨4 * ((i 0).val / 2048) + 3, ht⟩ (1 : Fin 2) * 1 ≤ (i 1).val
      ∧ (i 1).val < win2_3.index ⟨4 * ((i 0).val / 2048) + 3, ht⟩ (1 : Fin 2) * 1 + 1
    rw [h1]; omega

/-- THE ARRAY after the region: Hᵀ · (Dv ⊙ y) of the arrays the region was entered from. -/
theorem arr2_final (c : Dev nD) :
    (dat2 V c).arrAt 3 cfg2.N = Cert.Spec.MT (h := 1) (V c main_v0) (V c main_v1) (V c main_v27) :=
  (dat2 V c).arrAt_eq_of_cover 3 _ (fun t hf => flushed2_3_eq V c t hf) cover2_3

end Cert.KernelIdeal.Hand

end
-- ==== Proof.Reg3Val.lean ====
/- Region 3: what each case of the body leaves, as the body's arithmetic.  At a first column block the
   accumulator and the output window's buffer both end at the partial product of the point's blocks added to zero;
   at a later column block at the partial product added to what the accumulator held. -/
import proofs.«179498_j53352083751414_2_alg».proof.Proof.Reg3
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]

/-- The zero offsets of a whole-buffer access, as the constant function. -/
theorem k3_zeros : (![0, 0] : Fin S2048x1.rank → ℕ) = fun _ => 0 := by funext a; fin_cases a <;> rfl

/-- At a later column block the accumulator ends at the point's partial product added to what it held. -/
theorem sout3_B_0_eq (c : Dev nD) (i : grid3.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S2048x1 .f32) (harg6 : arg6.IsWhole) (arg7 : Memref sig .tc .vmem S2048x1 .f32) (harg7 : arg7.IsWhole) (hc0 : ¬cond3_0 i)
    (x0 : Vec F S2048x1024 .bf16) (x1 : Vec F S2048x1 .f32) (x2 : Vec F S1x1024 .f32) (x3 : Vec F S1024x1 .f32) (xs0 : Vec F S2048x1 .f32) :
    sout3_B_0 c i arg2 harg2 arg3 harg3 arg4 harg4 arg5 harg5 arg6 harg6 arg7 harg7 hc0 x0 x1 x2 x3 xs0 = k3_pay2 x1 x2 x0 x3 xs0 := by
  unfold sout3_B_0
  rw [View.read_writes_eq_canon _ _ _ (scover3_B_0 c i arg2 harg2 arg3 harg3 arg4 harg4 arg5 harg5 arg6 harg6 arg7 harg7 hc0 x0 x1 x2 x3 xs0)]
  unfold kernelRun3_B
  dsimp only
  sl_unfold_words
  rw [View.canon_unit_zero k3_zeros]
  simp only [View.readAt_eq_ld, Memref.IsWhole.read_unread, View.ld_unit_zero (S := S2048x1) k3_zeros, View.ld_unit_zero (S := S1x1024) k3_zeros, View.ld_unit_zero (S := S2048x1024) k3_zeros, View.ld_unit_zero (S := S1024x1) k3_zeros, View.ld_unit_zero (S := S2048x1) k3_zeros]

/-- and the output window's buffer holds the accumulator's new contents. -/
theorem out3_B_4_eq (c : Dev nD) (i : grid3.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S2048x1 .f32) (harg6 : arg6.IsWhole) (arg7 : Memref sig .tc .vmem S2048x1 .f32) (harg7 : arg7.IsWhole) (hc0 : ¬cond3_0 i)
    (x0 : Vec F S2048x1024 .bf16) (x1 : Vec F S2048x1 .f32) (x2 : Vec F S1x1024 .f32) (x3 : Vec F S1024x1 .f32) (xs0 : Vec F S2048x1 .f32) :
    out3_B_4 c i arg2 harg2 arg3 harg3 arg4 harg4 arg5 harg5 arg6 harg6 arg7 harg7 hc0 x0 x1 x2 x3 xs0 = k3_pay2 x1 x2 x0 x3 xs0 := by
  unfold out3_B_4
  rw [View.read_writes_eq_canon _ _ _ (cover3_B_4 c i arg2 harg2 arg3 harg3 arg4 harg4 arg5 harg5 arg6 harg6 arg7 harg7 hc0 x0 x1 x2 x3 xs0)]
  unfold kernelRun3_B
  dsimp only
  sl_unfold_words
  refine (View.canon_unit_zero (S := S2048x1) k3_zeros _ _).trans ?_
  rw [View.readCov_unit_zero _ k3_zeros]
  simp only [View.readAt_eq_ld, Memref.IsWhole.read_unread, View.ld_unit_zero (S := S2048x1) k3_zeros, View.ld_unit_zero (S := S1x1024) k3_zeros, View.ld_unit_zero (S := S2048x1024) k3_zeros, View.ld_unit_zero (S := S1024x1) k3_zeros, View.ld_unit_zero (S := S2048x1) k3_zeros]

/-- At a first column block the accumulator ends at the point's partial product added to zero. -/
theorem sout3_A_0_eq (c : Dev nD) (i : grid3.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S2048x1 .f32) (harg6 : arg6.IsWhole) (arg7 : Memref sig .tc .vmem S2048x1 .f32) (harg7 : arg7.IsWhole) (hc0 : cond3_0 i)
    (x0 : Vec F S2048x1024 .bf16) (x1 : Vec F S2048x1 .f32) (x2 : Vec F S1x1024 .f32) (x3 : Vec F S1024x1 .f32) :
    sout3_A_0 c i arg2 harg2 arg3 harg3 arg4 harg4 arg5 harg5 arg6 harg6 arg7 harg7 hc0 x0 x1 x2 x3 = k3_pay2 x1 x2 x0 x3 (k3_pay1 (F := F)) := by
  unfold sout3_A_0
  rw [View.read_writes_eq_canon _ _ _ (scover3_A_0 c i arg2 harg2 arg3 harg3 arg4 harg4 arg5 harg5 arg6 harg6 arg7 harg7 hc0 x0 x1 x2 x3)]
  unfold kernelRun3_A
  dsimp only
  sl_unfold_words
  rw [View.canon_cons_unit_zero k3_zeros, View.readCov_unit_zero _ k3_zeros]
  simp only [View.readAt_eq_ld, Memref.IsWhole.read_unread, View.ld_unit_zero (S := S2048x1) k3_zeros, View.ld_unit_zero (S := S1x1024) k3_zeros, View.ld_unit_zero (S := S2048x1024) k3_zeros, View.ld_unit_zero (S := S1024x1) k3_zeros, View.ld_unit_zero (S := S2048x1) k3_zeros]

/-- and the output window's buffer holds the accumulator's new contents. -/
theorem out3_A_4_eq (c : Dev nD) (i : grid3.Coords) (arg2 : Memref sig .tc .vmem S2048x1024 .bf16) (harg2 : arg2.IsWhole) (arg3 : Memref sig .tc .vmem S2048x1 .f32) (harg3 : arg3.IsWhole) (arg4 : Memref sig .tc .vmem S1x1024 .f32) (harg4 : arg4.IsWhole) (arg5 : Memref sig .tc .vmem S1024x1 .f32) (harg5 : arg5.IsWhole) (arg6 : Memref sig .tc .vmem S2048x1 .f32) (harg6 : arg6.IsWhole) (arg7 : Memref sig .tc .vmem S2048x1 .f32) (harg7 : arg7.IsWhole) (hc0 : cond3_0 i)
    (x0 : Vec F S2048x1024 .bf16) (x1 : Vec F S2048x1 .f32) (x2 : Vec F S1x1024 .f32) (x3 : Vec F S1024x1 .f32) :
    out3_A_4 c i arg2 harg2 arg3 harg3 arg4 harg4 arg5 harg5 arg6 harg6 arg7 harg7 hc0 x0 x1 x2 x3 = k3_pay2 x1 x2 x0 x3 (k3_pay1 (F := F)) := by
  unfold out3_A_4
  rw [View.read_writes_eq_canon _ _ _ (cover3_A_4 c i arg2 harg2 arg3 harg3 arg4 harg4 arg5 harg5 arg6 harg6 arg7 harg7 hc0 x0 x1 x2 x3)]
  unfold kernelRun3_A
  dsimp only
  sl_unfold_words
  refine (View.canon_unit_zero (S := S2048x1) k3_zeros _ _).trans ?_
  rw [View.readCov_eq_canon_ld _ _ _ (fun y => ⟨_, List.mem_cons_self, View.mem_set_unit_zero k3_zeros inb_S2048x1_S2048x1_0_0 y⟩)]
  rw [View.canon_cons_unit_zero k3_zeros, View.ld_unit_zero k3_zeros, View.readCov_unit_zero _ k3_zeros]
  simp only [View.readAt_eq_ld, Memref.IsWhole.read_unread, View.ld_unit_zero (S := S2048x1) k3_zeros, View.ld_unit_zero (S := S1x1024) k3_zeros, View.ld_unit_zero (S := S2048x1024) k3_zeros, View.ld_unit_zero (S := S1024x1) k3_zeros, View.ld_unit_zero (S := S2048x1) k3_zeros]

/-! ## The accumulation in the body's arithmetic -/

variable (V : (c : Dev nD) → (b : Ref sig .tc) → Buf (Elt F) ((c : Thread nD τ).loc b))

/-- After a first column block both buffers hold the blocks' partial product added to zero. -/
theorem outsAt3_first (c : Dev nD) (t : Fin cfg3.N) (h : t.val % 4 = 0) :
    outsAt3 V c t.val t.isLt = (k3_pay2 (iblk3 V c 1 t) (iblk3 V c 2 t) (iblk3 V c 0 t) (iblk3 V c 3 t) (k3_pay1 (F := F)),
      k3_pay2 (iblk3 V c 1 t) (iblk3 V c 2 t) (iblk3 V c 0 t) (iblk3 V c 3 t) (k3_pay1 (F := F))) := by
  rw [outsAt3_A V c t h, out3_A_4_eq, sout3_A_0_eq]

/-- After a later column block both hold the blocks' partial product added to what the accumulator held. -/
theorem outsAt3_next (c : Dev nD) (t : Fin cfg3.N) (h : t.val % 4 ≠ 0) :
    outsAt3 V c t.val t.isLt = (k3_pay2 (iblk3 V c 1 t) (iblk3 V c 2 t) (iblk3 V c 0 t) (iblk3 V c 3 t) (outsAt3 V c (t.val - 1) (Nat.lt_of_le_of_lt (Nat.sub_le _ _) t.isLt)).2,
      k3_pay2 (iblk3 V c 1 t) (iblk3 V c 2 t) (iblk3 V c 0 t) (iblk3 V c 3 t) (outsAt3 V c (t.val - 1) (Nat.lt_of_le_of_lt (Nat.sub_le _ _) t.isLt)).2) := by
  rw [outsAt3_B V c t h, out3_B_4_eq, sout3_B_0_eq]

end Cert.KernelIdeal.Hand

end
-- ==== Proof.Reg3Arr.lean ====
/- Region 3, the array: after the last grid point the result array holds Z = A · M with
   A(n, e) = (H(n, e) · Dv(n)) · s(e), entry by entry.

   The body's arithmetic at an index (the accumulator plus the sum, over the 1024 columns of the point's blocks, of
   ((H(r, e) · Dv(r)) · s(e)) · M(e, k)); the accumulation over the four points of one row of the grid, which are the
   four blocks of 1024 edges; each window's block read at an index as an entry of its array; what a flushing point
   writes back as a block of Z; the blocks written back cover the result array. -/
import proofs.«179498_j53352083751414_2_alg».proof.Proof.Reg3Val
import proofs.«179498_j53352083751414_2_alg».proof.Proof.Reg1Arr
import proofs.«179498_j53352083751414_2_alg».proof.Proof.Spec
import proofs.«179498_j53352083751414_2_alg».proof.Proof.LibDense
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## The body's arithmetic at an index -/

/-- The accumulator starts at zero. -/
theorem k3_pay1_apply (r : Fin 2048) (k : Fin 1) : k3_pay1 (F := Ideal) (ix2 r k) = 0 := by
  unfold k3_pay1
  rw [shapeCast_self]
  exact Ideal.ofBits_zero_f32

/-- A point adds to the accumulator, at (r, k), the sum over the columns e of its blocks of
    ((H(r, e) · Dv(r)) · s(e)) · M(e, k). -/
theorem k3_pay2_apply (dv : Vec Ideal S2048x1 .f32) (col : Vec Ideal S1x1024 .f32) (hb : Vec Ideal S2048x1024 .bf16)
    (mb : Vec Ideal S1024x1 .f32) (acc : Vec Ideal S2048x1 .f32) (r : Fin 2048) (k : Fin 1) :
    k3_pay2 (F := Ideal) dv col hb mb acc (ix2 r k)
      = acc (ix2 r k) + ∑ e : Fin 1024, ((hb (ix2 r e) * dv (ix2 r (0 : Fin 1))) * col (ix2 (0 : Fin 1) e)) * mb (ix2 e k) := by
  unfold k3_pay2
  simp only [shapeCast_self]
  refine congrArg (acc (ix2 r k) + ·) ?_
  refine (Cert.LibDense.matmul_zero_plain dot_S2048x1024_S1024x1_S2048x1_1_0_0_1_n_n_wf none _ _ r k).trans ?_
  refine Finset.sum_congr rfl fun e _ => ?_
  refine congrArg (· * mb (ix2 e k)) ?_
  refine congrArg₂ (· * ·) ?_ ?_
  · exact congrArg (hb (ix2 r e) * ·) (Cert.LibDense.spread_col_apply dv broadcasts_S2048x1_S2048x1024 r e)
  · exact broadcastTo_1b_ab_apply col broadcasts_S1x1024_S2048x1024 r e

/-! ## The windows' blocks as entries of their arrays -/

/-- The block index of each window at a point, from the point's position in the 4 × 4 grid — decided over the grid. -/
theorem idx3_0 : ∀ t : Fin cfg3.N, win3_0.index t 0 = t.val / 4 ∧ win3_0.index t 1 = t.val % 4 :=
  (by decide +kernel : ∀ t : Fin grid3.N, win3_0.index t 0 = t.val / 4 ∧ win3_0.index t 1 = t.val % 4)
theorem idx3_1 : ∀ t : Fin cfg3.N, win3_1.index t 0 = t.val / 4 ∧ win3_1.index t 1 = 0 :=
  (by decide +kernel : ∀ t : Fin grid3.N, win3_1.index t 0 = t.val / 4 ∧ win3_1.index t 1 = 0)
theorem idx3_2 : ∀ t : Fin cfg3.N, win3_2.index t 0 = 0 ∧ win3_2.index t 1 = t.val % 4 :=
  (by decide +kernel : ∀ t : Fin grid3.N, win3_2.index t 0 = 0 ∧ win3_2.index t 1 = t.val % 4)
theorem idx3_3 : ∀ t : Fin cfg3.N, win3_3.index t 0 = t.val % 4 ∧ win3_3.index t 1 = 0 :=
  (by decide +kernel : ∀ t : Fin grid3.N, win3_3.index t 0 = t.val % 4 ∧ win3_3.index t 1 = 0)
theorem idx3_4 : ∀ t : Fin cfg3.N, win3_4.index t 0 = t.val / 4 ∧ win3_4.index t 1 = 0 :=
  (by decide +kernel : ∀ t : Fin grid3.N, win3_4.index t 0 = t.val / 4 ∧ win3_4.index t 1 = 0)

section Blocks

variable (V : (c : Dev nD) → (b : Ref sig .tc) → Buf (Elt Ideal) ((c : Thread nD τ).loc b))

/-- Window 0's block at point `t` is rows 2048·(t / 4) … and columns 1024·(t % 4) … of H. -/
theorem iblk3_0_apply (c : Dev nD) (t : Fin cfg3.N) (x : S2048x1024.Idx) (j : S8192x4096.Idx)
    (hj0 : (j 0).val = 2048 * (t.val / 4) + (x 0).val) (hj1 : (j 1).val = 1024 * (t.val % 4) + (x 1).val) :
    (iblk3 V c 0 t : Vec Ideal S2048x1024 .bf16) x = (V c main_v0 : S8192x4096.Idx → Elt Ideal .bf16) j := by
  have hi := idx3_0 t
  unfold iblk3
  rw [View.read_apply]
  show V c main_v0 _ = V c main_v0 _
  congr 1
  funext a
  apply Fin.ext
  match a with
  | ⟨0, _⟩ => show win3_0.index t 0 * 2048 + 1 * (x 0).val = (j 0).val; rw [hi.1, hj0]; omega
  | ⟨1, _⟩ => show win3_0.index t 1 * 1024 + 1 * (x 1).val = (j 1).val; rw [hi.2, hj1]; omega

/-- Window 1's block at point `t` is rows 2048·(t / 4) … of the Dv column. -/
theorem iblk3_1_apply (c : Dev nD) (t : Fin cfg3.N) (x : S2048x1.Idx) (j : S8192x1.Idx)
    (hj0 : (j 0).val = 2048 * (t.val / 4) + (x 0).val) (hj1 : (j 1).val = (x 1).val) :
    (iblk3 V c 1 t : Vec Ideal S2048x1 .f32) x = (V c main_v1 : S8192x1.Idx → Elt Ideal .f32) j := by
  have hi := idx3_1 t
  unfold iblk3
  rw [View.read_apply]
  show V c main_v1 _ = V c main_v1 _
  congr 1
  funext a
  apply Fin.ext
  match a with
  | ⟨0, _⟩ => show win3_1.index t 0 * 2048 + 1 * (x 0).val = (j 0).val; rw [hi.1, hj0]; omega
  | ⟨1, _⟩ => show win3_1.index t 1 * 1 + 1 * (x 1).val = (j 1).val; rw [hi.2, hj1]; omega

/-- Window 2's block at point `t` is columns 1024·(t % 4) … of the edge-scale row. -/
theorem iblk3_2_apply (c : Dev nD) (t : Fin cfg3.N) (x : S1x1024.Idx) (j : S1x4096.Idx)
    (hj0 : (j 0).val = (x 0).val) (hj1 : (j 1).val = 1024 * (t.val % 4) + (x 1).val) :
    (iblk3 V c 2 t : Vec Ideal S1x1024 .f32) x = (V c main_v3 : S1x4096.Idx → Elt Ideal .f32) j := by
  have hi := idx3_2 t
  unfold iblk3
  rw [View.read_apply]
  show V c main_v3 _ = V c main_v3 _
  congr 1
  funext a
  apply Fin.ext
  match a with
  | ⟨0, _⟩ => show win3_2.index t 0 * 1 + 1 * (x 0).val = (j 0).val; rw [hi.1, hj0]; omega
  | ⟨1, _⟩ => show win3_2.index t 1 * 1024 + 1 * (x 1).val = (j 1).val; rw [hi.2, hj1]; omega

/-- Window 3's block at point `t` is rows 1024·(t % 4) … of M. -/
theorem iblk3_3_apply (c : Dev nD) (t : Fin cfg3.N) (x : S1024x1.Idx) (j : S4096x1.Idx)
    (hj0 : (j 0).val = 1024 * (t.val % 4) + (x 0).val) (hj1 : (j 1).val = (x 1).val) :
    (iblk3 V c 3 t : Vec Ideal S1024x1 .f32) x = (V c main_v28 : S4096x1.Idx → Elt Ideal .f32) j := by
  have hi := idx3_3 t
  unfold iblk3
  rw [View.read_apply]
  show V c main_v28 _ = V c main_v28 _
  congr 1
  funext a
  apply Fin.ext
  match a with
  | ⟨0, _⟩ => show win3_3.index t 0 * 1024 + 1 * (x 0).val = (j 0).val; rw [hi.1, hj0]; omega
  | ⟨1, _⟩ => show win3_3.index t 1 * 1 + 1 * (x 1).val = (j 1).val; rw [hi.2, hj1]; omega

end Blocks

/-! ## The accumulation over the four points of a row of the grid -/

/-- The partial product of four blocks at (r, k): the sum over the blocks' 1024 columns. -/
def k3_part (hb : Vec Ideal S2048x1024 .bf16) (dv : Vec Ideal S2048x1 .f32) (col : Vec Ideal S1x1024 .f32)
    (mb : Vec Ideal S1024x1 .f32) (r : Fin 2048) (k : Fin 1) : Elt Ideal .f32 :=
  ∑ e : Fin 1024, ((hb (ix2 r e) * dv (ix2 r (0 : Fin 1))) * col (ix2 (0 : Fin 1) e)) * mb (ix2 e k)

section Accumulate

variable (V : (c : Dev nD) → (b : Ref sig .tc) → Buf (Elt Ideal) ((c : Thread nD τ).loc b))

/-- What point `t` adds at (r, k): the partial product of its blocks. -/
def part3 (c : Dev nD) (t : Fin cfg3.N) (r : Fin 2048) (k : Fin 1) : Elt Ideal .f32 :=
  k3_part (iblk3 V c 0 t) (iblk3 V c 1 t) (iblk3 V c 2 t) (iblk3 V c 3 t) r k

/-- The contents after a position do not depend on how the position is written. -/
theorem outsAt3_congr (c : Dev nD) {n n' : ℕ} (e : n = n') (h : n < cfg3.N) (h' : n' < cfg3.N) :
    outsAt3 V c n h = outsAt3 V c n' h' := by subst e; rfl

/-- After every point the output window's buffer holds what the accumulator holds. -/
theorem outsAt3_fst_eq_snd (c : Dev nD) (t : Fin cfg3.N) : (outsAt3 V c t.val t.isLt).1 = (outsAt3 V c t.val t.isLt).2 := by
  by_cases h : t.val % 4 = 0
  · rw [outsAt3_first V c t h]
  · rw [outsAt3_next V c t h]

/-- After a first column block the accumulator holds that point's partial product. -/
theorem acc3_first (c : Dev nD) (t : Fin cfg3.N) (h : t.val % 4 = 0) (r : Fin 2048) (k : Fin 1) :
    ((outsAt3 V c t.val t.isLt).2 : Vec Ideal S2048x1 .f32) (ix2 r k) = part3 V c t r k := by
  rw [outsAt3_first V c t h]
  dsimp only
  refine (k3_pay2_apply (iblk3 V c 1 t) (iblk3 V c 2 t) (iblk3 V c 0 t) (iblk3 V c 3 t) (k3_pay1 (F := Ideal)) r k).trans ?_
  rw [k3_pay1_apply r k, zero_add]
  rfl

/-- After a later column block it holds what it held after the point before, plus that point's partial product. -/
theorem acc3_next (c : Dev nD) (t t' : Fin cfg3.N) (h : t.val % 4 ≠ 0) (hp : t'.val + 1 = t.val) (r : Fin 2048) (k : Fin 1) :
    ((outsAt3 V c t.val t.isLt).2 : Vec Ideal S2048x1 .f32) (ix2 r k)
      = ((outsAt3 V c t'.val t'.isLt).2 : Vec Ideal S2048x1 .f32) (ix2 r k) + part3 V c t r k := by
  rw [outsAt3_next V c t h]
  dsimp only
  rw [outsAt3_congr V c (show t.val - 1 = t'.val by omega) _ t'.isLt]
  exact k3_pay2_apply (iblk3 V c 1 t) (iblk3 V c 2 t) (iblk3 V c 0 t) (iblk3 V c 3 t) ((outsAt3 V c t'.val t'.isLt).2) r k

/-- Point `b` of row `q` of the 4 × 4 grid. -/
def pt3 (q b : Fin 4) : Fin cfg3.N := ⟨4 * q.val + b.val, lt_of_lt_of_eq (by omega) N_3.symm⟩

theorem pt3_val (q b : Fin 4) : (pt3 q b).val = 4 * q.val + b.val := rfl

/-- After the last point of row `q` the output window's buffer holds the four points' partial products added in
    the grid's order. -/
theorem out3_flush (c : Dev nD) (q : Fin 4) (r : Fin 2048) (k : Fin 1) :
    ((outsAt3 V c (pt3 q 3).val (pt3 q 3).isLt).1 : Vec Ideal S2048x1 .f32) (ix2 r k)
      = part3 V c (pt3 q 0) r k + part3 V c (pt3 q 1) r k + part3 V c (pt3 q 2) r k + part3 V c (pt3 q 3) r k := by
  rw [outsAt3_fst_eq_snd V c (pt3 q 3)]
  rw [acc3_next V c (pt3 q 3) (pt3 q 2) (by rw [pt3_val]; show (4 * q.val + 3) % 4 ≠ 0; omega) (by rw [pt3_val, pt3_val]; rfl) r k]
  rw [acc3_next V c (pt3 q 2) (pt3 q 1) (by rw [pt3_val]; show (4 * q.val + 2) % 4 ≠ 0; omega) (by rw [pt3_val, pt3_val]; rfl) r k]
  rw [acc3_next V c (pt3 q 1) (pt3 q 0) (by rw [pt3_val]; show (4 * q.val + 1) % 4 ≠ 0; omega) (by rw [pt3_val, pt3_val]; rfl) r k]
  rw [acc3_first V c (pt3 q 0) (by rw [pt3_val]; show (4 * q.val + 0) % 4 = 0; omega) r k]

/-- A point's partial product as entries of the arrays: point `b` of row `q` reads rows 2048·q … of H and of the
    Dv column, and columns / rows 1024·b … of H, of the edge scale and of M. -/
theorem part3_eq (c : Dev nD) (q b : Fin 4) (r : Fin 2048) (k : Fin 1) :
    part3 V c (pt3 q b) r k = zaPart1 (V c main_v0) (V c main_v1) (V c main_v3) (V c main_v28) q b r k := by
  unfold part3 k3_part zaPart1
  have hq : (pt3 q b).val / 4 = q.val := by rw [pt3_val]; omega
  have hb : (pt3 q b).val % 4 = b.val := by rw [pt3_val]; omega
  refine Finset.sum_congr rfl fun e _ => ?_
  rw [iblk3_0_apply V c (pt3 q b) (ix2 r e) (ix2 (⟨2048 * q.val + r.val, by omega⟩ : Fin 8192) (⟨1024 * b.val + e.val, by omega⟩ : Fin 4096)) (by rw [hq]) (by rw [hb]),
    iblk3_1_apply V c (pt3 q b) (ix2 r (0 : Fin 1)) (ix2 (⟨2048 * q.val + r.val, by omega⟩ : Fin 8192) (0 : Fin 1)) (by rw [hq]) rfl,
    iblk3_2_apply V c (pt3 q b) (ix2 (0 : Fin 1) e) (ix2 (0 : Fin 1) (⟨1024 * b.val + e.val, by omega⟩ : Fin 4096)) rfl (by rw [hb]),
    iblk3_3_apply V c (pt3 q b) (ix2 e k) (ix2 (⟨1024 * b.val + e.val, by omega⟩ : Fin 4096) k) (by rw [hb]) rfl]

end Accumulate

/-! ## What is written back, and the array after the run -/

section Final

variable (V : (c : Dev nD) → (b : Ref sig .tc) → Buf (Elt Ideal) ((c : Thread nD τ).loc b))

/-- WHAT A FLUSHING POINT WRITES BACK is its block of A · M: the last point of row `q` of the grid writes rows
    2048·q … 2048·q + 2047. -/
theorem flushed3_4_eq (c : Dev nD) (t : Fin cfg3.N) (hf : (cfg3.win 4).flush t = true) :
    (dat3 (F := Ideal) V c).flushed 4 t = ((cfg3.win 4).blk t).view.read (Elt Ideal) (Cert.Spec.ZA (V c main_v0) (V c main_v1) (V c main_v3) (V c main_v28)) := by
  have h3 : t.val % 4 = 3 := (flush3_4 t).mp hf
  have hlt : t.val < 16 := lt_of_lt_of_eq t.isLt N_3
  obtain ⟨q, rfl⟩ : ∃ q : Fin 4, t = pt3 q 3 :=
    ⟨⟨t.val / 4, by omega⟩, Fin.ext (by rw [pt3_val]; show t.val = 4 * (t.val / 4) + 3; omega)⟩
  show (cfg3.win 4).cut (grid3.coords (pt3 q 3)) ((dat3 V c).after 4 (pt3 q 3)) = _
  rw [after3_4]
  funext y
  obtain ⟨r, k, rfl⟩ : ∃ (r : Fin 2048) (k : Fin 1), y = ix2 r k := ⟨y 0, y 1, eq_ix2 y⟩
  show ((outsAt3 V c (pt3 q 3).val (pt3 q 3).isLt).1 : Vec Ideal S2048x1 .f32) (ix2 r k)
    = Cert.Spec.ZA (V c main_v0) (V c main_v1) (V c main_v3) (V c main_v28) (((cfg3.win 4).blk (pt3 q 3)).view.emb (ix2 r k))
  have he : ((cfg3.win 4).blk (pt3 q 3)).view.emb (ix2 r k) = ix2 (⟨2048 * q.val + r.val, by omega⟩ : Fin 8192) k := by
    obtain ⟨e0, e1⟩ := idx3_4 (pt3 q 3)
    funext a; apply Fin.ext
    match a with
    | ⟨0, _⟩ => show win3_4.index (pt3 q 3) 0 * 2048 + 1 * r.val = 2048 * q.val + r.val; rw [e0, pt3_val]; show (4 * q.val + 3) / 4 * 2048 + 1 * r.val = 2048 * q.val + r.val; omega
    | ⟨1, _⟩ => show win3_4.index (pt3 q 3) 1 * 1 + 1 * k.val = k.val; rw [e1]; omega
  rw [he, za_blocks1, out3_flush V c q r k, part3_eq V c q 0 r k, part3_eq V c q 1 r k, part3_eq V c q 2 r k, part3_eq V c q 3 r k]

/-- An index of the result array is in point `t`'s block iff each coordinate is in the block's range on its axis. -/
theorem mem_blk3_4 (t : Fin cfg3.N) (i : S8192x1.Idx) :
    i ∈ ((cfg3.win 4).blk t).view.set ↔ ∀ a : Fin 2, win3_4.index t a * S2048x1.size a ≤ (i a).val ∧ (i a).val < win3_4.index t a * S2048x1.size a + S2048x1.size a := by
  show i ∈ ((View.whole main_v29).slice (win3_4.rect t)).set ↔ _
  rw [View.set_slice_whole, Rect.mem_set_unit]
  exact Iff.rfl

/-- Every row of the result array is written back: row n by the last point of row n / 2048 of the grid. -/
theorem cover3_4 (i : S8192x1.Idx) : ∃ t : Fin cfg3.N, (cfg3.win 4).flush t = true ∧ i ∈ ((cfg3.win 4).blk t).view.set := by
  have hi0 : (i 0).val < 8192 := (i 0).isLt
  have hi1 : (i 1).val < 1 := (i 1).isLt
  obtain ⟨e0, e1⟩ := idx3_4 (pt3 ⟨(i 0).val / 2048, by omega⟩ 3)
  refine ⟨pt3 ⟨(i 0).val / 2048, by omega⟩ 3, (flush3_4 _).mpr (by rw [pt3_val]; show (4 * ((i 0).val / 2048) + 3) % 4 = 3; omega), ?_⟩
  rw [mem_blk3_4]
  intro a
  match a with
  | ⟨0, _⟩ =>
    show win3_4.index (pt3 ⟨(i 0).val / 2048, by omega⟩ 3) 0 * 2048 ≤ (i 0).val ∧ (i 0).val < win3_4.index (pt3 ⟨(i 0).val / 2048, by omega⟩ 3) 0 * 2048 + 2048
    rw [e0, pt3_val]
    show (4 * ((i 0).val / 2048) + 3) / 4 * 2048 ≤ (i 0).val ∧ (i 0).val < (4 * ((i 0).val / 2048) + 3) / 4 * 2048 + 2048
    omega
  | ⟨1, _⟩ =>
    show win3_4.index (pt3 ⟨(i 0).val / 2048, by omega⟩ 3) 1 * 1 ≤ (i 1).val ∧ (i 1).val < win3_4.index (pt3 ⟨(i 0).val / 2048, by omega⟩ 3) 1 * 1 + 1
    rw [e1]
    omega

/-- THE ARRAY AFTER THE RUN: the result array ends holding A · M of the arrays as the region finds them. -/
theorem arr3_final (c : Dev nD) :
    (dat3 (F := Ideal) V c).arrAt 4 cfg3.N = Cert.Spec.ZA (V c main_v0) (V c main_v1) (V c main_v3) (V c main_v28) :=
  (dat3 V c).arrAt_eq_of_cover 4 (Cert.Spec.ZA (V c main_v0) (V c main_v1) (V c main_v3) (V c main_v28)) (flushed3_4_eq V c) (fun i => cover3_4 i)

end Final

end Cert.KernelIdeal.Hand

end
-- ==== Proof.KVal.lean ====
/-
  The idealized kernel's result as one function of the arguments: the first propagation (two matrix products, as the
  regions leave them), the host operations between, the second propagation, the logistic tail.
-/
import proofs.«179498_j53352083751414_2_alg».proof.Proof.KHost2
import proofs.«179498_j53352083751414_2_alg».proof.Proof.Reg0Arr
import proofs.«179498_j53352083751414_2_alg».proof.Proof.Reg1Arr
import proofs.«179498_j53352083751414_2_alg».proof.Proof.Reg2Arr
import proofs.«179498_j53352083751414_2_alg».proof.Proof.Reg3Arr

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable (m : (ℓ : Loc nD τ sig) → Buf (Elt Ideal) ℓ)

/-- Region 0 leaves Hᵀ·(Dv ⊙ X·θ₁) in its output array. -/
theorem W2_main_v5 (c : Dev nD) : W2 m c (Proc.devRef .tc main_v5)
    = Cert.Spec.MT (W1 m c (Proc.devRef .tc main_v0)) (W1 m c (Proc.devRef .tc main_v1)) (W1 m c (Proc.devRef .tc main_v4)) :=
  (W2_arr m c 3).trans (arr0_final (VW1 m) c)

/-- Region 1 leaves A·M in its output array. -/
theorem W3_main_v6 (c : Dev nD) : W3 m c (Proc.devRef .tc main_v6)
    = Cert.Spec.ZA (W1 m c (Proc.devRef .tc main_v0)) (W1 m c (Proc.devRef .tc main_v1)) (W1 m c (Proc.devRef .tc main_v3)) (W2 m c (Proc.devRef .tc main_v5)) := by
  refine ((W3_arr m c 4).trans (arr1_final (VW2 m) c)).trans ?_
  show Cert.Spec.ZA (W2 m c (Proc.devRef .tc main_v0)) (W2 m c (Proc.devRef .tc main_v1)) (W2 m c (Proc.devRef .tc main_v3)) (W2 m c (Proc.devRef .tc main_v5)) = _
  rw [W2_main_v0_kept m c, W2_main_v1_kept m c, W2_main_v3_kept m c]

/-- Region 2 leaves Hᵀ·(Dv ⊙ Y) in its output array, Y the second propagation's input. -/
theorem W9_main_v28 (c : Dev nD) : W9 m c (Proc.devRef .tc main_v28)
    = Cert.Spec.MT (W1 m c (Proc.devRef .tc main_v0)) (W1 m c (Proc.devRef .tc main_v1)) (W8 m c (Proc.devRef .tc main_v27)) := by
  refine ((W9_arr m c 3).trans (arr2_final (VW8 m) c)).trans ?_
  show Cert.Spec.MT (W8 m c (Proc.devRef .tc main_v0)) (W8 m c (Proc.devRef .tc main_v1)) (W8 m c (Proc.devRef .tc main_v27)) = _
  rw [W8_main_v0_kept m c, W8_main_v1_kept m c]

/-- Region 3 leaves A·M₂ in its output array. -/
theorem W10_main_v29 (c : Dev nD) : W10 m c (Proc.devRef .tc main_v29)
    = Cert.Spec.ZA (W1 m c (Proc.devRef .tc main_v0)) (W1 m c (Proc.devRef .tc main_v1)) (W1 m c (Proc.devRef .tc main_v3)) (W9 m c (Proc.devRef .tc main_v28)) := by
  refine ((W10_arr m c 4).trans (arr3_final (VW9 m) c)).trans ?_
  show Cert.Spec.ZA (W9 m c (Proc.devRef .tc main_v0)) (W9 m c (Proc.devRef .tc main_v1)) (W9 m c (Proc.devRef .tc main_v3)) (W9 m c (Proc.devRef .tc main_v28)) = _
  rw [W9_main_v0_kept m c, W9_main_v1_kept m c, W9_main_v3_kept m c]

/-- The result buffer's final contents, from the first stretch's values. -/
theorem kernel_value (c : Dev nD) : W11 m c (Proc.devRef .tc main_v36)
    = Cert.ReferenceIdeal.RefRun.refTail (F := Ideal)
        (Cert.Spec.ZA (W1 m c (Proc.devRef .tc main_v0)) (W1 m c (Proc.devRef .tc main_v1)) (W1 m c (Proc.devRef .tc main_v3))
          (Cert.Spec.MT (W1 m c (Proc.devRef .tc main_v0)) (W1 m c (Proc.devRef .tc main_v1))
            (Cert.ReferenceIdeal.RefRun.refMid (F := Ideal)
              (Cert.Spec.ZA (W1 m c (Proc.devRef .tc main_v0)) (W1 m c (Proc.devRef .tc main_v1)) (W1 m c (Proc.devRef .tc main_v3))
                (Cert.Spec.MT (W1 m c (Proc.devRef .tc main_v0)) (W1 m c (Proc.devRef .tc main_v1)) (W1 m c (Proc.devRef .tc main_v4))))
              (m ((c : Thread nD τ).loc main_arg7)) (m ((c : Thread nD τ).loc main_arg8)) (m ((c : Thread nD τ).loc main_arg6))))) := by
  rw [W11_main_v36, W10_main_v29, W9_main_v28, W8_main_v27, W3_main_v6, W2_main_v5]

end Cert.KernelIdeal.Hand

end
-- ==== Proof.RefVal.lean ====
/-
  The reference's four matrix products as the specification's two functions, over the extended reals.

  To the edges: Hᵀ · (Dv ⊙ X) is the host's product of H transposed with the vertex scale, as a column laid along X's
  columns, times X: entry (e, k) is the sum over the 8192 vertices n of H(n, e) · (Dv(n) · X(n, k)). Back to the
  vertices: A · M with A(n, e) = (Dv(n) · H(n, e)) · s(e), s = W ⊙ De as a row laid down the rows: entry (n, k) is the sum
  over the 4096 edges e of ((H(n, e) · Dv(n)) · s(e)) · M(e, k) — the one step of algebra is the exchange of the first two
  factors. Each at 64 columns and at one.
-/
import proofs.«179498_j53352083751414_2_alg».proof.Proof.RefStages
import proofs.«179498_j53352083751414_2_alg».proof.Proof.Spec
import proofs.«179498_j53352083751414_2_alg».proof.Proof.LibDense
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefVal

open Cert.ReferenceIdeal Cert.ReferenceIdeal.RefRun Cert.ReferenceIdeal.Facts₀
open Idealize.ShloMosaic Idealize.ShloMosaic.ValueIdx

/-! ## Two broadcasts read at an index -/

section Layout
variable {α : Type}

/-- An [a, 1] column laid along b columns (axes 0, 1 kept in place), read at (p, c): the column's entry of row p. -/
theorem bcast_col_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim (⟨2, ![a, b]⟩ : Shape) ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A [1, b] row laid down a rows (axes 0, 1 kept in place), read at (p, c): the row's entry of column c. -/
theorem bcast_row_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim (⟨2, ![a, b]⟩ : Shape) ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Layout

variable (x1 : FVec Ideal S8192 .f32) (x2 : FVec Ideal S4096 .f32) (x3 : FVec Ideal S8192x4096 .f32) (x4 : FVec Ideal S4096 .f32)

/-! ## The propagation matrix at an index -/

/-- Entry (n, e) of the propagation matrix: (H(n, e) · Dv(n)) · s(e), with Dv as a column and s = W ⊙ De as a row. -/
theorem refA_apply (n : Fin 8192) (e : Fin 4096) :
    refA x1 x2 x3 x4 (ix2 n e)
      = (x3 (ix2 n e) * (broadcastInDim S8192x1 ![0] bcast_S8192_S8192x1_0 x1) (ix2 n (0 : Fin 1)))
        * (broadcastInDim S1x4096 ![1] bcast_S4096_S1x4096_1 (mulf x4 x2)) (ix2 (0 : Fin 1) e) := by
  unfold refA
  refine congrArg₂ (· * ·) ?_ (bcast_row_apply _ bcast_S1x4096_S8192x4096_0_1 n e)
  exact (congrArg (· * x3 (ix2 n e)) (bcast_col_apply _ bcast_S8192x1_S8192x4096_0_1 n e)).trans (mul_comm _ _)

/-! ## The four matrix products -/

/-- To the edges, 64 columns: Hᵀ · (Dv ⊙ Xt1). -/
theorem refM1_eq (xt1 : FVec Ideal S8192x64 .f32) :
    refM1 x1 x3 xt1 = Cert.Spec.MT x3 (broadcastInDim S8192x1 ![0] bcast_S8192_S8192x1_0 x1) xt1 := by
  funext j
  obtain ⟨e, k, rfl⟩ : ∃ (e : Fin 4096) (k : Fin 64), j = ix2 e k := ⟨j 0, j 1, eq_ix2 j⟩
  rw [Cert.Spec.MT_apply]
  unfold refM1
  refine (Cert.LibDense.dotGeneral_plain dot_S4096x8192_S8192x64_S4096x64_1_0_0_1_n_n_wf none .single _ _ e k).trans ?_
  refine Finset.sum_congr rfl fun n _ => ?_
  refine congrArg₂ (· * ·) (transpose_ix2_apply x3 transposes_S8192x4096_S4096x8192_1_0 e n) ?_
  exact congrArg (· * xt1 (ix2 n k)) (bcast_col_apply _ bcast_S8192x1_S8192x64_0_1 n k)

/-- Back to the vertices, 64 columns: A · M1. -/
theorem refZ1_eq (m1 : FVec Ideal S4096x64 .f32) :
    refZ1 (refA x1 x2 x3 x4) m1
      = Cert.Spec.ZA x3 (broadcastInDim S8192x1 ![0] bcast_S8192_S8192x1_0 x1)
          (broadcastInDim S1x4096 ![1] bcast_S4096_S1x4096_1 (mulf x4 x2)) m1 := by
  funext j
  obtain ⟨n, k, rfl⟩ : ∃ (n : Fin 8192) (k : Fin 64), j = ix2 n k := ⟨j 0, j 1, eq_ix2 j⟩
  rw [Cert.Spec.ZA_apply]
  unfold refZ1
  refine (Cert.LibDense.dotGeneral_plain dot_S8192x4096_S4096x64_S8192x64_1_0_0_1_n_n_wf none .single _ _ n k).trans ?_
  refine Finset.sum_congr rfl fun e _ => ?_
  exact congrArg (· * m1 (ix2 e k)) (refA_apply x1 x2 x3 x4 n e)

/-- To the edges, one column: Hᵀ · (Dv ⊙ y). -/
theorem refM2_eq (y : FVec Ideal S8192x1 .f32) :
    refM2 x1 x3 y = Cert.Spec.MT x3 (broadcastInDim S8192x1 ![0] bcast_S8192_S8192x1_0 x1) y := by
  funext j
  obtain ⟨e, k, rfl⟩ : ∃ (e : Fin 4096) (k : Fin 1), j = ix2 e k := ⟨j 0, j 1, eq_ix2 j⟩
  obtain rfl : k = (0 : Fin 1) := Subsingleton.elim _ _
  rw [Cert.Spec.MT_apply]
  unfold refM2
  refine (Cert.LibDense.dotGeneral_plain dot_S4096x8192_S8192x1_S4096x1_1_0_0_1_n_n_wf none .single _ _ e (0 : Fin 1)).trans ?_
  refine Finset.sum_congr rfl fun n _ => ?_
  exact congrArg (· * _) (transpose_ix2_apply x3 transposes_S8192x4096_S4096x8192_1_0 e n)

/-- Back to the vertices, one column: A · M2. -/
theorem refZ2_eq (m2 : FVec Ideal S4096x1 .f32) :
    refZ2 (refA x1 x2 x3 x4) m2
      = Cert.Spec.ZA x3 (broadcastInDim S8192x1 ![0] bcast_S8192_S8192x1_0 x1)
          (broadcastInDim S1x4096 ![1] bcast_S4096_S1x4096_1 (mulf x4 x2)) m2 := by
  funext j
  obtain ⟨n, k, rfl⟩ : ∃ (n : Fin 8192) (k : Fin 1), j = ix2 n k := ⟨j 0, j 1, eq_ix2 j⟩
  rw [Cert.Spec.ZA_apply]
  unfold refZ2
  refine (Cert.LibDense.dotGeneral_plain dot_S8192x4096_S4096x1_S8192x1_1_0_0_1_n_n_wf none .single _ _ n k).trans ?_
  refine Finset.sum_congr rfl fun e _ => ?_
  exact congrArg (· * m2 (ix2 e k)) (refA_apply x1 x2 x3 x4 n e)

end Cert.ReferenceIdeal.RefVal

end
-- ==== Proof.Bridge.lean ====
/-
  The idealized kernel's result is the reference's: both are the logistic tail of the second propagation of the host's
  operations on the first propagation of X·θ₁, each propagation the two matrix products Hᵀ·(Dv ⊙ ·) and A·(·). The
  kernel reads the incidence matrix through a narrowing of the float format, which is the identity on extended reals.
-/
import proofs.«179498_j53352083751414_2_alg».proof.Proof.KVal
import proofs.«179498_j53352083751414_2_alg».proof.Proof.RefVal

set_option maxRecDepth 16384

noncomputable section

namespace Cert.KernelIdeal.Hand

open Idealize.ShloMosaic Idealize.ShloMosaic.TcCoe
open Idealize.SL Idealize.SL.Sem
open Cert.KernelIdeal Cert.KernelIdeal.Gen

variable (m : (ℓ : Loc nD τ sig) → Buf (Elt Ideal) ℓ)

/-- The result buffer's final contents are the reference's function of the nine arguments. -/
theorem value_eq (c : Dev nD) : W11 m c (Proc.devRef .tc main_v36)
    = Cert.ReferenceIdeal.RefRun.result (F := Ideal)
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  rw [kernel_value, W1_main_v0, W1_main_v1, W1_main_v3, W1_main_v4]
  unfold Cert.ReferenceIdeal.RefRun.result
  rw [Cert.ReferenceIdeal.RefVal.refZ2_eq, Cert.ReferenceIdeal.RefVal.refM2_eq, Cert.ReferenceIdeal.RefVal.refZ1_eq,
    Cert.ReferenceIdeal.RefVal.refM1_eq]
  rfl

end Cert.KernelIdeal.Hand

end
-- ==== Proof.lean ====
/-
  The five claims. The two kernel programs run to the end without a fault and leave their arguments unchanged: @main is
  read as host operations and four regions, each region a pipeline over a grid with an accumulator carried between
  grid points, and the launch theorem for a list of such segments gives the run. The reference is host operations
  only. The idealized kernel's and the reference's results agree on the extended reals: blocked and whole matrix
  products are the same sums, regrouped; the factors of the propagation matrix commute; the host operations between
  and after the products are the same in both programs.
-/
import proofs.«179498_j53352083751414_2_alg».proof.Defs
import proofs.«179498_j53352083751414_2_alg».proof.Proof.Gen.Kernel
import proofs.«179498_j53352083751414_2_alg».proof.Proof.Gen.KernelIdeal
import proofs.«179498_j53352083751414_2_alg».proof.Proof.Gen.ReferenceIdeal
import proofs.«179498_j53352083751414_2_alg».proof.Proof.Gen.Pre_finite_inputs
import proofs.«179498_j53352083751414_2_alg».proof.Proof.KRun
import proofs.«179498_j53352083751414_2_alg».proof.Proof.Run
import proofs.«179498_j53352083751414_2_alg».proof.Proof.RefRun
import proofs.«179498_j53352083751414_2_alg».proof.Proof.Bridge

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := Cert.ReferenceIdeal.RefRun.frame_ri

theorem preserves : Cert.preserves_Kernel_KernelIdeal := trivial

/-- Both idealized programs end with the reference's function of the arguments in their result buffers. -/
theorem algebraic : Cert.algebraic_KernelIdeal_ReferenceIdeal := by
  intro m ρ m' ρ' _ hagree
  refine ⟨fun c => Cert.KernelIdeal.Hand.W11 m c (Proc.devRef .tc Cert.KernelIdeal.main_v36), ?_, ?_⟩
  · refine (θ_run Cert.KernelIdeal.defs _ _).mono (fun _ h c => ⟨?_, ?_⟩) (Cert.KernelIdeal.Hand.run_all m ρ)
    · exact h c _ (Cert.KernelIdeal.Hand.mem_uc Cert.KernelIdeal.main_v36 (by decide))
    · exact ⟨
        (h c _ (Cert.KernelIdeal.Hand.mem_uc Cert.KernelIdeal.main_arg0 (by decide))).trans (Cert.KernelIdeal.Hand.W11_main_arg0 m c),
        (h c _ (Cert.KernelIdeal.Hand.mem_uc Cert.KernelIdeal.main_arg1 (by decide))).trans (Cert.KernelIdeal.Hand.W11_main_arg1 m c),
        (h c _ (Cert.KernelIdeal.Hand.mem_uc Cert.KernelIdeal.main_arg2 (by decide))).trans (Cert.KernelIdeal.Hand.W11_main_arg2 m c),
        (h c _ (Cert.KernelIdeal.Hand.mem_uc Cert.KernelIdeal.main_arg3 (by decide))).trans (Cert.KernelIdeal.Hand.W11_main_arg3 m c),
        (h c _ (Cert.KernelIdeal.Hand.mem_uc Cert.KernelIdeal.main_arg4 (by decide))).trans (Cert.KernelIdeal.Hand.W11_main_arg4 m c),
        (h c _ (Cert.KernelIdeal.Hand.mem_uc Cert.KernelIdeal.main_arg5 (by decide))).trans (Cert.KernelIdeal.Hand.W11_main_arg5 m c),
        (h c _ (Cert.KernelIdeal.Hand.mem_uc Cert.KernelIdeal.main_arg6 (by decide))).trans (Cert.KernelIdeal.Hand.W11_main_arg6 m c),
        (h c _ (Cert.KernelIdeal.Hand.mem_uc Cert.KernelIdeal.main_arg7 (by decide))).trans (Cert.KernelIdeal.Hand.W11_main_arg7 m c),
        (h c _ (Cert.KernelIdeal.Hand.mem_uc Cert.KernelIdeal.main_arg8 (by decide))).trans (Cert.KernelIdeal.Hand.W11_main_arg8 m c)⟩
  · refine (θ_run Cert.ReferenceIdeal.defs _ _).mono (fun _ h c => ⟨(h c).1.trans ?_, (h c).2⟩) (Cert.ReferenceIdeal.RefRun.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    exact (Cert.KernelIdeal.Hand.value_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
